-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v185) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x1 : Shape := ⟨2, ![800000, 1]⟩
abbrev S2x800000 : Shape := ⟨2, ![2, 800000]⟩
abbrev S3x128x128 : Shape := ⟨3, ![3, 128, 128]⟩
abbrev S3x128 : Shape := ⟨2, ![3, 128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg12 : FVec F S16 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  main_v58

def fn_part2 {F : FTy → Type} [FloatOps F] (main_arg8 : FVec F S3x128 .f32) (main_arg9 : FVec F S3x128 .f32) (main_arg10 : FVec F S3x128 .f32) (main_arg11 : FVec F S128x16 .f32) (main_arg12 : FVec F S16 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x16 .f32 := Host.absf main_arg11
  let main_cst_18 : FVec F S_ .f32 := constant S_ .f32 0x7F800000#32
  let main_v50 : FVec F S128x16 .f32 := broadcastInDim S128x16 ![] bcast_S_S128x16 main_cst_18
  fn_part3 (F := F) main_arg12 main_v48 main_v49 main_v50

def fn_part1 {F : FTy → Type} [FloatOps F] (main_arg5 : FVec F S3x128 .f32) (main_arg6 : FVec F S3x128 .f32) (main_arg7 : FVec F S3x128x128 .f32) (main_arg8 : FVec F S3x128 .f32) (main_arg9 : FVec F S3x128 .f32) (main_arg10 : FVec F S3x128 .f32) (main_arg11 : FVec F S128x16 .f32) (main_arg12 : FVec F S16 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : FVec F S800000x1 .f32) (main_arg2 : IVec S2x800000 32) (main_arg3 : FVec F S3x128x128 .f32) (main_arg4 : FVec F S3x128 .f32) (main_arg5 : FVec F S3x128 .f32) (main_arg6 : FVec F S3x128 .f32) (main_arg7 : FVec F S3x128x128 .f32) (main_arg8 : FVec F S3x128 .f32) (main_arg9 : FVec F S3x128 .f32) (main_arg10 : FVec F S3x128 .f32) (main_arg11 : FVec F S128x16 .f32) (main_arg12 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S800000x1 : Shape := ⟨2, ![800000, 1]⟩
abbrev S2x800000 : Shape := ⟨2, ![2, 800000]⟩
abbrev S3x128x128 : Shape := ⟨3, ![3, 128, 128]⟩
abbrev S3x128 : Shape := ⟨2, ![3, 128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S1x16 : Shape := ⟨2, ![1, 16]⟩
abbrev S50000x16 : Shape := ⟨2, ![50000, 16]⟩
abbrev S5000x16 : Shape := ⟨2, ![5000, 16]⟩

abbrev nBuf : Space → Nat
  | .hbm => 238
  | .vmem => 78
  | .smem => 0
  | _ => 0

abbrev hbmTy0_0 (i : Nat) : BufTy := match i % 128 with
  | 0 => ⟨S50000x128, .f32⟩
  | 1 => ⟨S800000x1, .f32⟩
  | 2 => ⟨S2x800000, .i32⟩
  | 3 => ⟨S3x128x128, .f32⟩
  | 4 => ⟨S3x128, .f32⟩
  | 5 => ⟨S3x128, .f32⟩
  | 6 => ⟨S3x128, .f32⟩
  | 7 => ⟨S3x128x128, .f32⟩
  | 8 => ⟨S3x128, .f32⟩
  | 9 => ⟨S3x128, .f32⟩
  | 10 => ⟨S3x128, .f32⟩
  | 11 => ⟨S128x16, .f32⟩
  | 12 => ⟨S16, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S50000x128, .f32⟩
  | 31 => ⟨S1x128x128, .f32⟩
  | 32 => ⟨S128x128, .f32⟩
  | 33 => ⟨S1x128, .f32⟩
  | 34 => ⟨S128, .f32⟩
  | 35 => ⟨S1x128, .f32⟩
  | 36 => ⟨S50000x128, .f32⟩
  | 37 => ⟨S1x128, .f32⟩
  | 38 => ⟨S1x128, .f32⟩
  | 39 => ⟨S_, .f32⟩
  | 40 => ⟨S1x128, .f32⟩
  | 41 => ⟨S1x128, .f32⟩
  | 42 => ⟨S_, .f32⟩
  | 43 => ⟨S1x128, .f32⟩
  | 44 => ⟨S1x128, .f32⟩
  | 45 => ⟨S1x128, .f32⟩
  | 46 => ⟨S1x128, .f32⟩
  | 47 => ⟨S1x128, .f32⟩
  | 48 => ⟨S128, .f32⟩
  | 49 => ⟨S1x128, .f32⟩
  | 50 => ⟨S1x128, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S1x128, .f32⟩
  | 57 => ⟨S1x128, .f32⟩
  | 58 => ⟨S1x128, .f32⟩
  | 59 => ⟨S1x128, .f32⟩
  | 60 => ⟨S1x128x128, .f32⟩
  | 61 => ⟨S128x128, .f32⟩
  | 62 => ⟨S1x128, .f32⟩
  | 63 => ⟨S128, .f32⟩
  | 64 => ⟨S1x128, .f32⟩
  | 65 => ⟨S50000x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S1x128, .f32⟩
  | 76 => ⟨S1x128, .f32⟩
  | 77 => ⟨S128, .f32⟩
  | 78 => ⟨S1x128, .f32⟩
  | 79 => ⟨S1x128, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S1x128, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S50000x128, .f32⟩
  | 104 => ⟨S1x128x128, .f32⟩
  | 105 => ⟨S128x128, .f32⟩
  | 106 => ⟨S1x128, .f32⟩
  | 107 => ⟨S128, .f32⟩
  | 108 => ⟨S1x128, .f32⟩
  | 109 => ⟨S50000x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S1x128, .f32⟩
  | 119 => ⟨S1x128, .f32⟩
  | 120 => ⟨S1x128, .f32⟩
  | 121 => ⟨S128, .f32⟩
  | 122 => ⟨S1x128, .f32⟩
  | 123 => ⟨S1x128, .f32⟩
  | 124 => ⟨S128, .f32⟩
  | 125 => ⟨S1x128, .f32⟩
  | 126 => ⟨S_, .f32⟩
  | 127 => ⟨S1x128, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S1x128, .f32⟩
  | 5 => ⟨S1x128x128, .f32⟩
  | 6 => ⟨S128x128, .f32⟩
  | 7 => ⟨S1x128, .f32⟩
  | 8 => ⟨S128, .f32⟩
  | 9 => ⟨S1x128, .f32⟩
  | 10 => ⟨S50000x128, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S_, .f32⟩
  | 17 => ⟨S1x128, .f32⟩
  | 18 => ⟨S1x128, .f32⟩
  | 19 => ⟨S1x128, .f32⟩
  | 20 => ⟨S1x128, .f32⟩
  | 21 => ⟨S1x128, .f32⟩
  | 22 => ⟨S128, .f32⟩
  | 23 => ⟨S1x128, .f32⟩
  | 24 => ⟨S1x128, .f32⟩
  | 25 => ⟨S128, .f32⟩
  | 26 => ⟨S1x128, .f32⟩
  | 27 => ⟨S_, .f32⟩
  | 28 => ⟨S1x128, .f32⟩
  | 29 => ⟨S1x128, .f32⟩
  | 30 => ⟨S1x128, .f32⟩
  | 31 => ⟨S1x128, .f32⟩
  | 32 => ⟨S1x128, .f32⟩
  | 33 => ⟨S1x128, .f32⟩
  | 34 => ⟨S50000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S50000x128, .f32⟩
  | 49 => ⟨S1x128x128, .f32⟩
  | 50 => ⟨S128x128, .f32⟩
  | 51 => ⟨S1x128, .f32⟩
  | 52 => ⟨S128, .f32⟩
  | 53 => ⟨S1x128, .f32⟩
  | 54 => ⟨S50000x128, .f32⟩
  | 55 => ⟨S1x128, .f32⟩
  | 56 => ⟨S1x128, .f32⟩
  | 57 => ⟨S_, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S1x128, .f32⟩
  | 64 => ⟨S1x128, .f32⟩
  | 65 => ⟨S1x128, .f32⟩
  | 66 => ⟨S128, .f32⟩
  | 67 => ⟨S1x128, .f32⟩
  | 68 => ⟨S1x128, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S1x128, .f32⟩
  | 76 => ⟨S1x128, .f32⟩
  | 77 => ⟨S1x128, .f32⟩
  | 78 => ⟨S1x128x128, .f32⟩
  | 79 => ⟨S128x128, .f32⟩
  | 80 => ⟨S1x128, .f32⟩
  | 81 => ⟨S128, .f32⟩
  | 82 => ⟨S1x128, .f32⟩
  | 83 => ⟨S50000x128, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S1x128, .f32⟩
  | 93 => ⟨S1x128, .f32⟩
  | 94 => ⟨S1x128, .f32⟩
  | 95 => ⟨S128, .f32⟩
  | 96 => ⟨S1x128, .f32⟩
  | 97 => ⟨S1x128, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S50000x128, .f32⟩
  | 108 => ⟨S1x16, .f32⟩
  | 109 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S128x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S1x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S128x16, .f32⟩
  | .local _ .vmem, ⟨75, _⟩ => ⟨S1x16, .f32⟩
  | .local _ .vmem, ⟨76, _⟩ => ⟨S5000x16, .f32⟩
  | .local _ .vmem, ⟨77, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44_0 : Ref sig .tc := ⟨.hbm, 65, rfl⟩
abbrev main_v44_1 : Ref sig .tc := ⟨.hbm, 66, rfl⟩
abbrev main_v44_2 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_6 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_7 : Ref sig .tc := ⟨.hbm, 90, rfl⟩
abbrev main_v64 : Ref sig .tc := ⟨.hbm, 91, rfl⟩
abbrev main_v65 : Ref sig .tc := ⟨.hbm, 92, rfl⟩
abbrev main_c_8 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_9 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80_0 : Ref sig .tc := ⟨.hbm, 109, rfl⟩
abbrev main_v80_1 : Ref sig .tc := ⟨.hbm, 110, rfl⟩
abbrev main_v80_2 : Ref sig .tc := ⟨.hbm, 111, rfl⟩
abbrev main_cst_10 : Ref sig .tc := ⟨.hbm, 112, rfl⟩
abbrev main_v81 : Ref sig .tc := ⟨.hbm, 113, rfl⟩
abbrev main_v82 : Ref sig .tc := ⟨.hbm, 114, rfl⟩
abbrev main_cst_11 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_12 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104_0 : Ref sig .tc := ⟨.hbm, 138, rfl⟩
abbrev main_v104_1 : Ref sig .tc := ⟨.hbm, 139, rfl⟩
abbrev main_v104_2 : Ref sig .tc := ⟨.hbm, 140, rfl⟩
abbrev main_cst_13 : Ref sig .tc := ⟨.hbm, 141, rfl⟩
abbrev main_v105 : Ref sig .tc := ⟨.hbm, 142, rfl⟩
abbrev main_v106 : Ref sig .tc := ⟨.hbm, 143, rfl⟩
abbrev main_cst_14 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_15 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_c_16 : Ref sig .tc := ⟨.hbm, 163, rfl⟩
abbrev main_v124 : Ref sig .tc := ⟨.hbm, 164, rfl⟩
abbrev main_v125 : Ref sig .tc := ⟨.hbm, 165, rfl⟩
abbrev main_c_17 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_18 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140_0 : Ref sig .tc := ⟨.hbm, 182, rfl⟩
abbrev main_v140_1 : Ref sig .tc := ⟨.hbm, 183, rfl⟩
abbrev main_v140_2 : Ref sig .tc := ⟨.hbm, 184, rfl⟩
abbrev main_cst_19 : Ref sig .tc := ⟨.hbm, 185, rfl⟩
abbrev main_v141 : Ref sig .tc := ⟨.hbm, 186, rfl⟩
abbrev main_v142 : Ref sig .tc := ⟨.hbm, 187, rfl⟩
abbrev main_cst_20 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_21 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164_0 : Ref sig .tc := ⟨.hbm, 211, rfl⟩
abbrev main_v164_1 : Ref sig .tc := ⟨.hbm, 212, rfl⟩
abbrev main_v164_2 : Ref sig .tc := ⟨.hbm, 213, rfl⟩
abbrev main_cst_22 : Ref sig .tc := ⟨.hbm, 214, rfl⟩
abbrev main_v165 : Ref sig .tc := ⟨.hbm, 215, rfl⟩
abbrev main_v166 : Ref sig .tc := ⟨.hbm, 216, rfl⟩
abbrev main_cst_23 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_cst_24 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc4_stg6_0 : Ref sig .tc := ⟨.vmem, 40, rfl⟩
abbrev cc4_stg7_0 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc6_stg4_0 : Ref sig .tc := ⟨.vmem, 54, rfl⟩
abbrev cc6_stg5_0 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc7_stg6_0 : Ref sig .tc := ⟨.vmem, 64, rfl⟩
abbrev cc7_stg7_0 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg3_0 : Ref sig .tc := ⟨.vmem, 70, rfl⟩
abbrev cc8_stg3_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg3_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem5_0 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc4_sem6_0 : DmaSem sig := 40
abbrev cc4_sem7_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc6_sem4_0 : DmaSem sig := 54
abbrev cc6_sem5_0 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc7_sem6_0 : DmaSem sig := 64
abbrev cc7_sem7_0 : DmaSem sig := 65
abbrev cc8_sem0_0 : DmaSem sig := 66
abbrev cc8_sem0_1 : DmaSem sig := 67
abbrev cc8_sem1_0 : DmaSem sig := 68
abbrev cc8_sem2_0 : DmaSem sig := 69
abbrev cc8_sem3_0 : DmaSem sig := 70
abbrev cc8_sem3_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem3_1 : DmaSem sig := 77

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x16 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x16 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x16 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S50000x128.size a
  hwx8_3 : ∀ i : grid8.Coords, EltTy.bits .f32 = 32 ∨ (Rect.block (s := S50000x128) S5000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x16.size a ≤ S128x16.size a
  hwx9_1 : ∀ i : grid9.Coords, EltTy.bits .f32 = 32 ∨ (Rect.block (s := S128x16) S128x16.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x16.size a ≤ S1x16.size a
  hwx9_2 : ∀ i : grid9.Coords, EltTy.bits .f32 = 32 ∨ (Rect.block (s := S1x16) S1x16.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x16.size a ≤ S50000x16.size a
  hwx9_3 : ∀ i : grid9.Coords, EltTy.bits .f32 = 32 ∨ (Rect.block (s := S50000x16) S5000x16.size (cc9_transform_3 i) (hinb9_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v44_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v44_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v80_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v80_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v98) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v103) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v104_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v104_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v104_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v104_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v120) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v122) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v123) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v134) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v136) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v139) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v140_0) S5000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v140_1) S1x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v140_2) S1x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v140_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v156) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v158) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v160) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v163) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v164_0) S5000x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v164_1) S1x128.size cc7_transform_6 reads7_6 true true 1 stage7_6 sem7_6
    hrank7 hreads7_6 hinb7_6 nbuf7_6 (Memref.isWhole_whole _) hwx7_6 hstage7_6

abbrev win7_7 : Pipeline.Window sig grid7 :=
  Pipeline.Window.ofSpec (Memref.whole main_v164_2) S1x128.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v164_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v180) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v182) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v183) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v183) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg11) S128x16.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v184) S1x16.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v185) S5000x16.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S800000x1 : Shape := ⟨2, ![800000, 1]⟩
abbrev S2x800000 : Shape := ⟨2, ![2, 800000]⟩
abbrev S3x128x128 : Shape := ⟨3, ![3, 128, 128]⟩
abbrev S3x128 : Shape := ⟨2, ![3, 128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x16 : Shape := ⟨2, ![50000, 16]⟩
abbrev S1x16 : Shape := ⟨2, ![1, 16]⟩

abbrev nBuf : Space → Nat
  | .hbm => 426
  | .vmem => 0
  | .smem => 0
  | _ => 0

abbrev hbmTy0_0 (i : Nat) : BufTy := match i % 128 with
  | 0 => ⟨S50000x128, .f32⟩
  | 1 => ⟨S800000x1, .f32⟩
  | 2 => ⟨S2x800000, .i32⟩
  | 3 => ⟨S3x128x128, .f32⟩
  | 4 => ⟨S3x128, .f32⟩
  | 5 => ⟨S3x128, .f32⟩
  | 6 => ⟨S3x128, .f32⟩
  | 7 => ⟨S3x128x128, .f32⟩
  | 8 => ⟨S3x128, .f32⟩
  | 9 => ⟨S3x128, .f32⟩
  | 10 => ⟨S3x128, .f32⟩
  | 11 => ⟨S128x16, .f32⟩
  | 12 => ⟨S16, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S50000x128, .f32⟩
  | 31 => ⟨S1x128x128, .f32⟩
  | 32 => ⟨S128x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S1x128, .f32⟩
  | 43 => ⟨S128, .f32⟩
  | 44 => ⟨S1x128, .f32⟩
  | 45 => ⟨S128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S50000x128, .f32⟩
  | 59 => ⟨S50000x128, .f32⟩
  | 60 => ⟨S50000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S1x128x128, .f32⟩
  | 91 => ⟨S128x128, .f32⟩
  | 92 => ⟨S50000x128, .f32⟩
  | 93 => ⟨S1x128, .f32⟩
  | 94 => ⟨S128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S1x128, .f32⟩
  | 102 => ⟨S128, .f32⟩
  | 103 => ⟨S1x128, .f32⟩
  | 104 => ⟨S128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S50000x128, .f32⟩
  | 118 => ⟨S50000x128, .f32⟩
  | 119 => ⟨S50000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S50000x128, .f32⟩

abbrev hbmTy0_1 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S1x128, .f32⟩
  | 50 => ⟨S128, .f32⟩
  | 51 => ⟨S1x128, .f32⟩
  | 52 => ⟨S128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S1x128x128, .f32⟩
  | 98 => ⟨S128x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x128, .f32⟩
  | 109 => ⟨S128, .f32⟩
  | 110 => ⟨S1x128, .f32⟩
  | 111 => ⟨S128, .f32⟩
  | 112 => ⟨S_, .f32⟩
  | 113 => ⟨S128, .f32⟩
  | 114 => ⟨S_, .f32⟩
  | 115 => ⟨S128, .f32⟩
  | 116 => ⟨S128, .f32⟩
  | 117 => ⟨S_, .i32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_2 (i : Nat) : BufTy := match i % 128 with
  | 0 => ⟨S_, .f32⟩
  | 1 => ⟨S_, .f32⟩
  | 2 => ⟨S_, .f32⟩
  | 3 => ⟨S128, .f32⟩
  | 4 => ⟨S128, .f32⟩
  | 5 => ⟨S128, .f32⟩
  | 6 => ⟨S_, .f32⟩
  | 7 => ⟨S_, .i1⟩
  | 8 => ⟨S_, .f32⟩
  | 9 => ⟨S_, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S1x128, .f32⟩
  | 57 => ⟨S128, .f32⟩
  | 58 => ⟨S1x128, .f32⟩
  | 59 => ⟨S128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S50000x128, .f32⟩
  | 73 => ⟨S50000x128, .f32⟩
  | 74 => ⟨S50000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S128, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S1x128x128, .f32⟩
  | 105 => ⟨S128x128, .f32⟩
  | 106 => ⟨S50000x128, .f32⟩
  | 107 => ⟨S1x128, .f32⟩
  | 108 => ⟨S128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S1x128, .f32⟩
  | 116 => ⟨S128, .f32⟩
  | 117 => ⟨S1x128, .f32⟩
  | 118 => ⟨S128, .f32⟩
  | 119 => ⟨S_, .f32⟩
  | 120 => ⟨S128, .f32⟩
  | 121 => ⟨S_, .f32⟩
  | 122 => ⟨S128, .f32⟩
  | 123 => ⟨S128, .f32⟩
  | 124 => ⟨S_, .i32⟩
  | 125 => ⟨S_, .f32⟩
  | 126 => ⟨S128, .f32⟩
  | 127 => ⟨S1x128, .f32⟩
  | _ => ⟨S50000x128, .f32⟩

abbrev hbmTy0_3 (i : Nat) : BufTy := match i % 128 with
  | 0 => ⟨S_, .f32⟩
  | 1 => ⟨S1x128, .f32⟩
  | 2 => ⟨S1x128, .f32⟩
  | 3 => ⟨S50000x128, .f32⟩
  | 4 => ⟨S50000x128, .f32⟩
  | 5 => ⟨S50000x128, .f32⟩
  | 6 => ⟨S_, .f32⟩
  | 7 => ⟨S_, .f32⟩
  | 8 => ⟨S_, .f32⟩
  | 9 => ⟨S_, .f32⟩
  | 10 => ⟨S128, .f32⟩
  | 11 => ⟨S128, .f32⟩
  | 12 => ⟨S128, .f32⟩
  | 13 => ⟨S_, .f32⟩
  | 14 => ⟨S_, .i1⟩
  | 15 => ⟨S_, .f32⟩
  | 16 => ⟨S_, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S128, .f32⟩
  | 27 => ⟨S128, .f32⟩
  | 28 => ⟨S128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x16, .f32⟩
  | 39 => ⟨S1x16, .f32⟩
  | 40 => ⟨S50000x16, .f32⟩
  | 41 => ⟨S50000x16, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_1 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_c_3 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_cst_1 : Ref sig .tc := ⟨.hbm, 62, rfl⟩
abbrev main_call1_v8 : Ref sig .tc := ⟨.hbm, 63, rfl⟩
abbrev main_call1_cst_2 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_cst_3 : Ref sig .tc := ⟨.hbm, 68, rfl⟩
abbrev main_call1_v12 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_4 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call2_cst : Ref sig .tc := ⟨.hbm, 98, rfl⟩
abbrev main_call2_v0 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_5 : Ref sig .tc := ⟨.hbm, 105, rfl⟩
abbrev main_v60 : Ref sig .tc := ⟨.hbm, 106, rfl⟩
abbrev main_cst_6 : Ref sig .tc := ⟨.hbm, 107, rfl⟩
abbrev main_v61 : Ref sig .tc := ⟨.hbm, 108, rfl⟩
abbrev main_v62 : Ref sig .tc := ⟨.hbm, 109, rfl⟩
abbrev main_c_7 : Ref sig .tc := ⟨.hbm, 110, rfl⟩
abbrev main_call3_cst : Ref sig .tc := ⟨.hbm, 111, rfl⟩
abbrev main_call3_v0 : Ref sig .tc := ⟨.hbm, 112, rfl⟩
abbrev main_call3_v1 : Ref sig .tc := ⟨.hbm, 113, rfl⟩
abbrev main_call3_cst_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_v6 : Ref sig .tc := ⟨.hbm, 119, rfl⟩
abbrev main_call3_v7 : Ref sig .tc := ⟨.hbm, 120, rfl⟩
abbrev main_call3_cst_1 : Ref sig .tc := ⟨.hbm, 121, rfl⟩
abbrev main_call3_v8 : Ref sig .tc := ⟨.hbm, 122, rfl⟩
abbrev main_call3_cst_2 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_cst_3 : Ref sig .tc := ⟨.hbm, 127, rfl⟩
abbrev main_call3_v12 : Ref sig .tc := ⟨.hbm, 128, rfl⟩
abbrev main_call3_cst_4 : Ref sig .tc := ⟨.hbm, 129, rfl⟩
abbrev main_call3_call0_v0 : Ref sig .tc := ⟨.hbm, 130, rfl⟩
abbrev main_call3_call0_v1 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_cst_8 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_call4_cst : Ref sig .tc := ⟨.hbm, 149, rfl⟩
abbrev main_call4_v0 : Ref sig .tc := ⟨.hbm, 150, rfl⟩
abbrev main_v79 : Ref sig .tc := ⟨.hbm, 151, rfl⟩
abbrev main_c_9 : Ref sig .tc := ⟨.hbm, 152, rfl⟩
abbrev main_v80 : Ref sig .tc := ⟨.hbm, 153, rfl⟩
abbrev main_v81 : Ref sig .tc := ⟨.hbm, 154, rfl⟩
abbrev main_c_10 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_cst_11 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_call5_cst : Ref sig .tc := ⟨.hbm, 174, rfl⟩
abbrev main_call5_v0 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_cst_12 : Ref sig .tc := ⟨.hbm, 181, rfl⟩
abbrev main_v104 : Ref sig .tc := ⟨.hbm, 182, rfl⟩
abbrev main_cst_13 : Ref sig .tc := ⟨.hbm, 183, rfl⟩
abbrev main_v105 : Ref sig .tc := ⟨.hbm, 184, rfl⟩
abbrev main_v106 : Ref sig .tc := ⟨.hbm, 185, rfl⟩
abbrev main_c_14 : Ref sig .tc := ⟨.hbm, 186, rfl⟩
abbrev main_call6_cst : Ref sig .tc := ⟨.hbm, 187, rfl⟩
abbrev main_call6_v0 : Ref sig .tc := ⟨.hbm, 188, rfl⟩
abbrev main_call6_v1 : Ref sig .tc := ⟨.hbm, 189, rfl⟩
abbrev main_call6_cst_0 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_call6_v5 : Ref sig .tc := ⟨.hbm, 194, rfl⟩
abbrev main_call6_v6 : Ref sig .tc := ⟨.hbm, 195, rfl⟩
abbrev main_call6_v7 : Ref sig .tc := ⟨.hbm, 196, rfl⟩
abbrev main_call6_cst_1 : Ref sig .tc := ⟨.hbm, 197, rfl⟩
abbrev main_call6_v8 : Ref sig .tc := ⟨.hbm, 198, rfl⟩
abbrev main_call6_cst_2 : Ref sig .tc := ⟨.hbm, 199, rfl⟩
abbrev main_call6_v9 : Ref sig .tc := ⟨.hbm, 200, rfl⟩
abbrev main_call6_v10 : Ref sig .tc := ⟨.hbm, 201, rfl⟩
abbrev main_call6_v11 : Ref sig .tc := ⟨.hbm, 202, rfl⟩
abbrev main_call6_cst_3 : Ref sig .tc := ⟨.hbm, 203, rfl⟩
abbrev main_call6_v12 : Ref sig .tc := ⟨.hbm, 204, rfl⟩
abbrev main_call6_cst_4 : Ref sig .tc := ⟨.hbm, 205, rfl⟩
abbrev main_call6_call0_v0 : Ref sig .tc := ⟨.hbm, 206, rfl⟩
abbrev main_call6_call0_v1 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_cst_15 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_call7_cst : Ref sig .tc := ⟨.hbm, 233, rfl⟩
abbrev main_call7_v0 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_cst_16 : Ref sig .tc := ⟨.hbm, 240, rfl⟩
abbrev main_v136 : Ref sig .tc := ⟨.hbm, 241, rfl⟩
abbrev main_cst_17 : Ref sig .tc := ⟨.hbm, 242, rfl⟩
abbrev main_v137 : Ref sig .tc := ⟨.hbm, 243, rfl⟩
abbrev main_v138 : Ref sig .tc := ⟨.hbm, 244, rfl⟩
abbrev main_c_18 : Ref sig .tc := ⟨.hbm, 245, rfl⟩
abbrev main_call8_cst : Ref sig .tc := ⟨.hbm, 246, rfl⟩
abbrev main_call8_v0 : Ref sig .tc := ⟨.hbm, 247, rfl⟩
abbrev main_call8_v1 : Ref sig .tc := ⟨.hbm, 248, rfl⟩
abbrev main_call8_cst_0 : Ref sig .tc := ⟨.hbm, 249, rfl⟩
abbrev main_call8_v2 : Ref sig .tc := ⟨.hbm, 250, rfl⟩
abbrev main_call8_v3 : Ref sig .tc := ⟨.hbm, 251, rfl⟩
abbrev main_call8_v4 : Ref sig .tc := ⟨.hbm, 252, rfl⟩
abbrev main_call8_v5 : Ref sig .tc := ⟨.hbm, 253, rfl⟩
abbrev main_call8_v6 : Ref sig .tc := ⟨.hbm, 254, rfl⟩
abbrev main_call8_v7 : Ref sig .tc := ⟨.hbm, 255, rfl⟩
abbrev main_call8_cst_1 : Ref sig .tc := ⟨.hbm, 256, rfl⟩
abbrev main_call8_v8 : Ref sig .tc := ⟨.hbm, 257, rfl⟩
abbrev main_call8_cst_2 : Ref sig .tc := ⟨.hbm, 258, rfl⟩
abbrev main_call8_v9 : Ref sig .tc := ⟨.hbm, 259, rfl⟩
abbrev main_call8_v10 : Ref sig .tc := ⟨.hbm, 260, rfl⟩
abbrev main_call8_v11 : Ref sig .tc := ⟨.hbm, 261, rfl⟩
abbrev main_call8_cst_3 : Ref sig .tc := ⟨.hbm, 262, rfl⟩
abbrev main_call8_v12 : Ref sig .tc := ⟨.hbm, 263, rfl⟩
abbrev main_call8_cst_4 : Ref sig .tc := ⟨.hbm, 264, rfl⟩
abbrev main_call8_call0_v0 : Ref sig .tc := ⟨.hbm, 265, rfl⟩
abbrev main_call8_call0_v1 : Ref sig .tc := ⟨.hbm, 266, rfl⟩
abbrev main_v139 : Ref sig .tc := ⟨.hbm, 267, rfl⟩
abbrev main_v140 : Ref sig .tc := ⟨.hbm, 268, rfl⟩
abbrev main_v141 : Ref sig .tc := ⟨.hbm, 269, rfl⟩
abbrev main_v142 : Ref sig .tc := ⟨.hbm, 270, rfl⟩
abbrev main_v143 : Ref sig .tc := ⟨.hbm, 271, rfl⟩
abbrev main_v144 : Ref sig .tc := ⟨.hbm, 272, rfl⟩
abbrev main_v145 : Ref sig .tc := ⟨.hbm, 273, rfl⟩
abbrev main_cst_19 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_v153 : Ref sig .tc := ⟨.hbm, 282, rfl⟩
abbrev main_v154 : Ref sig .tc := ⟨.hbm, 283, rfl⟩
abbrev main_call9_cst : Ref sig .tc := ⟨.hbm, 284, rfl⟩
abbrev main_call9_v0 : Ref sig .tc := ⟨.hbm, 285, rfl⟩
abbrev main_v155 : Ref sig .tc := ⟨.hbm, 286, rfl⟩
abbrev main_c_20 : Ref sig .tc := ⟨.hbm, 287, rfl⟩
abbrev main_v156 : Ref sig .tc := ⟨.hbm, 288, rfl⟩
abbrev main_v157 : Ref sig .tc := ⟨.hbm, 289, rfl⟩
abbrev main_c_21 : Ref sig .tc := ⟨.hbm, 290, rfl⟩
abbrev main_v158 : Ref sig .tc := ⟨.hbm, 291, rfl⟩
abbrev main_v159 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_cst_22 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_v166 : Ref sig .tc := ⟨.hbm, 300, rfl⟩
abbrev main_v167 : Ref sig .tc := ⟨.hbm, 301, rfl⟩
abbrev main_v168 : Ref sig .tc := ⟨.hbm, 302, rfl⟩
abbrev main_v169 : Ref sig .tc := ⟨.hbm, 303, rfl⟩
abbrev main_v170 : Ref sig .tc := ⟨.hbm, 304, rfl⟩
abbrev main_v171 : Ref sig .tc := ⟨.hbm, 305, rfl⟩
abbrev main_v172 : Ref sig .tc := ⟨.hbm, 306, rfl⟩
abbrev main_v173 : Ref sig .tc := ⟨.hbm, 307, rfl⟩
abbrev main_v174 : Ref sig .tc := ⟨.hbm, 308, rfl⟩
abbrev main_call10_cst : Ref sig .tc := ⟨.hbm, 309, rfl⟩
abbrev main_call10_v0 : Ref sig .tc := ⟨.hbm, 310, rfl⟩
abbrev main_v175 : Ref sig .tc := ⟨.hbm, 311, rfl⟩
abbrev main_v176 : Ref sig .tc := ⟨.hbm, 312, rfl⟩
abbrev main_v177 : Ref sig .tc := ⟨.hbm, 313, rfl⟩
abbrev main_v178 : Ref sig .tc := ⟨.hbm, 314, rfl⟩
abbrev main_v179 : Ref sig .tc := ⟨.hbm, 315, rfl⟩
abbrev main_cst_23 : Ref sig .tc := ⟨.hbm, 316, rfl⟩
abbrev main_v180 : Ref sig .tc := ⟨.hbm, 317, rfl⟩
abbrev main_cst_24 : Ref sig .tc := ⟨.hbm, 318, rfl⟩
abbrev main_v181 : Ref sig .tc := ⟨.hbm, 319, rfl⟩
abbrev main_v182 : Ref sig .tc := ⟨.hbm, 320, rfl⟩
abbrev main_c_25 : Ref sig .tc := ⟨.hbm, 321, rfl⟩
abbrev main_call11_cst : Ref sig .tc := ⟨.hbm, 322, rfl⟩
abbrev main_call11_v0 : Ref sig .tc := ⟨.hbm, 323, rfl⟩
abbrev main_call11_v1 : Ref sig .tc := ⟨.hbm, 324, rfl⟩
abbrev main_call11_cst_0 : Ref sig .tc := ⟨.hbm, 325, rfl⟩
abbrev main_call11_v2 : Ref sig .tc := ⟨.hbm, 326, rfl⟩
abbrev main_call11_v3 : Ref sig .tc := ⟨.hbm, 327, rfl⟩
abbrev main_call11_v4 : Ref sig .tc := ⟨.hbm, 328, rfl⟩
abbrev main_call11_v5 : Ref sig .tc := ⟨.hbm, 329, rfl⟩
abbrev main_call11_v6 : Ref sig .tc := ⟨.hbm, 330, rfl⟩
abbrev main_call11_v7 : Ref sig .tc := ⟨.hbm, 331, rfl⟩
abbrev main_call11_cst_1 : Ref sig .tc := ⟨.hbm, 332, rfl⟩
abbrev main_call11_v8 : Ref sig .tc := ⟨.hbm, 333, rfl⟩
abbrev main_call11_cst_2 : Ref sig .tc := ⟨.hbm, 334, rfl⟩
abbrev main_call11_v9 : Ref sig .tc := ⟨.hbm, 335, rfl⟩
abbrev main_call11_v10 : Ref sig .tc := ⟨.hbm, 336, rfl⟩
abbrev main_call11_v11 : Ref sig .tc := ⟨.hbm, 337, rfl⟩
abbrev main_call11_cst_3 : Ref sig .tc := ⟨.hbm, 338, rfl⟩
abbrev main_call11_v12 : Ref sig .tc := ⟨.hbm, 339, rfl⟩
abbrev main_call11_cst_4 : Ref sig .tc := ⟨.hbm, 340, rfl⟩
abbrev main_call11_call0_v0 : Ref sig .tc := ⟨.hbm, 341, rfl⟩
abbrev main_call11_call0_v1 : Ref sig .tc := ⟨.hbm, 342, rfl⟩
abbrev main_v183 : Ref sig .tc := ⟨.hbm, 343, rfl⟩
abbrev main_v184 : Ref sig .tc := ⟨.hbm, 344, rfl⟩
abbrev main_v185 : Ref sig .tc := ⟨.hbm, 345, rfl⟩
abbrev main_v186 : Ref sig .tc := ⟨.hbm, 346, rfl⟩
abbrev main_v187 : Ref sig .tc := ⟨.hbm, 347, rfl⟩
abbrev main_v188 : Ref sig .tc := ⟨.hbm, 348, rfl⟩
abbrev main_v189 : Ref sig .tc := ⟨.hbm, 349, rfl⟩
abbrev main_cst_26 : Ref sig .tc := ⟨.hbm, 350, rfl⟩
abbrev main_v190 : Ref sig .tc := ⟨.hbm, 351, rfl⟩
abbrev main_v191 : Ref sig .tc := ⟨.hbm, 352, rfl⟩
abbrev main_v192 : Ref sig .tc := ⟨.hbm, 353, rfl⟩
abbrev main_v193 : Ref sig .tc := ⟨.hbm, 354, rfl⟩
abbrev main_v194 : Ref sig .tc := ⟨.hbm, 355, rfl⟩
abbrev main_v195 : Ref sig .tc := ⟨.hbm, 356, rfl⟩
abbrev main_v196 : Ref sig .tc := ⟨.hbm, 357, rfl⟩
abbrev main_v197 : Ref sig .tc := ⟨.hbm, 358, rfl⟩
abbrev main_v198 : Ref sig .tc := ⟨.hbm, 359, rfl⟩
abbrev main_v199 : Ref sig .tc := ⟨.hbm, 360, rfl⟩
abbrev main_v200 : Ref sig .tc := ⟨.hbm, 361, rfl⟩
abbrev main_v201 : Ref sig .tc := ⟨.hbm, 362, rfl⟩
abbrev main_v202 : Ref sig .tc := ⟨.hbm, 363, rfl⟩
abbrev main_v203 : Ref sig .tc := ⟨.hbm, 364, rfl⟩
abbrev main_v204 : Ref sig .tc := ⟨.hbm, 365, rfl⟩
abbrev main_v205 : Ref sig .tc := ⟨.hbm, 366, rfl⟩
abbrev main_v206 : Ref sig .tc := ⟨.hbm, 367, rfl⟩
abbrev main_call12_cst : Ref sig .tc := ⟨.hbm, 368, rfl⟩
abbrev main_call12_v0 : Ref sig .tc := ⟨.hbm, 369, rfl⟩
abbrev main_v207 : Ref sig .tc := ⟨.hbm, 370, rfl⟩
abbrev main_v208 : Ref sig .tc := ⟨.hbm, 371, rfl⟩
abbrev main_v209 : Ref sig .tc := ⟨.hbm, 372, rfl⟩
abbrev main_v210 : Ref sig .tc := ⟨.hbm, 373, rfl⟩
abbrev main_v211 : Ref sig .tc := ⟨.hbm, 374, rfl⟩
abbrev main_cst_27 : Ref sig .tc := ⟨.hbm, 375, rfl⟩
abbrev main_v212 : Ref sig .tc := ⟨.hbm, 376, rfl⟩
abbrev main_cst_28 : Ref sig .tc := ⟨.hbm, 377, rfl⟩
abbrev main_v213 : Ref sig .tc := ⟨.hbm, 378, rfl⟩
abbrev main_v214 : Ref sig .tc := ⟨.hbm, 379, rfl⟩
abbrev main_c_29 : Ref sig .tc := ⟨.hbm, 380, rfl⟩
abbrev main_call13_cst : Ref sig .tc := ⟨.hbm, 381, rfl⟩
abbrev main_call13_v0 : Ref sig .tc := ⟨.hbm, 382, rfl⟩
abbrev main_call13_v1 : Ref sig .tc := ⟨.hbm, 383, rfl⟩
abbrev main_call13_cst_0 : Ref sig .tc := ⟨.hbm, 384, rfl⟩
abbrev main_call13_v2 : Ref sig .tc := ⟨.hbm, 385, rfl⟩
abbrev main_call13_v3 : Ref sig .tc := ⟨.hbm, 386, rfl⟩
abbrev main_call13_v4 : Ref sig .tc := ⟨.hbm, 387, rfl⟩
abbrev main_call13_v5 : Ref sig .tc := ⟨.hbm, 388, rfl⟩
abbrev main_call13_v6 : Ref sig .tc := ⟨.hbm, 389, rfl⟩
abbrev main_call13_v7 : Ref sig .tc := ⟨.hbm, 390, rfl⟩
abbrev main_call13_cst_1 : Ref sig .tc := ⟨.hbm, 391, rfl⟩
abbrev main_call13_v8 : Ref sig .tc := ⟨.hbm, 392, rfl⟩
abbrev main_call13_cst_2 : Ref sig .tc := ⟨.hbm, 393, rfl⟩
abbrev main_call13_v9 : Ref sig .tc := ⟨.hbm, 394, rfl⟩
abbrev main_call13_v10 : Ref sig .tc := ⟨.hbm, 395, rfl⟩
abbrev main_call13_v11 : Ref sig .tc := ⟨.hbm, 396, rfl⟩
abbrev main_call13_cst_3 : Ref sig .tc := ⟨.hbm, 397, rfl⟩
abbrev main_call13_v12 : Ref sig .tc := ⟨.hbm, 398, rfl⟩
abbrev main_call13_cst_4 : Ref sig .tc := ⟨.hbm, 399, rfl⟩
abbrev main_call13_call0_v0 : Ref sig .tc := ⟨.hbm, 400, rfl⟩
abbrev main_call13_call0_v1 : Ref sig .tc := ⟨.hbm, 401, rfl⟩
abbrev main_v215 : Ref sig .tc := ⟨.hbm, 402, rfl⟩
abbrev main_v216 : Ref sig .tc := ⟨.hbm, 403, rfl⟩
abbrev main_v217 : Ref sig .tc := ⟨.hbm, 404, rfl⟩
abbrev main_v218 : Ref sig .tc := ⟨.hbm, 405, rfl⟩
abbrev main_v219 : Ref sig .tc := ⟨.hbm, 406, rfl⟩
abbrev main_v220 : Ref sig .tc := ⟨.hbm, 407, rfl⟩
abbrev main_v221 : Ref sig .tc := ⟨.hbm, 408, rfl⟩
abbrev main_cst_30 : Ref sig .tc := ⟨.hbm, 409, rfl⟩
abbrev main_v222 : Ref sig .tc := ⟨.hbm, 410, rfl⟩
abbrev main_v223 : Ref sig .tc := ⟨.hbm, 411, rfl⟩
abbrev main_v224 : Ref sig .tc := ⟨.hbm, 412, rfl⟩
abbrev main_v225 : Ref sig .tc := ⟨.hbm, 413, rfl⟩
abbrev main_v226 : Ref sig .tc := ⟨.hbm, 414, rfl⟩
abbrev main_v227 : Ref sig .tc := ⟨.hbm, 415, rfl⟩
abbrev main_v228 : Ref sig .tc := ⟨.hbm, 416, rfl⟩
abbrev main_v229 : Ref sig .tc := ⟨.hbm, 417, rfl⟩
abbrev main_v230 : Ref sig .tc := ⟨.hbm, 418, rfl⟩
abbrev main_call14_cst : Ref sig .tc := ⟨.hbm, 419, rfl⟩
abbrev main_call14_v0 : Ref sig .tc := ⟨.hbm, 420, rfl⟩
abbrev main_v231 : Ref sig .tc := ⟨.hbm, 421, rfl⟩
abbrev main_v232 : Ref sig .tc := ⟨.hbm, 422, rfl⟩
abbrev main_v233 : Ref sig .tc := ⟨.hbm, 423, rfl⟩
abbrev main_v234 : Ref sig .tc := ⟨.hbm, 424, rfl⟩
abbrev main_v235 : Ref sig .tc := ⟨.hbm, 425, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KRun.lean ====
/-
  The kernel program's run with its result array: from any launch memory with zero counters every weakly fair
  execution of @main on the TensorCores terminates, and in every final state the result buffer of core c holds
  the last boundary's contents W20 m ρ c at that buffer, while the thirteen argument arrays are as launched.
-/
import proofs.«112967_j35158602285141_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of @main ends with each unscoped buffer of core c at the last boundary's contents; read at the
    result buffer this is W20 m ρ c there, and at an argument buffer it is the launch contents. -/
theorem run_W20 : θ_run defs (onTc (τ := τ) (main (F := F))) ⟨m, fun _ => 0, ρ⟩ (fun r => ∀ c : Dev nD,
      r.2.mem ((c.tc : Thread nD τ).loc main_v185) = W20 m ρ c (Proc.devRef .tc main_v185)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨(h c _ (mem_uc main_v185 (by decide))),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c)⟩)

end Cert.KernelIdeal.KRun

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.LibMlpRows.lean ====
/-
  A perceptron stage on a block of rows, at the extended reals.

    dense stage with rectifier:   max (U·W + B) 0
    dense stage without:          U·W + B
    two stages with a residual:   mlp A X W₁ B₁ W₂ B₂ = max ((max ((A + X)·W₁ + B₁) 0)·W₂ + B₂) 0
    output projection:            proj X W B = X·W + B

  with each bias held as one row [1,N] that is added to every row. Row r of any of these depends on row r of the
  left factor alone. So a tiled program that runs the stage on a block of rows (any choice of rows, given by a map
  `row` from the block's row numbers to the matrix's), through the identity casts, the row broadcast, the narrowing
  of the left factor's format and the product accumulated into a zero block that such a program prints, gets that
  block of rows of the whole-array function (`denseRelu_rows`, `denseBias_rows`, `mlp_rows`, `proj_rows`). The
  host spells the same functions with `dot_general` and `broadcast_in_dim`, making the bias row from a bias vector
  by a broadcast where the tiled program's caller reshapes it (`hostDenseRelu`, `hostDenseBias`), and a right factor
  narrowed to another float format is the same factor (`dot_truncf_rhs`). Nothing of real arithmetic is used beyond
  0 + x = x, so every statement holds at the infinities too. Generic in all extents and in the factors' formats.
-/
import proofs.«112967_j35158602285141_1_alg».proof.Proof.LibRowBlockDot
import proofs.«112967_j35158602285141_1_alg».proof.Proof.LibBiasRows

noncomputable section

namespace Cert.LibMlpRows

open Idealize.ShloMosaic Idealize.ShloMosaic.ValueIdx Cert.LibRowBlockDot Cert.LibBiasRows

variable {M m K H N : Nat} {φ φ₁ φ₂ ψ ψ₁ ψ₂ : FTy}

/-! ## The whole-array functions -/

/-- Two dense stages with bias rows and rectifiers, on the sum of an aggregate and the features. -/
def mlp (A X : FVec Ideal ⟨2, ![M, K]⟩ .f32) (W1 : FVec Ideal ⟨2, ![K, H]⟩ φ₁) (B1 : FVec Ideal ⟨2, ![1, H]⟩ .f32)
    (W2 : FVec Ideal ⟨2, ![H, N]⟩ φ₂) (B2 : FVec Ideal ⟨2, ![1, N]⟩ .f32) : FVec Ideal ⟨2, ![M, N]⟩ .f32 :=
  biasRelu (Host.dotGeneral (DotDims.plain M H N) none
    (biasRelu (Host.dotGeneral (DotDims.plain M K H) none (addf A X) W1) B1) W2) B2

/-- One dense stage with a bias row and no rectifier. -/
def proj (X : FVec Ideal ⟨2, ![M, K]⟩ φ₁) (W : FVec Ideal ⟨2, ![K, N]⟩ φ₂) (B : FVec Ideal ⟨2, ![1, N]⟩ .f32) :
    FVec Ideal ⟨2, ![M, N]⟩ .f32 :=
  biasOnly (Host.dotGeneral (DotDims.plain M K N) none X W) B

/-! ## One stage on a block of rows -/

/-- A dense stage with rectifier on a block of rows `u` of `U` is that block of rows of the whole stage. -/
theorem denseRelu_rows (row : Fin m → Fin M) (U : FVec Ideal ⟨2, ![M, K]⟩ φ₁) (W : FVec Ideal ⟨2, ![K, N]⟩ φ₂)
    (B : FVec Ideal ⟨2, ![1, N]⟩ .f32) (u : FVec Ideal ⟨2, ![m, K]⟩ ψ₁) (w : FVec Ideal ⟨2, ![K, N]⟩ ψ₂)
    (b : FVec Ideal ⟨2, ![1, N]⟩ .f32)
    (hu : ∀ r c, u (ix2 r c) = U (ix2 (row r) c)) (hw : ∀ c q, w (ix2 c q) = W (ix2 c q))
    (hb : ∀ q, b (ix2 (0 : Fin 1) q) = B (ix2 (0 : Fin 1) q))
    (hsw : (⟨2, ![K, N]⟩ : Shape).ShapeCasts ⟨2, ![K, N]⟩) (hsb : (⟨2, ![1, N]⟩ : Shape).ShapeCasts ⟨2, ![1, N]⟩)
    (hbc : (⟨2, ![1, N]⟩ : Shape).Broadcasts ⟨2, ![m, N]⟩) (r : Fin m) (q : Fin N) :
    maximumf (addf (matmul (DotDims.plain m K N) none u (shapeCast ⟨2, ![K, N]⟩ w hsw)
          (constant (F := Ideal) ⟨2, ![m, N]⟩ .f32 0x00000000#32))
        (broadcastTo ⟨2, ![m, N]⟩ (shapeCast ⟨2, ![1, N]⟩ b hsb) hbc))
      (broadcast ⟨2, ![m, N]⟩ (Scalar.ofBits (F := Ideal) .f32 0x00000000#32)) (ix2 r q)
      = biasRelu (Host.dotGeneral (DotDims.plain M K N) none U W) B (ix2 (row r) q) := by
  rw [biasRelu_ix2, maximumf_apply, addf_apply, broadcast_apply, broadcastTo_1b_ab_apply, shapeCast_self b hsb, hb,
    matmul_rowBlock_apply none none U W u (shapeCast ⟨2, ![K, N]⟩ w hsw) row hu
      (fun c q => by rw [shapeCast_self, hw]) r q]
  rfl

/-- A dense stage without rectifier on a block of rows `u` of `U` is that block of rows of the whole stage. -/
theorem denseBias_rows (row : Fin m → Fin M) (U : FVec Ideal ⟨2, ![M, K]⟩ φ₁) (W : FVec Ideal ⟨2, ![K, N]⟩ φ₂)
    (B : FVec Ideal ⟨2, ![1, N]⟩ .f32) (u : FVec Ideal ⟨2, ![m, K]⟩ ψ₁) (w : FVec Ideal ⟨2, ![K, N]⟩ ψ₂)
    (b : FVec Ideal ⟨2, ![1, N]⟩ .f32)
    (hu : ∀ r c, u (ix2 r c) = U (ix2 (row r) c)) (hw : ∀ c q, w (ix2 c q) = W (ix2 c q))
    (hb : ∀ q, b (ix2 (0 : Fin 1) q) = B (ix2 (0 : Fin 1) q))
    (hsw : (⟨2, ![K, N]⟩ : Shape).ShapeCasts ⟨2, ![K, N]⟩) (hsb : (⟨2, ![1, N]⟩ : Shape).ShapeCasts ⟨2, ![1, N]⟩)
    (hbc : (⟨2, ![1, N]⟩ : Shape).Broadcasts ⟨2, ![m, N]⟩) (r : Fin m) (q : Fin N) :
    addf (matmul (DotDims.plain m K N) none u (shapeCast ⟨2, ![K, N]⟩ w hsw)
          (constant (F := Ideal) ⟨2, ![m, N]⟩ .f32 0x00000000#32))
        (broadcastTo ⟨2, ![m, N]⟩ (shapeCast ⟨2, ![1, N]⟩ b hsb) hbc) (ix2 r q)
      = biasOnly (Host.dotGeneral (DotDims.plain M K N) none U W) B (ix2 (row r) q) := by
  rw [biasOnly_ix2, addf_apply, broadcastTo_1b_ab_apply, shapeCast_self b hsb, hb,
    matmul_rowBlock_apply none none U W u (shapeCast ⟨2, ![K, N]⟩ w hsw) row hu
      (fun c q => by rw [shapeCast_self, hw]) r q]

/-! ## The two-stage block and the projection block -/

/-- The two dense stages and their rectifiers on a block of rows, the left factor of each product narrowed to bf16
    first, applied to a block `s` whose entries are those rows of the residual sum `A + X`, is that block of rows of
    `mlp`. -/
theorem mlp_rows (row : Fin m → Fin M)
    (A X : FVec Ideal ⟨2, ![M, K]⟩ .f32) (W1 : FVec Ideal ⟨2, ![K, H]⟩ φ₁) (B1 : FVec Ideal ⟨2, ![1, H]⟩ .f32)
    (W2 : FVec Ideal ⟨2, ![H, N]⟩ φ₂) (B2 : FVec Ideal ⟨2, ![1, N]⟩ .f32)
    (s : FVec Ideal ⟨2, ![m, K]⟩ .f32) (w1 : FVec Ideal ⟨2, ![K, H]⟩ ψ₁) (b1 : FVec Ideal ⟨2, ![1, H]⟩ .f32)
    (w2 : FVec Ideal ⟨2, ![H, N]⟩ ψ₂) (b2 : FVec Ideal ⟨2, ![1, N]⟩ .f32)
    (hs : ∀ r c, s (ix2 r c) = addf A X (ix2 (row r) c))
    (hw1 : ∀ c q, w1 (ix2 c q) = W1 (ix2 c q)) (hb1 : ∀ q, b1 (ix2 (0 : Fin 1) q) = B1 (ix2 (0 : Fin 1) q))
    (hw2 : ∀ c q, w2 (ix2 c q) = W2 (ix2 c q)) (hb2 : ∀ q, b2 (ix2 (0 : Fin 1) q) = B2 (ix2 (0 : Fin 1) q))
    (hsw1 : (⟨2, ![K, H]⟩ : Shape).ShapeCasts ⟨2, ![K, H]⟩) (hsb1 : (⟨2, ![1, H]⟩ : Shape).ShapeCasts ⟨2, ![1, H]⟩)
    (hbc1 : (⟨2, ![1, H]⟩ : Shape).Broadcasts ⟨2, ![m, H]⟩)
    (hsw2 : (⟨2, ![H, N]⟩ : Shape).ShapeCasts ⟨2, ![H, N]⟩) (hsb2 : (⟨2, ![1, N]⟩ : Shape).ShapeCasts ⟨2, ![1, N]⟩)
    (hbc2 : (⟨2, ![1, N]⟩ : Shape).Broadcasts ⟨2, ![m, N]⟩)
    (hlt : FTy.bf16.bits < FTy.f32.bits)
    (j : (⟨2, ![m, N]⟩ : Shape).Idx) (i : (⟨2, ![M, N]⟩ : Shape).Idx)
    (h0 : (i 0).val = (row (j 0)).val) (h1 : (i 1).val = (j 1).val) :
    maximumf (addf (matmul (DotDims.plain m H N) none
          (truncf .bf16 (maximumf (addf (matmul (DotDims.plain m K H) none
                (truncf .bf16 s hlt) (shapeCast ⟨2, ![K, H]⟩ w1 hsw1)
                (constant (F := Ideal) ⟨2, ![m, H]⟩ .f32 0x00000000#32))
              (broadcastTo ⟨2, ![m, H]⟩ (shapeCast ⟨2, ![1, H]⟩ b1 hsb1) hbc1))
            (broadcast ⟨2, ![m, H]⟩ (Scalar.ofBits (F := Ideal) .f32 0x00000000#32))) hlt)
          (shapeCast ⟨2, ![H, N]⟩ w2 hsw2) (constant (F := Ideal) ⟨2, ![m, N]⟩ .f32 0x00000000#32))
        (broadcastTo ⟨2, ![m, N]⟩ (shapeCast ⟨2, ![1, N]⟩ b2 hsb2) hbc2))
      (broadcast ⟨2, ![m, N]⟩ (Scalar.ofBits (F := Ideal) .f32 0x00000000#32)) j
      = mlp A X W1 B1 W2 B2 i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  exact denseRelu_rows row _ W2 B2 _ w2 b2
    (fun r c => (truncf_apply _ hlt (ix2 r c)).trans
      (denseRelu_rows row (addf A X) W1 B1 _ w1 b1
        (fun r c => (truncf_apply s hlt (ix2 r c)).trans (hs r c))
        hw1 hb1 hsw1 hsb1 hbc1 r c))
    hw2 hb2 hsw2 hsb2 hbc2 p q

/-- The output projection on a block of rows, its left factor narrowed to bf16 first, is that block of rows of
    `proj`. -/
theorem proj_rows (row : Fin m → Fin M)
    (X : FVec Ideal ⟨2, ![M, K]⟩ .f32) (W : FVec Ideal ⟨2, ![K, N]⟩ φ₂) (B : FVec Ideal ⟨2, ![1, N]⟩ .f32)
    (x : FVec Ideal ⟨2, ![m, K]⟩ .f32) (w : FVec Ideal ⟨2, ![K, N]⟩ ψ₂) (b : FVec Ideal ⟨2, ![1, N]⟩ .f32)
    (hx : ∀ r c, x (ix2 r c) = X (ix2 (row r) c))
    (hw : ∀ c q, w (ix2 c q) = W (ix2 c q)) (hb : ∀ q, b (ix2 (0 : Fin 1) q) = B (ix2 (0 : Fin 1) q))
    (hsx : (⟨2, ![m, K]⟩ : Shape).ShapeCasts ⟨2, ![m, K]⟩)
    (hsw : (⟨2, ![K, N]⟩ : Shape).ShapeCasts ⟨2, ![K, N]⟩) (hsb : (⟨2, ![1, N]⟩ : Shape).ShapeCasts ⟨2, ![1, N]⟩)
    (hbc : (⟨2, ![1, N]⟩ : Shape).Broadcasts ⟨2, ![m, N]⟩)
    (hlt : FTy.bf16.bits < FTy.f32.bits)
    (j : (⟨2, ![m, N]⟩ : Shape).Idx) (i : (⟨2, ![M, N]⟩ : Shape).Idx)
    (h0 : (i 0).val = (row (j 0)).val) (h1 : (i 1).val = (j 1).val) :
    addf (matmul (DotDims.plain m K N) none (truncf .bf16 (shapeCast ⟨2, ![m, K]⟩ x hsx) hlt)
          (shapeCast ⟨2, ![K, N]⟩ w hsw) (constant (F := Ideal) ⟨2, ![m, N]⟩ .f32 0x00000000#32))
        (broadcastTo ⟨2, ![m, N]⟩ (shapeCast ⟨2, ![1, N]⟩ b hsb) hbc) j
      = proj X W B i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  exact denseBias_rows row X W B _ w b
    (fun r c => by rw [truncf_apply, shapeCast_self, hx]) hw hb hsw hsb hbc p q

/-! ## The host's spelling -/

/-- A right factor narrowed to bf16 is the same factor. -/
theorem dot_truncf_rhs (prec prec' : Option ContractPrecision) (U : FVec Ideal ⟨2, ![M, K]⟩ φ₁)
    (W : FVec Ideal ⟨2, ![K, N]⟩ .f32) (hlt : FTy.bf16.bits < FTy.f32.bits) :
    Host.dotGeneral (DotDims.plain M K N) prec U (truncf .bf16 W hlt) = Host.dotGeneral (DotDims.plain M K N) prec' U W := by
  funext i
  obtain ⟨r, q, rfl⟩ : ∃ (r : Fin M) (q : Fin N), i = ix2 r q := ⟨i 0, i 1, eq_ix2 i⟩
  rw [StackMember.dotGeneral_plain_apply, StackMember.dotGeneral_plain_apply]
  rfl

/-- The host's dense stage with rectifier, its bias a vector broadcast to a row and then over the rows, is the
    stage with the bias vector reshaped to a row. -/
theorem hostDenseRelu (Y : FVec Ideal ⟨2, ![M, N]⟩ .f32) (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hz : (⟨0, ![]⟩ : Shape).BroadcastsInDim ⟨2, ![M, N]⟩ (![] : Fin 0 → Fin 2))
    (hc : (⟨1, ![N]⟩ : Shape).ShapeCasts ⟨2, ![1, N]⟩) :
    maximumf (addf Y (broadcastInDim ⟨2, ![M, N]⟩ ![0, 1] h2 (broadcastInDim ⟨2, ![1, N]⟩ ![1] h1 bv)))
        (broadcastInDim ⟨2, ![M, N]⟩ ![] hz (constant (F := Ideal) ⟨0, ![]⟩ .f32 0x00000000#32))
      = biasRelu Y (shapeCast ⟨2, ![1, N]⟩ bv hc) := by
  rw [hostBiasRelu, castRow_eq bv hc h1]

/-- The host's dense stage without rectifier, its bias a vector broadcast to a row and then over the rows. -/
theorem hostDenseBias (Y : FVec Ideal ⟨2, ![M, N]⟩ .f32) (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) :
    addf Y (broadcastInDim ⟨2, ![M, N]⟩ ![0, 1] h2 (broadcastInDim ⟨2, ![1, N]⟩ ![1] h1 bv))
      = biasOnly Y (shapeCast ⟨2, ![1, N]⟩ bv hc) := by
  rw [hostBiasOnly, castRow_eq bv hc h1]

end Cert.LibMlpRows

end
-- ==== Proof.Spec.lean ====
/-
  The graph network's stages as whole-array functions on the extended reals.

  A layer takes node features X [50000,128] already summed with their neighbours' and applies twice
  "dense stage, rectifier, normalisation over the 50000 nodes", then a rectifier. A dense stage with its
  rectifier is  dense X W B = max (X·W + B) 0,  the bias B one row added to every row. The normalisation of a
  column h with column sum s₁ = Σ h and square sum s₂ = Σ h², written the way a program that only keeps the two
  sums writes it, is the affine map  h ↦ h·α + β  with  mean = s₁/n,  var = s₂/n − mean²,
  α = γ·(var + ε)^(-1/2),  β = δ − α·mean.  The last stage is a projection X·W + B onto 16 columns.
-/
import proofs.«112967_j35158602285141_1_alg».proof.Proof.LibMlpRows

noncomputable section

namespace Cert.Gin

open Idealize.ShloMosaic Idealize.ShloMosaic.ValueIdx Cert.LibBiasRows

/-- node features, weights, one row, and the projection's shapes -/
abbrev SX : Shape := ⟨2, ![50000, 128]⟩
abbrev SW : Shape := ⟨2, ![128, 128]⟩
abbrev SR : Shape := ⟨2, ![1, 128]⟩
abbrev SWc : Shape := ⟨2, ![128, 16]⟩
abbrev SRc : Shape := ⟨2, ![1, 16]⟩
abbrev SO : Shape := ⟨2, ![50000, 16]⟩

/-- A dense stage with its rectifier: max (X·W + B) 0. -/
def dense (X : FVec Ideal SX .f32) (W : FVec Ideal SW .f32) (B : FVec Ideal SR .f32) : FVec Ideal SX .f32 :=
  biasRelu (Host.dotGeneral (DotDims.plain 50000 128 128) none X W) B

/-- The projection: X·W + B. -/
def proj (X : FVec Ideal SX .f32) (W : FVec Ideal SWc .f32) (B : FVec Ideal SRc .f32) : FVec Ideal SO .f32 :=
  biasOnly (Host.dotGeneral (DotDims.plain 50000 128 16) none X W) B

/-- The sum of column q over the 50000 rows, and the sum of its squares. -/
def colSum (H : FVec Ideal SX .f32) (q : Fin 128) : EReal := ∑ r : Fin 50000, H (ix2 r q)
def colSq (H : FVec Ideal SX .f32) (q : Fin 128) : EReal := ∑ r : Fin 50000, H (ix2 r q) * H (ix2 r q)

/-- A function of the column as a one-row array. -/
def rowOf (f : Fin 128 → EReal) : FVec Ideal SR .f32 := fun j => f ⟨(j 1).val, (j 1).isLt⟩
theorem rowOf_ix2 (f : Fin 128 → EReal) (q : Fin 128) : rowOf f (ix2 (0 : Fin 1) q) = f q := rfl

/-- h·α + β along the columns, α and β rows. -/
def affine (H : FVec Ideal SX .f32) (A S : FVec Ideal SR .f32) : FVec Ideal SX .f32 :=
  fun i => H i * A (ix2 (0 : Fin 1) ⟨(i 1).val, (i 1).isLt⟩) + S (ix2 (0 : Fin 1) ⟨(i 1).val, (i 1).isLt⟩)
theorem affine_ix2 (H : FVec Ideal SX .f32) (A S : FVec Ideal SR .f32) (r : Fin 50000) (q : Fin 128) :
    affine H A S (ix2 r q) = H (ix2 r q) * A (ix2 (0 : Fin 1) q) + S (ix2 (0 : Fin 1) q) := rfl

/-- max (h·α + β) 0. -/
def affineRelu (H : FVec Ideal SX .f32) (A S : FVec Ideal SR .f32) : FVec Ideal SX .f32 :=
  fun i => max (affine H A S i) zero32
theorem affineRelu_ix2 (H : FVec Ideal SX .f32) (A S : FVec Ideal SR .f32) (r : Fin 50000) (q : Fin 128) :
    affineRelu H A S (ix2 r q) = max (H (ix2 r q) * A (ix2 (0 : Fin 1) q) + S (ix2 (0 : Fin 1) q)) zero32 := rfl

/-- the number of nodes and the variance's epsilon, as the programs' literals -/
def nE : EReal := Ideal.ofBits .f32 0x47435000#32
def epsE : EReal := Ideal.ofBits .f32 0x3727C5AC#32

/-- mean, variance, slope and offset from the two sums -/
def meanE (s1 : EReal) : EReal := Ideal.div s1 nE
def varE (s1 s2 : EReal) : EReal := Ideal.div s2 nE - meanE s1 * meanE s1
def alphaE (g s1 s2 : EReal) : EReal := g * Ideal.rsqrt (varE s1 s2 + epsE)
def shiftE (g d s1 s2 : EReal) : EReal := d - alphaE g s1 s2 * meanE s1

/-- the slope row and the offset row of a stage's normalisation, from the stage's output H -/
def alphaRow (G : FVec Ideal SR .f32) (H : FVec Ideal SX .f32) : FVec Ideal SR .f32 :=
  rowOf fun q => alphaE (G (ix2 (0 : Fin 1) q)) (colSum H q) (colSq H q)
def shiftRow (G D : FVec Ideal SR .f32) (H : FVec Ideal SX .f32) : FVec Ideal SR .f32 :=
  rowOf fun q => shiftE (G (ix2 (0 : Fin 1) q)) (D (ix2 (0 : Fin 1) q)) (colSum H q) (colSq H q)

/-- One layer on the aggregated features A. -/
def layer (A : FVec Ideal SX .f32) (W1 : FVec Ideal SW .f32) (B1 G1 D1 : FVec Ideal SR .f32)
    (W2 : FVec Ideal SW .f32) (B2 G2 D2 : FVec Ideal SR .f32) : FVec Ideal SX .f32 :=
  let H1 := dense A W1 B1
  let H2 := dense (affine H1 (alphaRow G1 H1) (shiftRow G1 D1 H1)) W2 B2
  affineRelu H2 (alphaRow G2 H2) (shiftRow G2 D2 H2)

end Cert.Gin

end
-- ==== Proof.KChainDefs.lean ====
/-
  The host side of the graph network as functions of arrays, on the extended reals: the aggregation
  x + Σ_{edges into a node} x[source], layer l's weight matrix and rows cut out of the stacked parameter arrays,
  and the normalisation's rows as the program computes them from a stage's two column sums,
  mean = s₁/n, var = s₂/n − mean², α = γ·(var + ε)^(-1/2), β = δ − α·mean, which are the specification's
  slope and offset rows of the stage's output.
-/
import proofs.«112967_j35158602285141_1_alg».proof.Proof.Gen.KernelIdeal
import proofs.«112967_j35158602285141_1_alg».proof.Proof.Spec

set_option maxRecDepth 16384

noncomputable section

namespace Cert.KernelIdeal.KChain

open Idealize.ShloMosaic Idealize.ShloMosaic.TcCoe Idealize.ShloMosaic.Tactic
open Idealize.SL.Sem
open Cert.KernelIdeal Cert.KernelIdeal.Gen Cert.Gin

/-- contents of a buffer of a given shape: 32-bit integers, binary32 values read on the extended reals -/
abbrev IArr (S : Shape) : Type := IVec S 32
abbrev FArr (S : Shape) : Type := FVec Ideal S .f32

/-! ## The host stretches as functions of their input arrays -/

/-- The edge list's first row (the sources) and its second row (the destinations), as index vectors. -/
def srcIdx (ei : IArr S2x800000) : IArr S800000 :=
  shapeCast S800000 (extractStridedSlice S1x800000 ![0, 0] ei slices_S2x800000_S1x800000_0_0) shapeCasts_S1x800000_S800000
def dstIdx (ei : IArr S2x800000) : IArr S800000 :=
  shapeCast S800000 (extractStridedSlice S1x800000 ![1, 0] ei slices_S2x800000_S1x800000_1_0) shapeCasts_S1x800000_S800000

/-- x plus, at every node, the sum of the rows of x at the sources of the edges that end there: the rows gathered
    at the sources (a negative source index wrapped by the number of nodes) and scatter-added, from zero, at the
    destinations. -/
def aggOf (x : FArr S50000x128) (s d : IArr S800000) : FArr S50000x128 :=
  addf x
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))

/-- The aggregation from the features and the edge list. -/
def aggK (x : FArr S50000x128) (ei : IArr S2x800000) : FArr S50000x128 := aggOf x (srcIdx ei) (dstIdx ei)

/-- Layer l's weight matrix out of the stacked [3,128,128] array. -/
def sliceWK : Fin 3 → FArr S3x128x128 → FArr S128x128
  | 0, w => shapeCast S128x128 (extractStridedSlice S1x128x128 ![0, 0, 0] w slices_S3x128x128_S1x128x128_0_0_0) shapeCasts_S1x128x128_S128x128
  | 1, w => shapeCast S128x128 (extractStridedSlice S1x128x128 ![1, 0, 0] w slices_S3x128x128_S1x128x128_1_0_0) shapeCasts_S1x128x128_S128x128
  | 2, w => shapeCast S128x128 (extractStridedSlice S1x128x128 ![2, 0, 0] w slices_S3x128x128_S1x128x128_2_0_0) shapeCasts_S1x128x128_S128x128

/-- Layer l's row out of a stacked [3,128] array, as a one-row array. -/
def rowK : Fin 3 → FArr S3x128 → FArr S1x128
  | 0, v => shapeCast S1x128 (shapeCast S128 (extractStridedSlice S1x128 ![0, 0] v slices_S3x128_S1x128_0_0) shapeCasts_S1x128_S128) shapeCasts_S128_S1x128
  | 1, v => shapeCast S1x128 (shapeCast S128 (extractStridedSlice S1x128 ![1, 0] v slices_S3x128_S1x128_1_0) shapeCasts_S1x128_S128) shapeCasts_S128_S1x128
  | 2, v => shapeCast S1x128 (shapeCast S128 (extractStridedSlice S1x128 ![2, 0] v slices_S3x128_S1x128_2_0) shapeCasts_S1x128_S128) shapeCasts_S128_S1x128

/-- The projection's bias as a one-row array. -/
def bcRow (v : FArr S16) : FArr S1x16 := shapeCast S1x16 v shapeCasts_S16_S1x16

/-- The number of nodes and the variance's epsilon as rows. -/
def nRow : FArr S1x128 := broadcastInDim S1x128 ![] bcast_S_S1x128 (constant (F := Ideal) S_ .f32 0x47435000#32)
def epsRow : FArr S1x128 := broadcastInDim S1x128 ![] bcast_S_S1x128 (constant (F := Ideal) S_ .f32 0x3727C5AC#32)

/-- The statistics rows as the program computes them from the two sum rows s1, s2 and the rows g, d. -/
def meanK (s1 : FArr S1x128) : FArr S1x128 := Host.divf s1 nRow
def varK (s1 s2 : FArr S1x128) : FArr S1x128 := subf (Host.divf s2 nRow) (mulf (meanK s1) (meanK s1))
def alphaK (g s1 s2 : FArr S1x128) : FArr S1x128 := mulf g (Host.rsqrt (addf (varK s1 s2) epsRow))
def betaK (g d s1 s2 : FArr S1x128) : FArr S1x128 := subf d (mulf (alphaK g s1 s2) (meanK s1))

/-- The program's slope row, from the column sums and the square sums of a stage's output H, is the
    specification's slope row of H: entry by entry the same expression. -/
theorem alphaK_eq (g : FArr S1x128) (H : FArr S50000x128) :
    alphaK g (rowOf (colSum H)) (rowOf (colSq H)) = alphaRow g H := by
  funext j
  obtain ⟨a, b, rfl⟩ : ∃ (a : Fin 1) (b : Fin 128), j = ValueIdx.ix2 a b := ⟨j 0, j 1, ValueIdx.eq_ix2 j⟩
  obtain rfl : a = 0 := Subsingleton.elim _ _
  rfl

/-- The same for the offset row. -/
theorem betaK_eq (g d : FArr S1x128) (H : FArr S50000x128) :
    betaK g d (rowOf (colSum H)) (rowOf (colSq H)) = shiftRow g d H := by
  funext j
  obtain ⟨a, b, rfl⟩ : ∃ (a : Fin 1) (b : Fin 128), j = ValueIdx.ix2 a b := ⟨j 0, j 1, ValueIdx.eq_ix2 j⟩
  obtain rfl : a = 0 := Subsingleton.elim _ _
  rfl

end Cert.KernelIdeal.KChain

end
-- ==== Proof.KChainHost.lean ====
/-
  What each stretch of host operations between two regions leaves in the buffers the next region reads, for
  ANY contents W of the buffers when the stretch is entered: the composed term of the stretch's operations,
  which is one of the functions of KChainDefs applied to W at the stretch's input buffers. And a buffer that no
  operation of the stretch writes keeps its contents.
-/
import proofs.«112967_j35158602285141_1_alg».proof.Proof.Gen.KernelIdeal.Launch
import proofs.«112967_j35158602285141_1_alg».proof.Proof.KChainDefs

set_option maxRecDepth 16384

noncomputable section

namespace Cert.KernelIdeal.KChain

open Idealize.ShloMosaic Idealize.ShloMosaic.TcCoe Idealize.ShloMosaic.Tactic
open Idealize.SL.Sem
open Cert.KernelIdeal Cert.KernelIdeal.Gen Cert.Gin

variable (W : Valuation τ sig (Elt Ideal))

/-! ## The buffers each stretch writes -/

/-- The result buffers of stretch 0's operations, in order. -/
def wl0 : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19]
theorem hW0 : (hostOps0 : List (HloOp τ sig (Elt Ideal))).Forall fun op => op.writes ⊆ ((wl0).map (Proc.devRef (τ := τ) .tc)).toFinset := by
  simp only [hostOps0, wl0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer outside that list is as it was. -/
theorem host0_keep (r : Ref sig .tc) (hr : r ∉ wl0) : StableHlo.after hostOps0 W (Proc.devRef .tc r) = W (Proc.devRef .tc r) :=
  StableHlo.after_of_writes_sub hostOps0 W hW0 hr

/-- The result buffers of stretch 1's operations, in order. -/
def wl1 : List (Ref sig .tc) := [main_cst_1, main_v21, main_v22, main_cst_2, main_v23, main_v24, main_v25, main_v26, main_v27, main_v28, main_v29, main_v30, main_v31, main_v32, main_cst_3, main_v33, main_v34, main_v35, main_v36, main_v37, main_v38, main_v39, main_v40, main_v41, main_v42, main_v43]
theorem hW1 : (hostOps1 : List (HloOp τ sig (Elt Ideal))).Forall fun op => op.writes ⊆ ((wl1).map (Proc.devRef (τ := τ) .tc)).toFinset := by
  simp only [hostOps1, wl1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer outside that list is as it was. -/
theorem host1_keep (r : Ref sig .tc) (hr : r ∉ wl1) : StableHlo.after hostOps1 W (Proc.devRef .tc r) = W (Proc.devRef .tc r) :=
  StableHlo.after_of_writes_sub hostOps1 W hW1 hr

/-- The result buffers of stretch 2's operations, in order. -/
def wl2 : List (Ref sig .tc) := [main_cst_4, main_v45, main_v46, main_cst_5, main_v47, main_v48, main_v49, main_v50, main_v51, main_v52, main_v53, main_v54, main_v55, main_v56, main_cst_6, main_v57, main_v58, main_v59, main_v60, main_v61, main_v62]
theorem hW2 : (hostOps2 : List (HloOp τ sig (Elt Ideal))).Forall fun op => op.writes ⊆ ((wl2).map (Proc.devRef (τ := τ) .tc)).toFinset := by
  simp only [hostOps2, wl2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer outside that list is as it was. -/
theorem host2_keep (r : Ref sig .tc) (hr : r ∉ wl2) : StableHlo.after hostOps2 W (Proc.devRef .tc r) = W (Proc.devRef .tc r) :=
  StableHlo.after_of_writes_sub hostOps2 W hW2 hr

/-- The result buffers of stretch 3's operations, in order. -/
def wl3 : List (Ref sig .tc) := [main_c_7, main_v64, main_v65, main_c_8, main_v66, main_v67, main_v68, main_v69, main_v70, main_cst_9, main_v71, main_v72, main_v73, main_v74, main_v75, main_v76, main_v77, main_v78, main_v79]
theorem hW3 : (hostOps3 : List (HloOp τ sig (Elt Ideal))).Forall fun op => op.writes ⊆ ((wl3).map (Proc.devRef (τ := τ) .tc)).toFinset := by
  simp only [hostOps3, wl3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer outside that list is as it was. -/
theorem host3_keep (r : Ref sig .tc) (hr : r ∉ wl3) : StableHlo.after hostOps3 W (Proc.devRef .tc r) = W (Proc.devRef .tc r) :=
  StableHlo.after_of_writes_sub hostOps3 W hW3 hr

/-- The result buffers of stretch 4's operations, in order. -/
def wl4 : List (Ref sig .tc) := [main_cst_10, main_v81, main_v82, main_cst_11, main_v83, main_v84, main_v85, main_v86, main_v87, main_v88, main_v89, main_v90, main_v91, main_v92, main_cst_12, main_v93, main_v94, main_v95, main_v96, main_v97, main_v98, main_v99, main_v100, main_v101, main_v102, main_v103]
theorem hW4 : (hostOps4 : List (HloOp τ sig (Elt Ideal))).Forall fun op => op.writes ⊆ ((wl4).map (Proc.devRef (τ := τ) .tc)).toFinset := by
  simp only [hostOps4, wl4, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer outside that list is as it was. -/
theorem host4_keep (r : Ref sig .tc) (hr : r ∉ wl4) : StableHlo.after hostOps4 W (Proc.devRef .tc r) = W (Proc.devRef .tc r) :=
  StableHlo.after_of_writes_sub hostOps4 W hW4 hr

/-- The result buffers of stretch 5's operations, in order. -/
def wl5 : List (Ref sig .tc) := [main_cst_13, main_v105, main_v106, main_cst_14, main_v107, main_v108, main_v109, main_v110, main_v111, main_v112, main_v113, main_v114, main_v115, main_v116, main_cst_15, main_v117, main_v118, main_v119, main_v120, main_v121, main_v122]
theorem hW5 : (hostOps5 : List (HloOp τ sig (Elt Ideal))).Forall fun op => op.writes ⊆ ((wl5).map (Proc.devRef (τ := τ) .tc)).toFinset := by
  simp only [hostOps5, wl5, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer outside that list is as it was. -/
theorem host5_keep (r : Ref sig .tc) (hr : r ∉ wl5) : StableHlo.after hostOps5 W (Proc.devRef .tc r) = W (Proc.devRef .tc r) :=
  StableHlo.after_of_writes_sub hostOps5 W hW5 hr

/-- The result buffers of stretch 6's operations, in order. -/
def wl6 : List (Ref sig .tc) := [main_c_16, main_v124, main_v125, main_c_17, main_v126, main_v127, main_v128, main_v129, main_v130, main_cst_18, main_v131, main_v132, main_v133, main_v134, main_v135, main_v136, main_v137, main_v138, main_v139]
theorem hW6 : (hostOps6 : List (HloOp τ sig (Elt Ideal))).Forall fun op => op.writes ⊆ ((wl6).map (Proc.devRef (τ := τ) .tc)).toFinset := by
  simp only [hostOps6, wl6, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer outside that list is as it was. -/
theorem host6_keep (r : Ref sig .tc) (hr : r ∉ wl6) : StableHlo.after hostOps6 W (Proc.devRef .tc r) = W (Proc.devRef .tc r) :=
  StableHlo.after_of_writes_sub hostOps6 W hW6 hr

/-- The result buffers of stretch 7's operations, in order. -/
def wl7 : List (Ref sig .tc) := [main_cst_19, main_v141, main_v142, main_cst_20, main_v143, main_v144, main_v145, main_v146, main_v147, main_v148, main_v149, main_v150, main_v151, main_v152, main_cst_21, main_v153, main_v154, main_v155, main_v156, main_v157, main_v158, main_v159, main_v160, main_v161, main_v162, main_v163]
theorem hW7 : (hostOps7 : List (HloOp τ sig (Elt Ideal))).Forall fun op => op.writes ⊆ ((wl7).map (Proc.devRef (τ := τ) .tc)).toFinset := by
  simp only [hostOps7, wl7, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer outside that list is as it was. -/
theorem host7_keep (r : Ref sig .tc) (hr : r ∉ wl7) : StableHlo.after hostOps7 W (Proc.devRef .tc r) = W (Proc.devRef .tc r) :=
  StableHlo.after_of_writes_sub hostOps7 W hW7 hr

/-- The result buffers of stretch 8's operations, in order. -/
def wl8 : List (Ref sig .tc) := [main_cst_22, main_v165, main_v166, main_cst_23, main_v167, main_v168, main_v169, main_v170, main_v171, main_v172, main_v173, main_v174, main_v175, main_v176, main_cst_24, main_v177, main_v178, main_v179, main_v180, main_v181, main_v182]
theorem hW8 : (hostOps8 : List (HloOp τ sig (Elt Ideal))).Forall fun op => op.writes ⊆ ((wl8).map (Proc.devRef (τ := τ) .tc)).toFinset := by
  simp only [hostOps8, wl8, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer outside that list is as it was. -/
theorem host8_keep (r : Ref sig .tc) (hr : r ∉ wl8) : StableHlo.after hostOps8 W (Proc.devRef .tc r) = W (Proc.devRef .tc r) :=
  StableHlo.after_of_writes_sub hostOps8 W hW8 hr

/-- The result buffers of stretch 9's operations, in order. -/
def wl9 : List (Ref sig .tc) := [main_v184]
theorem hW9 : (hostOps9 : List (HloOp τ sig (Elt Ideal))).Forall fun op => op.writes ⊆ ((wl9).map (Proc.devRef (τ := τ) .tc)).toFinset := by
  simp only [hostOps9, wl9, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer outside that list is as it was. -/
theorem host9_keep (r : Ref sig .tc) (hr : r ∉ wl9) : StableHlo.after hostOps9 W (Proc.devRef .tc r) = W (Proc.devRef .tc r) :=
  StableHlo.after_of_writes_sub hostOps9 W hW9 hr

/-! ## The stretches before the first stage of a layer: the aggregation, the stage's weights and bias -/

theorem host0_v1 : StableHlo.after hostOps0 W (Proc.devRef .tc main_v1) = srcIdx (W (Proc.devRef .tc main_arg2)) := by
  after_results_simp
  rfl
theorem host0_v3 : StableHlo.after hostOps0 W (Proc.devRef .tc main_v3) = dstIdx (W (Proc.devRef .tc main_arg2)) := by
  after_results_simp
  rfl
theorem host0_v14 : StableHlo.after hostOps0 W (Proc.devRef .tc main_v14) = aggK (W (Proc.devRef .tc main_arg0)) (W (Proc.devRef .tc main_arg2)) := by
  after_results_simp
  rfl
theorem host0_v16 : StableHlo.after hostOps0 W (Proc.devRef .tc main_v16) = sliceWK 0 (W (Proc.devRef .tc main_arg3)) := by
  after_results_simp
  rfl
theorem host0_v19 : StableHlo.after hostOps0 W (Proc.devRef .tc main_v19) = rowK 0 (W (Proc.devRef .tc main_arg4)) := by
  after_results_simp
  rfl
theorem host3_v74 : StableHlo.after hostOps3 W (Proc.devRef .tc main_v74) = aggOf (W (Proc.devRef .tc main_v63)) (W (Proc.devRef .tc main_v1)) (W (Proc.devRef .tc main_v3)) := by
  after_results_simp
  rfl
theorem host3_v76 : StableHlo.after hostOps3 W (Proc.devRef .tc main_v76) = sliceWK 1 (W (Proc.devRef .tc main_arg3)) := by
  after_results_simp
  rfl
theorem host3_v79 : StableHlo.after hostOps3 W (Proc.devRef .tc main_v79) = rowK 1 (W (Proc.devRef .tc main_arg4)) := by
  after_results_simp
  rfl
theorem host6_v134 : StableHlo.after hostOps6 W (Proc.devRef .tc main_v134) = aggOf (W (Proc.devRef .tc main_v123)) (W (Proc.devRef .tc main_v1)) (W (Proc.devRef .tc main_v3)) := by
  after_results_simp
  rfl
theorem host6_v136 : StableHlo.after hostOps6 W (Proc.devRef .tc main_v136) = sliceWK 2 (W (Proc.devRef .tc main_arg3)) := by
  after_results_simp
  rfl
theorem host6_v139 : StableHlo.after hostOps6 W (Proc.devRef .tc main_v139) = rowK 2 (W (Proc.devRef .tc main_arg4)) := by
  after_results_simp
  rfl

/-! ## The stretches before the second stage: the first normalisation's rows, the stage's weights and bias -/
theorem host1_v36 : StableHlo.after hostOps1 W (Proc.devRef .tc main_v36)
    = alphaK (rowK 0 (W (Proc.devRef .tc main_arg5))) (W (Proc.devRef .tc main_v20_1)) (W (Proc.devRef .tc main_v20_2)) := by
  after_results_simp
  rfl
theorem host1_v38 : StableHlo.after hostOps1 W (Proc.devRef .tc main_v38)
    = betaK (rowK 0 (W (Proc.devRef .tc main_arg5))) (rowK 0 (W (Proc.devRef .tc main_arg6))) (W (Proc.devRef .tc main_v20_1)) (W (Proc.devRef .tc main_v20_2)) := by
  after_results_simp
  rfl
theorem host1_v40 : StableHlo.after hostOps1 W (Proc.devRef .tc main_v40) = sliceWK 0 (W (Proc.devRef .tc main_arg7)) := by
  after_results_simp
  rfl
theorem host1_v43 : StableHlo.after hostOps1 W (Proc.devRef .tc main_v43) = rowK 0 (W (Proc.devRef .tc main_arg8)) := by
  after_results_simp
  rfl
theorem host4_v96 : StableHlo.after hostOps4 W (Proc.devRef .tc main_v96)
    = alphaK (rowK 1 (W (Proc.devRef .tc main_arg5))) (W (Proc.devRef .tc main_v80_1)) (W (Proc.devRef .tc main_v80_2)) := by
  after_results_simp
  rfl
theorem host4_v98 : StableHlo.after hostOps4 W (Proc.devRef .tc main_v98)
    = betaK (rowK 1 (W (Proc.devRef .tc main_arg5))) (rowK 1 (W (Proc.devRef .tc main_arg6))) (W (Proc.devRef .tc main_v80_1)) (W (Proc.devRef .tc main_v80_2)) := by
  after_results_simp
  rfl
theorem host4_v100 : StableHlo.after hostOps4 W (Proc.devRef .tc main_v100) = sliceWK 1 (W (Proc.devRef .tc main_arg7)) := by
  after_results_simp
  rfl
theorem host4_v103 : StableHlo.after hostOps4 W (Proc.devRef .tc main_v103) = rowK 1 (W (Proc.devRef .tc main_arg8)) := by
  after_results_simp
  rfl
theorem host7_v156 : StableHlo.after hostOps7 W (Proc.devRef .tc main_v156)
    = alphaK (rowK 2 (W (Proc.devRef .tc main_arg5))) (W (Proc.devRef .tc main_v140_1)) (W (Proc.devRef .tc main_v140_2)) := by
  after_results_simp
  rfl
theorem host7_v158 : StableHlo.after hostOps7 W (Proc.devRef .tc main_v158)
    = betaK (rowK 2 (W (Proc.devRef .tc main_arg5))) (rowK 2 (W (Proc.devRef .tc main_arg6))) (W (Proc.devRef .tc main_v140_1)) (W (Proc.devRef .tc main_v140_2)) := by
  after_results_simp
  rfl
theorem host7_v160 : StableHlo.after hostOps7 W (Proc.devRef .tc main_v160) = sliceWK 2 (W (Proc.devRef .tc main_arg7)) := by
  after_results_simp
  rfl
theorem host7_v163 : StableHlo.after hostOps7 W (Proc.devRef .tc main_v163) = rowK 2 (W (Proc.devRef .tc main_arg8)) := by
  after_results_simp
  rfl

/-! ## The stretches before a layer's last region: the second normalisation's rows -/
theorem host2_v60 : StableHlo.after hostOps2 W (Proc.devRef .tc main_v60)
    = alphaK (rowK 0 (W (Proc.devRef .tc main_arg9))) (W (Proc.devRef .tc main_v44_1)) (W (Proc.devRef .tc main_v44_2)) := by
  after_results_simp
  rfl
theorem host2_v62 : StableHlo.after hostOps2 W (Proc.devRef .tc main_v62)
    = betaK (rowK 0 (W (Proc.devRef .tc main_arg9))) (rowK 0 (W (Proc.devRef .tc main_arg10))) (W (Proc.devRef .tc main_v44_1)) (W (Proc.devRef .tc main_v44_2)) := by
  after_results_simp
  rfl
theorem host5_v120 : StableHlo.after hostOps5 W (Proc.devRef .tc main_v120)
    = alphaK (rowK 1 (W (Proc.devRef .tc main_arg9))) (W (Proc.devRef .tc main_v104_1)) (W (Proc.devRef .tc main_v104_2)) := by
  after_results_simp
  rfl
theorem host5_v122 : StableHlo.after hostOps5 W (Proc.devRef .tc main_v122)
    = betaK (rowK 1 (W (Proc.devRef .tc main_arg9))) (rowK 1 (W (Proc.devRef .tc main_arg10))) (W (Proc.devRef .tc main_v104_1)) (W (Proc.devRef .tc main_v104_2)) := by
  after_results_simp
  rfl
theorem host8_v180 : StableHlo.after hostOps8 W (Proc.devRef .tc main_v180)
    = alphaK (rowK 2 (W (Proc.devRef .tc main_arg9))) (W (Proc.devRef .tc main_v164_1)) (W (Proc.devRef .tc main_v164_2)) := by
  after_results_simp
  rfl
theorem host8_v182 : StableHlo.after hostOps8 W (Proc.devRef .tc main_v182)
    = betaK (rowK 2 (W (Proc.devRef .tc main_arg9))) (rowK 2 (W (Proc.devRef .tc main_arg10))) (W (Proc.devRef .tc main_v164_1)) (W (Proc.devRef .tc main_v164_2)) := by
  after_results_simp
  rfl

/-! ## The stretch before the projection: its bias as a row -/

theorem host9_v184 : StableHlo.after hostOps9 W (Proc.devRef .tc main_v184) = bcRow (W (Proc.devRef .tc main_arg12)) := by
  after_results_simp
  rfl

end Cert.KernelIdeal.KChain

end
-- ==== Proof.KChainKeep.lean ====
/-
  The buffers that are only read. No host operation and no region before the last writes an argument array, so
  at every boundary of the run up to the last region's entry an argument buffer holds its launch contents; and
  the two index vectors cut out of the edge list by the first stretch are written by nothing after it, so they
  hold at every later boundary what they held at the first region's entry.
-/
import proofs.«112967_j35158602285141_1_alg».proof.Proof.Gen.KernelIdeal.Frame
import proofs.«112967_j35158602285141_1_alg».proof.Proof.KChainHost

set_option maxRecDepth 16384

noncomputable section

namespace Cert.KernelIdeal.KChain

open Idealize.ShloMosaic Idealize.ShloMosaic.TcCoe Idealize.ShloMosaic.Tactic
open Idealize.SL.Sem
open Cert.KernelIdeal Cert.KernelIdeal.Gen Cert.Gin

variable (m : (ℓ : Loc nD τ sig) → Buf (Elt Ideal) ℓ) (ρ : Dev nD → PrngReg) (c : Dev nD)

/-- The thirteen argument arrays. -/
def argL : List (Ref sig .tc) := [main_arg0, main_arg1, main_arg2, main_arg3, main_arg4, main_arg5, main_arg6, main_arg7, main_arg8, main_arg9, main_arg10, main_arg11, main_arg12]
/-- The two index vectors (sources, destinations). -/
def idxL : List (Ref sig .tc) := [main_v1, main_v3]

theorem arg_nw0 : ∀ b ∈ argL, b ∉ wl0 := by decide
theorem arg_nw1 : ∀ b ∈ argL, b ∉ wl1 := by decide
theorem arg_nw2 : ∀ b ∈ argL, b ∉ wl2 := by decide
theorem arg_nw3 : ∀ b ∈ argL, b ∉ wl3 := by decide
theorem arg_nw4 : ∀ b ∈ argL, b ∉ wl4 := by decide
theorem arg_nw5 : ∀ b ∈ argL, b ∉ wl5 := by decide
theorem arg_nw6 : ∀ b ∈ argL, b ∉ wl6 := by decide
theorem arg_nw7 : ∀ b ∈ argL, b ∉ wl7 := by decide
theorem arg_nw8 : ∀ b ∈ argL, b ∉ wl8 := by decide
theorem arg_nw9 : ∀ b ∈ argL, b ∉ wl9 := by decide
theorem arg_na0 : ∀ b ∈ argL, ∀ w, Pipeline.arrRef spec0 w ≠ b := by decide
theorem arg_na1 : ∀ b ∈ argL, ∀ w, Pipeline.arrRef spec1 w ≠ b := by decide
theorem arg_na2 : ∀ b ∈ argL, ∀ w, Pipeline.arrRef spec2 w ≠ b := by decide
theorem arg_na3 : ∀ b ∈ argL, ∀ w, Pipeline.arrRef spec3 w ≠ b := by decide
theorem arg_na4 : ∀ b ∈ argL, ∀ w, Pipeline.arrRef spec4 w ≠ b := by decide
theorem arg_na5 : ∀ b ∈ argL, ∀ w, Pipeline.arrRef spec5 w ≠ b := by decide
theorem arg_na6 : ∀ b ∈ argL, ∀ w, Pipeline.arrRef spec6 w ≠ b := by decide
theorem arg_na7 : ∀ b ∈ argL, ∀ w, Pipeline.arrRef spec7 w ≠ b := by decide
theorem arg_na8 : ∀ b ∈ argL, ∀ w, Pipeline.arrRef spec8 w ≠ b := by decide
theorem idx_nw1 : ∀ b ∈ idxL, b ∉ wl1 := by decide
theorem idx_nw2 : ∀ b ∈ idxL, b ∉ wl2 := by decide
theorem idx_nw3 : ∀ b ∈ idxL, b ∉ wl3 := by decide
theorem idx_nw4 : ∀ b ∈ idxL, b ∉ wl4 := by decide
theorem idx_nw5 : ∀ b ∈ idxL, b ∉ wl5 := by decide
theorem idx_na0 : ∀ b ∈ idxL, ∀ w, Pipeline.arrRef spec0 w ≠ b := by decide
theorem idx_na1 : ∀ b ∈ idxL, ∀ w, Pipeline.arrRef spec1 w ≠ b := by decide
theorem idx_na2 : ∀ b ∈ idxL, ∀ w, Pipeline.arrRef spec2 w ≠ b := by decide
theorem idx_na3 : ∀ b ∈ idxL, ∀ w, Pipeline.arrRef spec3 w ≠ b := by decide
theorem idx_na4 : ∀ b ∈ idxL, ∀ w, Pipeline.arrRef spec4 w ≠ b := by decide
theorem idx_na5 : ∀ b ∈ idxL, ∀ w, Pipeline.arrRef spec5 w ≠ b := by decide

/-! ## An argument buffer at each boundary -/

theorem keep_0 (b : Ref sig .tc) (hb : b ∈ argL) : W0 m ρ c (Proc.devRef .tc b) = m ((c : Thread nD τ).loc b) := rfl
theorem keep_1 (b : Ref sig .tc) (hb : b ∈ argL) : W1 m ρ c (Proc.devRef .tc b) = m ((c : Thread nD τ).loc b) :=
  (host0_keep (W0 m ρ c) b (arg_nw0 b hb)).trans (keep_0 m ρ c b hb)
theorem keep_2 (b : Ref sig .tc) (hb : b ∈ argL) : W2 m ρ c (Proc.devRef .tc b) = m ((c : Thread nD τ).loc b) :=
  (W2_of_ne m ρ c b (arg_na0 b hb)).trans (keep_1 m ρ c b hb)
theorem keep_3 (b : Ref sig .tc) (hb : b ∈ argL) : W3 m ρ c (Proc.devRef .tc b) = m ((c : Thread nD τ).loc b) :=
  (host1_keep (W2 m ρ c) b (arg_nw1 b hb)).trans (keep_2 m ρ c b hb)
theorem keep_4 (b : Ref sig .tc) (hb : b ∈ argL) : W4 m ρ c (Proc.devRef .tc b) = m ((c : Thread nD τ).loc b) :=
  (W4_of_ne m ρ c b (arg_na1 b hb)).trans (keep_3 m ρ c b hb)
theorem keep_5 (b : Ref sig .tc) (hb : b ∈ argL) : W5 m ρ c (Proc.devRef .tc b) = m ((c : Thread nD τ).loc b) :=
  (host2_keep (W4 m ρ c) b (arg_nw2 b hb)).trans (keep_4 m ρ c b hb)
theorem keep_6 (b : Ref sig .tc) (hb : b ∈ argL) : W6 m ρ c (Proc.devRef .tc b) = m ((c : Thread nD τ).loc b) :=
  (W6_of_ne m ρ c b (arg_na2 b hb)).trans (keep_5 m ρ c b hb)
theorem keep_7 (b : Ref sig .tc) (hb : b ∈ argL) : W7 m ρ c (Proc.devRef .tc b) = m ((c : Thread nD τ).loc b) :=
  (host3_keep (W6 m ρ c) b (arg_nw3 b hb)).trans (keep_6 m ρ c b hb)
theorem keep_8 (b : Ref sig .tc) (hb : b ∈ argL) : W8 m ρ c (Proc.devRef .tc b) = m ((c : Thread nD τ).loc b) :=
  (W8_of_ne m ρ c b (arg_na3 b hb)).trans (keep_7 m ρ c b hb)
theorem keep_9 (b : Ref sig .tc) (hb : b ∈ argL) : W9 m ρ c (Proc.devRef .tc b) = m ((c : Thread nD τ).loc b) :=
  (host4_keep (W8 m ρ c) b (arg_nw4 b hb)).trans (keep_8 m ρ c b hb)
theorem keep_10 (b : Ref sig .tc) (hb : b ∈ argL) : W10 m ρ c (Proc.devRef .tc b) = m ((c : Thread nD τ).loc b) :=
  (W10_of_ne m ρ c b (arg_na4 b hb)).trans (keep_9 m ρ c b hb)
theorem keep_11 (b : Ref sig .tc) (hb : b ∈ argL) : W11 m ρ c (Proc.devRef .tc b) = m ((c : Thread nD τ).loc b) :=
  (host5_keep (W10 m ρ c) b (arg_nw5 b hb)).trans (keep_10 m ρ c b hb)
theorem keep_12 (b : Ref sig .tc) (hb : b ∈ argL) : W12 m ρ c (Proc.devRef .tc b) = m ((c : Thread nD τ).loc b) :=
  (W12_of_ne m ρ c b (arg_na5 b hb)).trans (keep_11 m ρ c b hb)
theorem keep_13 (b : Ref sig .tc) (hb : b ∈ argL) : W13 m ρ c (Proc.devRef .tc b) = m ((c : Thread nD τ).loc b) :=
  (host6_keep (W12 m ρ c) b (arg_nw6 b hb)).trans (keep_12 m ρ c b hb)
theorem keep_14 (b : Ref sig .tc) (hb : b ∈ argL) : W14 m ρ c (Proc.devRef .tc b) = m ((c : Thread nD τ).loc b) :=
  (W14_of_ne m ρ c b (arg_na6 b hb)).trans (keep_13 m ρ c b hb)
theorem keep_15 (b : Ref sig .tc) (hb : b ∈ argL) : W15 m ρ c (Proc.devRef .tc b) = m ((c : Thread nD τ).loc b) :=
  (host7_keep (W14 m ρ c) b (arg_nw7 b hb)).trans (keep_14 m ρ c b hb)
theorem keep_16 (b : Ref sig .tc) (hb : b ∈ argL) : W16 m ρ c (Proc.devRef .tc b) = m ((c : Thread nD τ).loc b) :=
  (W16_of_ne m ρ c b (arg_na7 b hb)).trans (keep_15 m ρ c b hb)
theorem keep_17 (b : Ref sig .tc) (hb : b ∈ argL) : W17 m ρ c (Proc.devRef .tc b) = m ((c : Thread nD τ).loc b) :=
  (host8_keep (W16 m ρ c) b (arg_nw8 b hb)).trans (keep_16 m ρ c b hb)
theorem keep_18 (b : Ref sig .tc) (hb : b ∈ argL) : W18 m ρ c (Proc.devRef .tc b) = m ((c : Thread nD τ).loc b) :=
  (W18_of_ne m ρ c b (arg_na8 b hb)).trans (keep_17 m ρ c b hb)
theorem keep_19 (b : Ref sig .tc) (hb : b ∈ argL) : W19 m ρ c (Proc.devRef .tc b) = m ((c : Thread nD τ).loc b) :=
  (host9_keep (W18 m ρ c) b (arg_nw9 b hb)).trans (keep_18 m ρ c b hb)

/-! ## The index vectors at each boundary after the first stretch -/

theorem keepI_1 (b : Ref sig .tc) (hb : b ∈ idxL) : W1 m ρ c (Proc.devRef .tc b) = W1 m ρ c (Proc.devRef .tc b) := rfl
theorem keepI_2 (b : Ref sig .tc) (hb : b ∈ idxL) : W2 m ρ c (Proc.devRef .tc b) = W1 m ρ c (Proc.devRef .tc b) :=
  (W2_of_ne m ρ c b (idx_na0 b hb)).trans (keepI_1 m ρ c b hb)
theorem keepI_3 (b : Ref sig .tc) (hb : b ∈ idxL) : W3 m ρ c (Proc.devRef .tc b) = W1 m ρ c (Proc.devRef .tc b) :=
  (host1_keep (W2 m ρ c) b (idx_nw1 b hb)).trans (keepI_2 m ρ c b hb)
theorem keepI_4 (b : Ref sig .tc) (hb : b ∈ idxL) : W4 m ρ c (Proc.devRef .tc b) = W1 m ρ c (Proc.devRef .tc b) :=
  (W4_of_ne m ρ c b (idx_na1 b hb)).trans (keepI_3 m ρ c b hb)
theorem keepI_5 (b : Ref sig .tc) (hb : b ∈ idxL) : W5 m ρ c (Proc.devRef .tc b) = W1 m ρ c (Proc.devRef .tc b) :=
  (host2_keep (W4 m ρ c) b (idx_nw2 b hb)).trans (keepI_4 m ρ c b hb)
theorem keepI_6 (b : Ref sig .tc) (hb : b ∈ idxL) : W6 m ρ c (Proc.devRef .tc b) = W1 m ρ c (Proc.devRef .tc b) :=
  (W6_of_ne m ρ c b (idx_na2 b hb)).trans (keepI_5 m ρ c b hb)
theorem keepI_7 (b : Ref sig .tc) (hb : b ∈ idxL) : W7 m ρ c (Proc.devRef .tc b) = W1 m ρ c (Proc.devRef .tc b) :=
  (host3_keep (W6 m ρ c) b (idx_nw3 b hb)).trans (keepI_6 m ρ c b hb)
theorem keepI_8 (b : Ref sig .tc) (hb : b ∈ idxL) : W8 m ρ c (Proc.devRef .tc b) = W1 m ρ c (Proc.devRef .tc b) :=
  (W8_of_ne m ρ c b (idx_na3 b hb)).trans (keepI_7 m ρ c b hb)
theorem keepI_9 (b : Ref sig .tc) (hb : b ∈ idxL) : W9 m ρ c (Proc.devRef .tc b) = W1 m ρ c (Proc.devRef .tc b) :=
  (host4_keep (W8 m ρ c) b (idx_nw4 b hb)).trans (keepI_8 m ρ c b hb)
theorem keepI_10 (b : Ref sig .tc) (hb : b ∈ idxL) : W10 m ρ c (Proc.devRef .tc b) = W1 m ρ c (Proc.devRef .tc b) :=
  (W10_of_ne m ρ c b (idx_na4 b hb)).trans (keepI_9 m ρ c b hb)
theorem keepI_11 (b : Ref sig .tc) (hb : b ∈ idxL) : W11 m ρ c (Proc.devRef .tc b) = W1 m ρ c (Proc.devRef .tc b) :=
  (host5_keep (W10 m ρ c) b (idx_nw5 b hb)).trans (keepI_10 m ρ c b hb)
theorem keepI_12 (b : Ref sig .tc) (hb : b ∈ idxL) : W12 m ρ c (Proc.devRef .tc b) = W1 m ρ c (Proc.devRef .tc b) :=
  (W12_of_ne m ρ c b (idx_na5 b hb)).trans (keepI_11 m ρ c b hb)

/-- The index vectors, at any boundary from the first region's entry to the third layer's, as functions of the
    edge list. -/
theorem src_1 : W1 m ρ c (Proc.devRef .tc main_v1) = srcIdx (m ((c : Thread nD τ).loc main_arg2)) := host0_v1 (W0 m ρ c)
theorem dst_1 : W1 m ρ c (Proc.devRef .tc main_v3) = dstIdx (m ((c : Thread nD τ).loc main_arg2)) := host0_v3 (W0 m ρ c)

end Cert.KernelIdeal.KChain

end
-- ==== Proof.LibRowForms.lean ====
/-
  Three reads at an index beside the library's layout lemmas, at any extents.

  A sum DOWN the columns of an `[a, b]` array (a reduction along its first axis) at column `c` runs over `k ↦ (k, c)`.
  A unit-stride slice of a matrix with an offset on BOTH axes (a diagonal block), or of a vector, reads its operand at
  the index moved by the offsets. A matrix `[a, b]` flattened to a row `[1, n]` reads, at position `k = p·b + q`, the
  matrix at `(p, q)`. The indices are written by coordinates, so each lemma applies to a printed operation by
  unification.
-/
import Idealize.ShloMosaic.Lib.ValueLayout
import Idealize.ShloMosaic.PureOps.Ideal.Laws

namespace Idealize.ShloMosaic.ValueIdx

open Idealize.ShloMosaic

variable {α : Type}

/-- Over a reduction of `[a, b]` along its FIRST axis, the source index above column `c` with `k` on the dropped axis is `(k, c)`. -/
theorem lift_col {a b : ℕ} (h : (⟨2, ![a, b]⟩ : Shape).Reduces [(0 : Fin 2)] ⟨1, ![b]⟩) (c : Fin b) (k : Fin a) :
    h.lift (ix1 c) k = ix2 k c :=
  funext fun d => Fin.ext (by match d with | ⟨0, _⟩ => rfl | ⟨1, _⟩ => rfl)

variable {φ : FTy}

/-- A sum down the columns of an `[a, b]` array at column `c`, at the exact values: the sum over the column. -/
theorem multiReduction_add_col {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (c : Fin b) :
    multiReduction .add [(0 : Fin 2)] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_col h c k)

/-- A unit-stride slice of a matrix reads the matrix at the index moved by the offsets. -/
theorem slice2_apply {A B a b : ℕ} (o0 o1 : ℕ) (x : (⟨2, ![A, B]⟩ : Shape).Idx → α)
    (h : (⟨2, ![A, B]⟩ : Shape).Slices ![o0, o1] ⟨2, ![a, b]⟩) (p : Fin a) (q : Fin b) (P : Fin A) (Q : Fin B)
    (hP : P.val = o0 + p.val) (hQ : Q.val = o1 + q.val) :
    extractStridedSlice ⟨2, ![a, b]⟩ ![o0, o1] x h (ix2 p q) = x (ix2 P Q) :=
  extractStridedSlice_apply ![o0, o1] x h (ix2 p q) (ix2 P Q) fun ax => by
    match ax with
    | ⟨0, _⟩ => exact hP
    | ⟨1, _⟩ => exact hQ

/-- A unit-stride slice of a vector reads the vector at the index moved by the offset. -/
theorem slice1_apply {A a : ℕ} (o : ℕ) (x : (⟨1, ![A]⟩ : Shape).Idx → α)
    (h : (⟨1, ![A]⟩ : Shape).Slices ![o] ⟨1, ![a]⟩) (p : Fin a) (P : Fin A) (hP : P.val = o + p.val) :
    extractStridedSlice ⟨1, ![a]⟩ ![o] x h (ix1 p) = x (ix1 P) :=
  extractStridedSlice_apply ![o] x h (ix1 p) (ix1 P) fun ax => by
    match ax with
    | ⟨0, _⟩ => exact hP

/-- A matrix `[a, b]` flattened to the row `[1, a·b]` reads, at `(u, k)`, the matrix at `(k / b, k % b)`. -/
theorem shapeCast_ab_1n_apply {a b n : ℕ} (v : (⟨2, ![a, b]⟩ : Shape).Idx → α) (h : (⟨2, ![a, b]⟩ : Shape).ShapeCasts ⟨2, ![1, n]⟩)
    (u : Fin 1) (k : Fin n) (p : Fin a) (q : Fin b) (hk : k.val = p.val * b + q.val) :
    shapeCast ⟨2, ![1, n]⟩ v h (ix2 u k) = v (ix2 p q) :=
  shapeCast_apply v h _ _ (by
    have hu : u.val = 0 := by omega
    rw [Shape.rowMajor_val_two, Shape.rowMajor_val_two]
    show p.val * b + q.val = u.val * n + k.val
    rw [hu, hk, Nat.zero_mul, Nat.zero_add])

end Idealize.ShloMosaic.ValueIdx
-- ==== Proof.LibBlockSums.lean ====
/-
  Two re-indexing facts for sums cut into consecutive blocks of equal length, in any additive commutative monoid.

  A sum over the first a * b natural numbers is the sum, over the a blocks, of the sums over the b positions inside a
  block, the position k of block c being the number c * b + k. The same for a sum over Fin n with a * b = n, where
  the summand at block k, position r is read at the index k * b + r (which is below n, so the guard on the index is
  always satisfied).
-/
import Mathlib.Algebra.BigOperators.Fin
import Mathlib.Algebra.BigOperators.Intervals

open scoped BigOperators

namespace Cert.LibBlockSums

/-- A sum over the first a * b natural numbers, cut into a consecutive blocks of length b: the block c holds the numbers
    c * b + k for k below b. By induction on the number of blocks, splitting the last block off the range. -/
theorem sum_range_mul {M : Type*} [AddCommMonoid M] (a b : ℕ) (g : ℕ → M) :
    ∑ c ∈ Finset.range a, ∑ k ∈ Finset.range b, g (c * b + k) = ∑ t ∈ Finset.range (a * b), g t := by
  induction a with
  | zero => simp
  | succ a ih => rw [Finset.sum_range_succ, ih, add_one_mul, Finset.sum_range_add]

/-- A sum over Fin n with a * b = n, cut into a consecutive blocks of length b: block k, position r reads the index
    k * b + r. The guard k * b + r < n holds for every k below a, so the guarded summand is the function's value; the
    guarded function on the natural numbers (the value below n, zero from n on) turns both sides into sums over ranges,
    where the cut is `sum_range_mul`. -/
theorem sum_blocks {M : Type*} [AddCommMonoid M] (a b n : ℕ) (hn : a * b = n) (f : Fin n → M) :
    ∑ k ∈ Finset.range a, ∑ r : Fin b, (if h : k * b + r.val < n then f ⟨k * b + r.val, h⟩ else 0) = ∑ i : Fin n, f i := by
  have hg : ∀ k : ℕ, (∑ r : Fin b, (if h : k * b + r.val < n then f ⟨k * b + r.val, h⟩ else 0))
      = ∑ r ∈ Finset.range b, (fun t : ℕ => if h : t < n then f ⟨t, h⟩ else 0) (k * b + r) := fun k =>
    (Finset.sum_range fun r : ℕ => (fun t : ℕ => if h : t < n then f ⟨t, h⟩ else 0) (k * b + r)).symm
  rw [Finset.sum_congr rfl fun k _ => hg k, sum_range_mul a b fun t : ℕ => if h : t < n then f ⟨t, h⟩ else 0, hn,
    Finset.sum_range]
  exact Finset.sum_congr rfl fun i _ => dif_pos i.2

end Cert.LibBlockSums
-- ==== Proof.RegL0.lean ====
/-
  The first kernel of a layer, read as a function of whole arrays on the extended reals.

  The kernel walks the 50000 rows of X in ten tiles of 5000. At each tile it stores H = max (x·W + b) 0 of the tile's
  rows, and adds the tile's column sums of H and of H² into two one-row buffers that it zeroes at the first tile and
  that are written back once, after the last. Row r of X·W depends on row r of X alone, so the H array ends holding
  max (X·W + B) 0 of the whole arrays; and the two rows end holding, at column q, the sum over the ten tiles of the
  tile's sums, which is the sum over all 50000 rows: a sum over Fin 50000 cut into ten consecutive blocks. Nothing of
  real arithmetic is used beyond 0 + x = x and the commutative monoid laws, so it holds at the infinities too.
-/
import proofs.«112967_j35158602285141_1_alg».proof.Proof.Gen.KernelIdeal.Frame
import proofs.«112967_j35158602285141_1_alg».proof.Proof.Spec
import proofs.«112967_j35158602285141_1_alg».proof.Proof.LibRowForms
import proofs.«112967_j35158602285141_1_alg».proof.Proof.LibBlockSums
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegL0

open Cert.KernelIdeal Cert.KernelIdeal.Gen Idealize.ShloMosaic.ValueIdx Cert.LibBiasRows Cert.LibRowBlockDot

/-! ## The payloads read at an index, on the extended reals -/

theorem dot_eq : dot_S5000x128_S128x128_S5000x128_1_0_0_1_n_n = DotDims.plain 5000 128 128 := rfl

/-- Entry (r, q) of the dense stage of a tile whose rows are the rows `row r` of X is entry (row r, q) of the dense
    stage of X. -/
theorem pay3_apply (row : Fin 5000 → Fin 50000) (X : FVec Ideal Cert.Gin.SX .f32) (W : FVec Ideal Cert.Gin.SW .f32)
    (B : FVec Ideal Cert.Gin.SR .f32)
    (x0 : Vec Ideal S5000x128 .f32) (x1 : Vec Ideal S128x128 .f32) (x2 : Vec Ideal S1x128 .f32)
    (h0 : ∀ r c, x0 (ix2 r c) = X (ix2 (row r) c)) (h1 : ∀ c q, x1 (ix2 c q) = W (ix2 c q))
    (h2 : ∀ q, x2 (ix2 (0 : Fin 1) q) = B (ix2 (0 : Fin 1) q)) (r : Fin 5000) (q : Fin 128) :
    k0_pay3 x0 x1 x2 (ix2 r q) = Cert.Gin.dense X W B (ix2 (row r) q) := by
  unfold k0_pay3 Cert.Gin.dense
  simp only [shapeCast_self]
  rw [biasRelu_ix2, maximumf_apply, addf_apply, broadcast_apply, broadcastTo_1b_ab_apply, h2, dot_eq,
    matmul_rowBlock_apply none none X W _ _ row (fun a c => by rw [truncf_apply, h0])
      (fun c b => by rw [truncf_apply, h1]) r q]
  rfl

/-- The column-sum row a tile leaves: the carried row plus the sums down the tile's columns. -/
theorem pay4_apply (x0 : Vec Ideal S5000x128 .f32) (x1 : Vec Ideal S128x128 .f32) (x2 : Vec Ideal S1x128 .f32)
    (v : Vec Ideal S1x128 .f32) (q : Fin 128) :
    k0_pay4 x0 x1 x2 v (ix2 (0 : Fin 1) q) = v (ix2 (0 : Fin 1) q) + ∑ k : Fin 5000, k0_pay3 x0 x1 x2 (ix2 k q) := by
  unfold k0_pay4
  rw [addf_apply, shapeCast_self, shapeCast_a_1a_apply]
  refine congrArg _ ?_
  exact multiReduction_add_col (k0_pay3 x0 x1 x2) 0x00000000#32 reduces_S5000x128_S128 (.inl rfl) rfl q

/-- The square-sum row a tile leaves: the carried row plus the sums of squares down the tile's columns. -/
theorem pay5_apply (x0 : Vec Ideal S5000x128 .f32) (x1 : Vec Ideal S128x128 .f32) (x2 : Vec Ideal S1x128 .f32)
    (v : Vec Ideal S1x128 .f32) (q : Fin 128) :
    k0_pay5 x0 x1 x2 v (ix2 (0 : Fin 1) q)
      = v (ix2 (0 : Fin 1) q) + ∑ k : Fin 5000, k0_pay3 x0 x1 x2 (ix2 k q) * k0_pay3 x0 x1 x2 (ix2 k q) := by
  unfold k0_pay5
  rw [addf_apply, shapeCast_self, shapeCast_a_1a_apply]
  refine congrArg _ ?_
  exact multiReduction_add_col (mulf (k0_pay3 x0 x1 x2) (k0_pay3 x0 x1 x2)) 0x00000000#32 reduces_S5000x128_S128
    (.inl rfl) rfl q

/-- The rows the reset stores are zero. -/
theorem pay1_apply (j : S1x128.Idx) : k0_pay1 (F := Ideal) j = 0 := Ideal.ofBits_zero_f32
theorem pay2_apply (j : S1x128.Idx) : k0_pay2 (F := Ideal) j = 0 := Ideal.ofBits_zero_f32

section Outs
variable {F : FTy → Type} [FloatOps F]

theorem hz : (![0, 0] : Fin 2 → Nat) = fun _ => 0 := funext fun a => by fin_cases a <;> rfl

/-! ## What one grid point leaves in the three output buffers, as the payloads of the point's input blocks -/

/-- The first point leaves the tile's dense stage in the H buffer, -/
theorem out_A_3 (c : Dev nD) (i : grid0.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond0_0 i)
    (x0 : Vec F S5000x128 .f32) (x1 : Vec F S128x128 .f32) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz]
  simp only [View.readAt_eq_ld, h1.read_unread, h2.read_unread, h3.read_unread, View.ld_unit_zero (S := S5000x128) hz,
    View.ld_unit_zero (S := S128x128) hz, View.ld_unit_zero (S := S1x128) hz]

/-- the tile's column sums added to the zero row it has just stored in the sum buffer, -/
theorem out_A_4 (c : Dev nD) (i : grid0.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond0_0 i)
    (x0 : Vec F S5000x128 .f32) (x1 : Vec F S128x128 .f32) (x2 : Vec F S1x128 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S128x128) hz, View.ld_unit_zero (S := S1x128) hz]

/-- and the same for the squares. -/
theorem out_A_5 (c : Dev nD) (i : grid0.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond0_0 i)
    (x0 : Vec F S5000x128 .f32) (x1 : Vec F S128x128 .f32) (x2 : Vec F S1x128 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S128x128) hz, View.ld_unit_zero (S := S1x128) hz]

/-- A later point leaves the tile's dense stage in the H buffer, -/
theorem out_B_3 (c : Dev nD) (i : grid0.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond0_0 i)
    (x0 : Vec F S5000x128 .f32) (x1 : Vec F S128x128 .f32) (x2 : Vec F S1x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

/-- the tile's column sums added to the row the sum buffer held, -/
theorem out_B_4 (c : Dev nD) (i : grid0.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond0_0 i)
    (x0 : Vec F S5000x128 .f32) (x1 : Vec F S128x128 .f32) (x2 : Vec F S1x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

/-- and the same for the squares. -/
theorem out_B_5 (c : Dev nD) (i : grid0.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond0_0 i)
    (x0 : Vec F S5000x128 .f32) (x1 : Vec F S128x128 .f32) (x2 : Vec F S1x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

end Outs

/-! ## The three arrays the region reads, and the dense stage of them -/

section Region
variable (V : (c : Dev nD) → (b : Ref sig .tc) → Buf (Elt Ideal) ((c : Thread nD τ).loc b))

/-- node features, weights and bias row as the region finds them -/
abbrev XA (c : Dev nD) : FVec Ideal Cert.Gin.SX .f32 := V c main_v14
abbrev WA (c : Dev nD) : FVec Ideal Cert.Gin.SW .f32 := V c main_v16
abbrev BA (c : Dev nD) : FVec Ideal Cert.Gin.SR .f32 := V c main_v19
/-- the dense stage of the whole arrays -/
abbrev HH (c : Dev nD) : FVec Ideal Cert.Gin.SX .f32 := Cert.Gin.dense (XA V c) (WA V c) (BA V c)

theorem arr0 : Pipeline.arrRef spec0 0 = main_v14 := rfl
theorem arr1 : Pipeline.arrRef spec0 1 = main_v16 := rfl
theorem arr2 : Pipeline.arrRef spec0 2 = main_v19 := rfl

/-- The block indices: the X and H windows move down the rows with the point, the other windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- the row of the array that row r of tile t is -/
def rowOfTile (t : Fin cfg0.N) (r : Fin 5000) : Fin 50000 :=
  ⟨t.val * 5000 + r.val, by have := t.isLt; have hN : cfg0.N = 10 := N_0; omega⟩

/-- Tile t of the X window reads rows 5000 t ... 5000 t + 4999 of X. -/
theorem iblk_0 (c : Dev nD) (t : Fin cfg0.N) (r : Fin 5000) (k : Fin 128) :
    (iblk0 V c 0 t : Vec Ideal S5000x128 .f32) (ix2 r k) = XA V c (ix2 (rowOfTile t r) k) := by
  obtain ⟨e0, e1, -⟩ := idx_facts t
  show V c main_v14 (((cfg0.win 0).blk t).view.emb (ix2 r k)) = V c main_v14 (ix2 (rowOfTile t r) k)
  refine congrArg _ ?_
  funext a; apply Fin.ext
  match a with
  | ⟨0, _⟩ => show win0_0.index t (0 : Fin 2) * 5000 + 1 * r.val = t.val * 5000 + r.val; rw [e0]; omega
  | ⟨1, _⟩ => show win0_0.index t (1 : Fin 2) * 128 + 1 * k.val = k.val; rw [e1]; omega

/-- The W window reads all of W at every point. -/
theorem iblk_1 (c : Dev nD) (t : Fin cfg0.N) (k q : Fin 128) :
    (iblk0 V c 1 t : Vec Ideal S128x128 .f32) (ix2 k q) = WA V c (ix2 k q) := by
  obtain ⟨-, -, e0, e1, -⟩ := idx_facts t
  show V c main_v16 (((cfg0.win 1).blk t).view.emb (ix2 k q)) = V c main_v16 (ix2 k q)
  refine congrArg _ ?_
  funext a; apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias window reads the whole row at every point. -/
theorem iblk_2 (c : Dev nD) (t : Fin cfg0.N) (q : Fin 128) :
    (iblk0 V c 2 t : Vec Ideal S1x128 .f32) (ix2 (0 : Fin 1) q) = BA V c (ix2 (0 : Fin 1) q) := by
  obtain ⟨-, -, -, -, e0, e1, -⟩ := idx_facts t
  show V c main_v19 (((cfg0.win 2).blk t).view.emb (ix2 (0 : Fin 1) q)) = V c main_v19 (ix2 (0 : Fin 1) q)
  refine congrArg _ ?_
  funext a; apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-- The dense stage of tile t is tile t of the dense stage. -/
theorem pay3_blk (c : Dev nD) (t : Fin cfg0.N) (r : Fin 5000) (q : Fin 128) :
    k0_pay3 (iblk0 V c 0 t) (iblk0 V c 1 t) (iblk0 V c 2 t) (ix2 r q) = HH V c (ix2 (rowOfTile t r) q) :=
  pay3_apply (rowOfTile t) (XA V c) (WA V c) (BA V c) _ _ _ (iblk_0 V c t) (iblk_1 V c t) (iblk_2 V c t) r q

/-! ## The running sums -/

/-- The part of a sum over the 50000 rows that falls in tile s. -/
def tileSum (f : Fin 50000 → EReal) (s : ℕ) : EReal :=
  ∑ r : Fin 5000, (if h : s * 5000 + r.val < 50000 then f ⟨s * 5000 + r.val, h⟩ else 0)

theorem tile1 (c : Dev nD) (t : Fin cfg0.N) (q : Fin 128) :
    ∑ k : Fin 5000, k0_pay3 (iblk0 V c 0 t) (iblk0 V c 1 t) (iblk0 V c 2 t) (ix2 k q)
      = tileSum (fun i => HH V c (ix2 i q)) t.val := by
  unfold tileSum
  refine Finset.sum_congr rfl fun k _ => ?_
  have hlt : t.val * 5000 + k.val < 50000 := (rowOfTile t k).isLt
  rw [pay3_blk, dif_pos hlt]
  rfl

theorem tile2 (c : Dev nD) (t : Fin cfg0.N) (q : Fin 128) :
    ∑ k : Fin 5000, k0_pay3 (iblk0 V c 0 t) (iblk0 V c 1 t) (iblk0 V c 2 t) (ix2 k q)
        * k0_pay3 (iblk0 V c 0 t) (iblk0 V c 1 t) (iblk0 V c 2 t) (ix2 k q)
      = tileSum (fun i => HH V c (ix2 i q) * HH V c (ix2 i q)) t.val := by
  unfold tileSum
  refine Finset.sum_congr rfl fun k _ => ?_
  have hlt : t.val * 5000 + k.val < 50000 := (rowOfTile t k).isLt
  rw [pay3_blk, dif_pos hlt]
  rfl

/-- What the three buffers hold after the first point, -/
theorem outsAt_zero (c : Dev nD) (h : 0 < cfg0.N) :
    outsAt0 V c 0 h = (k0_pay3 (iblk0 V c 0 ⟨0, h⟩) (iblk0 V c 1 ⟨0, h⟩) (iblk0 V c 2 ⟨0, h⟩),
      k0_pay4 (iblk0 V c 0 ⟨0, h⟩) (iblk0 V c 1 ⟨0, h⟩) (iblk0 V c 2 ⟨0, h⟩) (k0_pay1 (F := Ideal)),
      k0_pay5 (iblk0 V c 0 ⟨0, h⟩) (iblk0 V c 1 ⟨0, h⟩) (iblk0 V c 2 ⟨0, h⟩) (k0_pay2 (F := Ideal))) := by
  have e := outsAt0_A V c ⟨0, h⟩ rfl
  rw [out_A_3, out_A_4, out_A_5] at e
  exact e

/-- and after a later point, over what the point before left. -/
theorem outsAt_succ (c : Dev nD) (n : ℕ) (h : n + 1 < cfg0.N) :
    outsAt0 V c (n + 1) h = (k0_pay3 (iblk0 V c 0 ⟨n + 1, h⟩) (iblk0 V c 1 ⟨n + 1, h⟩) (iblk0 V c 2 ⟨n + 1, h⟩),
      k0_pay4 (iblk0 V c 0 ⟨n + 1, h⟩) (iblk0 V c 1 ⟨n + 1, h⟩) (iblk0 V c 2 ⟨n + 1, h⟩)
        (outsAt0 V c n (Nat.lt_of_succ_lt h)).2.1,
      k0_pay5 (iblk0 V c 0 ⟨n + 1, h⟩) (iblk0 V c 1 ⟨n + 1, h⟩) (iblk0 V c 2 ⟨n + 1, h⟩)
        (outsAt0 V c n (Nat.lt_of_succ_lt h)).2.2) := by
  have hN : cfg0.N = 10 := N_0
  have hB : ¬(⟨n + 1, h⟩ : Fin cfg0.N).val % 10 = 0 := by dsimp only; omega
  have e := outsAt0_B V c ⟨n + 1, h⟩ hB
  rw [out_B_3, out_B_4, out_B_5] at e
  exact e

/-- After point n the H buffer holds tile n of the dense stage. -/
theorem out3_eq (c : Dev nD) (t : Fin cfg0.N) :
    (outsAt0 V c t.val t.isLt).1 = k0_pay3 (iblk0 V c 0 t) (iblk0 V c 1 t) (iblk0 V c 2 t) := by
  obtain ⟨n, hn⟩ := t
  cases n with
  | zero => exact congrArg Prod.fst (outsAt_zero V c hn)
  | succ n => exact congrArg Prod.fst (outsAt_succ V c n hn)

/-- After point n the two sum buffers hold, at column q, the sums over the rows of tiles 0 ... n. -/
theorem sums_eq (c : Dev nD) (q : Fin 128) : ∀ (n : ℕ) (h : n < cfg0.N),
    (outsAt0 V c n h).2.1 (ix2 (0 : Fin 1) q) = ∑ s ∈ Finset.range (n + 1), tileSum (fun i => HH V c (ix2 i q)) s
    ∧ (outsAt0 V c n h).2.2 (ix2 (0 : Fin 1) q)
        = ∑ s ∈ Finset.range (n + 1), tileSum (fun i => HH V c (ix2 i q) * HH V c (ix2 i q)) s
  | 0, h => by
    rw [outsAt_zero V c h]
    dsimp only
    rw [pay4_apply, pay5_apply, pay1_apply, pay2_apply]
    simp only [zero_add, Finset.sum_range_one]
    exact ⟨tile1 V c ⟨0, h⟩ q, tile2 V c ⟨0, h⟩ q⟩
  | n + 1, h => by
    obtain ⟨ih1, ih2⟩ := sums_eq c q n (Nat.lt_of_succ_lt h)
    rw [outsAt_succ V c n h]
    dsimp only
    rw [pay4_apply, pay5_apply, ih1, ih2, Finset.sum_range_succ _ (n + 1), Finset.sum_range_succ _ (n + 1)]
    exact ⟨congrArg _ (tile1 V c ⟨n + 1, h⟩ q), congrArg _ (tile2 V c ⟨n + 1, h⟩ q)⟩

/-! ## The arrays after the region -/

/-- column sums and square sums of the dense stage, as rows -/
abbrev S1 (c : Dev nD) : FVec Ideal Cert.Gin.SR .f32 := Cert.Gin.rowOf (Cert.Gin.colSum (HH V c))
abbrev S2 (c : Dev nD) : FVec Ideal Cert.Gin.SR .f32 := Cert.Gin.rowOf (Cert.Gin.colSq (HH V c))

/-- After the last point the sum buffer holds the column sums over all 50000 rows, -/
theorem last1 (c : Dev nD) : (outsAt0 V c t0_9.val t0_9.isLt).2.1 = S1 V c := by
  funext j
  obtain ⟨u, q, rfl⟩ : ∃ (u : Fin 1) (q : Fin 128), j = ix2 u q := ⟨j 0, j 1, eq_ix2 j⟩
  obtain rfl : u = 0 := Subsingleton.elim _ _
  refine ((sums_eq V c q t0_9.val t0_9.isLt).1).trans ?_
  exact Cert.LibBlockSums.sum_blocks 10 5000 50000 rfl fun i => HH V c (ix2 i q)

/-- and the square-sum buffer the sums of squares. -/
theorem last2 (c : Dev nD) : (outsAt0 V c t0_9.val t0_9.isLt).2.2 = S2 V c := by
  funext j
  obtain ⟨u, q, rfl⟩ : ∃ (u : Fin 1) (q : Fin 128), j = ix2 u q := ⟨j 0, j 1, eq_ix2 j⟩
  obtain rfl : u = 0 := Subsingleton.elim _ _
  refine ((sums_eq V c q t0_9.val t0_9.isLt).2).trans ?_
  exact Cert.LibBlockSums.sum_blocks 10 5000 50000 rfl fun i => HH V c (ix2 i q) * HH V c (ix2 i q)

/-- Every point writes back, through the H window, its tile of the dense stage. -/
theorem flushed3_eq (c : Dev nD) (t : Fin cfg0.N) (hf : (cfg0.win 3).flush t = true) :
    (dat0 V c).flushed 3 t = ((cfg0.win 3).blk t).view.read (Elt Ideal) (HH V c) := by
  show (cfg0.win 3).cut (grid0.coords t) ((dat0 V c).after 3 t) = _
  rw [after0_3, out3_eq]
  obtain ⟨-, -, -, -, -, -, e0, e1⟩ := idx_facts t
  funext j
  obtain ⟨r, q, rfl⟩ : ∃ (r : Fin 5000) (q : Fin 128), j = ix2 r q := ⟨j 0, j 1, eq_ix2 j⟩
  show k0_pay3 (iblk0 V c 0 t) (iblk0 V c 1 t) (iblk0 V c 2 t) (ix2 r q)
    = HH V c (((cfg0.win 3).blk t).view.emb (ix2 r q))
  rw [pay3_blk]
  refine congrArg _ ?_
  funext a; apply Fin.ext
  match a with
  | ⟨0, _⟩ => show t.val * 5000 + r.val = win0_3.index t (0 : Fin 2) * 5000 + 1 * r.val; rw [e0]; omega
  | ⟨1, _⟩ => show q.val = win0_3.index t (1 : Fin 2) * 128 + 1 * q.val; rw [e1]; omega

/-- An index of the H array is in point t's block when its row is in tile t. -/
theorem mem_blk3 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v20_0).slice (win0_3.rect t)).set ↔ _
  rw [View.set_slice_whole, Rect.mem_set_unit]
  exact Iff.rfl

/-- The ten tiles cover the H array: row r is in tile r / 5000. -/
theorem cover3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by omega
  obtain ⟨-, -, -, -, -, -, e0, e1⟩ := idx_facts ⟨(i 0).val / 5000, ht⟩
  refine ⟨⟨(i 0).val / 5000, ht⟩, flush0_3 _, ?_⟩
  rw [mem_blk3]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]; dsimp only; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]; omega

/-- So the H array ends holding the dense stage of the arrays the region found. -/
theorem H_eq (c : Dev nD) : (dat0 V c).arrAt 3 cfg0.N = Cert.Gin.dense (V c main_v14) (V c main_v16) (V c main_v19) :=
  (dat0 V c).arrAt_eq_of_cover 3 (HH V c) (flushed3_eq V c) cover3

/-- The one write-back of the sum window, at the last point, writes the column sums: its block is the whole row. -/
theorem flushed4_eq (c : Dev nD) (t : Fin cfg0.N) (hf : (cfg0.win 4).flush t = true) :
    (dat0 V c).flushed 4 t = ((cfg0.win 4).blk t).view.read (Elt Ideal) (S1 V c) := by
  have hN : cfg0.N = 10 := N_0
  have h9 : t.val = 9 := by have := (flush0_4 t).mp hf; have := t.isLt; omega
  obtain rfl : t = t0_9 := Fin.ext h9
  show (cfg0.win 4).cut (grid0.coords t0_9) ((dat0 V c).after 4 t0_9) = _
  rw [after0_4, last1]
  have hz' : (fun a => win0_4.index t0_9 a * main_v20_1.ty.shape.size a) = fun _ => 0 :=
    funext fun a => by fin_cases a <;> decide +kernel
  exact (Memref.read_access_unit_zero (Elt Ideal) main_v20_1 hz' (fun a => by rw [congrFun hz' a]; simp) (S1 V c)).symm

theorem flushed5_eq (c : Dev nD) (t : Fin cfg0.N) (hf : (cfg0.win 5).flush t = true) :
    (dat0 V c).flushed 5 t = ((cfg0.win 5).blk t).view.read (Elt Ideal) (S2 V c) := by
  have hN : cfg0.N = 10 := N_0
  have h9 : t.val = 9 := by have := (flush0_5 t).mp hf; have := t.isLt; omega
  obtain rfl : t = t0_9 := Fin.ext h9
  show (cfg0.win 5).cut (grid0.coords t0_9) ((dat0 V c).after 5 t0_9) = _
  rw [after0_5, last2]
  have hz' : (fun a => win0_5.index t0_9 a * main_v20_2.ty.shape.size a) = fun _ => 0 :=
    funext fun a => by fin_cases a <;> decide +kernel
  exact (Memref.read_access_unit_zero (Elt Ideal) main_v20_2 hz' (fun a => by rw [congrFun hz' a]; simp) (S2 V c)).symm

/-- So the sum array ends holding the column sums of the dense stage, -/
theorem S1_eq (c : Dev nD) : (dat0 V c).arrAt 4 cfg0.N
    = Cert.Gin.rowOf (Cert.Gin.colSum (Cert.Gin.dense (V c main_v14) (V c main_v16) (V c main_v19))) :=
  (dat0 V c).arrAt_eq_of_cover 4 (S1 V c) (flushed4_eq V c) fun i =>
    ⟨t0_9, (flush0_4 t0_9).mpr rfl, by
      show i ∈ ((View.whole main_v20_1).slice (win0_4.rect t0_9)).set
      rw [View.set_slice_whole, Rect.mem_set_unit]
      intro a
      have h0 : (i 0 : Nat) < 1 := (i 0).isLt
      have h1 : (i 1 : Nat) < 128 := (i 1).isLt
      match a with
      | ⟨0, _⟩ =>
        show win0_4.index t0_9 0 * win0_4.size 0 ≤ (i 0 : Nat)
          ∧ (i 0 : Nat) < win0_4.index t0_9 0 * win0_4.size 0 + win0_4.xsize (grid0.coords t0_9) 0
        rw [show win0_4.index t0_9 0 * win0_4.size 0 = 0 from by decide +kernel,
          show win0_4.xsize (grid0.coords t0_9) 0 = 1 from by decide +kernel]; omega
      | ⟨1, _⟩ =>
        show win0_4.index t0_9 1 * win0_4.size 1 ≤ (i 1 : Nat)
          ∧ (i 1 : Nat) < win0_4.index t0_9 1 * win0_4.size 1 + win0_4.xsize (grid0.coords t0_9) 1
        rw [show win0_4.index t0_9 1 * win0_4.size 1 = 0 from by decide +kernel,
          show win0_4.xsize (grid0.coords t0_9) 1 = 128 from by decide +kernel]; omega⟩

/-- and the square-sum array the column sums of its squares. -/
theorem S2_eq (c : Dev nD) : (dat0 V c).arrAt 5 cfg0.N
    = Cert.Gin.rowOf (Cert.Gin.colSq (Cert.Gin.dense (V c main_v14) (V c main_v16) (V c main_v19))) :=
  (dat0 V c).arrAt_eq_of_cover 5 (S2 V c) (flushed5_eq V c) fun i =>
    ⟨t0_9, (flush0_5 t0_9).mpr rfl, by
      show i ∈ ((View.whole main_v20_2).slice (win0_5.rect t0_9)).set
      rw [View.set_slice_whole, Rect.mem_set_unit]
      intro a
      have h0 : (i 0 : Nat) < 1 := (i 0).isLt
      have h1 : (i 1 : Nat) < 128 := (i 1).isLt
      match a with
      | ⟨0, _⟩ =>
        show win0_5.index t0_9 0 * win0_5.size 0 ≤ (i 0 : Nat)
          ∧ (i 0 : Nat) < win0_5.index t0_9 0 * win0_5.size 0 + win0_5.xsize (grid0.coords t0_9) 0
        rw [show win0_5.index t0_9 0 * win0_5.size 0 = 0 from by decide +kernel,
          show win0_5.xsize (grid0.coords t0_9) 0 = 1 from by decide +kernel]; omega
      | ⟨1, _⟩ =>
        show win0_5.index t0_9 1 * win0_5.size 1 ≤ (i 1 : Nat)
          ∧ (i 1 : Nat) < win0_5.index t0_9 1 * win0_5.size 1 + win0_5.xsize (grid0.coords t0_9) 1
        rw [show win0_5.index t0_9 1 * win0_5.size 1 = 0 from by decide +kernel,
          show win0_5.xsize (grid0.coords t0_9) 1 = 128 from by decide +kernel]; omega⟩

end Region

end Cert.KernelIdeal.RegL0

end
-- ==== Proof.RegB1.lean ====
/-
  Region 1 of the network's program: the second dense stage of a layer, on the normalised node features.

  The region runs over ten tiles of 5000 rows. At tile t its body reads rows 5000·t … 5000·t + 4999 of the features H,
  the slope row α, the offset row β, the weights W and the bias row B; it stores the tile's rows of

      Y = max ((H·α + β)·W + B) 0,

  and adds the tile's column sums, of the entries and of their squares, to two carried one-row sums, which the first
  tile starts from zero rows. Row r of Y depends on row r of H alone, so the stored tile is that block of rows of Y. After
  tile n the two carried rows hold, at column q, the sums of Y(r, q) and of Y(r, q)² over the rows r of tiles 0 … n
  (by induction on n: + on the extended reals is associative and commutative with 0 neutral, so nothing is asked of the
  summands, which may be infinite). The tile is written back at every point, the two rows once, after the last tile;
  the ten tiles cover the 50000 rows, each row r under tile r / 5000. So the first result array ends holding Y and the
  two rows end holding Σ_r Y(r, q) and Σ_r Y(r, q)² over all rows.
-/
import proofs.«112967_j35158602285141_1_alg».proof.Proof.Gen.KernelIdeal.Frame
import proofs.«112967_j35158602285141_1_alg».proof.Proof.Spec
import proofs.«112967_j35158602285141_1_alg».proof.Proof.LibRowForms
import proofs.«112967_j35158602285141_1_alg».proof.Proof.LibBlockSums
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx Cert.LibBiasRows Cert.LibRowBlockDot

namespace Cert.KernelIdeal.RegB1

open Cert.KernelIdeal Cert.KernelIdeal.Gen

section AnyFloat

variable {F : FTy → Type} [FloatOps F]

theorem hz : (![0, 0] : Fin 2 → Nat) = fun _ => 0 := funext fun a => by fin_cases a <;> rfl

/-! ## What one point leaves in the three output buffers, as payloads of the point's input blocks

The body stores the rectified dense tile once, through the whole buffer; it stores the two one-row sums once each, the
carried row plus the tile's column sums (of the entries, of their squares). At the first point it first stores zero rows
and reads them back as the carried rows. -/

/-- A later point leaves the rectified dense tile in output 5's buffer. -/
theorem out_B_5 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 : Vec F S5000x128 .f32) (x1 : Vec F S1x128 .f32) (x2 : Vec F S1x128 .f32) (x3 : Vec F S128x128 .f32) (x4 : Vec F S1x128 .f32) (xo6 xo7 : Vec F S1x128 .f32) :
    out1_B_5 c i a1 h1 a2 h2 a3 h3 a4 h4 a5 h5 a6 h6 a7 h7 a8 h8 hc x0 x1 x2 x3 x4 xo6 xo7 = k1_pay4 x0 x1 x2 x3 x4 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  rw [View.canon_unit_zero hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz]

/-- The first point leaves the rectified dense tile in output 5's buffer. -/
theorem out_A_5 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 : Vec F S5000x128 .f32) (x1 : Vec F S1x128 .f32) (x2 : Vec F S1x128 .f32) (x3 : Vec F S128x128 .f32) (x4 : Vec F S1x128 .f32) :
    out1_A_5 c i a1 h1 a2 h2 a3 h3 a4 h4 a5 h5 a6 h6 a7 h7 a8 h8 hc x0 x1 x2 x3 x4 = k1_pay4 x0 x1 x2 x3 x4 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  rw [View.canon_unit_zero hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz]

/-- A later point leaves, in output 6's buffer holding the row xo6, that row plus the tile's column sums. -/
theorem out_B_6 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 : Vec F S5000x128 .f32) (x1 : Vec F S1x128 .f32) (x2 : Vec F S1x128 .f32) (x3 : Vec F S128x128 .f32) (x4 : Vec F S1x128 .f32) (xo6 xo7 : Vec F S1x128 .f32) :
    out1_B_6 c i a1 h1 a2 h2 a3 h3 a4 h4 a5 h5 a6 h6 a7 h7 a8 h8 hc x0 x1 x2 x3 x4 xo6 xo7 = k1_pay5 x0 x1 x2 x3 x4 xo6 := by
  unfold out1_B_6
  rw [View.read_writes_eq_canon _ _ _ (cover1_B_6 c i a1 h1 a2 h2 a3 h3 a4 h4 a5 h5 a6 h6 a7 h7 a8 h8 hc x0 x1 x2 x3 x4 xo6 xo7)]
  unfold kernelRun1_B
  dsimp only
  rw [View.canon_unit_zero hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz, h7.read_unread]

/-- The first point leaves, in output 6's buffer, the zero row plus the tile's column sums. -/
theorem out_A_6 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 : Vec F S5000x128 .f32) (x1 : Vec F S1x128 .f32) (x2 : Vec F S1x128 .f32) (x3 : Vec F S128x128 .f32) (x4 : Vec F S1x128 .f32) :
    out1_A_6 c i a1 h1 a2 h2 a3 h3 a4 h4 a5 h5 a6 h6 a7 h7 a8 h8 hc x0 x1 x2 x3 x4 = k1_pay5 x0 x1 x2 x3 x4 k1_pay2 := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz]

/-- A later point leaves, in output 7's buffer holding the row xo7, that row plus the column sums of the tile's squares. -/
theorem out_B_7 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 : Vec F S5000x128 .f32) (x1 : Vec F S1x128 .f32) (x2 : Vec F S1x128 .f32) (x3 : Vec F S128x128 .f32) (x4 : Vec F S1x128 .f32) (xo6 xo7 : Vec F S1x128 .f32) :
    out1_B_7 c i a1 h1 a2 h2 a3 h3 a4 h4 a5 h5 a6 h6 a7 h7 a8 h8 hc x0 x1 x2 x3 x4 xo6 xo7 = k1_pay1 (k1_pay4 x0 x1 x2 x3 x4) (k1_pay6 xo7) := by
  unfold out1_B_7
  rw [View.read_writes_eq_canon _ _ _ (cover1_B_7 c i a1 h1 a2 h2 a3 h3 a4 h4 a5 h5 a6 h6 a7 h7 a8 h8 hc x0 x1 x2 x3 x4 xo6 xo7)]
  unfold kernelRun1_B
  dsimp only
  sl_unfold_words
  rw [View.canon_unit_zero hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz, h8.read_unread]

/-- The first point leaves, in output 7's buffer, the zero row plus the column sums of the tile's squares. -/
theorem out_A_7 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 : Vec F S5000x128 .f32) (x1 : Vec F S1x128 .f32) (x2 : Vec F S1x128 .f32) (x3 : Vec F S128x128 .f32) (x4 : Vec F S1x128 .f32) :
    out1_A_7 c i a1 h1 a2 h2 a3 h3 a4 h4 a5 h5 a6 h6 a7 h7 a8 h8 hc x0 x1 x2 x3 x4 = k1_pay1 (k1_pay4 x0 x1 x2 x3 x4) (k1_pay6 k1_pay3) := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz]

/-! ## The windows' blocks read at an index

Window 0's block at point t is rows 5000·t … 5000·t + 4999 of its array; windows 1 to 4 are their whole arrays at every
point. -/

variable (V : (c : Dev nD) → (b : Ref sig .tc) → Buf (Elt F) ((c : Thread nD τ).loc b))

theorem index0 (t : Fin cfg1.N) : win1_0.index t 0 = t.val ∧ win1_0.index t 1 = 0 := by
  rcases fin_N1 t with rfl | rfl | rfl | rfl | rfl | rfl | rfl | rfl | rfl | rfl <;> decide

theorem index5 (t : Fin cfg1.N) : win1_5.index t 0 = t.val ∧ win1_5.index t 1 = 0 := by
  rcases fin_N1 t with rfl | rfl | rfl | rfl | rfl | rfl | rfl | rfl | rfl | rfl <;> decide

theorem blk0_read (c : Dev nD) (t : Fin cfg1.N) (a : Fin 5000) (q : Fin 128) (R : Fin 50000) (hR : R.val = t.val * 5000 + a.val) :
    (iblk1 V c 0 t : Vec F S5000x128 .f32) (ix2 a q) = (V c main_v20_0 : Vec F S50000x128 .f32) (ix2 R q) := by
  have hi := index0 t
  unfold iblk1
  rw [View.read_apply]
  show V c main_v20_0 _ = V c main_v20_0 _
  refine congrArg (V c main_v20_0) (funext fun ax => Fin.ext ?_)
  match ax with
  | ⟨0, _⟩ => show win1_0.index t 0 * 5000 + 1 * a.val = R.val; rw [hi.1, hR]; omega
  | ⟨1, _⟩ => show win1_0.index t 1 * 128 + 1 * q.val = q.val; rw [hi.2]; omega

theorem blk1_read (c : Dev nD) (t : Fin cfg1.N) (q : Fin 128) :
    (iblk1 V c 1 t : Vec F S1x128 .f32) (ix2 (0 : Fin 1) q) = (V c main_v36 : Vec F S1x128 .f32) (ix2 (0 : Fin 1) q) := by
  unfold iblk1
  rw [View.read_apply]
  show V c main_v36 _ = V c main_v36 _
  refine congrArg (V c main_v36) (funext fun ax => Fin.ext ?_)
  match ax with
  | ⟨0, _⟩ => rfl
  | ⟨1, _⟩ => show 0 * 128 + 1 * q.val = q.val; omega

theorem blk2_read (c : Dev nD) (t : Fin cfg1.N) (q : Fin 128) :
    (iblk1 V c 2 t : Vec F S1x128 .f32) (ix2 (0 : Fin 1) q) = (V c main_v38 : Vec F S1x128 .f32) (ix2 (0 : Fin 1) q) := by
  unfold iblk1
  rw [View.read_apply]
  show V c main_v38 _ = V c main_v38 _
  refine congrArg (V c main_v38) (funext fun ax => Fin.ext ?_)
  match ax with
  | ⟨0, _⟩ => rfl
  | ⟨1, _⟩ => show 0 * 128 + 1 * q.val = q.val; omega

theorem blk3_read (c : Dev nD) (t : Fin cfg1.N) (k q : Fin 128) :
    (iblk1 V c 3 t : Vec F S128x128 .f32) (ix2 k q) = (V c main_v40 : Vec F S128x128 .f32) (ix2 k q) := by
  unfold iblk1
  rw [View.read_apply]
  show V c main_v40 _ = V c main_v40 _
  refine congrArg (V c main_v40) (funext fun ax => Fin.ext ?_)
  match ax with
  | ⟨0, _⟩ => show 0 * 128 + 1 * k.val = k.val; omega
  | ⟨1, _⟩ => show 0 * 128 + 1 * q.val = q.val; omega

theorem blk4_read (c : Dev nD) (t : Fin cfg1.N) (q : Fin 128) :
    (iblk1 V c 4 t : Vec F S1x128 .f32) (ix2 (0 : Fin 1) q) = (V c main_v43 : Vec F S1x128 .f32) (ix2 (0 : Fin 1) q) := by
  unfold iblk1
  rw [View.read_apply]
  show V c main_v43 _ = V c main_v43 _
  refine congrArg (V c main_v43) (funext fun ax => Fin.ext ?_)
  match ax with
  | ⟨0, _⟩ => rfl
  | ⟨1, _⟩ => show 0 * 128 + 1 * q.val = q.val; omega

/-! ## What the three buffers hold after a point, as payloads of the point's blocks -/

/-- After a point that resets (the first): the tile, and the tile's two sums added to the zero rows. -/
theorem outs_A (c : Dev nD) (n : ℕ) (hn : n < cfg1.N) (h0 : n % 10 = 0) :
    outsAt1 V c n hn = (k1_pay4 (iblk1 V c 0 ⟨n, hn⟩) (iblk1 V c 1 ⟨n, hn⟩) (iblk1 V c 2 ⟨n, hn⟩) (iblk1 V c 3 ⟨n, hn⟩) (iblk1 V c 4 ⟨n, hn⟩),
      k1_pay5 (iblk1 V c 0 ⟨n, hn⟩) (iblk1 V c 1 ⟨n, hn⟩) (iblk1 V c 2 ⟨n, hn⟩) (iblk1 V c 3 ⟨n, hn⟩) (iblk1 V c 4 ⟨n, hn⟩) k1_pay2,
      k1_pay1 (k1_pay4 (iblk1 V c 0 ⟨n, hn⟩) (iblk1 V c 1 ⟨n, hn⟩) (iblk1 V c 2 ⟨n, hn⟩) (iblk1 V c 3 ⟨n, hn⟩) (iblk1 V c 4 ⟨n, hn⟩)) (k1_pay6 k1_pay3)) :=
  (outsAt1_A V c ⟨n, hn⟩ h0).trans (by rw [out_A_5, out_A_6, out_A_7])

/-- After a later point: the tile, and the tile's two sums added to the rows the point before left. -/
theorem outs_B (c : Dev nD) (n : ℕ) (hn : n + 1 < cfg1.N) (h0 : ¬(n + 1) % 10 = 0) :
    outsAt1 V c (n + 1) hn = (k1_pay4 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
      k1_pay5 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 V c n (Nat.lt_of_succ_lt hn)).2.1,
      k1_pay1 (k1_pay4 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)) (k1_pay6 (outsAt1 V c n (Nat.lt_of_succ_lt hn)).2.2)) :=
  (outsAt1_B V c ⟨n + 1, hn⟩ h0).trans (by rw [out_B_5, out_B_6, out_B_7]; rfl)

end AnyFloat

/-! ## The payloads read at an index, at the extended reals -/

/-- Row a of tile n is row 5000·n + a of the array. -/
def row (n : ℕ) (hn : n < 10) (a : Fin 5000) : Fin 50000 := ⟨n * 5000 + a.val, by have := a.isLt; omega⟩

/-- The tile's left factor at (r, c): h·α + β at the tile's row, the two rows broadcast down the tile. -/
theorem lhs_apply (rw_ : Fin 5000 → Fin 50000) (H : FVec Ideal Cert.Gin.SX .f32) (A S : FVec Ideal Cert.Gin.SR .f32)
    (x0 : Vec Ideal S5000x128 .f32) (x1 x2 : Vec Ideal S1x128 .f32)
    (h0 : ∀ r c, x0 (ix2 r c) = H (ix2 (rw_ r) c)) (h1 : ∀ q, x1 (ix2 (0 : Fin 1) q) = A (ix2 (0 : Fin 1) q))
    (h2 : ∀ q, x2 (ix2 (0 : Fin 1) q) = S (ix2 (0 : Fin 1) q))
    (hs0 : S5000x128.ShapeCasts S5000x128) (hs1 : S1x128.ShapeCasts S1x128) (hb : S1x128.Broadcasts S5000x128)
    (hlt : FTy.bf16.bits < FTy.f32.bits) (r : Fin 5000) (c : Fin 128) :
    (truncf .bf16 (addf (mulf (shapeCast S5000x128 x0 hs0) (broadcastTo S5000x128 (shapeCast S1x128 x1 hs1) hb))
        (broadcastTo S5000x128 (shapeCast S1x128 x2 hs1) hb)) hlt : FVec Ideal S5000x128 .bf16) (ix2 r c)
      = Cert.Gin.affine H A S (ix2 (rw_ r) c) := by
  rw [truncf_apply, addf_apply, mulf_apply, broadcastTo_1b_ab_apply, broadcastTo_1b_ab_apply, shapeCast_self x0, shapeCast_self x1,
    shapeCast_self x2, h0, h1, h2, Cert.Gin.affine_ix2]

/-- The stored tile at (r, q) is the dense stage of the normalised features at the tile's row. -/
theorem pay4_apply (rw_ : Fin 5000 → Fin 50000) (H : FVec Ideal Cert.Gin.SX .f32) (A S : FVec Ideal Cert.Gin.SR .f32)
    (W : FVec Ideal Cert.Gin.SW .f32) (B : FVec Ideal Cert.Gin.SR .f32)
    (x0 : Vec Ideal S5000x128 .f32) (x1 x2 : Vec Ideal S1x128 .f32) (x3 : Vec Ideal S128x128 .f32) (x4 : Vec Ideal S1x128 .f32)
    (h0 : ∀ r c, x0 (ix2 r c) = H (ix2 (rw_ r) c)) (h1 : ∀ q, x1 (ix2 (0 : Fin 1) q) = A (ix2 (0 : Fin 1) q))
    (h2 : ∀ q, x2 (ix2 (0 : Fin 1) q) = S (ix2 (0 : Fin 1) q)) (h3 : ∀ c q, x3 (ix2 c q) = W (ix2 c q))
    (h4 : ∀ q, x4 (ix2 (0 : Fin 1) q) = B (ix2 (0 : Fin 1) q)) (r : Fin 5000) (q : Fin 128) :
    (k1_pay4 x0 x1 x2 x3 x4 : FVec Ideal S5000x128 .f32) (ix2 r q) = Cert.Gin.dense (Cert.Gin.affine H A S) W B (ix2 (rw_ r) q) := by
  unfold k1_pay4 Cert.Gin.dense
  rw [biasRelu_ix2, maximumf_apply, addf_apply, broadcast_apply, broadcastTo_1b_ab_apply, shapeCast_self x4, h4]
  have key := matmul_rowBlock_apply none none (Cert.Gin.affine H A S) W _ _ rw_
    (lhs_apply rw_ H A S x0 x1 x2 h0 h1 h2 shapeCasts_S5000x128_S5000x128 shapeCasts_S1x128_S1x128 broadcasts_S1x128_S5000x128 bitsLt_bf16_f32)
    (fun c b => show (truncf .bf16 (shapeCast S128x128 x3 shapeCasts_S128x128_S128x128) bitsLt_bf16_f32 : FVec Ideal S128x128 .bf16) (ix2 c b) = W (ix2 c b) by
      rw [truncf_apply, shapeCast_self, h3]) r q
  exact congrArg (fun z : EReal => max (z + B (ix2 (0 : Fin 1) q)) zero32) key

/-- A sum down the columns of a tile, stored as a row, at (u, q). -/
theorem colsum_apply (v : FVec Ideal S5000x128 .f32) (h : S5000x128.Reduces [(0 : Fin 2)] S128) (hφ : FKind.Formats FTy.f32)
    (hacc : (0x00000000#32 : BitVec FTy.f32.bits) = FKind.add.neutral FTy.f32 hφ) (hc : S128.ShapeCasts S1x128) (u : Fin 1) (q : Fin 128) :
    shapeCast S1x128 (multiReduction .add [(0 : Fin 2)] S128 v 0x00000000#32 h hφ hacc) hc (ix2 u q) = ∑ k : Fin 5000, v (ix2 k q) :=
  (shapeCast_a_1a_apply _ hc u q).trans (multiReduction_add_col v _ h hφ hacc q)

/-- The column-sum row the body stores: the carried row plus the tile's column sums. -/
theorem pay5_apply (x0 : Vec Ideal S5000x128 .f32) (x1 x2 : Vec Ideal S1x128 .f32) (x3 : Vec Ideal S128x128 .f32) (x4 xo : Vec Ideal S1x128 .f32)
    (u : Fin 1) (q : Fin 128) :
    (k1_pay5 x0 x1 x2 x3 x4 xo : FVec Ideal S1x128 .f32) (ix2 u q)
      = xo (ix2 u q) + ∑ k : Fin 5000, (k1_pay4 x0 x1 x2 x3 x4 : FVec Ideal S5000x128 .f32) (ix2 k q) := by
  unfold k1_pay5
  rw [addf_apply, shapeCast_self xo]
  exact congrArg (fun z : EReal => xo (ix2 u q) + z) (colsum_apply _ _ _ _ _ u q)

/-- The square-sum row the body stores: the carried row plus the column sums of the tile's squares. -/
theorem pay1_apply (v23 : FVec Ideal S5000x128 .f32) (v32 : FVec Ideal S1x128 .f32) (u : Fin 1) (q : Fin 128) :
    (k1_pay1 v23 v32 : FVec Ideal S1x128 .f32) (ix2 u q) = v32 (ix2 u q) + ∑ k : Fin 5000, v23 (ix2 k q) * v23 (ix2 k q) := by
  unfold k1_pay1
  rw [addf_apply]
  exact congrArg (fun z : EReal => v32 (ix2 u q) + z) (colsum_apply _ _ _ _ _ u q)

/-- The rows the reset stores read zero. -/
theorem pay2_apply (j : S1x128.Idx) : (k1_pay2 : FVec Ideal S1x128 .f32) j = 0 := Ideal.ofBits_zero_f32
theorem pay3_apply (j : S1x128.Idx) : (k1_pay3 : FVec Ideal S1x128 .f32) j = 0 := Ideal.ofBits_zero_f32

/-! ## Sums over the first tiles -/

/-- The sum of f over the rows of the first n tiles. -/
def psum (f : Fin 50000 → EReal) (n : ℕ) : EReal :=
  ∑ k ∈ Finset.range n, ∑ r : Fin 5000, (if h : k * 5000 + r.val < 50000 then f ⟨k * 5000 + r.val, h⟩ else 0)

theorem psum_zero (f : Fin 50000 → EReal) : psum f 0 = 0 := Finset.sum_range_zero _

theorem psum_succ (f : Fin 50000 → EReal) (n : ℕ) (hn : n < 10) : psum f (n + 1) = psum f n + ∑ a : Fin 5000, f (row n hn a) := by
  unfold psum
  rw [Finset.sum_range_succ]
  exact congrArg (fun z : EReal => _ + z) (Finset.sum_congr rfl fun a _ => dif_pos (row n hn a).isLt)

theorem psum_ten (f : Fin 50000 → EReal) : psum f 10 = ∑ r : Fin 50000, f r := Cert.LibBlockSums.sum_blocks 10 5000 50000 rfl f

/-! ## The invariant of the run of ten points, at the extended reals -/

section Value

variable (V : (c : Dev nD) → (b : Ref sig .tc) → Buf (Elt Ideal) ((c : Thread nD τ).loc b))

/-- The stage's whole-array value on the arrays the region finds: the rectified dense stage of the normalised features. -/
def Yv (c : Dev nD) : FVec Ideal Cert.Gin.SX .f32 :=
  Cert.Gin.dense (Cert.Gin.affine (V c main_v20_0) (V c main_v36) (V c main_v38)) (V c main_v40) (V c main_v43)

/-- The tile the body stores at point t is rows 5000·t … of the stage's value. -/
theorem tile_eq (c : Dev nD) (t : Fin cfg1.N) (ht : t.val < 10) (a : Fin 5000) (q : Fin 128) :
    (k1_pay4 (iblk1 V c 0 t) (iblk1 V c 1 t) (iblk1 V c 2 t) (iblk1 V c 3 t) (iblk1 V c 4 t) : FVec Ideal S5000x128 .f32) (ix2 a q)
      = Yv V c (ix2 (row t.val ht a) q) :=
  pay4_apply (row t.val ht) (V c main_v20_0) (V c main_v36) (V c main_v38) (V c main_v40) (V c main_v43)
    (iblk1 V c 0 t) (iblk1 V c 1 t) (iblk1 V c 2 t) (iblk1 V c 3 t) (iblk1 V c 4 t)
    (fun r k => blk0_read V c t r k (row t.val ht r) rfl) (blk1_read V c t) (blk2_read V c t) (blk3_read V c t)
    (blk4_read V c t) a q

/-- After point n: output 5's buffer holds tile n of the stage's value, output 6's the column sums over the rows of
    tiles 0 … n, output 7's the column sums of the squares over the same rows. By induction on the point: the first
    point adds its tile's sums to zero rows, a later one to the carried rows. -/
theorem outs_inv (c : Dev nD) : ∀ (n : ℕ) (hn : n < cfg1.N) (h10 : n < 10),
    (∀ a q, (outsAt1 V c n hn).1 (ix2 a q) = Yv V c (ix2 (row n h10 a) q))
    ∧ (∀ q, (outsAt1 V c n hn).2.1 (ix2 (0 : Fin 1) q) = psum (fun r => Yv V c (ix2 r q)) (n + 1))
    ∧ (∀ q, (outsAt1 V c n hn).2.2 (ix2 (0 : Fin 1) q) = psum (fun r => Yv V c (ix2 r q) * Yv V c (ix2 r q)) (n + 1))
  | 0, hn, h10 => by
    rw [outs_A V c 0 hn rfl]
    refine ⟨fun a q => tile_eq V c ⟨0, hn⟩ h10 a q, fun q => ?_, fun q => ?_⟩
    · show (k1_pay5 _ _ _ _ _ _ : FVec Ideal S1x128 .f32) (ix2 (0 : Fin 1) q) = _
      rw [pay5_apply, pay2_apply, zero_add, psum_succ _ 0 h10, psum_zero, zero_add]
      exact Finset.sum_congr rfl fun a _ => tile_eq V c ⟨0, hn⟩ h10 a q
    · show (k1_pay1 _ _ : FVec Ideal S1x128 .f32) (ix2 (0 : Fin 1) q) = _
      rw [pay1_apply, psum_succ _ 0 h10, psum_zero, zero_add]
      show (shapeCast S1x128 k1_pay3 _ : FVec Ideal S1x128 .f32) (ix2 (0 : Fin 1) q) + _ = _
      rw [shapeCast_self, pay3_apply, zero_add]
      exact Finset.sum_congr rfl fun a _ => by rw [tile_eq V c ⟨0, hn⟩ h10 a q]
  | n + 1, hn, h10 => by
    obtain ⟨-, ih6, ih7⟩ := outs_inv c n (Nat.lt_of_succ_lt hn) (by omega)
    rw [outs_B V c n hn (by omega)]
    refine ⟨fun a q => tile_eq V c ⟨n + 1, hn⟩ h10 a q, fun q => ?_, fun q => ?_⟩
    · show (k1_pay5 _ _ _ _ _ _ : FVec Ideal S1x128 .f32) (ix2 (0 : Fin 1) q) = _
      rw [pay5_apply, psum_succ _ (n + 1) h10, ih6 q]
      exact congrArg (fun z : EReal => _ + z) (Finset.sum_congr rfl fun a _ => tile_eq V c ⟨n + 1, hn⟩ h10 a q)
    · show (k1_pay1 _ _ : FVec Ideal S1x128 .f32) (ix2 (0 : Fin 1) q) = _
      rw [pay1_apply, psum_succ _ (n + 1) h10]
      show (shapeCast S1x128 (outsAt1 V c n _).2.2 _ : FVec Ideal S1x128 .f32) (ix2 (0 : Fin 1) q) + _ = _
      rw [shapeCast_self, ih7 q]
      exact congrArg (fun z : EReal => _ + z) (Finset.sum_congr rfl fun a _ => by rw [tile_eq V c ⟨n + 1, hn⟩ h10 a q])

end Value

/-! ## The three result arrays after the run -/

section Final

variable (V : (c : Dev nD) → (b : Ref sig .tc) → Buf (Elt Ideal) ((c : Thread nD τ).loc b))

theorem index6 (t : Fin cfg1.N) : win1_6.index t 0 = 0 ∧ win1_6.index t 1 = 0 := ⟨rfl, rfl⟩
theorem index7 (t : Fin cfg1.N) : win1_7.index t 0 = 0 ∧ win1_7.index t 1 = 0 := ⟨rfl, rfl⟩

/-- What output 5's write-back at point t writes is tile t of the stage's value. -/
theorem flushed5_eq (c : Dev nD) (t : Fin cfg1.N) (hf : (cfg1.win 5).flush t = true) :
    (dat1 V c).flushed 5 t = ((cfg1.win 5).blk t).view.read (Elt Ideal) (Yv V c) := by
  have h10 : t.val < 10 := lt_of_lt_of_eq t.isLt (show cfg1.N = 10 from N_1)
  have hi := index5 t
  show (cfg1.win 5).cut (cfg1.grid.coords t) ((dat1 V c).after 5 t) = _
  rw [after1_5]
  funext j
  obtain ⟨a, q, rfl⟩ : ∃ (a : Fin 5000) (q : Fin 128), j = ix2 a q := ⟨j 0, j 1, eq_ix2 j⟩
  rw [View.read_apply]
  show (outsAt1 V c t.val t.isLt).1 (ix2 a q) = Yv V c _
  rw [(outs_inv V c t.val t.isLt h10).1 a q]
  refine congrArg (Yv V c) (funext fun ax => Fin.ext ?_)
  match ax with
  | ⟨0, _⟩ => show t.val * 5000 + a.val = win1_5.index t 0 * 5000 + 1 * a.val; rw [hi.1]; omega
  | ⟨1, _⟩ => show q.val = win1_5.index t 1 * 128 + 1 * q.val; rw [hi.2]; omega

/-- Output 5's array ends holding the stage's value: row r is written back by point r / 5000. -/
theorem H_eq (c : Dev nD) : (dat1 V c).arrAt 5 cfg1.N = Yv V c :=
  (dat1 V c).arrAt_eq_of_cover 5 (Yv V c) (flushed5_eq V c) fun i => by
    have h0 : (i 0 : Nat) < 50000 := (i 0).isLt
    have h1 : (i 1 : Nat) < 128 := (i 1).isLt
    have hlt : (i 0 : Nat) / 5000 < cfg1.N := by rw [show cfg1.N = 10 from N_1]; omega
    have hi := index5 ⟨(i 0 : Nat) / 5000, hlt⟩
    refine ⟨⟨(i 0 : Nat) / 5000, hlt⟩, flush1_5 _, ?_⟩
    show i ∈ ((View.whole main_v44_0).slice (win1_5.rect ⟨(i 0 : Nat) / 5000, hlt⟩)).set
    rw [View.set_slice_whole, Rect.mem_set_unit]
    intro a
    match a with
    | ⟨0, _⟩ =>
      show win1_5.index ⟨(i 0 : Nat) / 5000, hlt⟩ 0 * 5000 ≤ (i 0 : Nat) ∧ (i 0 : Nat) < win1_5.index ⟨(i 0 : Nat) / 5000, hlt⟩ 0 * 5000 + 5000
      rw [hi.1]; dsimp only; omega
    | ⟨1, _⟩ =>
      show win1_5.index ⟨(i 0 : Nat) / 5000, hlt⟩ 1 * 128 ≤ (i 1 : Nat) ∧ (i 1 : Nat) < win1_5.index ⟨(i 0 : Nat) / 5000, hlt⟩ 1 * 128 + 128
      rw [hi.2]; omega

/-- What output 6's one write-back, at the last point, writes: the column sums of the stage's value, as a row. -/
theorem flushed6_eq (c : Dev nD) (t : Fin cfg1.N) (hf : (cfg1.win 6).flush t = true) :
    (dat1 V c).flushed 6 t = ((cfg1.win 6).blk t).view.read (Elt Ideal) (Cert.Gin.rowOf (Cert.Gin.colSum (Yv V c))) := by
  have h10 : t.val < 10 := lt_of_lt_of_eq t.isLt (show cfg1.N = 10 from N_1)
  have h9 : t.val + 1 = 10 := by have := (flush1_6 t).mp hf; omega
  have key : ∀ q : Fin 128, (outsAt1 V c t.val t.isLt).2.1 (ix2 (0 : Fin 1) q) = Cert.Gin.colSum (Yv V c) q := fun q => by
    rw [(outs_inv V c t.val t.isLt h10).2.1 q, h9, psum_ten]
    unfold Cert.Gin.colSum
    rfl
  generalize Cert.Gin.colSum (Yv V c) = g at key ⊢
  show (cfg1.win 6).cut (cfg1.grid.coords t) ((dat1 V c).after 6 t) = _
  rw [after1_6]
  funext j
  obtain ⟨u, q, rfl⟩ : ∃ (u : Fin 1) (q : Fin 128), j = ix2 u q := ⟨j 0, j 1, eq_ix2 j⟩
  obtain rfl : u = 0 := Subsingleton.elim _ _
  rw [View.read_apply]
  show (outsAt1 V c t.val t.isLt).2.1 (ix2 (0 : Fin 1) q) = Cert.Gin.rowOf g _
  rw [key q]
  refine (Cert.Gin.rowOf_ix2 g q).symm.trans (congrArg (Cert.Gin.rowOf g) (funext fun ax => Fin.ext ?_))
  match ax with
  | ⟨0, _⟩ => rfl
  | ⟨1, _⟩ => show q.val = 0 * 128 + 1 * q.val; omega

/-- Output 6's array ends holding the column sums of the stage's value. -/
theorem S1_eq (c : Dev nD) : (dat1 V c).arrAt 6 cfg1.N = Cert.Gin.rowOf (Cert.Gin.colSum (Yv V c)) :=
  (dat1 V c).arrAt_eq_of_cover 6 (Cert.Gin.rowOf (Cert.Gin.colSum (Yv V c))) (flushed6_eq V c) fun i => by
    have h0 : (i 0 : Nat) < 1 := (i 0).isLt
    have h1 : (i 1 : Nat) < 128 := (i 1).isLt
    refine ⟨t1_9, (flush1_6 t1_9).mpr rfl, ?_⟩
    show i ∈ ((View.whole main_v44_1).slice (win1_6.rect t1_9)).set
    rw [View.set_slice_whole, Rect.mem_set_unit]
    intro a
    match a with
    | ⟨0, _⟩ => show 0 * 1 ≤ (i 0 : Nat) ∧ (i 0 : Nat) < 0 * 1 + 1; omega
    | ⟨1, _⟩ => show 0 * 128 ≤ (i 1 : Nat) ∧ (i 1 : Nat) < 0 * 128 + 128; omega

/-- What output 7's one write-back, at the last point, writes: the column sums of the squares, as a row. -/
theorem flushed7_eq (c : Dev nD) (t : Fin cfg1.N) (hf : (cfg1.win 7).flush t = true) :
    (dat1 V c).flushed 7 t = ((cfg1.win 7).blk t).view.read (Elt Ideal) (Cert.Gin.rowOf (Cert.Gin.colSq (Yv V c))) := by
  have h10 : t.val < 10 := lt_of_lt_of_eq t.isLt (show cfg1.N = 10 from N_1)
  have h9 : t.val + 1 = 10 := by have := (flush1_7 t).mp hf; omega
  have key : ∀ q : Fin 128, (outsAt1 V c t.val t.isLt).2.2 (ix2 (0 : Fin 1) q) = Cert.Gin.colSq (Yv V c) q := fun q => by
    rw [(outs_inv V c t.val t.isLt h10).2.2 q, h9, psum_ten]
    unfold Cert.Gin.colSq
    rfl
  generalize Cert.Gin.colSq (Yv V c) = g at key ⊢
  show (cfg1.win 7).cut (cfg1.grid.coords t) ((dat1 V c).after 7 t) = _
  rw [after1_7]
  funext j
  obtain ⟨u, q, rfl⟩ : ∃ (u : Fin 1) (q : Fin 128), j = ix2 u q := ⟨j 0, j 1, eq_ix2 j⟩
  obtain rfl : u = 0 := Subsingleton.elim _ _
  rw [View.read_apply]
  show (outsAt1 V c t.val t.isLt).2.2 (ix2 (0 : Fin 1) q) = Cert.Gin.rowOf g _
  rw [key q]
  refine (Cert.Gin.rowOf_ix2 g q).symm.trans (congrArg (Cert.Gin.rowOf g) (funext fun ax => Fin.ext ?_))
  match ax with
  | ⟨0, _⟩ => rfl
  | ⟨1, _⟩ => show q.val = 0 * 128 + 1 * q.val; omega

/-- Output 7's array ends holding the column sums of the squares of the stage's value. -/
theorem S2_eq (c : Dev nD) : (dat1 V c).arrAt 7 cfg1.N = Cert.Gin.rowOf (Cert.Gin.colSq (Yv V c)) :=
  (dat1 V c).arrAt_eq_of_cover 7 (Cert.Gin.rowOf (Cert.Gin.colSq (Yv V c))) (flushed7_eq V c) fun i => by
    have h0 : (i 0 : Nat) < 1 := (i 0).isLt
    have h1 : (i 1 : Nat) < 128 := (i 1).isLt
    refine ⟨t1_9, (flush1_7 t1_9).mpr rfl, ?_⟩
    show i ∈ ((View.whole main_v44_2).slice (win1_7.rect t1_9)).set
    rw [View.set_slice_whole, Rect.mem_set_unit]
    intro a
    match a with
    | ⟨0, _⟩ => show 0 * 1 ≤ (i 0 : Nat) ∧ (i 0 : Nat) < 0 * 1 + 1; omega
    | ⟨1, _⟩ => show 0 * 128 ≤ (i 1 : Nat) ∧ (i 1 : Nat) < 0 * 128 + 128; omega

/-- The arrays the region reads are these buffers. -/
theorem arr0 (c : Dev nD) : V c (Pipeline.arrRef spec1 0) = V c main_v20_0 := rfl
theorem arr1 (c : Dev nD) : V c (Pipeline.arrRef spec1 1) = V c main_v36 := rfl
theorem arr2 (c : Dev nD) : V c (Pipeline.arrRef spec1 2) = V c main_v38 := rfl
theorem arr3 (c : Dev nD) : V c (Pipeline.arrRef spec1 3) = V c main_v40 := rfl
theorem arr4 (c : Dev nD) : V c (Pipeline.arrRef spec1 4) = V c main_v43 := rfl

end Final

end Cert.KernelIdeal.RegB1
end
-- ==== Proof.RegC2.lean ====
/-
  The value of the normalise-and-rectify region 2 of the graph network: its output array after the run.

  The region walks the 50000 rows of a stage's output H in 10 tiles of 5000 rows. At tile t it reads rows
  5000·t … 5000·t + 4999 of H and the two rows α and β (the same at every tile), and writes back, to the same rows of
  its output, max (h·α + β) 0 entry by entry, α and β broadcast down the tile. Entry (r, q) of that tile therefore is
  entry (5000·t + r, q) of the whole-array function  affineRelu H α β.  The ten tiles cover the 50000 rows (row r
  lies in tile r / 5000), so the output array ends holding  affineRelu H α β.
-/
import proofs.«112967_j35158602285141_1_alg».proof.Proof.Gen.KernelIdeal.Frame
import proofs.«112967_j35158602285141_1_alg».proof.Proof.Spec
import Idealize.ShloMosaic.Lib.Pipeline.Value

set_option maxRecDepth 16384

noncomputable section

namespace Cert.KernelIdeal.RegC2

open Cert.KernelIdeal Cert.KernelIdeal.Gen Idealize.ShloMosaic Idealize.ShloMosaic.TcCoe Idealize.SL.Sem
open Idealize.ShloMosaic.Pipeline (Dat)
open Idealize.ShloMosaic.ValueIdx Cert.LibBiasRows

/-! ## A tile of rows of the whole-array function -/

/-- max (x·a + b) 0 on a tile of rows `x` of `H` (any choice of rows, given by `row`), the rows `a` and `b` broadcast
    down the tile, through the identity casts a tiled program prints, is that tile of rows of `affineRelu H A S`. -/
theorem affineRelu_rows (row : Fin 5000 → Fin 50000) (H : FVec Ideal Cert.Gin.SX .f32) (A S : FVec Ideal Cert.Gin.SR .f32)
    (x : FVec Ideal ⟨2, ![5000, 128]⟩ .f32) (a b : FVec Ideal ⟨2, ![1, 128]⟩ .f32)
    (hx : ∀ r q, x (ix2 r q) = H (ix2 (row r) q))
    (ha : ∀ q, a (ix2 (0 : Fin 1) q) = A (ix2 (0 : Fin 1) q)) (hb : ∀ q, b (ix2 (0 : Fin 1) q) = S (ix2 (0 : Fin 1) q))
    (hs : (⟨2, ![5000, 128]⟩ : Shape).ShapeCasts ⟨2, ![5000, 128]⟩) (hs' : (⟨2, ![1, 128]⟩ : Shape).ShapeCasts ⟨2, ![1, 128]⟩)
    (hbc : (⟨2, ![1, 128]⟩ : Shape).Broadcasts ⟨2, ![5000, 128]⟩)
    (j : (⟨2, ![5000, 128]⟩ : Shape).Idx) (i : (⟨2, ![50000, 128]⟩ : Shape).Idx)
    (h0 : (i 0).val = (row (j 0)).val) (h1 : (i 1).val = (j 1).val) :
    maximumf (addf (mulf (shapeCast ⟨2, ![5000, 128]⟩ x hs) (broadcastTo ⟨2, ![5000, 128]⟩ (shapeCast ⟨2, ![1, 128]⟩ a hs') hbc))
          (broadcastTo ⟨2, ![5000, 128]⟩ (shapeCast ⟨2, ![1, 128]⟩ b hs') hbc))
        (broadcast ⟨2, ![5000, 128]⟩ (Scalar.ofBits (F := Ideal) .f32 0x00000000#32)) j
      = Cert.Gin.affineRelu H A S i := by
  obtain ⟨p, q, rfl⟩ : ∃ (p : Fin 5000) (q : Fin 128), j = ix2 p q := ⟨j 0, j 1, eq_ix2 j⟩
  obtain rfl : i = ix2 (row p) q := by
    rw [eq_ix2 i]; exact congrArg₂ ix2 (Fin.ext h0) (Fin.ext h1)
  rw [Cert.Gin.affineRelu_ix2, maximumf_apply, addf_apply, mulf_apply, broadcast_apply, shapeCast_self x hs,
    broadcastTo_1b_ab_apply, broadcastTo_1b_ab_apply, shapeCast_self a hs', shapeCast_self b hs', hx, ha, hb]
  rfl

/-! ## The region's tiles -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at tile `t` the block of H and the output block are the `t`-th
    blocks of rows, and the two rows are read at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of tile `t` is row 5000·t + p of the array. -/
def rowAt (t : Fin cfg2.N) (p : Fin 5000) : Fin 50000 :=
  ⟨5000 * t.val + p.val, by have hN : cfg2.N = 10 := N_2; have := t.isLt; have := p.isLt; omega⟩

/-- The block of H at tile `t` is rows 5000·t … of H. -/
theorem iblk_H (c : Dev nD) (t : Fin cfg2.N) (p : Fin 5000) (q : Fin 128) :
    (iblk2 V c 0 t : Vec Ideal S5000x128 .f32) (ix2 p q) = (V c main_v44_0 : S50000x128.Idx → EReal) (ix2 (rowAt t p) q) := by
  obtain ⟨e0, e1, -, -, -, -, -, -⟩ := idx_facts t
  unfold iblk2
  rw [View.read_apply]
  show V c main_v44_0 _ = V c main_v44_0 _
  refine congrArg _ ?_
  funext ax
  apply Fin.ext
  match ax with
  | ⟨0, _⟩ => show win2_0.index t (0 : Fin 2) * 5000 + 1 * p.val = 5000 * t.val + p.val; omega
  | ⟨1, _⟩ => show win2_0.index t (1 : Fin 2) * 128 + 1 * q.val = q.val; omega

/-- The block of α at every tile is α. -/
theorem iblk_A (c : Dev nD) (t : Fin cfg2.N) (q : Fin 128) :
    (iblk2 V c 1 t : Vec Ideal S1x128 .f32) (ix2 (0 : Fin 1) q) = (V c main_v60 : S1x128.Idx → EReal) (ix2 (0 : Fin 1) q) := by
  obtain ⟨-, -, e2, e3, -, -, -, -⟩ := idx_facts t
  unfold iblk2
  rw [View.read_apply]
  show V c main_v60 _ = V c main_v60 _
  refine congrArg _ ?_
  funext ax
  apply Fin.ext
  match ax with
  | ⟨0, _⟩ => show win2_1.index t (0 : Fin 2) * 1 + 1 * 0 = 0; omega
  | ⟨1, _⟩ => show win2_1.index t (1 : Fin 2) * 128 + 1 * q.val = q.val; omega

/-- The block of β at every tile is β. -/
theorem iblk_S (c : Dev nD) (t : Fin cfg2.N) (q : Fin 128) :
    (iblk2 V c 2 t : Vec Ideal S1x128 .f32) (ix2 (0 : Fin 1) q) = (V c main_v62 : S1x128.Idx → EReal) (ix2 (0 : Fin 1) q) := by
  obtain ⟨-, -, -, -, e4, e5, -, -⟩ := idx_facts t
  unfold iblk2
  rw [View.read_apply]
  show V c main_v62 _ = V c main_v62 _
  refine congrArg _ ?_
  funext ax
  apply Fin.ext
  match ax with
  | ⟨0, _⟩ => show win2_2.index t (0 : Fin 2) * 1 + 1 * 0 = 0; omega
  | ⟨1, _⟩ => show win2_2.index t (1 : Fin 2) * 128 + 1 * q.val = q.val; omega

/-- What tile `t` writes back is block `t` of `affineRelu H α β`. -/
theorem flushed_eq (c : Dev nD) (t : Fin cfg2.N) :
    (dat2 (F := Ideal) V c).flushed 3 t
      = ((cfg2.win 3).blk t).view.read (Elt Ideal) (Cert.Gin.affineRelu (V c main_v44_0) (V c main_v60) (V c main_v62)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz]
  obtain ⟨-, -, -, -, -, -, e6, e7⟩ := idx_facts t
  funext j
  show k2_pay1 (iblk2 V c 0 t) (iblk2 V c 1 t) (iblk2 V c 2 t) j
    = Cert.Gin.affineRelu (V c main_v44_0) (V c main_v60) (V c main_v62) (((cfg2.win 3).blk t).view.emb j)
  refine affineRelu_rows (rowAt t) _ _ _ _ _ _ (iblk_H V c t) (iblk_A V c t) (iblk_S V c t) _ _ _ j _ ?_ ?_
  · show win2_3.index t (0 : Fin 2) * 5000 + 1 * (j 0).val = 5000 * t.val + (j 0).val; omega
  · show win2_3.index t (1 : Fin 2) * 128 + 1 * (j 1).val = (j 1).val; omega

/-! ## The tiles cover the array -/

/-- An index of the array is in tile `t`'s block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v63).slice (win2_3.rect t)).set ↔ _
  rw [View.set_slice_whole, Rect.mem_set_unit]
  exact Iff.rfl

/-- Row r lies in tile r / 5000. -/
theorem cover (i : S50000x128.Idx) :
    ∃ t : Fin cfg2.N, (cfg2.win 3).flush t = true ∧ i ∈ ((cfg2.win 3).blk t).view.set := by
  have hN : cfg2.N = 10 := N_2
  have hi0 : (i 0).val < 50000 := (i 0).isLt
  have hi1 : (i 1).val < 128 := (i 1).isLt
  have ht : (i 0).val / 5000 < cfg2.N := by omega
  obtain ⟨-, -, -, -, -, -, e6, e7⟩ := idx_facts ⟨(i 0).val / 5000, ht⟩
  have e6' : win2_3.index ⟨(i 0).val / 5000, ht⟩ (0 : Fin 2) = (i 0).val / 5000 := e6
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    omega

/-! ## The output array after the run -/

/-- The region's output array ends holding max (H·α + β) 0, H, α and β its three input arrays as the region finds them. -/
theorem out_eq (c : Dev nD) :
    (dat2 (F := Ideal) V c).arrAt 3 cfg2.N = Cert.Gin.affineRelu (V c main_v44_0) (V c main_v60) (V c main_v62) :=
  (dat2 V c).arrAt_eq_of_cover 3 _ (fun t _ => flushed_eq V c t) cover

/-- The three input arrays are the windows' arrays. -/
theorem arr_eq : Pipeline.arrRef spec2 0 = main_v44_0 ∧ Pipeline.arrRef spec2 1 = main_v60 ∧ Pipeline.arrRef spec2 2 = main_v62
    ∧ Pipeline.arrRef spec2 3 = main_v63 := ⟨rfl, rfl, rfl, rfl⟩

end Cert.KernelIdeal.RegC2

end
-- ==== Proof.KChainL0.lean ====
/-
  Layer 0 of the run. From the buffer contents at the layer's first boundary, where the features' buffer holds X,
  through the three stretches of host operations and the three regions: the first stage's region leaves
  H₁ = dense (X aggregated over the edges) W₁ b₁ and its two column sums, the next stretch makes of the sums the
  slope and offset rows of H₁, the second stage's region leaves H₂ = dense (H₁·α₁ + β₁) W₂ b₂ and its sums, the
  next stretch the rows of H₂, and the last region max (H₂·α₂ + β₂) 0: the specification's layer on X, in the
  buffer the next layer reads.
-/
import proofs.«112967_j35158602285141_1_alg».proof.Proof.KChainKeep
import proofs.«112967_j35158602285141_1_alg».proof.Proof.RegL0
import proofs.«112967_j35158602285141_1_alg».proof.Proof.RegB1
import proofs.«112967_j35158602285141_1_alg».proof.Proof.RegC2

set_option maxRecDepth 16384

noncomputable section

namespace Cert.KernelIdeal.KChain

open Idealize.ShloMosaic Idealize.ShloMosaic.TcCoe Idealize.ShloMosaic.Tactic
open Idealize.SL.Sem
open Cert.KernelIdeal Cert.KernelIdeal.Gen Cert.Gin

variable (m : (ℓ : Loc nD τ sig) → Buf (Elt Ideal) ℓ) (ρ : Dev nD → PrngReg) (c : Dev nD)

set_option maxHeartbeats 2000000 in
/-- The first stage's region: its output and the two column sums, at the region's exit. -/
theorem l0_stage1 (X : FArr S50000x128) (hX : W0 m ρ c (Proc.devRef .tc main_arg0) = X) :
    W2 m ρ c (Proc.devRef .tc main_v20_0) = (dense (aggK X (m ((c : Thread nD τ).loc main_arg2))) (sliceWK 0 (m ((c : Thread nD τ).loc main_arg3))) (rowK 0 (m ((c : Thread nD τ).loc main_arg4))))
    ∧ W2 m ρ c (Proc.devRef .tc main_v20_1) = rowOf (colSum (dense (aggK X (m ((c : Thread nD τ).loc main_arg2))) (sliceWK 0 (m ((c : Thread nD τ).loc main_arg3))) (rowK 0 (m ((c : Thread nD τ).loc main_arg4)))))
    ∧ W2 m ρ c (Proc.devRef .tc main_v20_2) = rowOf (colSq (dense (aggK X (m ((c : Thread nD τ).loc main_arg2))) (sliceWK 0 (m ((c : Thread nD τ).loc main_arg3))) (rowK 0 (m ((c : Thread nD τ).loc main_arg4))))) := by
  have hx : V1 m ρ c main_v14 = (aggK X (m ((c : Thread nD τ).loc main_arg2))) :=
    (host0_v14 (W0 m ρ c)).trans (by rw [hX, keep_0 m ρ c main_arg2 (by decide)])
  have hw : V1 m ρ c main_v16 = (sliceWK 0 (m ((c : Thread nD τ).loc main_arg3))) := (host0_v16 (W0 m ρ c)).trans (by rw [keep_0 m ρ c main_arg3 (by decide)])
  have hb : V1 m ρ c main_v19 = (rowK 0 (m ((c : Thread nD τ).loc main_arg4))) := (host0_v19 (W0 m ρ c)).trans (by rw [keep_0 m ρ c main_arg4 (by decide)])
  refine ⟨?_, ?_, ?_⟩
  · exact (W2_arr m ρ c 3).trans ((RegL0.H_eq (V1 m ρ) c).trans (by rw [hx, hw, hb]))
  · exact (W2_arr m ρ c 4).trans ((RegL0.S1_eq (V1 m ρ) c).trans (by rw [hx, hw, hb]))
  · exact (W2_arr m ρ c 5).trans ((RegL0.S2_eq (V1 m ρ) c).trans (by rw [hx, hw, hb]))

set_option maxHeartbeats 2000000 in
/-- The second stage's region: its output and the two column sums, at the region's exit. -/
theorem l0_stage2 (X : FArr S50000x128) (hX : W0 m ρ c (Proc.devRef .tc main_arg0) = X) :
    W4 m ρ c (Proc.devRef .tc main_v44_0) = (dense (affine (dense (aggK X (m ((c : Thread nD τ).loc main_arg2))) (sliceWK 0 (m ((c : Thread nD τ).loc main_arg3))) (rowK 0 (m ((c : Thread nD τ).loc main_arg4)))) (alphaRow (rowK 0 (m ((c : Thread nD τ).loc main_arg5))) (dense (aggK X (m ((c : Thread nD τ).loc main_arg2))) (sliceWK 0 (m ((c : Thread nD τ).loc main_arg3))) (rowK 0 (m ((c : Thread nD τ).loc main_arg4))))) (shiftRow (rowK 0 (m ((c : Thread nD τ).loc main_arg5))) (rowK 0 (m ((c : Thread nD τ).loc main_arg6))) (dense (aggK X (m ((c : Thread nD τ).loc main_arg2))) (sliceWK 0 (m ((c : Thread nD τ).loc main_arg3))) (rowK 0 (m ((c : Thread nD τ).loc main_arg4)))))) (sliceWK 0 (m ((c : Thread nD τ).loc main_arg7))) (rowK 0 (m ((c : Thread nD τ).loc main_arg8))))
    ∧ W4 m ρ c (Proc.devRef .tc main_v44_1) = rowOf (colSum (dense (affine (dense (aggK X (m ((c : Thread nD τ).loc main_arg2))) (sliceWK 0 (m ((c : Thread nD τ).loc main_arg3))) (rowK 0 (m ((c : Thread nD τ).loc main_arg4)))) (alphaRow (rowK 0 (m ((c : Thread nD τ).loc main_arg5))) (dense (aggK X (m ((c : Thread nD τ).loc main_arg2))) (sliceWK 0 (m ((c : Thread nD τ).loc main_arg3))) (rowK 0 (m ((c : Thread nD τ).loc main_arg4))))) (shiftRow (rowK 0 (m ((c : Thread nD τ).loc main_arg5))) (rowK 0 (m ((c : Thread nD τ).loc main_arg6))) (dense (aggK X (m ((c : Thread nD τ).loc main_arg2))) (sliceWK 0 (m ((c : Thread nD τ).loc main_arg3))) (rowK 0 (m ((c : Thread nD τ).loc main_arg4)))))) (sliceWK 0 (m ((c : Thread nD τ).loc main_arg7))) (rowK 0 (m ((c : Thread nD τ).loc main_arg8)))))
    ∧ W4 m ρ c (Proc.devRef .tc main_v44_2) = rowOf (colSq (dense (affine (dense (aggK X (m ((c : Thread nD τ).loc main_arg2))) (sliceWK 0 (m ((c : Thread nD τ).loc main_arg3))) (rowK 0 (m ((c : Thread nD τ).loc main_arg4)))) (alphaRow (rowK 0 (m ((c : Thread nD τ).loc main_arg5))) (dense (aggK X (m ((c : Thread nD τ).loc main_arg2))) (sliceWK 0 (m ((c : Thread nD τ).loc main_arg3))) (rowK 0 (m ((c : Thread nD τ).loc main_arg4))))) (shiftRow (rowK 0 (m ((c : Thread nD τ).loc main_arg5))) (rowK 0 (m ((c : Thread nD τ).loc main_arg6))) (dense (aggK X (m ((c : Thread nD τ).loc main_arg2))) (sliceWK 0 (m ((c : Thread nD τ).loc main_arg3))) (rowK 0 (m ((c : Thread nD τ).loc main_arg4)))))) (sliceWK 0 (m ((c : Thread nD τ).loc main_arg7))) (rowK 0 (m ((c : Thread nD τ).loc main_arg8))))) := by
  obtain ⟨hH, hS1, hS2⟩ := l0_stage1 m ρ c X hX
  have hH' : V3 m ρ c main_v20_0 = (dense (aggK X (m ((c : Thread nD τ).loc main_arg2))) (sliceWK 0 (m ((c : Thread nD τ).loc main_arg3))) (rowK 0 (m ((c : Thread nD τ).loc main_arg4)))) := (host1_keep (W2 m ρ c) main_v20_0 (by decide)).trans hH
  have ha : V3 m ρ c main_v36 = (alphaRow (rowK 0 (m ((c : Thread nD τ).loc main_arg5))) (dense (aggK X (m ((c : Thread nD τ).loc main_arg2))) (sliceWK 0 (m ((c : Thread nD τ).loc main_arg3))) (rowK 0 (m ((c : Thread nD τ).loc main_arg4))))) :=
    (host1_v36 (W2 m ρ c)).trans (by rw [keep_2 m ρ c main_arg5 (by decide), hS1, hS2, alphaK_eq])
  have hs : V3 m ρ c main_v38 = (shiftRow (rowK 0 (m ((c : Thread nD τ).loc main_arg5))) (rowK 0 (m ((c : Thread nD τ).loc main_arg6))) (dense (aggK X (m ((c : Thread nD τ).loc main_arg2))) (sliceWK 0 (m ((c : Thread nD τ).loc main_arg3))) (rowK 0 (m ((c : Thread nD τ).loc main_arg4))))) :=
    (host1_v38 (W2 m ρ c)).trans (by rw [keep_2 m ρ c main_arg5 (by decide), keep_2 m ρ c main_arg6 (by decide), hS1, hS2, betaK_eq])
  have hw : V3 m ρ c main_v40 = (sliceWK 0 (m ((c : Thread nD τ).loc main_arg7))) := (host1_v40 (W2 m ρ c)).trans (by rw [keep_2 m ρ c main_arg7 (by decide)])
  have hb : V3 m ρ c main_v43 = (rowK 0 (m ((c : Thread nD τ).loc main_arg8))) := (host1_v43 (W2 m ρ c)).trans (by rw [keep_2 m ρ c main_arg8 (by decide)])
  refine ⟨?_, ?_, ?_⟩
  · exact (W4_arr m ρ c 5).trans ((RegB1.H_eq (V3 m ρ) c).trans (by rw [RegB1.Yv, hH', ha, hs, hw, hb]))
  · exact (W4_arr m ρ c 6).trans ((RegB1.S1_eq (V3 m ρ) c).trans (by rw [RegB1.Yv, hH', ha, hs, hw, hb]))
  · exact (W4_arr m ρ c 7).trans ((RegB1.S2_eq (V3 m ρ) c).trans (by rw [RegB1.Yv, hH', ha, hs, hw, hb]))

set_option maxHeartbeats 2000000 in
/-- The layer: at its last region's exit the next layer's features buffer holds the specification's layer on X. -/
theorem layer0_out (X : FArr S50000x128) (hX : W0 m ρ c (Proc.devRef .tc main_arg0) = X) :
    W6 m ρ c (Proc.devRef .tc main_v63)
      = layer (aggK X (m ((c : Thread nD τ).loc main_arg2))) (sliceWK 0 (m ((c : Thread nD τ).loc main_arg3))) (rowK 0 (m ((c : Thread nD τ).loc main_arg4))) (rowK 0 (m ((c : Thread nD τ).loc main_arg5))) (rowK 0 (m ((c : Thread nD τ).loc main_arg6))) (sliceWK 0 (m ((c : Thread nD τ).loc main_arg7))) (rowK 0 (m ((c : Thread nD τ).loc main_arg8))) (rowK 0 (m ((c : Thread nD τ).loc main_arg9))) (rowK 0 (m ((c : Thread nD τ).loc main_arg10))) := by
  obtain ⟨hH, hT1, hT2⟩ := l0_stage2 m ρ c X hX
  have hH' : V5 m ρ c main_v44_0 = (dense (affine (dense (aggK X (m ((c : Thread nD τ).loc main_arg2))) (sliceWK 0 (m ((c : Thread nD τ).loc main_arg3))) (rowK 0 (m ((c : Thread nD τ).loc main_arg4)))) (alphaRow (rowK 0 (m ((c : Thread nD τ).loc main_arg5))) (dense (aggK X (m ((c : Thread nD τ).loc main_arg2))) (sliceWK 0 (m ((c : Thread nD τ).loc main_arg3))) (rowK 0 (m ((c : Thread nD τ).loc main_arg4))))) (shiftRow (rowK 0 (m ((c : Thread nD τ).loc main_arg5))) (rowK 0 (m ((c : Thread nD τ).loc main_arg6))) (dense (aggK X (m ((c : Thread nD τ).loc main_arg2))) (sliceWK 0 (m ((c : Thread nD τ).loc main_arg3))) (rowK 0 (m ((c : Thread nD τ).loc main_arg4)))))) (sliceWK 0 (m ((c : Thread nD τ).loc main_arg7))) (rowK 0 (m ((c : Thread nD τ).loc main_arg8)))) := (host2_keep (W4 m ρ c) main_v44_0 (by decide)).trans hH
  have ha : V5 m ρ c main_v60 = (alphaRow (rowK 0 (m ((c : Thread nD τ).loc main_arg9))) (dense (affine (dense (aggK X (m ((c : Thread nD τ).loc main_arg2))) (sliceWK 0 (m ((c : Thread nD τ).loc main_arg3))) (rowK 0 (m ((c : Thread nD τ).loc main_arg4)))) (alphaRow (rowK 0 (m ((c : Thread nD τ).loc main_arg5))) (dense (aggK X (m ((c : Thread nD τ).loc main_arg2))) (sliceWK 0 (m ((c : Thread nD τ).loc main_arg3))) (rowK 0 (m ((c : Thread nD τ).loc main_arg4))))) (shiftRow (rowK 0 (m ((c : Thread nD τ).loc main_arg5))) (rowK 0 (m ((c : Thread nD τ).loc main_arg6))) (dense (aggK X (m ((c : Thread nD τ).loc main_arg2))) (sliceWK 0 (m ((c : Thread nD τ).loc main_arg3))) (rowK 0 (m ((c : Thread nD τ).loc main_arg4)))))) (sliceWK 0 (m ((c : Thread nD τ).loc main_arg7))) (rowK 0 (m ((c : Thread nD τ).loc main_arg8))))) :=
    (host2_v60 (W4 m ρ c)).trans (by rw [keep_4 m ρ c main_arg9 (by decide), hT1, hT2, alphaK_eq])
  have hs : V5 m ρ c main_v62 = (shiftRow (rowK 0 (m ((c : Thread nD τ).loc main_arg9))) (rowK 0 (m ((c : Thread nD τ).loc main_arg10))) (dense (affine (dense (aggK X (m ((c : Thread nD τ).loc main_arg2))) (sliceWK 0 (m ((c : Thread nD τ).loc main_arg3))) (rowK 0 (m ((c : Thread nD τ).loc main_arg4)))) (alphaRow (rowK 0 (m ((c : Thread nD τ).loc main_arg5))) (dense (aggK X (m ((c : Thread nD τ).loc main_arg2))) (sliceWK 0 (m ((c : Thread nD τ).loc main_arg3))) (rowK 0 (m ((c : Thread nD τ).loc main_arg4))))) (shiftRow (rowK 0 (m ((c : Thread nD τ).loc main_arg5))) (rowK 0 (m ((c : Thread nD τ).loc main_arg6))) (dense (aggK X (m ((c : Thread nD τ).loc main_arg2))) (sliceWK 0 (m ((c : Thread nD τ).loc main_arg3))) (rowK 0 (m ((c : Thread nD τ).loc main_arg4)))))) (sliceWK 0 (m ((c : Thread nD τ).loc main_arg7))) (rowK 0 (m ((c : Thread nD τ).loc main_arg8))))) :=
    (host2_v62 (W4 m ρ c)).trans (by rw [keep_4 m ρ c main_arg9 (by decide), keep_4 m ρ c main_arg10 (by decide), hT1, hT2, betaK_eq])
  exact (W6_arr m ρ c 3).trans ((RegC2.out_eq (V5 m ρ) c).trans (by rw [hH', ha, hs]; rfl))

end Cert.KernelIdeal.KChain

end
-- ==== Proof.RegL3.lean ====
/-
  The first kernel of a layer, read as a function of whole arrays on the extended reals.

  The kernel walks the 50000 rows of X in ten tiles of 5000. At each tile it stores H = max (x·W + b) 0 of the tile's
  rows, and adds the tile's column sums of H and of H² into two one-row buffers that it zeroes at the first tile and
  that are written back once, after the last. Row r of X·W depends on row r of X alone, so the H array ends holding
  max (X·W + B) 0 of the whole arrays; and the two rows end holding, at column q, the sum over the ten tiles of the
  tile's sums, which is the sum over all 50000 rows: a sum over Fin 50000 cut into ten consecutive blocks. Nothing of
  real arithmetic is used beyond 0 + x = x and the commutative monoid laws, so it holds at the infinities too.
-/
import proofs.«112967_j35158602285141_1_alg».proof.Proof.Gen.KernelIdeal.Frame
import proofs.«112967_j35158602285141_1_alg».proof.Proof.Spec
import proofs.«112967_j35158602285141_1_alg».proof.Proof.LibRowForms
import proofs.«112967_j35158602285141_1_alg».proof.Proof.LibBlockSums
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegL3

open Cert.KernelIdeal Cert.KernelIdeal.Gen Idealize.ShloMosaic.ValueIdx Cert.LibBiasRows Cert.LibRowBlockDot

/-! ## The payloads read at an index, on the extended reals -/

theorem dot_eq : dot_S5000x128_S128x128_S5000x128_1_0_0_1_n_n = DotDims.plain 5000 128 128 := rfl

/-- Entry (r, q) of the dense stage of a tile whose rows are the rows `row r` of X is entry (row r, q) of the dense
    stage of X. -/
theorem pay3_apply (row : Fin 5000 → Fin 50000) (X : FVec Ideal Cert.Gin.SX .f32) (W : FVec Ideal Cert.Gin.SW .f32)
    (B : FVec Ideal Cert.Gin.SR .f32)
    (x0 : Vec Ideal S5000x128 .f32) (x1 : Vec Ideal S128x128 .f32) (x2 : Vec Ideal S1x128 .f32)
    (h0 : ∀ r c, x0 (ix2 r c) = X (ix2 (row r) c)) (h1 : ∀ c q, x1 (ix2 c q) = W (ix2 c q))
    (h2 : ∀ q, x2 (ix2 (0 : Fin 1) q) = B (ix2 (0 : Fin 1) q)) (r : Fin 5000) (q : Fin 128) :
    k3_pay3 x0 x1 x2 (ix2 r q) = Cert.Gin.dense X W B (ix2 (row r) q) := by
  unfold k3_pay3 Cert.Gin.dense
  simp only [shapeCast_self]
  rw [biasRelu_ix2, maximumf_apply, addf_apply, broadcast_apply, broadcastTo_1b_ab_apply, h2, dot_eq,
    matmul_rowBlock_apply none none X W _ _ row (fun a c => by rw [truncf_apply, h0])
      (fun c b => by rw [truncf_apply, h1]) r q]
  rfl

/-- The column-sum row a tile leaves: the carried row plus the sums down the tile's columns. -/
theorem pay4_apply (x0 : Vec Ideal S5000x128 .f32) (x1 : Vec Ideal S128x128 .f32) (x2 : Vec Ideal S1x128 .f32)
    (v : Vec Ideal S1x128 .f32) (q : Fin 128) :
    k3_pay4 x0 x1 x2 v (ix2 (0 : Fin 1) q) = v (ix2 (0 : Fin 1) q) + ∑ k : Fin 5000, k3_pay3 x0 x1 x2 (ix2 k q) := by
  unfold k3_pay4
  rw [addf_apply, shapeCast_self, shapeCast_a_1a_apply]
  refine congrArg _ ?_
  exact multiReduction_add_col (k3_pay3 x0 x1 x2) 0x00000000#32 reduces_S5000x128_S128 (.inl rfl) rfl q

/-- The square-sum row a tile leaves: the carried row plus the sums of squares down the tile's columns. -/
theorem pay5_apply (x0 : Vec Ideal S5000x128 .f32) (x1 : Vec Ideal S128x128 .f32) (x2 : Vec Ideal S1x128 .f32)
    (v : Vec Ideal S1x128 .f32) (q : Fin 128) :
    k3_pay5 x0 x1 x2 v (ix2 (0 : Fin 1) q)
      = v (ix2 (0 : Fin 1) q) + ∑ k : Fin 5000, k3_pay3 x0 x1 x2 (ix2 k q) * k3_pay3 x0 x1 x2 (ix2 k q) := by
  unfold k3_pay5
  rw [addf_apply, shapeCast_self, shapeCast_a_1a_apply]
  refine congrArg _ ?_
  exact multiReduction_add_col (mulf (k3_pay3 x0 x1 x2) (k3_pay3 x0 x1 x2)) 0x00000000#32 reduces_S5000x128_S128
    (.inl rfl) rfl q

/-- The rows the reset stores are zero. -/
theorem pay1_apply (j : S1x128.Idx) : k3_pay1 (F := Ideal) j = 0 := Ideal.ofBits_zero_f32
theorem pay2_apply (j : S1x128.Idx) : k3_pay2 (F := Ideal) j = 0 := Ideal.ofBits_zero_f32

section Outs
variable {F : FTy → Type} [FloatOps F]

theorem hz : (![0, 0] : Fin 2 → Nat) = fun _ => 0 := funext fun a => by fin_cases a <;> rfl

/-! ## What one grid point leaves in the three output buffers, as the payloads of the point's input blocks -/

/-- The first point leaves the tile's dense stage in the H buffer, -/
theorem out_A_3 (c : Dev nD) (i : grid3.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond3_0 i)
    (x0 : Vec F S5000x128 .f32) (x1 : Vec F S128x128 .f32) (x2 : Vec F S1x128 .f32) :
    out3_A_3 c i a1 h1 a2 h2 a3 h3 a4 h4 a5 h5 a6 h6 hc x0 x1 x2 = k3_pay3 x0 x1 x2 := by
  unfold out3_A_3
  rw [View.read_writes_eq_canon _ _ _ (cover3_A_3 c i a1 h1 a2 h2 a3 h3 a4 h4 a5 h5 a6 h6 hc x0 x1 x2)]
  unfold kernelRun3_A
  dsimp only
  sl_unfold_words
  rw [View.canon_unit_zero hz]
  simp only [View.readAt_eq_ld, h1.read_unread, h2.read_unread, h3.read_unread, View.ld_unit_zero (S := S5000x128) hz,
    View.ld_unit_zero (S := S128x128) hz, View.ld_unit_zero (S := S1x128) hz]

/-- the tile's column sums added to the zero row it has just stored in the sum buffer, -/
theorem out_A_4 (c : Dev nD) (i : grid3.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond3_0 i)
    (x0 : Vec F S5000x128 .f32) (x1 : Vec F S128x128 .f32) (x2 : Vec F S1x128 .f32) :
    out3_A_4 c i a1 h1 a2 h2 a3 h3 a4 h4 a5 h5 a6 h6 hc x0 x1 x2 = k3_pay4 x0 x1 x2 k3_pay1 := by
  unfold out3_A_4
  rw [View.read_writes_eq_canon _ _ _ (cover3_A_4 c i a1 h1 a2 h2 a3 h3 a4 h4 a5 h5 a6 h6 hc x0 x1 x2)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S128x128) hz, View.ld_unit_zero (S := S1x128) hz]

/-- and the same for the squares. -/
theorem out_A_5 (c : Dev nD) (i : grid3.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond3_0 i)
    (x0 : Vec F S5000x128 .f32) (x1 : Vec F S128x128 .f32) (x2 : Vec F S1x128 .f32) :
    out3_A_5 c i a1 h1 a2 h2 a3 h3 a4 h4 a5 h5 a6 h6 hc x0 x1 x2 = k3_pay5 x0 x1 x2 k3_pay2 := by
  unfold out3_A_5
  rw [View.read_writes_eq_canon _ _ _ (cover3_A_5 c i a1 h1 a2 h2 a3 h3 a4 h4 a5 h5 a6 h6 hc x0 x1 x2)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S128x128) hz, View.ld_unit_zero (S := S1x128) hz]

/-- A later point leaves the tile's dense stage in the H buffer, -/
theorem out_B_3 (c : Dev nD) (i : grid3.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond3_0 i)
    (x0 : Vec F S5000x128 .f32) (x1 : Vec F S128x128 .f32) (x2 : Vec F S1x128 .f32) (xo4 xo5 : Vec F S1x128 .f32) :
    out3_B_3 c i a1 h1 a2 h2 a3 h3 a4 h4 a5 h5 a6 h6 hc x0 x1 x2 xo4 xo5 = k3_pay3 x0 x1 x2 := by
  unfold out3_B_3
  rw [View.read_writes_eq_canon _ _ _ (cover3_B_3 c i a1 h1 a2 h2 a3 h3 a4 h4 a5 h5 a6 h6 hc x0 x1 x2 xo4 xo5)]
  unfold kernelRun3_B
  dsimp only
  sl_unfold_words
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

/-- the tile's column sums added to the row the sum buffer held, -/
theorem out_B_4 (c : Dev nD) (i : grid3.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond3_0 i)
    (x0 : Vec F S5000x128 .f32) (x1 : Vec F S128x128 .f32) (x2 : Vec F S1x128 .f32) (xo4 xo5 : Vec F S1x128 .f32) :
    out3_B_4 c i a1 h1 a2 h2 a3 h3 a4 h4 a5 h5 a6 h6 hc x0 x1 x2 xo4 xo5 = k3_pay4 x0 x1 x2 xo4 := by
  unfold out3_B_4
  rw [View.read_writes_eq_canon _ _ _ (cover3_B_4 c i a1 h1 a2 h2 a3 h3 a4 h4 a5 h5 a6 h6 hc x0 x1 x2 xo4 xo5)]
  unfold kernelRun3_B
  dsimp only
  sl_unfold_words
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

/-- and the same for the squares. -/
theorem out_B_5 (c : Dev nD) (i : grid3.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond3_0 i)
    (x0 : Vec F S5000x128 .f32) (x1 : Vec F S128x128 .f32) (x2 : Vec F S1x128 .f32) (xo4 xo5 : Vec F S1x128 .f32) :
    out3_B_5 c i a1 h1 a2 h2 a3 h3 a4 h4 a5 h5 a6 h6 hc x0 x1 x2 xo4 xo5 = k3_pay5 x0 x1 x2 xo5 := by
  unfold out3_B_5
  rw [View.read_writes_eq_canon _ _ _ (cover3_B_5 c i a1 h1 a2 h2 a3 h3 a4 h4 a5 h5 a6 h6 hc x0 x1 x2 xo4 xo5)]
  unfold kernelRun3_B
  dsimp only
  sl_unfold_words
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

end Outs

/-! ## The three arrays the region reads, and the dense stage of them -/

section Region
variable (V : (c : Dev nD) → (b : Ref sig .tc) → Buf (Elt Ideal) ((c : Thread nD τ).loc b))

/-- node features, weights and bias row as the region finds them -/
abbrev XA (c : Dev nD) : FVec Ideal Cert.Gin.SX .f32 := V c main_v74
abbrev WA (c : Dev nD) : FVec Ideal Cert.Gin.SW .f32 := V c main_v76
abbrev BA (c : Dev nD) : FVec Ideal Cert.Gin.SR .f32 := V c main_v79
/-- the dense stage of the whole arrays -/
abbrev HH (c : Dev nD) : FVec Ideal Cert.Gin.SX .f32 := Cert.Gin.dense (XA V c) (WA V c) (BA V c)

theorem arr0 : Pipeline.arrRef spec3 0 = main_v74 := rfl
theorem arr1 : Pipeline.arrRef spec3 1 = main_v76 := rfl
theorem arr2 : Pipeline.arrRef spec3 2 = main_v79 := rfl

/-- The block indices: the X and H windows move down the rows with the point, the other windows stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- the row of the array that row r of tile t is -/
def rowOfTile (t : Fin cfg3.N) (r : Fin 5000) : Fin 50000 :=
  ⟨t.val * 5000 + r.val, by have := t.isLt; have hN : cfg3.N = 10 := N_3; omega⟩

/-- Tile t of the X window reads rows 5000 t ... 5000 t + 4999 of X. -/
theorem iblk_0 (c : Dev nD) (t : Fin cfg3.N) (r : Fin 5000) (k : Fin 128) :
    (iblk3 V c 0 t : Vec Ideal S5000x128 .f32) (ix2 r k) = XA V c (ix2 (rowOfTile t r) k) := by
  obtain ⟨e0, e1, -⟩ := idx_facts t
  show V c main_v74 (((cfg3.win 0).blk t).view.emb (ix2 r k)) = V c main_v74 (ix2 (rowOfTile t r) k)
  refine congrArg _ ?_
  funext a; apply Fin.ext
  match a with
  | ⟨0, _⟩ => show win3_0.index t (0 : Fin 2) * 5000 + 1 * r.val = t.val * 5000 + r.val; rw [e0]; omega
  | ⟨1, _⟩ => show win3_0.index t (1 : Fin 2) * 128 + 1 * k.val = k.val; rw [e1]; omega

/-- The W window reads all of W at every point. -/
theorem iblk_1 (c : Dev nD) (t : Fin cfg3.N) (k q : Fin 128) :
    (iblk3 V c 1 t : Vec Ideal S128x128 .f32) (ix2 k q) = WA V c (ix2 k q) := by
  obtain ⟨-, -, e0, e1, -⟩ := idx_facts t
  show V c main_v76 (((cfg3.win 1).blk t).view.emb (ix2 k q)) = V c main_v76 (ix2 k q)
  refine congrArg _ ?_
  funext a; apply Fin.ext
  match a with
  | ⟨0, _⟩ => show win3_1.index t (0 : Fin 2) * 128 + 1 * k.val = k.val; rw [e0]; omega
  | ⟨1, _⟩ => show win3_1.index t (1 : Fin 2) * 128 + 1 * q.val = q.val; rw [e1]; omega

/-- The bias window reads the whole row at every point. -/
theorem iblk_2 (c : Dev nD) (t : Fin cfg3.N) (q : Fin 128) :
    (iblk3 V c 2 t : Vec Ideal S1x128 .f32) (ix2 (0 : Fin 1) q) = BA V c (ix2 (0 : Fin 1) q) := by
  obtain ⟨-, -, -, -, e0, e1, -⟩ := idx_facts t
  show V c main_v79 (((cfg3.win 2).blk t).view.emb (ix2 (0 : Fin 1) q)) = V c main_v79 (ix2 (0 : Fin 1) q)
  refine congrArg _ ?_
  funext a; apply Fin.ext
  match a with
  | ⟨0, _⟩ => show win3_2.index t (0 : Fin 2) * 1 + 1 * 0 = 0; rw [e0]
  | ⟨1, _⟩ => show win3_2.index t (1 : Fin 2) * 128 + 1 * q.val = q.val; rw [e1]; omega

/-- The dense stage of tile t is tile t of the dense stage. -/
theorem pay3_blk (c : Dev nD) (t : Fin cfg3.N) (r : Fin 5000) (q : Fin 128) :
    k3_pay3 (iblk3 V c 0 t) (iblk3 V c 1 t) (iblk3 V c 2 t) (ix2 r q) = HH V c (ix2 (rowOfTile t r) q) :=
  pay3_apply (rowOfTile t) (XA V c) (WA V c) (BA V c) _ _ _ (iblk_0 V c t) (iblk_1 V c t) (iblk_2 V c t) r q

/-! ## The running sums -/

/-- The part of a sum over the 50000 rows that falls in tile s. -/
def tileSum (f : Fin 50000 → EReal) (s : ℕ) : EReal :=
  ∑ r : Fin 5000, (if h : s * 5000 + r.val < 50000 then f ⟨s * 5000 + r.val, h⟩ else 0)

theorem tile1 (c : Dev nD) (t : Fin cfg3.N) (q : Fin 128) :
    ∑ k : Fin 5000, k3_pay3 (iblk3 V c 0 t) (iblk3 V c 1 t) (iblk3 V c 2 t) (ix2 k q)
      = tileSum (fun i => HH V c (ix2 i q)) t.val := by
  unfold tileSum
  refine Finset.sum_congr rfl fun k _ => ?_
  have hlt : t.val * 5000 + k.val < 50000 := (rowOfTile t k).isLt
  rw [pay3_blk, dif_pos hlt]
  rfl

theorem tile2 (c : Dev nD) (t : Fin cfg3.N) (q : Fin 128) :
    ∑ k : Fin 5000, k3_pay3 (iblk3 V c 0 t) (iblk3 V c 1 t) (iblk3 V c 2 t) (ix2 k q)
        * k3_pay3 (iblk3 V c 0 t) (iblk3 V c 1 t) (iblk3 V c 2 t) (ix2 k q)
      = tileSum (fun i => HH V c (ix2 i q) * HH V c (ix2 i q)) t.val := by
  unfold tileSum
  refine Finset.sum_congr rfl fun k _ => ?_
  have hlt : t.val * 5000 + k.val < 50000 := (rowOfTile t k).isLt
  rw [pay3_blk, dif_pos hlt]
  rfl

/-- What the three buffers hold after the first point, -/
theorem outsAt_zero (c : Dev nD) (h : 0 < cfg3.N) :
    outsAt3 V c 0 h = (k3_pay3 (iblk3 V c 0 ⟨0, h⟩) (iblk3 V c 1 ⟨0, h⟩) (iblk3 V c 2 ⟨0, h⟩),
      k3_pay4 (iblk3 V c 0 ⟨0, h⟩) (iblk3 V c 1 ⟨0, h⟩) (iblk3 V c 2 ⟨0, h⟩) (k3_pay1 (F := Ideal)),
      k3_pay5 (iblk3 V c 0 ⟨0, h⟩) (iblk3 V c 1 ⟨0, h⟩) (iblk3 V c 2 ⟨0, h⟩) (k3_pay2 (F := Ideal))) := by
  have e := outsAt3_A V c ⟨0, h⟩ rfl
  rw [out_A_3, out_A_4, out_A_5] at e
  exact e

/-- and after a later point, over what the point before left. -/
theorem outsAt_succ (c : Dev nD) (n : ℕ) (h : n + 1 < cfg3.N) :
    outsAt3 V c (n + 1) h = (k3_pay3 (iblk3 V c 0 ⟨n + 1, h⟩) (iblk3 V c 1 ⟨n + 1, h⟩) (iblk3 V c 2 ⟨n + 1, h⟩),
      k3_pay4 (iblk3 V c 0 ⟨n + 1, h⟩) (iblk3 V c 1 ⟨n + 1, h⟩) (iblk3 V c 2 ⟨n + 1, h⟩)
        (outsAt3 V c n (Nat.lt_of_succ_lt h)).2.1,
      k3_pay5 (iblk3 V c 0 ⟨n + 1, h⟩) (iblk3 V c 1 ⟨n + 1, h⟩) (iblk3 V c 2 ⟨n + 1, h⟩)
        (outsAt3 V c n (Nat.lt_of_succ_lt h)).2.2) := by
  have hN : cfg3.N = 10 := N_3
  have hB : ¬(⟨n + 1, h⟩ : Fin cfg3.N).val % 10 = 0 := by dsimp only; omega
  have e := outsAt3_B V c ⟨n + 1, h⟩ hB
  rw [out_B_3, out_B_4, out_B_5] at e
  exact e

/-- After point n the H buffer holds tile n of the dense stage. -/
theorem out3_eq (c : Dev nD) (t : Fin cfg3.N) :
    (outsAt3 V c t.val t.isLt).1 = k3_pay3 (iblk3 V c 0 t) (iblk3 V c 1 t) (iblk3 V c 2 t) := by
  obtain ⟨n, hn⟩ := t
  cases n with
  | zero => exact congrArg Prod.fst (outsAt_zero V c hn)
  | succ n => exact congrArg Prod.fst (outsAt_succ V c n hn)

/-- After point n the two sum buffers hold, at column q, the sums over the rows of tiles 0 ... n. -/
theorem sums_eq (c : Dev nD) (q : Fin 128) : ∀ (n : ℕ) (h : n < cfg3.N),
    (outsAt3 V c n h).2.1 (ix2 (0 : Fin 1) q) = ∑ s ∈ Finset.range (n + 1), tileSum (fun i => HH V c (ix2 i q)) s
    ∧ (outsAt3 V c n h).2.2 (ix2 (0 : Fin 1) q)
        = ∑ s ∈ Finset.range (n + 1), tileSum (fun i => HH V c (ix2 i q) * HH V c (ix2 i q)) s
  | 0, h => by
    rw [outsAt_zero V c h]
    dsimp only
    rw [pay4_apply, pay5_apply, pay1_apply, pay2_apply]
    simp only [zero_add, Finset.sum_range_one]
    exact ⟨tile1 V c ⟨0, h⟩ q, tile2 V c ⟨0, h⟩ q⟩
  | n + 1, h => by
    obtain ⟨ih1, ih2⟩ := sums_eq c q n (Nat.lt_of_succ_lt h)
    rw [outsAt_succ V c n h]
    dsimp only
    rw [pay4_apply, pay5_apply, ih1, ih2, Finset.sum_range_succ _ (n + 1), Finset.sum_range_succ _ (n + 1)]
    exact ⟨congrArg _ (tile1 V c ⟨n + 1, h⟩ q), congrArg _ (tile2 V c ⟨n + 1, h⟩ q)⟩

/-! ## The arrays after the region -/

/-- column sums and square sums of the dense stage, as rows -/
abbrev S1 (c : Dev nD) : FVec Ideal Cert.Gin.SR .f32 := Cert.Gin.rowOf (Cert.Gin.colSum (HH V c))
abbrev S2 (c : Dev nD) : FVec Ideal Cert.Gin.SR .f32 := Cert.Gin.rowOf (Cert.Gin.colSq (HH V c))

/-- After the last point the sum buffer holds the column sums over all 50000 rows, -/
theorem last1 (c : Dev nD) : (outsAt3 V c t3_9.val t3_9.isLt).2.1 = S1 V c := by
  funext j
  obtain ⟨u, q, rfl⟩ : ∃ (u : Fin 1) (q : Fin 128), j = ix2 u q := ⟨j 0, j 1, eq_ix2 j⟩
  obtain rfl : u = 0 := Subsingleton.elim _ _
  refine ((sums_eq V c q t3_9.val t3_9.isLt).1).trans ?_
  exact Cert.LibBlockSums.sum_blocks 10 5000 50000 rfl fun i => HH V c (ix2 i q)

/-- and the square-sum buffer the sums of squares. -/
theorem last2 (c : Dev nD) : (outsAt3 V c t3_9.val t3_9.isLt).2.2 = S2 V c := by
  funext j
  obtain ⟨u, q, rfl⟩ : ∃ (u : Fin 1) (q : Fin 128), j = ix2 u q := ⟨j 0, j 1, eq_ix2 j⟩
  obtain rfl : u = 0 := Subsingleton.elim _ _
  refine ((sums_eq V c q t3_9.val t3_9.isLt).2).trans ?_
  exact Cert.LibBlockSums.sum_blocks 10 5000 50000 rfl fun i => HH V c (ix2 i q) * HH V c (ix2 i q)

/-- Every point writes back, through the H window, its tile of the dense stage. -/
theorem flushed3_eq (c : Dev nD) (t : Fin cfg3.N) (hf : (cfg3.win 3).flush t = true) :
    (dat3 V c).flushed 3 t = ((cfg3.win 3).blk t).view.read (Elt Ideal) (HH V c) := by
  show (cfg3.win 3).cut (grid3.coords t) ((dat3 V c).after 3 t) = _
  rw [after3_3, out3_eq]
  obtain ⟨-, -, -, -, -, -, e0, e1⟩ := idx_facts t
  funext j
  obtain ⟨r, q, rfl⟩ : ∃ (r : Fin 5000) (q : Fin 128), j = ix2 r q := ⟨j 0, j 1, eq_ix2 j⟩
  show k3_pay3 (iblk3 V c 0 t) (iblk3 V c 1 t) (iblk3 V c 2 t) (ix2 r q)
    = HH V c (((cfg3.win 3).blk t).view.emb (ix2 r q))
  rw [pay3_blk]
  refine congrArg _ ?_
  funext a; apply Fin.ext
  match a with
  | ⟨0, _⟩ => show t.val * 5000 + r.val = win3_3.index t (0 : Fin 2) * 5000 + 1 * r.val; rw [e0]; omega
  | ⟨1, _⟩ => show q.val = win3_3.index t (1 : Fin 2) * 128 + 1 * q.val; rw [e1]; omega

/-- An index of the H array is in point t's block when its row is in tile t. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v80_0).slice (win3_3.rect t)).set ↔ _
  rw [View.set_slice_whole, Rect.mem_set_unit]
  exact Iff.rfl

/-- The ten tiles cover the H array: row r is in tile r / 5000. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  have ht : (i 0).val / 5000 < cfg3.N := by omega
  obtain ⟨-, -, -, -, -, -, e0, e1⟩ := idx_facts ⟨(i 0).val / 5000, ht⟩
  refine ⟨⟨(i 0).val / 5000, ht⟩, flush3_3 _, ?_⟩
  rw [mem_blk3]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e0]; dsimp only; omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e1]; omega

/-- So the H array ends holding the dense stage of the arrays the region found. -/
theorem H_eq (c : Dev nD) : (dat3 V c).arrAt 3 cfg3.N = Cert.Gin.dense (V c main_v74) (V c main_v76) (V c main_v79) :=
  (dat3 V c).arrAt_eq_of_cover 3 (HH V c) (flushed3_eq V c) cover3

/-- The one write-back of the sum window, at the last point, writes the column sums: its block is the whole row. -/
theorem flushed4_eq (c : Dev nD) (t : Fin cfg3.N) (hf : (cfg3.win 4).flush t = true) :
    (dat3 V c).flushed 4 t = ((cfg3.win 4).blk t).view.read (Elt Ideal) (S1 V c) := by
  have hN : cfg3.N = 10 := N_3
  have h9 : t.val = 9 := by have := (flush3_4 t).mp hf; have := t.isLt; omega
  obtain rfl : t = t3_9 := Fin.ext h9
  show (cfg3.win 4).cut (grid3.coords t3_9) ((dat3 V c).after 4 t3_9) = _
  rw [after3_4, last1]
  have hz' : (fun a => win3_4.index t3_9 a * main_v80_1.ty.shape.size a) = fun _ => 0 :=
    funext fun a => by fin_cases a <;> decide +kernel
  exact (Memref.read_access_unit_zero (Elt Ideal) main_v80_1 hz' (fun a => by rw [congrFun hz' a]; simp) (S1 V c)).symm

theorem flushed5_eq (c : Dev nD) (t : Fin cfg3.N) (hf : (cfg3.win 5).flush t = true) :
    (dat3 V c).flushed 5 t = ((cfg3.win 5).blk t).view.read (Elt Ideal) (S2 V c) := by
  have hN : cfg3.N = 10 := N_3
  have h9 : t.val = 9 := by have := (flush3_5 t).mp hf; have := t.isLt; omega
  obtain rfl : t = t3_9 := Fin.ext h9
  show (cfg3.win 5).cut (grid3.coords t3_9) ((dat3 V c).after 5 t3_9) = _
  rw [after3_5, last2]
  have hz' : (fun a => win3_5.index t3_9 a * main_v80_2.ty.shape.size a) = fun _ => 0 :=
    funext fun a => by fin_cases a <;> decide +kernel
  exact (Memref.read_access_unit_zero (Elt Ideal) main_v80_2 hz' (fun a => by rw [congrFun hz' a]; simp) (S2 V c)).symm

/-- So the sum array ends holding the column sums of the dense stage, -/
theorem S1_eq (c : Dev nD) : (dat3 V c).arrAt 4 cfg3.N
    = Cert.Gin.rowOf (Cert.Gin.colSum (Cert.Gin.dense (V c main_v74) (V c main_v76) (V c main_v79))) :=
  (dat3 V c).arrAt_eq_of_cover 4 (S1 V c) (flushed4_eq V c) fun i =>
    ⟨t3_9, (flush3_4 t3_9).mpr rfl, by
      show i ∈ ((View.whole main_v80_1).slice (win3_4.rect t3_9)).set
      rw [View.set_slice_whole, Rect.mem_set_unit]
      intro a
      have h0 : (i 0 : Nat) < 1 := (i 0).isLt
      have h1 : (i 1 : Nat) < 128 := (i 1).isLt
      match a with
      | ⟨0, _⟩ =>
        show win3_4.index t3_9 0 * win3_4.size 0 ≤ (i 0 : Nat)
          ∧ (i 0 : Nat) < win3_4.index t3_9 0 * win3_4.size 0 + win3_4.xsize (grid3.coords t3_9) 0
        rw [show win3_4.index t3_9 0 * win3_4.size 0 = 0 from by decide +kernel,
          show win3_4.xsize (grid3.coords t3_9) 0 = 1 from by decide +kernel]; omega
      | ⟨1, _⟩ =>
        show win3_4.index t3_9 1 * win3_4.size 1 ≤ (i 1 : Nat)
          ∧ (i 1 : Nat) < win3_4.index t3_9 1 * win3_4.size 1 + win3_4.xsize (grid3.coords t3_9) 1
        rw [show win3_4.index t3_9 1 * win3_4.size 1 = 0 from by decide +kernel,
          show win3_4.xsize (grid3.coords t3_9) 1 = 128 from by decide +kernel]; omega⟩

/-- and the square-sum array the column sums of its squares. -/
theorem S2_eq (c : Dev nD) : (dat3 V c).arrAt 5 cfg3.N
    = Cert.Gin.rowOf (Cert.Gin.colSq (Cert.Gin.dense (V c main_v74) (V c main_v76) (V c main_v79))) :=
  (dat3 V c).arrAt_eq_of_cover 5 (S2 V c) (flushed5_eq V c) fun i =>
    ⟨t3_9, (flush3_5 t3_9).mpr rfl, by
      show i ∈ ((View.whole main_v80_2).slice (win3_5.rect t3_9)).set
      rw [View.set_slice_whole, Rect.mem_set_unit]
      intro a
      have h0 : (i 0 : Nat) < 1 := (i 0).isLt
      have h1 : (i 1 : Nat) < 128 := (i 1).isLt
      match a with
      | ⟨0, _⟩ =>
        show win3_5.index t3_9 0 * win3_5.size 0 ≤ (i 0 : Nat)
          ∧ (i 0 : Nat) < win3_5.index t3_9 0 * win3_5.size 0 + win3_5.xsize (grid3.coords t3_9) 0
        rw [show win3_5.index t3_9 0 * win3_5.size 0 = 0 from by decide +kernel,
          show win3_5.xsize (grid3.coords t3_9) 0 = 1 from by decide +kernel]; omega
      | ⟨1, _⟩ =>
        show win3_5.index t3_9 1 * win3_5.size 1 ≤ (i 1 : Nat)
          ∧ (i 1 : Nat) < win3_5.index t3_9 1 * win3_5.size 1 + win3_5.xsize (grid3.coords t3_9) 1
        rw [show win3_5.index t3_9 1 * win3_5.size 1 = 0 from by decide +kernel,
          show win3_5.xsize (grid3.coords t3_9) 1 = 128 from by decide +kernel]; omega⟩

end Region

end Cert.KernelIdeal.RegL3

end
-- ==== Proof.RegB4.lean ====
/-
  Region 4 of the network's program: the second dense stage of the second layer, on the normalised node features.

  The region runs over ten tiles of 5000 rows. At tile t its body reads rows 5000·t … 5000·t + 4999 of the features H,
  the slope row α, the offset row β, the weights W and the bias row B; it stores the tile's rows of

      Y = max ((H·α + β)·W + B) 0,

  and adds the tile's column sums, of the entries and of their squares, to two carried one-row sums, which the first
  tile starts from zero rows. Row r of Y depends on row r of H alone, so the stored tile is that block of rows of Y. After
  tile n the two carried rows hold, at column q, the sums of Y(r, q) and of Y(r, q)² over the rows r of tiles 0 … n
  (by induction on n: + on the extended reals is associative and commutative with 0 neutral, so nothing is asked of the
  summands, which may be infinite). The tile is written back at every point, the two rows once, after the last tile;
  the ten tiles cover the 50000 rows, each row r under tile r / 5000. So the first result array ends holding Y and the
  two rows end holding Σ_r Y(r, q) and Σ_r Y(r, q)² over all rows.
-/
import proofs.«112967_j35158602285141_1_alg».proof.Proof.Gen.KernelIdeal.Frame
import proofs.«112967_j35158602285141_1_alg».proof.Proof.Spec
import proofs.«112967_j35158602285141_1_alg».proof.Proof.LibRowForms
import proofs.«112967_j35158602285141_1_alg».proof.Proof.LibBlockSums
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx Cert.LibBiasRows Cert.LibRowBlockDot

namespace Cert.KernelIdeal.RegB4

open Cert.KernelIdeal Cert.KernelIdeal.Gen

section AnyFloat

variable {F : FTy → Type} [FloatOps F]

theorem hz : (![0, 0] : Fin 2 → Nat) = fun _ => 0 := funext fun a => by fin_cases a <;> rfl

/-! ## What one point leaves in the three output buffers, as payloads of the point's input blocks

The body stores the rectified dense tile once, through the whole buffer; it stores the two one-row sums once each, the
carried row plus the tile's column sums (of the entries, of their squares). At the first point it first stores zero rows
and reads them back as the carried rows. -/

/-- A later point leaves the rectified dense tile in output 5's buffer. -/
theorem out_B_5 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond4_0 i) (x0 : Vec F S5000x128 .f32) (x1 : Vec F S1x128 .f32) (x2 : Vec F S1x128 .f32) (x3 : Vec F S128x128 .f32) (x4 : Vec F S1x128 .f32) (xo6 xo7 : Vec F S1x128 .f32) :
    out4_B_5 c i a1 h1 a2 h2 a3 h3 a4 h4 a5 h5 a6 h6 a7 h7 a8 h8 hc x0 x1 x2 x3 x4 xo6 xo7 = k4_pay4 x0 x1 x2 x3 x4 := by
  unfold out4_B_5
  rw [View.read_writes_eq_canon _ _ _ (cover4_B_5 c i a1 h1 a2 h2 a3 h3 a4 h4 a5 h5 a6 h6 a7 h7 a8 h8 hc x0 x1 x2 x3 x4 xo6 xo7)]
  unfold kernelRun4_B
  dsimp only
  rw [View.canon_unit_zero hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz]

/-- The first point leaves the rectified dense tile in output 5's buffer. -/
theorem out_A_5 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond4_0 i) (x0 : Vec F S5000x128 .f32) (x1 : Vec F S1x128 .f32) (x2 : Vec F S1x128 .f32) (x3 : Vec F S128x128 .f32) (x4 : Vec F S1x128 .f32) :
    out4_A_5 c i a1 h1 a2 h2 a3 h3 a4 h4 a5 h5 a6 h6 a7 h7 a8 h8 hc x0 x1 x2 x3 x4 = k4_pay4 x0 x1 x2 x3 x4 := by
  unfold out4_A_5
  rw [View.read_writes_eq_canon _ _ _ (cover4_A_5 c i a1 h1 a2 h2 a3 h3 a4 h4 a5 h5 a6 h6 a7 h7 a8 h8 hc x0 x1 x2 x3 x4)]
  unfold kernelRun4_A
  dsimp only
  rw [View.canon_unit_zero hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz]

/-- A later point leaves, in output 6's buffer holding the row xo6, that row plus the tile's column sums. -/
theorem out_B_6 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond4_0 i) (x0 : Vec F S5000x128 .f32) (x1 : Vec F S1x128 .f32) (x2 : Vec F S1x128 .f32) (x3 : Vec F S128x128 .f32) (x4 : Vec F S1x128 .f32) (xo6 xo7 : Vec F S1x128 .f32) :
    out4_B_6 c i a1 h1 a2 h2 a3 h3 a4 h4 a5 h5 a6 h6 a7 h7 a8 h8 hc x0 x1 x2 x3 x4 xo6 xo7 = k4_pay5 x0 x1 x2 x3 x4 xo6 := by
  unfold out4_B_6
  rw [View.read_writes_eq_canon _ _ _ (cover4_B_6 c i a1 h1 a2 h2 a3 h3 a4 h4 a5 h5 a6 h6 a7 h7 a8 h8 hc x0 x1 x2 x3 x4 xo6 xo7)]
  unfold kernelRun4_B
  dsimp only
  rw [View.canon_unit_zero hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz, h7.read_unread]

/-- The first point leaves, in output 6's buffer, the zero row plus the tile's column sums. -/
theorem out_A_6 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond4_0 i) (x0 : Vec F S5000x128 .f32) (x1 : Vec F S1x128 .f32) (x2 : Vec F S1x128 .f32) (x3 : Vec F S128x128 .f32) (x4 : Vec F S1x128 .f32) :
    out4_A_6 c i a1 h1 a2 h2 a3 h3 a4 h4 a5 h5 a6 h6 a7 h7 a8 h8 hc x0 x1 x2 x3 x4 = k4_pay5 x0 x1 x2 x3 x4 k4_pay2 := by
  unfold out4_A_6
  rw [View.read_writes_eq_canon _ _ _ (cover4_A_6 c i a1 h1 a2 h2 a3 h3 a4 h4 a5 h5 a6 h6 a7 h7 a8 h8 hc x0 x1 x2 x3 x4)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz]

/-- A later point leaves, in output 7's buffer holding the row xo7, that row plus the column sums of the tile's squares. -/
theorem out_B_7 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond4_0 i) (x0 : Vec F S5000x128 .f32) (x1 : Vec F S1x128 .f32) (x2 : Vec F S1x128 .f32) (x3 : Vec F S128x128 .f32) (x4 : Vec F S1x128 .f32) (xo6 xo7 : Vec F S1x128 .f32) :
    out4_B_7 c i a1 h1 a2 h2 a3 h3 a4 h4 a5 h5 a6 h6 a7 h7 a8 h8 hc x0 x1 x2 x3 x4 xo6 xo7 = k4_pay1 (k4_pay4 x0 x1 x2 x3 x4) (k4_pay6 xo7) := by
  unfold out4_B_7
  rw [View.read_writes_eq_canon _ _ _ (cover4_B_7 c i a1 h1 a2 h2 a3 h3 a4 h4 a5 h5 a6 h6 a7 h7 a8 h8 hc x0 x1 x2 x3 x4 xo6 xo7)]
  unfold kernelRun4_B
  dsimp only
  sl_unfold_words
  rw [View.canon_unit_zero hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz, h8.read_unread]

/-- The first point leaves, in output 7's buffer, the zero row plus the column sums of the tile's squares. -/
theorem out_A_7 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond4_0 i) (x0 : Vec F S5000x128 .f32) (x1 : Vec F S1x128 .f32) (x2 : Vec F S1x128 .f32) (x3 : Vec F S128x128 .f32) (x4 : Vec F S1x128 .f32) :
    out4_A_7 c i a1 h1 a2 h2 a3 h3 a4 h4 a5 h5 a6 h6 a7 h7 a8 h8 hc x0 x1 x2 x3 x4 = k4_pay1 (k4_pay4 x0 x1 x2 x3 x4) (k4_pay6 k4_pay3) := by
  unfold out4_A_7
  rw [View.read_writes_eq_canon _ _ _ (cover4_A_7 c i a1 h1 a2 h2 a3 h3 a4 h4 a5 h5 a6 h6 a7 h7 a8 h8 hc x0 x1 x2 x3 x4)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz]

/-! ## The windows' blocks read at an index

Window 0's block at point t is rows 5000·t … 5000·t + 4999 of its array; windows 1 to 4 are their whole arrays at every
point. -/

variable (V : (c : Dev nD) → (b : Ref sig .tc) → Buf (Elt F) ((c : Thread nD τ).loc b))

theorem index0 (t : Fin cfg4.N) : win4_0.index t 0 = t.val ∧ win4_0.index t 1 = 0 := by
  rcases fin_N4 t with rfl | rfl | rfl | rfl | rfl | rfl | rfl | rfl | rfl | rfl <;> decide

theorem index5 (t : Fin cfg4.N) : win4_5.index t 0 = t.val ∧ win4_5.index t 1 = 0 := by
  rcases fin_N4 t with rfl | rfl | rfl | rfl | rfl | rfl | rfl | rfl | rfl | rfl <;> decide

theorem blk0_read (c : Dev nD) (t : Fin cfg4.N) (a : Fin 5000) (q : Fin 128) (R : Fin 50000) (hR : R.val = t.val * 5000 + a.val) :
    (iblk4 V c 0 t : Vec F S5000x128 .f32) (ix2 a q) = (V c main_v80_0 : Vec F S50000x128 .f32) (ix2 R q) := by
  have hi := index0 t
  unfold iblk4
  rw [View.read_apply]
  show V c main_v80_0 _ = V c main_v80_0 _
  refine congrArg (V c main_v80_0) (funext fun ax => Fin.ext ?_)
  match ax with
  | ⟨0, _⟩ => show win4_0.index t 0 * 5000 + 1 * a.val = R.val; rw [hi.1, hR]; omega
  | ⟨1, _⟩ => show win4_0.index t 1 * 128 + 1 * q.val = q.val; rw [hi.2]; omega

theorem blk1_read (c : Dev nD) (t : Fin cfg4.N) (q : Fin 128) :
    (iblk4 V c 1 t : Vec F S1x128 .f32) (ix2 (0 : Fin 1) q) = (V c main_v96 : Vec F S1x128 .f32) (ix2 (0 : Fin 1) q) := by
  unfold iblk4
  rw [View.read_apply]
  show V c main_v96 _ = V c main_v96 _
  refine congrArg (V c main_v96) (funext fun ax => Fin.ext ?_)
  match ax with
  | ⟨0, _⟩ => rfl
  | ⟨1, _⟩ => show 0 * 128 + 1 * q.val = q.val; omega

theorem blk2_read (c : Dev nD) (t : Fin cfg4.N) (q : Fin 128) :
    (iblk4 V c 2 t : Vec F S1x128 .f32) (ix2 (0 : Fin 1) q) = (V c main_v98 : Vec F S1x128 .f32) (ix2 (0 : Fin 1) q) := by
  unfold iblk4
  rw [View.read_apply]
  show V c main_v98 _ = V c main_v98 _
  refine congrArg (V c main_v98) (funext fun ax => Fin.ext ?_)
  match ax with
  | ⟨0, _⟩ => rfl
  | ⟨1, _⟩ => show 0 * 128 + 1 * q.val = q.val; omega

theorem blk3_read (c : Dev nD) (t : Fin cfg4.N) (k q : Fin 128) :
    (iblk4 V c 3 t : Vec F S128x128 .f32) (ix2 k q) = (V c main_v100 : Vec F S128x128 .f32) (ix2 k q) := by
  unfold iblk4
  rw [View.read_apply]
  show V c main_v100 _ = V c main_v100 _
  refine congrArg (V c main_v100) (funext fun ax => Fin.ext ?_)
  match ax with
  | ⟨0, _⟩ => show 0 * 128 + 1 * k.val = k.val; omega
  | ⟨1, _⟩ => show 0 * 128 + 1 * q.val = q.val; omega

theorem blk4_read (c : Dev nD) (t : Fin cfg4.N) (q : Fin 128) :
    (iblk4 V c 4 t : Vec F S1x128 .f32) (ix2 (0 : Fin 1) q) = (V c main_v103 : Vec F S1x128 .f32) (ix2 (0 : Fin 1) q) := by
  unfold iblk4
  rw [View.read_apply]
  show V c main_v103 _ = V c main_v103 _
  refine congrArg (V c main_v103) (funext fun ax => Fin.ext ?_)
  match ax with
  | ⟨0, _⟩ => rfl
  | ⟨1, _⟩ => show 0 * 128 + 1 * q.val = q.val; omega

/-! ## What the three buffers hold after a point, as payloads of the point's blocks -/

/-- After a point that resets (the first): the tile, and the tile's two sums added to the zero rows. -/
theorem outs_A (c : Dev nD) (n : ℕ) (hn : n < cfg4.N) (h0 : n % 10 = 0) :
    outsAt4 V c n hn = (k4_pay4 (iblk4 V c 0 ⟨n, hn⟩) (iblk4 V c 1 ⟨n, hn⟩) (iblk4 V c 2 ⟨n, hn⟩) (iblk4 V c 3 ⟨n, hn⟩) (iblk4 V c 4 ⟨n, hn⟩),
      k4_pay5 (iblk4 V c 0 ⟨n, hn⟩) (iblk4 V c 1 ⟨n, hn⟩) (iblk4 V c 2 ⟨n, hn⟩) (iblk4 V c 3 ⟨n, hn⟩) (iblk4 V c 4 ⟨n, hn⟩) k4_pay2,
      k4_pay1 (k4_pay4 (iblk4 V c 0 ⟨n, hn⟩) (iblk4 V c 1 ⟨n, hn⟩) (iblk4 V c 2 ⟨n, hn⟩) (iblk4 V c 3 ⟨n, hn⟩) (iblk4 V c 4 ⟨n, hn⟩)) (k4_pay6 k4_pay3)) :=
  (outsAt4_A V c ⟨n, hn⟩ h0).trans (by rw [out_A_5, out_A_6, out_A_7])

/-- After a later point: the tile, and the tile's two sums added to the rows the point before left. -/
theorem outs_B (c : Dev nD) (n : ℕ) (hn : n + 1 < cfg4.N) (h0 : ¬(n + 1) % 10 = 0) :
    outsAt4 V c (n + 1) hn = (k4_pay4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩),
      k4_pay5 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 V c n (Nat.lt_of_succ_lt hn)).2.1,
      k4_pay1 (k4_pay4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩)) (k4_pay6 (outsAt4 V c n (Nat.lt_of_succ_lt hn)).2.2)) :=
  (outsAt4_B V c ⟨n + 1, hn⟩ h0).trans (by rw [out_B_5, out_B_6, out_B_7]; rfl)

end AnyFloat

/-! ## The payloads read at an index, at the extended reals -/

/-- Row a of tile n is row 5000·n + a of the array. -/
def row (n : ℕ) (hn : n < 10) (a : Fin 5000) : Fin 50000 := ⟨n * 5000 + a.val, by have := a.isLt; omega⟩

/-- The tile's left factor at (r, c): h·α + β at the tile's row, the two rows broadcast down the tile. -/
theorem lhs_apply (rw_ : Fin 5000 → Fin 50000) (H : FVec Ideal Cert.Gin.SX .f32) (A S : FVec Ideal Cert.Gin.SR .f32)
    (x0 : Vec Ideal S5000x128 .f32) (x1 x2 : Vec Ideal S1x128 .f32)
    (h0 : ∀ r c, x0 (ix2 r c) = H (ix2 (rw_ r) c)) (h1 : ∀ q, x1 (ix2 (0 : Fin 1) q) = A (ix2 (0 : Fin 1) q))
    (h2 : ∀ q, x2 (ix2 (0 : Fin 1) q) = S (ix2 (0 : Fin 1) q))
    (hs0 : S5000x128.ShapeCasts S5000x128) (hs1 : S1x128.ShapeCasts S1x128) (hb : S1x128.Broadcasts S5000x128)
    (hlt : FTy.bf16.bits < FTy.f32.bits) (r : Fin 5000) (c : Fin 128) :
    (truncf .bf16 (addf (mulf (shapeCast S5000x128 x0 hs0) (broadcastTo S5000x128 (shapeCast S1x128 x1 hs1) hb))
        (broadcastTo S5000x128 (shapeCast S1x128 x2 hs1) hb)) hlt : FVec Ideal S5000x128 .bf16) (ix2 r c)
      = Cert.Gin.affine H A S (ix2 (rw_ r) c) := by
  rw [truncf_apply, addf_apply, mulf_apply, broadcastTo_1b_ab_apply, broadcastTo_1b_ab_apply, shapeCast_self x0, shapeCast_self x1,
    shapeCast_self x2, h0, h1, h2, Cert.Gin.affine_ix2]

/-- The stored tile at (r, q) is the dense stage of the normalised features at the tile's row. -/
theorem pay4_apply (rw_ : Fin 5000 → Fin 50000) (H : FVec Ideal Cert.Gin.SX .f32) (A S : FVec Ideal Cert.Gin.SR .f32)
    (W : FVec Ideal Cert.Gin.SW .f32) (B : FVec Ideal Cert.Gin.SR .f32)
    (x0 : Vec Ideal S5000x128 .f32) (x1 x2 : Vec Ideal S1x128 .f32) (x3 : Vec Ideal S128x128 .f32) (x4 : Vec Ideal S1x128 .f32)
    (h0 : ∀ r c, x0 (ix2 r c) = H (ix2 (rw_ r) c)) (h1 : ∀ q, x1 (ix2 (0 : Fin 1) q) = A (ix2 (0 : Fin 1) q))
    (h2 : ∀ q, x2 (ix2 (0 : Fin 1) q) = S (ix2 (0 : Fin 1) q)) (h3 : ∀ c q, x3 (ix2 c q) = W (ix2 c q))
    (h4 : ∀ q, x4 (ix2 (0 : Fin 1) q) = B (ix2 (0 : Fin 1) q)) (r : Fin 5000) (q : Fin 128) :
    (k4_pay4 x0 x1 x2 x3 x4 : FVec Ideal S5000x128 .f32) (ix2 r q) = Cert.Gin.dense (Cert.Gin.affine H A S) W B (ix2 (rw_ r) q) := by
  unfold k4_pay4 Cert.Gin.dense
  rw [biasRelu_ix2, maximumf_apply, addf_apply, broadcast_apply, broadcastTo_1b_ab_apply, shapeCast_self x4, h4]
  have key := matmul_rowBlock_apply none none (Cert.Gin.affine H A S) W _ _ rw_
    (lhs_apply rw_ H A S x0 x1 x2 h0 h1 h2 shapeCasts_S5000x128_S5000x128 shapeCasts_S1x128_S1x128 broadcasts_S1x128_S5000x128 bitsLt_bf16_f32)
    (fun c b => show (truncf .bf16 (shapeCast S128x128 x3 shapeCasts_S128x128_S128x128) bitsLt_bf16_f32 : FVec Ideal S128x128 .bf16) (ix2 c b) = W (ix2 c b) by
      rw [truncf_apply, shapeCast_self, h3]) r q
  exact congrArg (fun z : EReal => max (z + B (ix2 (0 : Fin 1) q)) zero32) key

/-- A sum down the columns of a tile, stored as a row, at (u, q). -/
theorem colsum_apply (v : FVec Ideal S5000x128 .f32) (h : S5000x128.Reduces [(0 : Fin 2)] S128) (hφ : FKind.Formats FTy.f32)
    (hacc : (0x00000000#32 : BitVec FTy.f32.bits) = FKind.add.neutral FTy.f32 hφ) (hc : S128.ShapeCasts S1x128) (u : Fin 1) (q : Fin 128) :
    shapeCast S1x128 (multiReduction .add [(0 : Fin 2)] S128 v 0x00000000#32 h hφ hacc) hc (ix2 u q) = ∑ k : Fin 5000, v (ix2 k q) :=
  (shapeCast_a_1a_apply _ hc u q).trans (multiReduction_add_col v _ h hφ hacc q)

/-- The column-sum row the body stores: the carried row plus the tile's column sums. -/
theorem pay5_apply (x0 : Vec Ideal S5000x128 .f32) (x1 x2 : Vec Ideal S1x128 .f32) (x3 : Vec Ideal S128x128 .f32) (x4 xo : Vec Ideal S1x128 .f32)
    (u : Fin 1) (q : Fin 128) :
    (k4_pay5 x0 x1 x2 x3 x4 xo : FVec Ideal S1x128 .f32) (ix2 u q)
      = xo (ix2 u q) + ∑ k : Fin 5000, (k4_pay4 x0 x1 x2 x3 x4 : FVec Ideal S5000x128 .f32) (ix2 k q) := by
  unfold k4_pay5
  rw [addf_apply, shapeCast_self xo]
  exact congrArg (fun z : EReal => xo (ix2 u q) + z) (colsum_apply _ _ _ _ _ u q)

/-- The square-sum row the body stores: the carried row plus the column sums of the tile's squares. -/
theorem pay1_apply (v23 : FVec Ideal S5000x128 .f32) (v32 : FVec Ideal S1x128 .f32) (u : Fin 1) (q : Fin 128) :
    (k4_pay1 v23 v32 : FVec Ideal S1x128 .f32) (ix2 u q) = v32 (ix2 u q) + ∑ k : Fin 5000, v23 (ix2 k q) * v23 (ix2 k q) := by
  unfold k4_pay1
  rw [addf_apply]
  exact congrArg (fun z : EReal => v32 (ix2 u q) + z) (colsum_apply _ _ _ _ _ u q)

/-- The rows the reset stores read zero. -/
theorem pay2_apply (j : S1x128.Idx) : (k4_pay2 : FVec Ideal S1x128 .f32) j = 0 := Ideal.ofBits_zero_f32
theorem pay3_apply (j : S1x128.Idx) : (k4_pay3 : FVec Ideal S1x128 .f32) j = 0 := Ideal.ofBits_zero_f32

/-! ## Sums over the first tiles -/

/-- The sum of f over the rows of the first n tiles. -/
def psum (f : Fin 50000 → EReal) (n : ℕ) : EReal :=
  ∑ k ∈ Finset.range n, ∑ r : Fin 5000, (if h : k * 5000 + r.val < 50000 then f ⟨k * 5000 + r.val, h⟩ else 0)

theorem psum_zero (f : Fin 50000 → EReal) : psum f 0 = 0 := Finset.sum_range_zero _

theorem psum_succ (f : Fin 50000 → EReal) (n : ℕ) (hn : n < 10) : psum f (n + 1) = psum f n + ∑ a : Fin 5000, f (row n hn a) := by
  unfold psum
  rw [Finset.sum_range_succ]
  exact congrArg (fun z : EReal => _ + z) (Finset.sum_congr rfl fun a _ => dif_pos (row n hn a).isLt)

theorem psum_ten (f : Fin 50000 → EReal) : psum f 10 = ∑ r : Fin 50000, f r := Cert.LibBlockSums.sum_blocks 10 5000 50000 rfl f

/-! ## The invariant of the run of ten points, at the extended reals -/

section Value

variable (V : (c : Dev nD) → (b : Ref sig .tc) → Buf (Elt Ideal) ((c : Thread nD τ).loc b))

/-- The stage's whole-array value on the arrays the region finds: the rectified dense stage of the normalised features. -/
def Yv (c : Dev nD) : FVec Ideal Cert.Gin.SX .f32 :=
  Cert.Gin.dense (Cert.Gin.affine (V c main_v80_0) (V c main_v96) (V c main_v98)) (V c main_v100) (V c main_v103)

/-- The tile the body stores at point t is rows 5000·t … of the stage's value. -/
theorem tile_eq (c : Dev nD) (t : Fin cfg4.N) (ht : t.val < 10) (a : Fin 5000) (q : Fin 128) :
    (k4_pay4 (iblk4 V c 0 t) (iblk4 V c 1 t) (iblk4 V c 2 t) (iblk4 V c 3 t) (iblk4 V c 4 t) : FVec Ideal S5000x128 .f32) (ix2 a q)
      = Yv V c (ix2 (row t.val ht a) q) :=
  pay4_apply (row t.val ht) (V c main_v80_0) (V c main_v96) (V c main_v98) (V c main_v100) (V c main_v103)
    (iblk4 V c 0 t) (iblk4 V c 1 t) (iblk4 V c 2 t) (iblk4 V c 3 t) (iblk4 V c 4 t)
    (fun r k => blk0_read V c t r k (row t.val ht r) rfl) (blk1_read V c t) (blk2_read V c t) (blk3_read V c t)
    (blk4_read V c t) a q

/-- After point n: output 5's buffer holds tile n of the stage's value, output 6's the column sums over the rows of
    tiles 0 … n, output 7's the column sums of the squares over the same rows. By induction on the point: the first
    point adds its tile's sums to zero rows, a later one to the carried rows. -/
theorem outs_inv (c : Dev nD) : ∀ (n : ℕ) (hn : n < cfg4.N) (h10 : n < 10),
    (∀ a q, (outsAt4 V c n hn).1 (ix2 a q) = Yv V c (ix2 (row n h10 a) q))
    ∧ (∀ q, (outsAt4 V c n hn).2.1 (ix2 (0 : Fin 1) q) = psum (fun r => Yv V c (ix2 r q)) (n + 1))
    ∧ (∀ q, (outsAt4 V c n hn).2.2 (ix2 (0 : Fin 1) q) = psum (fun r => Yv V c (ix2 r q) * Yv V c (ix2 r q)) (n + 1))
  | 0, hn, h10 => by
    rw [outs_A V c 0 hn rfl]
    refine ⟨fun a q => tile_eq V c ⟨0, hn⟩ h10 a q, fun q => ?_, fun q => ?_⟩
    · show (k4_pay5 _ _ _ _ _ _ : FVec Ideal S1x128 .f32) (ix2 (0 : Fin 1) q) = _
      rw [pay5_apply, pay2_apply, zero_add, psum_succ _ 0 h10, psum_zero, zero_add]
      exact Finset.sum_congr rfl fun a _ => tile_eq V c ⟨0, hn⟩ h10 a q
    · show (k4_pay1 _ _ : FVec Ideal S1x128 .f32) (ix2 (0 : Fin 1) q) = _
      rw [pay1_apply, psum_succ _ 0 h10, psum_zero, zero_add]
      show (shapeCast S1x128 k4_pay3 _ : FVec Ideal S1x128 .f32) (ix2 (0 : Fin 1) q) + _ = _
      rw [shapeCast_self, pay3_apply, zero_add]
      exact Finset.sum_congr rfl fun a _ => by rw [tile_eq V c ⟨0, hn⟩ h10 a q]
  | n + 1, hn, h10 => by
    obtain ⟨-, ih6, ih7⟩ := outs_inv c n (Nat.lt_of_succ_lt hn) (by omega)
    rw [outs_B V c n hn (by omega)]
    refine ⟨fun a q => tile_eq V c ⟨n + 1, hn⟩ h10 a q, fun q => ?_, fun q => ?_⟩
    · show (k4_pay5 _ _ _ _ _ _ : FVec Ideal S1x128 .f32) (ix2 (0 : Fin 1) q) = _
      rw [pay5_apply, psum_succ _ (n + 1) h10, ih6 q]
      exact congrArg (fun z : EReal => _ + z) (Finset.sum_congr rfl fun a _ => tile_eq V c ⟨n + 1, hn⟩ h10 a q)
    · show (k4_pay1 _ _ : FVec Ideal S1x128 .f32) (ix2 (0 : Fin 1) q) = _
      rw [pay1_apply, psum_succ _ (n + 1) h10]
      show (shapeCast S1x128 (outsAt4 V c n _).2.2 _ : FVec Ideal S1x128 .f32) (ix2 (0 : Fin 1) q) + _ = _
      rw [shapeCast_self, ih7 q]
      exact congrArg (fun z : EReal => _ + z) (Finset.sum_congr rfl fun a _ => by rw [tile_eq V c ⟨n + 1, hn⟩ h10 a q])

end Value

/-! ## The three result arrays after the run -/

section Final

variable (V : (c : Dev nD) → (b : Ref sig .tc) → Buf (Elt Ideal) ((c : Thread nD τ).loc b))

theorem index6 (t : Fin cfg4.N) : win4_6.index t 0 = 0 ∧ win4_6.index t 1 = 0 := ⟨rfl, rfl⟩
theorem index7 (t : Fin cfg4.N) : win4_7.index t 0 = 0 ∧ win4_7.index t 1 = 0 := ⟨rfl, rfl⟩

/-- What output 5's write-back at point t writes is tile t of the stage's value. -/
theorem flushed5_eq (c : Dev nD) (t : Fin cfg4.N) (hf : (cfg4.win 5).flush t = true) :
    (dat4 V c).flushed 5 t = ((cfg4.win 5).blk t).view.read (Elt Ideal) (Yv V c) := by
  have h10 : t.val < 10 := lt_of_lt_of_eq t.isLt (show cfg4.N = 10 from N_4)
  have hi := index5 t
  show (cfg4.win 5).cut (cfg4.grid.coords t) ((dat4 V c).after 5 t) = _
  rw [after4_5]
  funext j
  obtain ⟨a, q, rfl⟩ : ∃ (a : Fin 5000) (q : Fin 128), j = ix2 a q := ⟨j 0, j 1, eq_ix2 j⟩
  rw [View.read_apply]
  show (outsAt4 V c t.val t.isLt).1 (ix2 a q) = Yv V c _
  rw [(outs_inv V c t.val t.isLt h10).1 a q]
  refine congrArg (Yv V c) (funext fun ax => Fin.ext ?_)
  match ax with
  | ⟨0, _⟩ => show t.val * 5000 + a.val = win4_5.index t 0 * 5000 + 1 * a.val; rw [hi.1]; omega
  | ⟨1, _⟩ => show q.val = win4_5.index t 1 * 128 + 1 * q.val; rw [hi.2]; omega

/-- Output 5's array ends holding the stage's value: row r is written back by point r / 5000. -/
theorem H_eq (c : Dev nD) : (dat4 V c).arrAt 5 cfg4.N = Yv V c :=
  (dat4 V c).arrAt_eq_of_cover 5 (Yv V c) (flushed5_eq V c) fun i => by
    have h0 : (i 0 : Nat) < 50000 := (i 0).isLt
    have h1 : (i 1 : Nat) < 128 := (i 1).isLt
    have hlt : (i 0 : Nat) / 5000 < cfg4.N := by rw [show cfg4.N = 10 from N_4]; omega
    have hi := index5 ⟨(i 0 : Nat) / 5000, hlt⟩
    refine ⟨⟨(i 0 : Nat) / 5000, hlt⟩, flush4_5 _, ?_⟩
    show i ∈ ((View.whole main_v104_0).slice (win4_5.rect ⟨(i 0 : Nat) / 5000, hlt⟩)).set
    rw [View.set_slice_whole, Rect.mem_set_unit]
    intro a
    match a with
    | ⟨0, _⟩ =>
      show win4_5.index ⟨(i 0 : Nat) / 5000, hlt⟩ 0 * 5000 ≤ (i 0 : Nat) ∧ (i 0 : Nat) < win4_5.index ⟨(i 0 : Nat) / 5000, hlt⟩ 0 * 5000 + 5000
      rw [hi.1]; dsimp only; omega
    | ⟨1, _⟩ =>
      show win4_5.index ⟨(i 0 : Nat) / 5000, hlt⟩ 1 * 128 ≤ (i 1 : Nat) ∧ (i 1 : Nat) < win4_5.index ⟨(i 0 : Nat) / 5000, hlt⟩ 1 * 128 + 128
      rw [hi.2]; omega

/-- What output 6's one write-back, at the last point, writes: the column sums of the stage's value, as a row. -/
theorem flushed6_eq (c : Dev nD) (t : Fin cfg4.N) (hf : (cfg4.win 6).flush t = true) :
    (dat4 V c).flushed 6 t = ((cfg4.win 6).blk t).view.read (Elt Ideal) (Cert.Gin.rowOf (Cert.Gin.colSum (Yv V c))) := by
  have h10 : t.val < 10 := lt_of_lt_of_eq t.isLt (show cfg4.N = 10 from N_4)
  have h9 : t.val + 1 = 10 := by have := (flush4_6 t).mp hf; omega
  have key : ∀ q : Fin 128, (outsAt4 V c t.val t.isLt).2.1 (ix2 (0 : Fin 1) q) = Cert.Gin.colSum (Yv V c) q := fun q => by
    rw [(outs_inv V c t.val t.isLt h10).2.1 q, h9, psum_ten]
    unfold Cert.Gin.colSum
    rfl
  generalize Cert.Gin.colSum (Yv V c) = g at key ⊢
  show (cfg4.win 6).cut (cfg4.grid.coords t) ((dat4 V c).after 6 t) = _
  rw [after4_6]
  funext j
  obtain ⟨u, q, rfl⟩ : ∃ (u : Fin 1) (q : Fin 128), j = ix2 u q := ⟨j 0, j 1, eq_ix2 j⟩
  obtain rfl : u = 0 := Subsingleton.elim _ _
  rw [View.read_apply]
  show (outsAt4 V c t.val t.isLt).2.1 (ix2 (0 : Fin 1) q) = Cert.Gin.rowOf g _
  rw [key q]
  refine (Cert.Gin.rowOf_ix2 g q).symm.trans (congrArg (Cert.Gin.rowOf g) (funext fun ax => Fin.ext ?_))
  match ax with
  | ⟨0, _⟩ => rfl
  | ⟨1, _⟩ => show q.val = 0 * 128 + 1 * q.val; omega

/-- Output 6's array ends holding the column sums of the stage's value. -/
theorem S1_eq (c : Dev nD) : (dat4 V c).arrAt 6 cfg4.N = Cert.Gin.rowOf (Cert.Gin.colSum (Yv V c)) :=
  (dat4 V c).arrAt_eq_of_cover 6 (Cert.Gin.rowOf (Cert.Gin.colSum (Yv V c))) (flushed6_eq V c) fun i => by
    have h0 : (i 0 : Nat) < 1 := (i 0).isLt
    have h1 : (i 1 : Nat) < 128 := (i 1).isLt
    refine ⟨t4_9, (flush4_6 t4_9).mpr rfl, ?_⟩
    show i ∈ ((View.whole main_v104_1).slice (win4_6.rect t4_9)).set
    rw [View.set_slice_whole, Rect.mem_set_unit]
    intro a
    match a with
    | ⟨0, _⟩ => show 0 * 1 ≤ (i 0 : Nat) ∧ (i 0 : Nat) < 0 * 1 + 1; omega
    | ⟨1, _⟩ => show 0 * 128 ≤ (i 1 : Nat) ∧ (i 1 : Nat) < 0 * 128 + 128; omega

/-- What output 7's one write-back, at the last point, writes: the column sums of the squares, as a row. -/
theorem flushed7_eq (c : Dev nD) (t : Fin cfg4.N) (hf : (cfg4.win 7).flush t = true) :
    (dat4 V c).flushed 7 t = ((cfg4.win 7).blk t).view.read (Elt Ideal) (Cert.Gin.rowOf (Cert.Gin.colSq (Yv V c))) := by
  have h10 : t.val < 10 := lt_of_lt_of_eq t.isLt (show cfg4.N = 10 from N_4)
  have h9 : t.val + 1 = 10 := by have := (flush4_7 t).mp hf; omega
  have key : ∀ q : Fin 128, (outsAt4 V c t.val t.isLt).2.2 (ix2 (0 : Fin 1) q) = Cert.Gin.colSq (Yv V c) q := fun q => by
    rw [(outs_inv V c t.val t.isLt h10).2.2 q, h9, psum_ten]
    unfold Cert.Gin.colSq
    rfl
  generalize Cert.Gin.colSq (Yv V c) = g at key ⊢
  show (cfg4.win 7).cut (cfg4.grid.coords t) ((dat4 V c).after 7 t) = _
  rw [after4_7]
  funext j
  obtain ⟨u, q, rfl⟩ : ∃ (u : Fin 1) (q : Fin 128), j = ix2 u q := ⟨j 0, j 1, eq_ix2 j⟩
  obtain rfl : u = 0 := Subsingleton.elim _ _
  rw [View.read_apply]
  show (outsAt4 V c t.val t.isLt).2.2 (ix2 (0 : Fin 1) q) = Cert.Gin.rowOf g _
  rw [key q]
  refine (Cert.Gin.rowOf_ix2 g q).symm.trans (congrArg (Cert.Gin.rowOf g) (funext fun ax => Fin.ext ?_))
  match ax with
  | ⟨0, _⟩ => rfl
  | ⟨1, _⟩ => show q.val = 0 * 128 + 1 * q.val; omega

/-- Output 7's array ends holding the column sums of the squares of the stage's value. -/
theorem S2_eq (c : Dev nD) : (dat4 V c).arrAt 7 cfg4.N = Cert.Gin.rowOf (Cert.Gin.colSq (Yv V c)) :=
  (dat4 V c).arrAt_eq_of_cover 7 (Cert.Gin.rowOf (Cert.Gin.colSq (Yv V c))) (flushed7_eq V c) fun i => by
    have h0 : (i 0 : Nat) < 1 := (i 0).isLt
    have h1 : (i 1 : Nat) < 128 := (i 1).isLt
    refine ⟨t4_9, (flush4_7 t4_9).mpr rfl, ?_⟩
    show i ∈ ((View.whole main_v104_2).slice (win4_7.rect t4_9)).set
    rw [View.set_slice_whole, Rect.mem_set_unit]
    intro a
    match a with
    | ⟨0, _⟩ => show 0 * 1 ≤ (i 0 : Nat) ∧ (i 0 : Nat) < 0 * 1 + 1; omega
    | ⟨1, _⟩ => show 0 * 128 ≤ (i 1 : Nat) ∧ (i 1 : Nat) < 0 * 128 + 128; omega

/-- The arrays the region reads are these buffers. -/
theorem arr0 (c : Dev nD) : V c (Pipeline.arrRef spec4 0) = V c main_v80_0 := rfl
theorem arr1 (c : Dev nD) : V c (Pipeline.arrRef spec4 1) = V c main_v96 := rfl
theorem arr2 (c : Dev nD) : V c (Pipeline.arrRef spec4 2) = V c main_v98 := rfl
theorem arr3 (c : Dev nD) : V c (Pipeline.arrRef spec4 3) = V c main_v100 := rfl
theorem arr4 (c : Dev nD) : V c (Pipeline.arrRef spec4 4) = V c main_v103 := rfl

end Final

end Cert.KernelIdeal.RegB4
end
-- ==== Proof.RegC5.lean ====
/-
  The value of the normalise-and-rectify region 5 of the graph network: its output array after the run.

  The region walks the 50000 rows of a stage's output H in 10 tiles of 5000 rows. At tile t it reads rows
  5000·t … 5000·t + 4999 of H and the two rows α and β (the same at every tile), and writes back, to the same rows of
  its output, max (h·α + β) 0 entry by entry, α and β broadcast down the tile. Entry (r, q) of that tile therefore is
  entry (5000·t + r, q) of the whole-array function  affineRelu H α β.  The ten tiles cover the 50000 rows (row r
  lies in tile r / 5000), so the output array ends holding  affineRelu H α β.
-/
import proofs.«112967_j35158602285141_1_alg».proof.Proof.Gen.KernelIdeal.Frame
import proofs.«112967_j35158602285141_1_alg».proof.Proof.Spec
import Idealize.ShloMosaic.Lib.Pipeline.Value

set_option maxRecDepth 16384

noncomputable section

namespace Cert.KernelIdeal.RegC5

open Cert.KernelIdeal Cert.KernelIdeal.Gen Idealize.ShloMosaic Idealize.ShloMosaic.TcCoe Idealize.SL.Sem
open Idealize.ShloMosaic.Pipeline (Dat)
open Idealize.ShloMosaic.ValueIdx Cert.LibBiasRows

/-! ## A tile of rows of the whole-array function -/

/-- max (x·a + b) 0 on a tile of rows `x` of `H` (any choice of rows, given by `row`), the rows `a` and `b` broadcast
    down the tile, through the identity casts a tiled program prints, is that tile of rows of `affineRelu H A S`. -/
theorem affineRelu_rows (row : Fin 5000 → Fin 50000) (H : FVec Ideal Cert.Gin.SX .f32) (A S : FVec Ideal Cert.Gin.SR .f32)
    (x : FVec Ideal ⟨2, ![5000, 128]⟩ .f32) (a b : FVec Ideal ⟨2, ![1, 128]⟩ .f32)
    (hx : ∀ r q, x (ix2 r q) = H (ix2 (row r) q))
    (ha : ∀ q, a (ix2 (0 : Fin 1) q) = A (ix2 (0 : Fin 1) q)) (hb : ∀ q, b (ix2 (0 : Fin 1) q) = S (ix2 (0 : Fin 1) q))
    (hs : (⟨2, ![5000, 128]⟩ : Shape).ShapeCasts ⟨2, ![5000, 128]⟩) (hs' : (⟨2, ![1, 128]⟩ : Shape).ShapeCasts ⟨2, ![1, 128]⟩)
    (hbc : (⟨2, ![1, 128]⟩ : Shape).Broadcasts ⟨2, ![5000, 128]⟩)
    (j : (⟨2, ![5000, 128]⟩ : Shape).Idx) (i : (⟨2, ![50000, 128]⟩ : Shape).Idx)
    (h0 : (i 0).val = (row (j 0)).val) (h1 : (i 1).val = (j 1).val) :
    maximumf (addf (mulf (shapeCast ⟨2, ![5000, 128]⟩ x hs) (broadcastTo ⟨2, ![5000, 128]⟩ (shapeCast ⟨2, ![1, 128]⟩ a hs') hbc))
          (broadcastTo ⟨2, ![5000, 128]⟩ (shapeCast ⟨2, ![1, 128]⟩ b hs') hbc))
        (broadcast ⟨2, ![5000, 128]⟩ (Scalar.ofBits (F := Ideal) .f32 0x00000000#32)) j
      = Cert.Gin.affineRelu H A S i := by
  obtain ⟨p, q, rfl⟩ : ∃ (p : Fin 5000) (q : Fin 128), j = ix2 p q := ⟨j 0, j 1, eq_ix2 j⟩
  obtain rfl : i = ix2 (row p) q := by
    rw [eq_ix2 i]; exact congrArg₂ ix2 (Fin.ext h0) (Fin.ext h1)
  rw [Cert.Gin.affineRelu_ix2, maximumf_apply, addf_apply, mulf_apply, broadcast_apply, shapeCast_self x hs,
    broadcastTo_1b_ab_apply, broadcastTo_1b_ab_apply, shapeCast_self a hs', shapeCast_self b hs', hx, ha, hb]
  rfl

/-! ## The region's tiles -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at tile `t` the block of H and the output block are the `t`-th
    blocks of rows, and the two rows are read at block (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row `p` of tile `t` is row 5000·t + p of the array. -/
def rowAt (t : Fin cfg5.N) (p : Fin 5000) : Fin 50000 :=
  ⟨5000 * t.val + p.val, by have hN : cfg5.N = 10 := N_5; have := t.isLt; have := p.isLt; omega⟩

/-- The block of H at tile `t` is rows 5000·t … of H. -/
theorem iblk_H (c : Dev nD) (t : Fin cfg5.N) (p : Fin 5000) (q : Fin 128) :
    (iblk5 V c 0 t : Vec Ideal S5000x128 .f32) (ix2 p q) = (V c main_v104_0 : S50000x128.Idx → EReal) (ix2 (rowAt t p) q) := by
  obtain ⟨e0, e1, -, -, -, -, -, -⟩ := idx_facts t
  unfold iblk5
  rw [View.read_apply]
  show V c main_v104_0 _ = V c main_v104_0 _
  refine congrArg _ ?_
  funext ax
  apply Fin.ext
  match ax with
  | ⟨0, _⟩ => show win5_0.index t (0 : Fin 2) * 5000 + 1 * p.val = 5000 * t.val + p.val; omega
  | ⟨1, _⟩ => show win5_0.index t (1 : Fin 2) * 128 + 1 * q.val = q.val; omega

/-- The block of α at every tile is α. -/
theorem iblk_A (c : Dev nD) (t : Fin cfg5.N) (q : Fin 128) :
    (iblk5 V c 1 t : Vec Ideal S1x128 .f32) (ix2 (0 : Fin 1) q) = (V c main_v120 : S1x128.Idx → EReal) (ix2 (0 : Fin 1) q) := by
  obtain ⟨-, -, e2, e3, -, -, -, -⟩ := idx_facts t
  unfold iblk5
  rw [View.read_apply]
  show V c main_v120 _ = V c main_v120 _
  refine congrArg _ ?_
  funext ax
  apply Fin.ext
  match ax with
  | ⟨0, _⟩ => show win5_1.index t (0 : Fin 2) * 1 + 1 * 0 = 0; omega
  | ⟨1, _⟩ => show win5_1.index t (1 : Fin 2) * 128 + 1 * q.val = q.val; omega

/-- The block of β at every tile is β. -/
theorem iblk_S (c : Dev nD) (t : Fin cfg5.N) (q : Fin 128) :
    (iblk5 V c 2 t : Vec Ideal S1x128 .f32) (ix2 (0 : Fin 1) q) = (V c main_v122 : S1x128.Idx → EReal) (ix2 (0 : Fin 1) q) := by
  obtain ⟨-, -, -, -, e4, e5, -, -⟩ := idx_facts t
  unfold iblk5
  rw [View.read_apply]
  show V c main_v122 _ = V c main_v122 _
  refine congrArg _ ?_
  funext ax
  apply Fin.ext
  match ax with
  | ⟨0, _⟩ => show win5_2.index t (0 : Fin 2) * 1 + 1 * 0 = 0; omega
  | ⟨1, _⟩ => show win5_2.index t (1 : Fin 2) * 128 + 1 * q.val = q.val; omega

/-- What tile `t` writes back is block `t` of `affineRelu H α β`. -/
theorem flushed_eq (c : Dev nD) (t : Fin cfg5.N) :
    (dat5 (F := Ideal) V c).flushed 3 t
      = ((cfg5.win 3).blk t).view.read (Elt Ideal) (Cert.Gin.affineRelu (V c main_v104_0) (V c main_v120) (V c main_v122)) := by
  show (cfg5.win 3).cut (grid5.coords t) ((dat5 V c).after 3 t) = _
  rw [after5_3]
  unfold out5_3
  rw [View.canon_unit_zero hz]
  simp only [View.ld_unit_zero (S := S5000x128) hz, View.ld_unit_zero (S := S1x128) hz]
  obtain ⟨-, -, -, -, -, -, e6, e7⟩ := idx_facts t
  funext j
  show k5_pay1 (iblk5 V c 0 t) (iblk5 V c 1 t) (iblk5 V c 2 t) j
    = Cert.Gin.affineRelu (V c main_v104_0) (V c main_v120) (V c main_v122) (((cfg5.win 3).blk t).view.emb j)
  refine affineRelu_rows (rowAt t) _ _ _ _ _ _ (iblk_H V c t) (iblk_A V c t) (iblk_S V c t) _ _ _ j _ ?_ ?_
  · show win5_3.index t (0 : Fin 2) * 5000 + 1 * (j 0).val = 5000 * t.val + (j 0).val; omega
  · show win5_3.index t (1 : Fin 2) * 128 + 1 * (j 1).val = (j 1).val; omega

/-! ## The tiles cover the array -/

/-- An index of the array is in tile `t`'s block iff each coordinate is in the block's range on its axis. -/
theorem mem_blk (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v123).slice (win5_3.rect t)).set ↔ _
  rw [View.set_slice_whole, Rect.mem_set_unit]
  exact Iff.rfl

/-- Row r lies in tile r / 5000. -/
theorem cover (i : S50000x128.Idx) :
    ∃ t : Fin cfg5.N, (cfg5.win 3).flush t = true ∧ i ∈ ((cfg5.win 3).blk t).view.set := by
  have hN : cfg5.N = 10 := N_5
  have hi0 : (i 0).val < 50000 := (i 0).isLt
  have hi1 : (i 1).val < 128 := (i 1).isLt
  have ht : (i 0).val / 5000 < cfg5.N := by omega
  obtain ⟨-, -, -, -, -, -, e6, e7⟩ := idx_facts ⟨(i 0).val / 5000, ht⟩
  have e6' : win5_3.index ⟨(i 0).val / 5000, ht⟩ (0 : Fin 2) = (i 0).val / 5000 := e6
  refine ⟨⟨(i 0).val / 5000, ht⟩, flush5_3 _, ?_⟩
  rw [mem_blk]
  intro a
  match a with
  | ⟨0, _⟩ =>
    show win5_3.index ⟨(i 0).val / 5000, ht⟩ (0 : Fin 2) * 5000 ≤ (i 0).val
      ∧ (i 0).val < win5_3.index ⟨(i 0).val / 5000, ht⟩ (0 : Fin 2) * 5000 + 5000
    omega
  | ⟨1, _⟩ =>
    show win5_3.index ⟨(i 0).val / 5000, ht⟩ (1 : Fin 2) * 128 ≤ (i 1).val
      ∧ (i 1).val < win5_3.index ⟨(i 0).val / 5000, ht⟩ (1 : Fin 2) * 128 + 128
    omega

/-! ## The output array after the run -/

/-- The region's output array ends holding max (H·α + β) 0, H, α and β its three input arrays as the region finds them. -/
theorem out_eq (c : Dev nD) :
    (dat5 (F := Ideal) V c).arrAt 3 cfg5.N = Cert.Gin.affineRelu (V c main_v104_0) (V c main_v120) (V c main_v122) :=
  (dat5 V c).arrAt_eq_of_cover 3 _ (fun t _ => flushed_eq V c t) cover

/-- The three input arrays are the windows' arrays. -/
theorem arr_eq : Pipeline.arrRef spec5 0 = main_v104_0 ∧ Pipeline.arrRef spec5 1 = main_v120 ∧ Pipeline.arrRef spec5 2 = main_v122
    ∧ Pipeline.arrRef spec5 3 = main_v123 := ⟨rfl, rfl, rfl, rfl⟩

end Cert.KernelIdeal.RegC5

end
-- ==== Proof.KChainL1.lean ====
/-
  Layer 1 of the run. From the buffer contents at the layer's first boundary, where the features' buffer holds X,
  through the three stretches of host operations and the three regions: the first stage's region leaves
  H₁ = dense (X aggregated over the edges) W₁ b₁ and its two column sums, the next stretch makes of the sums the
  slope and offset rows of H₁, the second stage's region leaves H₂ = dense (H₁·α₁ + β₁) W₂ b₂ and its sums, the
  next stretch the rows of H₂, and the last region max (H₂·α₂ + β₂) 0: the specification's layer on X, in the
  buffer the next layer reads.
-/
import proofs.«112967_j35158602285141_1_alg».proof.Proof.KChainKeep
import proofs.«112967_j35158602285141_1_alg».proof.Proof.RegL3
import proofs.«112967_j35158602285141_1_alg».proof.Proof.RegB4
import proofs.«112967_j35158602285141_1_alg».proof.Proof.RegC5

set_option maxRecDepth 16384

noncomputable section

namespace Cert.KernelIdeal.KChain

open Idealize.ShloMosaic Idealize.ShloMosaic.TcCoe Idealize.ShloMosaic.Tactic
open Idealize.SL.Sem
open Cert.KernelIdeal Cert.KernelIdeal.Gen Cert.Gin

variable (m : (ℓ : Loc nD τ sig) → Buf (Elt Ideal) ℓ) (ρ : Dev nD → PrngReg) (c : Dev nD)

set_option maxHeartbeats 2000000 in
/-- The first stage's region: its output and the two column sums, at the region's exit. -/
theorem l1_stage1 (X : FArr S50000x128) (hX : W6 m ρ c (Proc.devRef .tc main_v63) = X) :
    W8 m ρ c (Proc.devRef .tc main_v80_0) = (dense (aggK X (m ((c : Thread nD τ).loc main_arg2))) (sliceWK 1 (m ((c : Thread nD τ).loc main_arg3))) (rowK 1 (m ((c : Thread nD τ).loc main_arg4))))
    ∧ W8 m ρ c (Proc.devRef .tc main_v80_1) = rowOf (colSum (dense (aggK X (m ((c : Thread nD τ).loc main_arg2))) (sliceWK 1 (m ((c : Thread nD τ).loc main_arg3))) (rowK 1 (m ((c : Thread nD τ).loc main_arg4)))))
    ∧ W8 m ρ c (Proc.devRef .tc main_v80_2) = rowOf (colSq (dense (aggK X (m ((c : Thread nD τ).loc main_arg2))) (sliceWK 1 (m ((c : Thread nD τ).loc main_arg3))) (rowK 1 (m ((c : Thread nD τ).loc main_arg4))))) := by
  have hx : V7 m ρ c main_v74 = (aggK X (m ((c : Thread nD τ).loc main_arg2))) :=
    (host3_v74 (W6 m ρ c)).trans (by
      rw [hX, keepI_6 m ρ c main_v1 (by decide), keepI_6 m ρ c main_v3 (by decide), src_1, dst_1]; rfl)
  have hw : V7 m ρ c main_v76 = (sliceWK 1 (m ((c : Thread nD τ).loc main_arg3))) := (host3_v76 (W6 m ρ c)).trans (by rw [keep_6 m ρ c main_arg3 (by decide)])
  have hb : V7 m ρ c main_v79 = (rowK 1 (m ((c : Thread nD τ).loc main_arg4))) := (host3_v79 (W6 m ρ c)).trans (by rw [keep_6 m ρ c main_arg4 (by decide)])
  refine ⟨?_, ?_, ?_⟩
  · exact (W8_arr m ρ c 3).trans ((RegL3.H_eq (V7 m ρ) c).trans (by rw [hx, hw, hb]))
  · exact (W8_arr m ρ c 4).trans ((RegL3.S1_eq (V7 m ρ) c).trans (by rw [hx, hw, hb]))
  · exact (W8_arr m ρ c 5).trans ((RegL3.S2_eq (V7 m ρ) c).trans (by rw [hx, hw, hb]))

set_option maxHeartbeats 2000000 in
/-- The second stage's region: its output and the two column sums, at the region's exit. -/
theorem l1_stage2 (X : FArr S50000x128) (hX : W6 m ρ c (Proc.devRef .tc main_v63) = X) :
    W10 m ρ c (Proc.devRef .tc main_v104_0) = (dense (affine (dense (aggK X (m ((c : Thread nD τ).loc main_arg2))) (sliceWK 1 (m ((c : Thread nD τ).loc main_arg3))) (rowK 1 (m ((c : Thread nD τ).loc main_arg4)))) (alphaRow (rowK 1 (m ((c : Thread nD τ).loc main_arg5))) (dense (aggK X (m ((c : Thread nD τ).loc main_arg2))) (sliceWK 1 (m ((c : Thread nD τ).loc main_arg3))) (rowK 1 (m ((c : Thread nD τ).loc main_arg4))))) (shiftRow (rowK 1 (m ((c : Thread nD τ).loc main_arg5))) (rowK 1 (m ((c : Thread nD τ).loc main_arg6))) (dense (aggK X (m ((c : Thread nD τ).loc main_arg2))) (sliceWK 1 (m ((c : Thread nD τ).loc main_arg3))) (rowK 1 (m ((c : Thread nD τ).loc main_arg4)))))) (sliceWK 1 (m ((c : Thread nD τ).loc main_arg7))) (rowK 1 (m ((c : Thread nD τ).loc main_arg8))))
    ∧ W10 m ρ c (Proc.devRef .tc main_v104_1) = rowOf (colSum (dense (affine (dense (aggK X (m ((c : Thread nD τ).loc main_arg2))) (sliceWK 1 (m ((c : Thread nD τ).loc main_arg3))) (rowK 1 (m ((c : Thread nD τ).loc main_arg4)))) (alphaRow (rowK 1 (m ((c : Thread nD τ).loc main_arg5))) (dense (aggK X (m ((c : Thread nD τ).loc main_arg2))) (sliceWK 1 (m ((c : Thread nD τ).loc main_arg3))) (rowK 1 (m ((c : Thread nD τ).loc main_arg4))))) (shiftRow (rowK 1 (m ((c : Thread nD τ).loc main_arg5))) (rowK 1 (m ((c : Thread nD τ).loc main_arg6))) (dense (aggK X (m ((c : Thread nD τ).loc main_arg2))) (sliceWK 1 (m ((c : Thread nD τ).loc main_arg3))) (rowK 1 (m ((c : Thread nD τ).loc main_arg4)))))) (sliceWK 1 (m ((c : Thread nD τ).loc main_arg7))) (rowK 1 (m ((c : Thread nD τ).loc main_arg8)))))
    ∧ W10 m ρ c (Proc.devRef .tc main_v104_2) = rowOf (colSq (dense (affine (dense (aggK X (m ((c : Thread nD τ).loc main_arg2))) (sliceWK 1 (m ((c : Thread nD τ).loc main_arg3))) (rowK 1 (m ((c : Thread nD τ).loc main_arg4)))) (alphaRow (rowK 1 (m ((c : Thread nD τ).loc main_arg5))) (dense (aggK X (m ((c : Thread nD τ).loc main_arg2))) (sliceWK 1 (m ((c : Thread nD τ).loc main_arg3))) (rowK 1 (m ((c : Thread nD τ).loc main_arg4))))) (shiftRow (rowK 1 (m ((c : Thread nD τ).loc main_arg5))) (rowK 1 (m ((c : Thread nD τ).loc main_arg6))) (dense (aggK X (m ((c : Thread nD τ).loc main_arg2))) (sliceWK 1 (m ((c : Thread nD τ).loc main_arg3))) (rowK 1 (m ((c : Thread nD τ).loc main_arg4)))))) (sliceWK 1 (m ((c : Thread nD τ).loc main_arg7))) (rowK 1 (m ((c : Thread nD τ).loc main_arg8))))) := by
  obtain ⟨hH, hS1, hS2⟩ := l1_stage1 m ρ c X hX
  have hH' : V9 m ρ c main_v80_0 = (dense (aggK X (m ((c : Thread nD τ).loc main_arg2))) (sliceWK 1 (m ((c : Thread nD τ).loc main_arg3))) (rowK 1 (m ((c : Thread nD τ).loc main_arg4)))) := (host4_keep (W8 m ρ c) main_v80_0 (by decide)).trans hH
  have ha : V9 m ρ c main_v96 = (alphaRow (rowK 1 (m ((c : Thread nD τ).loc main_arg5))) (dense (aggK X (m ((c : Thread nD τ).loc main_arg2))) (sliceWK 1 (m ((c : Thread nD τ).loc main_arg3))) (rowK 1 (m ((c : Thread nD τ).loc main_arg4))))) :=
    (host4_v96 (W8 m ρ c)).trans (by rw [keep_8 m ρ c main_arg5 (by decide), hS1, hS2, alphaK_eq])
  have hs : V9 m ρ c main_v98 = (shiftRow (rowK 1 (m ((c : Thread nD τ).loc main_arg5))) (rowK 1 (m ((c : Thread nD τ).loc main_arg6))) (dense (aggK X (m ((c : Thread nD τ).loc main_arg2))) (sliceWK 1 (m ((c : Thread nD τ).loc main_arg3))) (rowK 1 (m ((c : Thread nD τ).loc main_arg4))))) :=
    (host4_v98 (W8 m ρ c)).trans (by rw [keep_8 m ρ c main_arg5 (by decide), keep_8 m ρ c main_arg6 (by decide), hS1, hS2, betaK_eq])
  have hw : V9 m ρ c main_v100 = (sliceWK 1 (m ((c : Thread nD τ).loc main_arg7))) := (host4_v100 (W8 m ρ c)).trans (by rw [keep_8 m ρ c main_arg7 (by decide)])
  have hb : V9 m ρ c main_v103 = (rowK 1 (m ((c : Thread nD τ).loc main_arg8))) := (host4_v103 (W8 m ρ c)).trans (by rw [keep_8 m ρ c main_arg8 (by decide)])
  refine ⟨?_, ?_, ?_⟩
  · exact (W10_arr m ρ c 5).trans ((RegB4.H_eq (V9 m ρ) c).trans (by rw [RegB4.Yv, hH', ha, hs, hw, hb]))
  · exact (W10_arr m ρ c 6).trans ((RegB4.S1_eq (V9 m ρ) c).trans (by rw [RegB4.Yv, hH', ha, hs, hw, hb]))
  · exact (W10_arr m ρ c 7).trans ((RegB4.S2_eq (V9 m ρ) c).trans (by rw [RegB4.Yv, hH', ha, hs, hw, hb]))

set_option maxHeartbeats 2000000 in
/-- The layer: at its last region's exit the next layer's features buffer holds the specification's layer on X. -/
theorem layer1_out (X : FArr S50000x128) (hX : W6 m ρ c (Proc.devRef .tc main_v63) = X) :
    W12 m ρ c (Proc.devRef .tc main_v123)
      = layer (aggK X (m ((c : Thread nD τ).loc main_arg2))) (sliceWK 1 (m ((c : Thread nD τ).loc main_arg3))) (rowK 1 (m ((c : Thread nD τ).loc main_arg4))) (rowK 1 (m ((c : Thread nD τ).loc main_arg5))) (rowK 1 (m ((c : Thread nD τ).loc main_arg6))) (sliceWK 1 (m ((c : Thread nD τ).loc main_arg7))) (rowK 1 (m ((c : Thread nD τ).loc main_arg8))) (rowK 1 (m ((c : Thread nD τ).loc main_arg9))) (rowK 1 (m ((c : Thread nD τ).loc main_arg10))) := by
  obtain ⟨hH, hT1, hT2⟩ := l1_stage2 m ρ c X hX
  have hH' : V11 m ρ c main_v104_0 = (dense (affine (dense (aggK X (m ((c : Thread nD τ).loc main_arg2))) (sliceWK 1 (m ((c : Thread nD τ).loc main_arg3))) (rowK 1 (m ((c : Thread nD τ).loc main_arg4)))) (alphaRow (rowK 1 (m ((c : Thread nD τ).loc main_arg5))) (dense (aggK X (m ((c : Thread nD τ).loc main_arg2))) (sliceWK 1 (m ((c : Thread nD τ).loc main_arg3))) (rowK 1 (m ((c : Thread nD τ).loc main_arg4))))) (shiftRow (rowK 1 (m ((c : Thread nD τ).loc main_arg5))) (rowK 1 (m ((c : Thread nD τ).loc main_arg6))) (dense (aggK X (m ((c : Thread nD τ).loc main_arg2))) (sliceWK 1 (m ((c : Thread nD τ).loc main_arg3))) (rowK 1 (m ((c : Thread nD τ).loc main_arg4)))))) (sliceWK 1 (m ((c : Thread nD τ).loc main_arg7))) (rowK 1 (m ((c : Thread nD τ).loc main_arg8)))) := (host5_keep (W10 m ρ c) main_v104_0 (by decide)).trans hH
  have ha : V11 m ρ c main_v120 = (alphaRow (rowK 1 (m ((c : Thread nD τ).loc main_arg9))) (dense (affine (dense (aggK X (m ((c : Thread nD τ).loc main_arg2))) (sliceWK 1 (m ((c : Thread nD τ).loc main_arg3))) (rowK 1 (m ((c : Thread nD τ).loc main_arg4)))) (alphaRow (rowK 1 (m ((c : Thread nD τ).loc main_arg5))) (dense (aggK X (m ((c : Thread nD τ).loc main_arg2))) (sliceWK 1 (m ((c : Thread nD τ).loc main_arg3))) (rowK 1 (m ((c : Thread nD τ).loc main_arg4))))) (shiftRow (rowK 1 (m ((c : Thread nD τ).loc main_arg5))) (rowK 1 (m ((c : Thread nD τ).loc main_arg6))) (dense (aggK X (m ((c : Thread nD τ).loc main_arg2))) (sliceWK 1 (m ((c : Thread nD τ).loc main_arg3))) (rowK 1 (m ((c : Thread nD τ).loc main_arg4)))))) (sliceWK 1 (m ((c : Thread nD τ).loc main_arg7))) (rowK 1 (m ((c : Thread nD τ).loc main_arg8))))) :=
    (host5_v120 (W10 m ρ c)).trans (by rw [keep_10 m ρ c main_arg9 (by decide), hT1, hT2, alphaK_eq])
  have hs : V11 m ρ c main_v122 = (shiftRow (rowK 1 (m ((c : Thread nD τ).loc main_arg9))) (rowK 1 (m ((c : Thread nD τ).loc main_arg10))) (dense (affine (dense (aggK X (m ((c : Thread nD τ).loc main_arg2))) (sliceWK 1 (m ((c : Thread nD τ).loc main_arg3))) (rowK 1 (m ((c : Thread nD τ).loc main_arg4)))) (alphaRow (rowK 1 (m ((c : Thread nD τ).loc main_arg5))) (dense (aggK X (m ((c : Thread nD τ).loc main_arg2))) (sliceWK 1 (m ((c : Thread nD τ).loc main_arg3))) (rowK 1 (m ((c : Thread nD τ).loc main_arg4))))) (shiftRow (rowK 1 (m ((c : Thread nD τ).loc main_arg5))) (rowK 1 (m ((c : Thread nD τ).loc main_arg6))) (dense (aggK X (m ((c : Thread nD τ).loc main_arg2))) (sliceWK 1 (m ((c : Thread nD τ).loc main_arg3))) (rowK 1 (m ((c : Thread nD τ).loc main_arg4)))))) (sliceWK 1 (m ((c : Thread nD τ).loc main_arg7))) (rowK 1 (m ((c : Thread nD τ).loc main_arg8))))) :=
    (host5_v122 (W10 m ρ c)).trans (by rw [keep_10 m ρ c main_arg9 (by decide), keep_10 m ρ c main_arg10 (by decide), hT1, hT2, betaK_eq])
  exact (W12_arr m ρ c 3).trans ((RegC5.out_eq (V11 m ρ) c).trans (by rw [hH', ha, hs]; rfl))

end Cert.KernelIdeal.KChain

end
-- ==== Proof.RegL6.lean ====
/-
  The first kernel of a layer, read as a function of whole arrays on the extended reals.

  The kernel walks the 50000 rows of X in ten tiles of 5000. At each tile it stores H = max (x·W + b) 0 of the tile's
  rows, and adds the tile's column sums of H and of H² into two one-row buffers that it zeroes at the first tile and
  that are written back once, after the last. Row r of X·W depends on row r of X alone, so the H array ends holding
  max (X·W + B) 0 of the whole arrays; and the two rows end holding, at column q, the sum over the ten tiles of the
  tile's sums, which is the sum over all 50000 rows: a sum over Fin 50000 cut into ten consecutive blocks. Nothing of
  real arithmetic is used beyond 0 + x = x and the commutative monoid laws, so it holds at the infinities too.
-/
import proofs.«112967_j35158602285141_1_alg».proof.Proof.Gen.KernelIdeal.Frame
import proofs.«112967_j35158602285141_1_alg».proof.Proof.Spec
import proofs.«112967_j35158602285141_1_alg».proof.Proof.LibRowForms
import proofs.«112967_j35158602285141_1_alg».proof.Proof.LibBlockSums
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegL6

open Cert.KernelIdeal Cert.KernelIdeal.Gen Idealize.ShloMosaic.ValueIdx Cert.LibBiasRows Cert.LibRowBlockDot

/-! ## The payloads read at an index, on the extended reals -/

theorem dot_eq : dot_S5000x128_S128x128_S5000x128_1_0_0_1_n_n = DotDims.plain 5000 128 128 := rfl

/-- Entry (r, q) of the dense stage of a tile whose rows are the rows `row r` of X is entry (row r, q) of the dense
    stage of X. -/
theorem pay3_apply (row : Fin 5000 → Fin 50000) (X : FVec Ideal Cert.Gin.SX .f32) (W : FVec Ideal Cert.Gin.SW .f32)
    (B : FVec Ideal Cert.Gin.SR .f32)
    (x0 : Vec Ideal S5000x128 .f32) (x1 : Vec Ideal S128x128 .f32) (x2 : Vec Ideal S1x128 .f32)
    (h0 : ∀ r c, x0 (ix2 r c) = X (ix2 (row r) c)) (h1 : ∀ c q, x1 (ix2 c q) = W (ix2 c q))
    (h2 : ∀ q, x2 (ix2 (0 : Fin 1) q) = B (ix2 (0 : Fin 1) q)) (r : Fin 5000) (q : Fin 128) :
    k6_pay3 x0 x1 x2 (ix2 r q) = Cert.Gin.dense X W B (ix2 (row r) q) := by
  unfold k6_pay3 Cert.Gin.dense
  simp only [shapeCast_self]
  rw [biasRelu_ix2, maximumf_apply, addf_apply, broadcast_apply, broadcastTo_1b_ab_apply, h2, dot_eq,
    matmul_rowBlock_apply none none X W _ _ row (fun a c => by rw [truncf_apply, h0])
      (fun c b => by rw [truncf_apply, h1]) r q]
  rfl

/-- The column-sum row a tile leaves: the carried row plus the sums down the tile's columns. -/
theorem pay4_apply (x0 : Vec Ideal S5000x128 .f32) (x1 : Vec Ideal S128x128 .f32) (x2 : Vec Ideal S1x128 .f32)
    (v : Vec Ideal S1x128 .f32) (q : Fin 128) :
    k6_pay4 x0 x1 x2 v (ix2 (0 : Fin 1) q) = v (ix2 (0 : Fin 1) q) + ∑ k : Fin 5000, k6_pay3 x0 x1 x2 (ix2 k q) := by
  unfold k6_pay4
  rw [addf_apply, shapeCast_self, shapeCast_a_1a_apply]
  refine congrArg _ ?_
  exact multiReduction_add_col (k6_pay3 x0 x1 x2) 0x00000000#32 reduces_S5000x128_S128 (.inl rfl) rfl q

/-- The square-sum row a tile leaves: the carried row plus the sums of squares down the tile's columns. -/
theorem pay5_apply (x0 : Vec Ideal S5000x128 .f32) (x1 : Vec Ideal S128x128 .f32) (x2 : Vec Ideal S1x128 .f32)
    (v : Vec Ideal S1x128 .f32) (q : Fin 128) :
    k6_pay5 x0 x1 x2 v (ix2 (0 : Fin 1) q)
      = v (ix2 (0 : Fin 1) q) + ∑ k : Fin 5000, k6_pay3 x0 x1 x2 (ix2 k q) * k6_pay3 x0 x1 x2 (ix2 k q) := by
  unfold k6_pay5
  rw [addf_apply, shapeCast_self, shapeCast_a_1a_apply]
  refine congrArg _ ?_
  exact multiReduction_add_col (mulf (k6_pay3 x0 x1 x2) (k6_pay3 x0 x1 x2)) 0x00000000#32 reduces_S5000x128_S128
    (.inl rfl) rfl q

/-- The rows the reset stores are zero. -/
theorem pay1_apply (j : S1x128.Idx) : k6_pay1 (F := Ideal) j = 0 := Ideal.ofBits_zero_f32
theorem pay2_apply (j : S1x128.Idx) : k6_pay2 (F := Ideal) j = 0 := Ideal.ofBits_zero_f32

section Outs
variable {F : FTy → Type} [FloatOps F]

theorem hz : (![0, 0] : Fin 2 → Nat) = fun _ => 0 := funext fun a => by fin_cases a <;> rfl

/-! ## What one grid point leaves in the three output buffers, as the payloads of the point's input blocks -/

/-- The first point leaves the tile's dense stage in the H buffer, -/
theorem out_A_3 (c : Dev nD) (i : grid6.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond6_0 i)
    (x0 : Vec F S5000x128 .f32) (x1 : Vec F S128x128 .f32) (x2 : Vec F S1x128 .f32) :
    out6_A_3 c i a1 h1 a2 h2 a3 h3 a4 h4 a5 h5 a6 h6 hc x0 x1 x2 = k6_pay3 x0 x1 x2 := by
  unfold out6_A_3
  rw [View.read_writes_eq_canon _ _ _ (cover6_A_3 c i a1 h1 a2 h2 a3 h3 a4 h4 a5 h5 a6 h6 hc x0 x1 x2)]
  unfold kernelRun6_A
  dsimp only
  sl_unfold_words
  rw [View.canon_unit_zero hz]
  simp only [View.readAt_eq_ld, h1.read_unread, h2.read_unread, h3.read_unread, View.ld_unit_zero (S := S5000x128) hz,
    View.ld_unit_zero (S := S128x128) hz, View.ld_unit_zero (S := S1x128) hz]

/-- the tile's column sums added to the zero row it has just stored in the sum buffer, -/
theorem out_A_4 (c : Dev nD) (i : grid6.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond6_0 i)
    (x0 : Vec F S5000x128 .f32) (x1 : Vec F S128x128 .f32) (x2 : Vec F S1x128 .f32) :
    out6_A_4 c i a1 h1 a2 h2 a3 h3 a4 h4 a5 h5 a6 h6 hc x0 x1 x2 = k6_pay4 x0 x1 x2 k6_pay1 := by
  unfold out6_A_4
  rw [View.read_writes_eq_canon _ _ _ (cover6_A_4 c i a1 h1 a2 h2 a3 h3 a4 h4 a5 h5 a6 h6 hc x0 x1 x2)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S128x128) hz, View.ld_unit_zero (S := S1x128) hz]

/-- and the same for the squares. -/
theorem out_A_5 (c : Dev nD) (i : grid6.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : cond6_0 i)
    (x0 : Vec F S5000x128 .f32) (x1 : Vec F S128x128 .f32) (x2 : Vec F S1x128 .f32) :
    out6_A_5 c i a1 h1 a2 h2 a3 h3 a4 h4 a5 h5 a6 h6 hc x0 x1 x2 = k6_pay5 x0 x1 x2 k6_pay2 := by
  unfold out6_A_5
  rw [View.read_writes_eq_canon _ _ _ (cover6_A_5 c i a1 h1 a2 h2 a3 h3 a4 h4 a5 h5 a6 h6 hc x0 x1 x2)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S128x128) hz, View.ld_unit_zero (S := S1x128) hz]

/-- A later point leaves the tile's dense stage in the H buffer, -/
theorem out_B_3 (c : Dev nD) (i : grid6.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond6_0 i)
    (x0 : Vec F S5000x128 .f32) (x1 : Vec F S128x128 .f32) (x2 : Vec F S1x128 .f32) (xo4 xo5 : Vec F S1x128 .f32) :
    out6_B_3 c i a1 h1 a2 h2 a3 h3 a4 h4 a5 h5 a6 h6 hc x0 x1 x2 xo4 xo5 = k6_pay3 x0 x1 x2 := by
  unfold out6_B_3
  rw [View.read_writes_eq_canon _ _ _ (cover6_B_3 c i a1 h1 a2 h2 a3 h3 a4 h4 a5 h5 a6 h6 hc x0 x1 x2 xo4 xo5)]
  unfold kernelRun6_B
  dsimp only
  sl_unfold_words
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

/-- the tile's column sums added to the row the sum buffer held, -/
theorem out_B_4 (c : Dev nD) (i : grid6.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond6_0 i)
    (x0 : Vec F S5000x128 .f32) (x1 : Vec F S128x128 .f32) (x2 : Vec F S1x128 .f32) (xo4 xo5 : Vec F S1x128 .f32) :
    out6_B_4 c i a1 h1 a2 h2 a3 h3 a4 h4 a5 h5 a6 h6 hc x0 x1 x2 xo4 xo5 = k6_pay4 x0 x1 x2 xo4 := by
  unfold out6_B_4
  rw [View.read_writes_eq_canon _ _ _ (cover6_B_4 c i a1 h1 a2 h2 a3 h3 a4 h4 a5 h5 a6 h6 hc x0 x1 x2 xo4 xo5)]
  unfold kernelRun6_B
  dsimp only
  sl_unfold_words
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

/-- and the same for the squares. -/
theorem out_B_5 (c : Dev nD) (i : grid6.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S5000x128 .f32) (h4 : a4.IsWhole) (a5 : Memref sig .tc .vmem S1x128 .f32) (h5 : a5.IsWhole)
    (a6 : Memref sig .tc .vmem S1x128 .f32) (h6 : a6.IsWhole) (hc : ¬cond6_0 i)
    (x0 : Vec F S5000x128 .f32) (x1 : Vec F S128x128 .f32) (x2 : Vec F S1x128 .f32) (xo4 xo5 : Vec F S1x128 .f32) :
    out6_B_5 c i a1 h1 a2 h2 a3 h3 a4 h4 a5 h5 a6 h6 hc x0 x1 x2 xo4 xo5 = k6_pay5 x0 x1 x2 xo5 := by
  unfold out6_B_5
  rw [View.read_writes_eq_canon _ _ _ (cover6_B_5 c i a1 h1 a2 h2 a3 h3 a4 h4 a5 h5 a6 h6 hc x0 x1 x2 xo4 xo5)]
  unfold kernelRun6_B
  dsimp only
  sl_unfold_words
  rw [View.canon_unit_zero hz]
  simp only [View.readAt_eq_ld, h1.read_unread, h2.read_unread, h3.read_unread, h5.read_unread, h6.read_unread,
    View.ld_unit_zero (S := S5000x128) hz, View.ld_unit_zero (S := S128x128) hz, View.ld_unit_zero (S := S1x128) hz]

end Outs

/-! ## The three arrays the region reads, and the dense stage of them -/

section Region
variable (V : (c : Dev nD) → (b : Ref sig .tc) → Buf (Elt Ideal) ((c : Thread nD τ).loc b))

/-- node features, weights and bias row as the region finds them -/
abbrev XA (c : Dev nD) : FVec Ideal Cert.Gin.SX .f32 := V c main_v134
abbrev WA (c : Dev nD) : FVec Ideal Cert.Gin.SW .f32 := V c main_v136
abbrev BA (c : Dev nD) : FVec Ideal Cert.Gin.SR .f32 := V c main_v139
/-- the dense stage of the whole arrays -/
abbrev HH (c : Dev nD) : FVec Ideal Cert.Gin.SX .f32 := Cert.Gin.dense (XA V c) (WA V c) (BA V c)

theorem arr0 : Pipeline.arrRef spec6 0 = main_v134 := rfl
theorem arr1 : Pipeline.arrRef spec6 1 = main_v136 := rfl
theorem arr2 : Pipeline.arrRef spec6 2 = main_v139 := rfl

/-- The block indices: the X and H windows move down the rows with the point, the other windows stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- the row of the array that row r of tile t is -/
def rowOfTile (t : Fin cfg6.N) (r : Fin 5000) : Fin 50000 :=
  ⟨t.val * 5000 + r.val, by have := t.isLt; have hN : cfg6.N = 10 := N_6; omega⟩

/-- Tile t of the X window reads rows 5000 t ... 5000 t + 4999 of X. -/
theorem iblk_0 (c : Dev nD) (t : Fin cfg6.N) (r : Fin 5000) (k : Fin 128) :
    (iblk6 V c 0 t : Vec Ideal S5000x128 .f32) (ix2 r k) = XA V c (ix2 (rowOfTile t r) k) := by
  obtain ⟨e0, e1, -⟩ := idx_facts t
  show V c main_v134 (((cfg6.win 0).blk t).view.emb (ix2 r k)) = V c main_v134 (ix2 (rowOfTile t r) k)
  refine congrArg _ ?_
  funext a; apply Fin.ext
  match a with
  | ⟨0, _⟩ => show win6_0.index t (0 : Fin 2) * 5000 + 1 * r.val = t.val * 5000 + r.val; rw [e0]; omega
  | ⟨1, _⟩ => show win6_0.index t (1 : Fin 2) * 128 + 1 * k.val = k.val; rw [e1]; omega

/-- The W window reads all of W at every point. -/
theorem iblk_1 (c : Dev nD) (t : Fin cfg6.N) (k q : Fin 128) :
    (iblk6 V c 1 t : Vec Ideal S128x128 .f32) (ix2 k q) = WA V c (ix2 k q) := by
  obtain ⟨-, -, e0, e1, -⟩ := idx_facts t
  show V c main_v136 (((cfg6.win 1).blk t).view.emb (ix2 k q)) = V c main_v136 (ix2 k q)
  refine congrArg _ ?_
  funext a; apply Fin.ext
  match a with
  | ⟨0, _⟩ => show win6_1.index t (0 : Fin 2) * 128 + 1 * k.val = k.val; rw [e0]; omega
  | ⟨1, _⟩ => show win6_1.index t (1 : Fin 2) * 128 + 1 * q.val = q.val; rw [e1]; omega

/-- The bias window reads the whole row at every point. -/
theorem iblk_2 (c : Dev nD) (t : Fin cfg6.N) (q : Fin 128) :
    (iblk6 V c 2 t : Vec Ideal S1x128 .f32) (ix2 (0 : Fin 1) q) = BA V c (ix2 (0 : Fin 1) q) := by
  obtain ⟨-, -, -, -, e0, e1, -⟩ := idx_facts t
  show V c main_v139 (((cfg6.win 2).blk t).view.emb (ix2 (0 : Fin 1) q)) = V c main_v139 (ix2 (0 : Fin 1) q)
  refine congrArg _ ?_
  funext a; apply Fin.ext
  match a with
  | ⟨0, _⟩ => show win6_2.index t (0 : Fin 2) * 1 + 1 * 0 = 0; rw [e0]
  | ⟨1, _⟩ => show win6_2.index t (1 : Fin 2) * 128 + 1 * q.val = q.val; rw [e1]; omega

/-- The dense stage of tile t is tile t of the dense stage. -/
theorem pay3_blk (c : Dev nD) (t : Fin cfg6.N) (r : Fin 5000) (q : Fin 128) :
    k6_pay3 (iblk6 V c 0 t) (iblk6 V c 1 t) (iblk6 V c 2 t) (ix2 r q) = HH V c (ix2 (rowOfTile t r) q) :=
  pay3_apply (rowOfTile t) (XA V c) (WA V c) (BA V c) _ _ _ (iblk_0 V c t) (iblk_1 V c t) (iblk_2 V c t) r q

/-! ## The running sums -/

/-- The part of a sum over the 50000 rows that falls in tile s. -/
def tileSum (f : Fin 50000 → EReal) (s : ℕ) : EReal :=
  ∑ r : Fin 5000, (if h : s * 5000 + r.val < 50000 then f ⟨s * 5000 + r.val, h⟩ else 0)

theorem tile1 (c : Dev nD) (t : Fin cfg6.N) (q : Fin 128) :
    ∑ k : Fin 5000, k6_pay3 (iblk6 V c 0 t) (iblk6 V c 1 t) (iblk6 V c 2 t) (ix2 k q)
      = tileSum (fun i => HH V c (ix2 i q)) t.val := by
  unfold tileSum
  refine Finset.sum_congr rfl fun k _ => ?_
  have hlt : t.val * 5000 + k.val < 50000 := (rowOfTile t k).isLt
  rw [pay3_blk, dif_pos hlt]
  rfl

theorem tile2 (c : Dev nD) (t : Fin cfg6.N) (q : Fin 128) :
    ∑ k : Fin 5000, k6_pay3 (iblk6 V c 0 t) (iblk6 V c 1 t) (iblk6 V c 2 t) (ix2 k q)
        * k6_pay3 (iblk6 V c 0 t) (iblk6 V c 1 t) (iblk6 V c 2 t) (ix2 k q)
      = tileSum (fun i => HH V c (ix2 i q) * HH V c (ix2 i q)) t.val := by
  unfold tileSum
  refine Finset.sum_congr rfl fun k _ => ?_
  have hlt : t.val * 5000 + k.val < 50000 := (rowOfTile t k).isLt
  rw [pay3_blk, dif_pos hlt]
  rfl

/-- What the three buffers hold after the first point, -/
theorem outsAt_zero (c : Dev nD) (h : 0 < cfg6.N) :
    outsAt6 V c 0 h = (k6_pay3 (iblk6 V c 0 ⟨0, h⟩) (iblk6 V c 1 ⟨0, h⟩) (iblk6 V c 2 ⟨0, h⟩),
      k6_pay4 (iblk6 V c 0 ⟨0, h⟩) (iblk6 V c 1 ⟨0, h⟩) (iblk6 V c 2 ⟨0, h⟩) (k6_pay1 (F := Ideal)),
      k6_pay5 (iblk6 V c 0 ⟨0, h⟩) (iblk6 V c 1 ⟨0, h⟩) (iblk6 V c 2 ⟨0, h⟩) (k6_pay2 (F := Ideal))) := by
  have e := outsAt6_A V c ⟨0, h⟩ rfl
  rw [out_A_3, out_A_4, out_A_5] at e
  exact e

/-- and after a later point, over what the point before left. -/
theorem outsAt_succ (c : Dev nD) (n : ℕ) (h : n + 1 < cfg6.N) :
    outsAt6 V c (n + 1) h = (k6_pay3 (iblk6 V c 0 ⟨n + 1, h⟩) (iblk6 V c 1 ⟨n + 1, h⟩) (iblk6 V c 2 ⟨n + 1, h⟩),
      k6_pay4 (iblk6 V c 0 ⟨n + 1, h⟩) (iblk6 V c 1 ⟨n + 1, h⟩) (iblk6 V c 2 ⟨n + 1, h⟩)
        (outsAt6 V c n (Nat.lt_of_succ_lt h)).2.1,
      k6_pay5 (iblk6 V c 0 ⟨n + 1, h⟩) (iblk6 V c 1 ⟨n + 1, h⟩) (iblk6 V c 2 ⟨n + 1, h⟩)
        (outsAt6 V c n (Nat.lt_of_succ_lt h)).2.2) := by
  have hN : cfg6.N = 10 := N_6
  have hB : ¬(⟨n + 1, h⟩ : Fin cfg6.N).val % 10 = 0 := by dsimp only; omega
  have e := outsAt6_B V c ⟨n + 1, h⟩ hB
  rw [out_B_3, out_B_4, out_B_5] at e
  exact e

/-- After point n the H buffer holds tile n of the dense stage. -/
theorem out3_eq (c : Dev nD) (t : Fin cfg6.N) :
    (outsAt6 V c t.val t.isLt).1 = k6_pay3 (iblk6 V c 0 t) (iblk6 V c 1 t) (iblk6 V c 2 t) := by
  obtain ⟨n, hn⟩ := t
  cases n with
  | zero => exact congrArg Prod.fst (outsAt_zero V c hn)
  | succ n => exact congrArg Prod.fst (outsAt_succ V c n hn)

/-- After point n the two sum buffers hold, at column q, the sums over the rows of tiles 0 ... n. -/
theorem sums_eq (c : Dev nD) (q : Fin 128) : ∀ (n : ℕ) (h : n < cfg6.N),
    (outsAt6 V c n h).2.1 (ix2 (0 : Fin 1) q) = ∑ s ∈ Finset.range (n + 1), tileSum (fun i => HH V c (ix2 i q)) s
    ∧ (outsAt6 V c n h).2.2 (ix2 (0 : Fin 1) q)
        = ∑ s ∈ Finset.range (n + 1), tileSum (fun i => HH V c (ix2 i q) * HH V c (ix2 i q)) s
  | 0, h => by
    rw [outsAt_zero V c h]
    dsimp only
    rw [pay4_apply, pay5_apply, pay1_apply, pay2_apply]
    simp only [zero_add, Finset.sum_range_one]
    exact ⟨tile1 V c ⟨0, h⟩ q, tile2 V c ⟨0, h⟩ q⟩
  | n + 1, h => by
    obtain ⟨ih1, ih2⟩ := sums_eq c q n (Nat.lt_of_succ_lt h)
    rw [outsAt_succ V c n h]
    dsimp only
    rw [pay4_apply, pay5_apply, ih1, ih2, Finset.sum_range_succ _ (n + 1), Finset.sum_range_succ _ (n + 1)]
    exact ⟨congrArg _ (tile1 V c ⟨n + 1, h⟩ q), congrArg _ (tile2 V c ⟨n + 1, h⟩ q)⟩

/-! ## The arrays after the region -/

/-- column sums and square sums of the dense stage, as rows -/
abbrev S1 (c : Dev nD) : FVec Ideal Cert.Gin.SR .f32 := Cert.Gin.rowOf (Cert.Gin.colSum (HH V c))
abbrev S2 (c : Dev nD) : FVec Ideal Cert.Gin.SR .f32 := Cert.Gin.rowOf (Cert.Gin.colSq (HH V c))

/-- After the last point the sum buffer holds the column sums over all 50000 rows, -/
theorem last1 (c : Dev nD) : (outsAt6 V c t6_9.val t6_9.isLt).2.1 = S1 V c := by
  funext j
  obtain ⟨u, q, rfl⟩ : ∃ (u : Fin 1) (q : Fin 128), j = ix2 u q := ⟨j 0, j 1, eq_ix2 j⟩
  obtain rfl : u = 0 := Subsingleton.elim _ _
  refine ((sums_eq V c q t6_9.val t6_9.isLt).1).trans ?_
  exact Cert.LibBlockSums.sum_blocks 10 5000 50000 rfl fun i => HH V c (ix2 i q)

/-- and the square-sum buffer the sums of squares. -/
theorem last2 (c : Dev nD) : (outsAt6 V c t6_9.val t6_9.isLt).2.2 = S2 V c := by
  funext j
  obtain ⟨u, q, rfl⟩ : ∃ (u : Fin 1) (q : Fin 128), j = ix2 u q := ⟨j 0, j 1, eq_ix2 j⟩
  obtain rfl : u = 0 := Subsingleton.elim _ _
  refine ((sums_eq V c q t6_9.val t6_9.isLt).2).trans ?_
  exact Cert.LibBlockSums.sum_blocks 10 5000 50000 rfl fun i => HH V c (ix2 i q) * HH V c (ix2 i q)

/-- Every point writes back, through the H window, its tile of the dense stage. -/
theorem flushed3_eq (c : Dev nD) (t : Fin cfg6.N) (hf : (cfg6.win 3).flush t = true) :
    (dat6 V c).flushed 3 t = ((cfg6.win 3).blk t).view.read (Elt Ideal) (HH V c) := by
  show (cfg6.win 3).cut (grid6.coords t) ((dat6 V c).after 3 t) = _
  rw [after6_3, out3_eq]
  obtain ⟨-, -, -, -, -, -, e0, e1⟩ := idx_facts t
  funext j
  obtain ⟨r, q, rfl⟩ : ∃ (r : Fin 5000) (q : Fin 128), j = ix2 r q := ⟨j 0, j 1, eq_ix2 j⟩
  show k6_pay3 (iblk6 V c 0 t) (iblk6 V c 1 t) (iblk6 V c 2 t) (ix2 r q)
    = HH V c (((cfg6.win 3).blk t).view.emb (ix2 r q))
  rw [pay3_blk]
  refine congrArg _ ?_
  funext a; apply Fin.ext
  match a with
  | ⟨0, _⟩ => show t.val * 5000 + r.val = win6_3.index t (0 : Fin 2) * 5000 + 1 * r.val; rw [e0]; omega
  | ⟨1, _⟩ => show q.val = win6_3.index t (1 : Fin 2) * 128 + 1 * q.val; rw [e1]; omega

/-- An index of the H array is in point t's block when its row is in tile t. -/
theorem mem_blk3 (t : Fin cfg6.N) (i : S50000x128.Idx) :
    i ∈ ((cfg6.win 3).blk t).view.set ↔ ∀ a : Fin 2, win6_3.index t a * S5000x128.size a ≤ (i a).val
      ∧ (i a).val < win6_3.index t a * S5000x128.size a + S5000x128.size a := by
  show i ∈ ((View.whole main_v140_0).slice (win6_3.rect t)).set ↔ _
  rw [View.set_slice_whole, Rect.mem_set_unit]
  exact Iff.rfl

/-- The ten tiles cover the H array: row r is in tile r / 5000. -/
theorem cover3 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 10 := N_6
  have ht : (i 0).val / 5000 < cfg6.N := by omega
  obtain ⟨-, -, -, -, -, -, e0, e1⟩ := idx_facts ⟨(i 0).val / 5000, ht⟩
  refine ⟨⟨(i 0).val / 5000, ht⟩, flush6_3 _, ?_⟩
  rw [mem_blk3]
  intro a
  match a with
  | ⟨0, _⟩ =>
    show win6_3.index ⟨(i 0).val / 5000, ht⟩ (0 : Fin 2) * 5000 ≤ (i 0).val
      ∧ (i 0).val < win6_3.index ⟨(i 0).val / 5000, ht⟩ (0 : Fin 2) * 5000 + 5000
    rw [e0]; dsimp only; omega
  | ⟨1, _⟩ =>
    show win6_3.index ⟨(i 0).val / 5000, ht⟩ (1 : Fin 2) * 128 ≤ (i 1).val
      ∧ (i 1).val < win6_3.index ⟨(i 0).val / 5000, ht⟩ (1 : Fin 2) * 128 + 128
    rw [e1]; omega

/-- So the H array ends holding the dense stage of the arrays the region found. -/
theorem H_eq (c : Dev nD) : (dat6 V c).arrAt 3 cfg6.N = Cert.Gin.dense (V c main_v134) (V c main_v136) (V c main_v139) :=
  (dat6 V c).arrAt_eq_of_cover 3 (HH V c) (flushed3_eq V c) cover3

/-- The one write-back of the sum window, at the last point, writes the column sums: its block is the whole row. -/
theorem flushed4_eq (c : Dev nD) (t : Fin cfg6.N) (hf : (cfg6.win 4).flush t = true) :
    (dat6 V c).flushed 4 t = ((cfg6.win 4).blk t).view.read (Elt Ideal) (S1 V c) := by
  have hN : cfg6.N = 10 := N_6
  have h9 : t.val = 9 := by have := (flush6_4 t).mp hf; have := t.isLt; omega
  obtain rfl : t = t6_9 := Fin.ext h9
  show (cfg6.win 4).cut (grid6.coords t6_9) ((dat6 V c).after 4 t6_9) = _
  rw [after6_4, last1]
  have hz' : (fun a => win6_4.index t6_9 a * main_v140_1.ty.shape.size a) = fun _ => 0 :=
    funext fun a => by fin_cases a <;> decide +kernel
  exact (Memref.read_access_unit_zero (Elt Ideal) main_v140_1 hz' (fun a => by rw [congrFun hz' a]; simp) (S1 V c)).symm

theorem flushed5_eq (c : Dev nD) (t : Fin cfg6.N) (hf : (cfg6.win 5).flush t = true) :
    (dat6 V c).flushed 5 t = ((cfg6.win 5).blk t).view.read (Elt Ideal) (S2 V c) := by
  have hN : cfg6.N = 10 := N_6
  have h9 : t.val = 9 := by have := (flush6_5 t).mp hf; have := t.isLt; omega
  obtain rfl : t = t6_9 := Fin.ext h9
  show (cfg6.win 5).cut (grid6.coords t6_9) ((dat6 V c).after 5 t6_9) = _
  rw [after6_5, last2]
  have hz' : (fun a => win6_5.index t6_9 a * main_v140_2.ty.shape.size a) = fun _ => 0 :=
    funext fun a => by fin_cases a <;> decide +kernel
  exact (Memref.read_access_unit_zero (Elt Ideal) main_v140_2 hz' (fun a => by rw [congrFun hz' a]; simp) (S2 V c)).symm

/-- So the sum array ends holding the column sums of the dense stage, -/
theorem S1_eq (c : Dev nD) : (dat6 V c).arrAt 4 cfg6.N
    = Cert.Gin.rowOf (Cert.Gin.colSum (Cert.Gin.dense (V c main_v134) (V c main_v136) (V c main_v139))) :=
  (dat6 V c).arrAt_eq_of_cover 4 (S1 V c) (flushed4_eq V c) fun i =>
    ⟨t6_9, (flush6_4 t6_9).mpr rfl, by
      show i ∈ ((View.whole main_v140_1).slice (win6_4.rect t6_9)).set
      rw [View.set_slice_whole, Rect.mem_set_unit]
      intro a
      have h0 : (i 0 : Nat) < 1 := (i 0).isLt
      have h1 : (i 1 : Nat) < 128 := (i 1).isLt
      match a with
      | ⟨0, _⟩ =>
        show win6_4.index t6_9 0 * win6_4.size 0 ≤ (i 0 : Nat)
          ∧ (i 0 : Nat) < win6_4.index t6_9 0 * win6_4.size 0 + win6_4.xsize (grid6.coords t6_9) 0
        rw [show win6_4.index t6_9 0 * win6_4.size 0 = 0 from by decide +kernel,
          show win6_4.xsize (grid6.coords t6_9) 0 = 1 from by decide +kernel]; omega
      | ⟨1, _⟩ =>
        show win6_4.index t6_9 1 * win6_4.size 1 ≤ (i 1 : Nat)
          ∧ (i 1 : Nat) < win6_4.index t6_9 1 * win6_4.size 1 + win6_4.xsize (grid6.coords t6_9) 1
        rw [show win6_4.index t6_9 1 * win6_4.size 1 = 0 from by decide +kernel,
          show win6_4.xsize (grid6.coords t6_9) 1 = 128 from by decide +kernel]; omega⟩

/-- and the square-sum array the column sums of its squares. -/
theorem S2_eq (c : Dev nD) : (dat6 V c).arrAt 5 cfg6.N
    = Cert.Gin.rowOf (Cert.Gin.colSq (Cert.Gin.dense (V c main_v134) (V c main_v136) (V c main_v139))) :=
  (dat6 V c).arrAt_eq_of_cover 5 (S2 V c) (flushed5_eq V c) fun i =>
    ⟨t6_9, (flush6_5 t6_9).mpr rfl, by
      show i ∈ ((View.whole main_v140_2).slice (win6_5.rect t6_9)).set
      rw [View.set_slice_whole, Rect.mem_set_unit]
      intro a
      have h0 : (i 0 : Nat) < 1 := (i 0).isLt
      have h1 : (i 1 : Nat) < 128 := (i 1).isLt
      match a with
      | ⟨0, _⟩ =>
        show win6_5.index t6_9 0 * win6_5.size 0 ≤ (i 0 : Nat)
          ∧ (i 0 : Nat) < win6_5.index t6_9 0 * win6_5.size 0 + win6_5.xsize (grid6.coords t6_9) 0
        rw [show win6_5.index t6_9 0 * win6_5.size 0 = 0 from by decide +kernel,
          show win6_5.xsize (grid6.coords t6_9) 0 = 1 from by decide +kernel]; omega
      | ⟨1, _⟩ =>
        show win6_5.index t6_9 1 * win6_5.size 1 ≤ (i 1 : Nat)
          ∧ (i 1 : Nat) < win6_5.index t6_9 1 * win6_5.size 1 + win6_5.xsize (grid6.coords t6_9) 1
        rw [show win6_5.index t6_9 1 * win6_5.size 1 = 0 from by decide +kernel,
          show win6_5.xsize (grid6.coords t6_9) 1 = 128 from by decide +kernel]; omega⟩

end Region

end Cert.KernelIdeal.RegL6

end
-- ==== Proof.RegB7.lean ====
/-
  Region 7 of the network's program: the second dense stage of the third layer, on the normalised node features.

  The region runs over ten tiles of 5000 rows. At tile t its body reads rows 5000·t … 5000·t + 4999 of the features H,
  the slope row α, the offset row β, the weights W and the bias row B; it stores the tile's rows of

      Y = max ((H·α + β)·W + B) 0,

  and adds the tile's column sums, of the entries and of their squares, to two carried one-row sums, which the first
  tile starts from zero rows. Row r of Y depends on row r of H alone, so the stored tile is that block of rows of Y. After
  tile n the two carried rows hold, at column q, the sums of Y(r, q) and of Y(r, q)² over the rows r of tiles 0 … n
  (by induction on n: + on the extended reals is associative and commutative with 0 neutral, so nothing is asked of the
  summands, which may be infinite). The tile is written back at every point, the two rows once, after the last tile;
  the ten tiles cover the 50000 rows, each row r under tile r / 5000. So the first result array ends holding Y and the
  two rows end holding Σ_r Y(r, q) and Σ_r Y(r, q)² over all rows.
-/
import proofs.«112967_j35158602285141_1_alg».proof.Proof.Gen.KernelIdeal.Frame
import proofs.«112967_j35158602285141_1_alg».proof.Proof.Spec
import proofs.«112967_j35158602285141_1_alg».proof.Proof.LibRowForms
import proofs.«112967_j35158602285141_1_alg».proof.Proof.LibBlockSums
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx Cert.LibBiasRows Cert.LibRowBlockDot

namespace Cert.KernelIdeal.RegB7

open Cert.KernelIdeal Cert.KernelIdeal.Gen

section AnyFloat

variable {F : FTy → Type} [FloatOps F]

theorem hz : (![0, 0] : Fin 2 → Nat) = fun _ => 0 := funext fun a => by fin_cases a <;> rfl

/-! ## What one point leaves in the three output buffers, as payloads of the point's input blocks

The body stores the rectified dense tile once, through the whole buffer; it stores the two one-row sums once each, the
carried row plus the tile's column sums (of the entries, of their squares). At the first point it first stores zero rows
and reads them back as the carried rows. -/

/-- A later point leaves the rectified dense tile in output 5's buffer. -/
theorem out_B_5 (c : Dev nD) (i : grid7.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond7_0 i) (x0 : Vec F S5000x128 .f32) (x1 : Vec F S1x128 .f32) (x2 : Vec F S1x128 .f32) (x3 : Vec F S128x128 .f32) (x4 : Vec F S1x128 .f32) (xo6 xo7 : Vec F S1x128 .f32) :
    out7_B_5 c i a1 h1 a2 h2 a3 h3 a4 h4 a5 h5 a6 h6 a7 h7 a8 h8 hc x0 x1 x2 x3 x4 xo6 xo7 = k7_pay4 x0 x1 x2 x3 x4 := by
  unfold out7_B_5
  rw [View.read_writes_eq_canon _ _ _ (cover7_B_5 c i a1 h1 a2 h2 a3 h3 a4 h4 a5 h5 a6 h6 a7 h7 a8 h8 hc x0 x1 x2 x3 x4 xo6 xo7)]
  unfold kernelRun7_B
  dsimp only
  rw [View.canon_unit_zero hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz]

/-- The first point leaves the rectified dense tile in output 5's buffer. -/
theorem out_A_5 (c : Dev nD) (i : grid7.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond7_0 i) (x0 : Vec F S5000x128 .f32) (x1 : Vec F S1x128 .f32) (x2 : Vec F S1x128 .f32) (x3 : Vec F S128x128 .f32) (x4 : Vec F S1x128 .f32) :
    out7_A_5 c i a1 h1 a2 h2 a3 h3 a4 h4 a5 h5 a6 h6 a7 h7 a8 h8 hc x0 x1 x2 x3 x4 = k7_pay4 x0 x1 x2 x3 x4 := by
  unfold out7_A_5
  rw [View.read_writes_eq_canon _ _ _ (cover7_A_5 c i a1 h1 a2 h2 a3 h3 a4 h4 a5 h5 a6 h6 a7 h7 a8 h8 hc x0 x1 x2 x3 x4)]
  unfold kernelRun7_A
  dsimp only
  rw [View.canon_unit_zero hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz]

/-- A later point leaves, in output 6's buffer holding the row xo6, that row plus the tile's column sums. -/
theorem out_B_6 (c : Dev nD) (i : grid7.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond7_0 i) (x0 : Vec F S5000x128 .f32) (x1 : Vec F S1x128 .f32) (x2 : Vec F S1x128 .f32) (x3 : Vec F S128x128 .f32) (x4 : Vec F S1x128 .f32) (xo6 xo7 : Vec F S1x128 .f32) :
    out7_B_6 c i a1 h1 a2 h2 a3 h3 a4 h4 a5 h5 a6 h6 a7 h7 a8 h8 hc x0 x1 x2 x3 x4 xo6 xo7 = k7_pay5 x0 x1 x2 x3 x4 xo6 := by
  unfold out7_B_6
  rw [View.read_writes_eq_canon _ _ _ (cover7_B_6 c i a1 h1 a2 h2 a3 h3 a4 h4 a5 h5 a6 h6 a7 h7 a8 h8 hc x0 x1 x2 x3 x4 xo6 xo7)]
  unfold kernelRun7_B
  dsimp only
  rw [View.canon_unit_zero hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz, h7.read_unread]

/-- The first point leaves, in output 6's buffer, the zero row plus the tile's column sums. -/
theorem out_A_6 (c : Dev nD) (i : grid7.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond7_0 i) (x0 : Vec F S5000x128 .f32) (x1 : Vec F S1x128 .f32) (x2 : Vec F S1x128 .f32) (x3 : Vec F S128x128 .f32) (x4 : Vec F S1x128 .f32) :
    out7_A_6 c i a1 h1 a2 h2 a3 h3 a4 h4 a5 h5 a6 h6 a7 h7 a8 h8 hc x0 x1 x2 x3 x4 = k7_pay5 x0 x1 x2 x3 x4 k7_pay2 := by
  unfold out7_A_6
  rw [View.read_writes_eq_canon _ _ _ (cover7_A_6 c i a1 h1 a2 h2 a3 h3 a4 h4 a5 h5 a6 h6 a7 h7 a8 h8 hc x0 x1 x2 x3 x4)]
  unfold kernelRun7_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz]

/-- A later point leaves, in output 7's buffer holding the row xo7, that row plus the column sums of the tile's squares. -/
theorem out_B_7 (c : Dev nD) (i : grid7.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond7_0 i) (x0 : Vec F S5000x128 .f32) (x1 : Vec F S1x128 .f32) (x2 : Vec F S1x128 .f32) (x3 : Vec F S128x128 .f32) (x4 : Vec F S1x128 .f32) (xo6 xo7 : Vec F S1x128 .f32) :
    out7_B_7 c i a1 h1 a2 h2 a3 h3 a4 h4 a5 h5 a6 h6 a7 h7 a8 h8 hc x0 x1 x2 x3 x4 xo6 xo7 = k7_pay1 (k7_pay4 x0 x1 x2 x3 x4) (k7_pay6 xo7) := by
  unfold out7_B_7
  rw [View.read_writes_eq_canon _ _ _ (cover7_B_7 c i a1 h1 a2 h2 a3 h3 a4 h4 a5 h5 a6 h6 a7 h7 a8 h8 hc x0 x1 x2 x3 x4 xo6 xo7)]
  unfold kernelRun7_B
  dsimp only
  sl_unfold_words
  rw [View.canon_unit_zero hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz, h8.read_unread]

/-- The first point leaves, in output 7's buffer, the zero row plus the column sums of the tile's squares. -/
theorem out_A_7 (c : Dev nD) (i : grid7.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond7_0 i) (x0 : Vec F S5000x128 .f32) (x1 : Vec F S1x128 .f32) (x2 : Vec F S1x128 .f32) (x3 : Vec F S128x128 .f32) (x4 : Vec F S1x128 .f32) :
    out7_A_7 c i a1 h1 a2 h2 a3 h3 a4 h4 a5 h5 a6 h6 a7 h7 a8 h8 hc x0 x1 x2 x3 x4 = k7_pay1 (k7_pay4 x0 x1 x2 x3 x4) (k7_pay6 k7_pay3) := by
  unfold out7_A_7
  rw [View.read_writes_eq_canon _ _ _ (cover7_A_7 c i a1 h1 a2 h2 a3 h3 a4 h4 a5 h5 a6 h6 a7 h7 a8 h8 hc x0 x1 x2 x3 x4)]
  unfold kernelRun7_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S1x128) hz, View.ld_unit_zero (S := S128x128) hz]

/-! ## The windows' blocks read at an index

Window 0's block at point t is rows 5000·t … 5000·t + 4999 of its array; windows 1 to 4 are their whole arrays at every
point. -/

variable (V : (c : Dev nD) → (b : Ref sig .tc) → Buf (Elt F) ((c : Thread nD τ).loc b))

theorem index0 (t : Fin cfg7.N) : win7_0.index t 0 = t.val ∧ win7_0.index t 1 = 0 := by
  rcases fin_N7 t with rfl | rfl | rfl | rfl | rfl | rfl | rfl | rfl | rfl | rfl <;> decide

theorem index5 (t : Fin cfg7.N) : win7_5.index t 0 = t.val ∧ win7_5.index t 1 = 0 := by
  rcases fin_N7 t with rfl | rfl | rfl | rfl | rfl | rfl | rfl | rfl | rfl | rfl <;> decide

theorem blk0_read (c : Dev nD) (t : Fin cfg7.N) (a : Fin 5000) (q : Fin 128) (R : Fin 50000) (hR : R.val = t.val * 5000 + a.val) :
    (iblk7 V c 0 t : Vec F S5000x128 .f32) (ix2 a q) = (V c main_v140_0 : Vec F S50000x128 .f32) (ix2 R q) := by
  have hi := index0 t
  unfold iblk7
  rw [View.read_apply]
  show V c main_v140_0 _ = V c main_v140_0 _
  refine congrArg (V c main_v140_0) (funext fun ax => Fin.ext ?_)
  match ax with
  | ⟨0, _⟩ => show win7_0.index t 0 * 5000 + 1 * a.val = R.val; rw [hi.1, hR]; omega
  | ⟨1, _⟩ => show win7_0.index t 1 * 128 + 1 * q.val = q.val; rw [hi.2]; omega

theorem blk1_read (c : Dev nD) (t : Fin cfg7.N) (q : Fin 128) :
    (iblk7 V c 1 t : Vec F S1x128 .f32) (ix2 (0 : Fin 1) q) = (V c main_v156 : Vec F S1x128 .f32) (ix2 (0 : Fin 1) q) := by
  unfold iblk7
  rw [View.read_apply]
  show V c main_v156 _ = V c main_v156 _
  refine congrArg (V c main_v156) (funext fun ax => Fin.ext ?_)
  match ax with
  | ⟨0, _⟩ => rfl
  | ⟨1, _⟩ => show 0 * 128 + 1 * q.val = q.val; omega

theorem blk2_read (c : Dev nD) (t : Fin cfg7.N) (q : Fin 128) :
    (iblk7 V c 2 t : Vec F S1x128 .f32) (ix2 (0 : Fin 1) q) = (V c main_v158 : Vec F S1x128 .f32) (ix2 (0 : Fin 1) q) := by
  unfold iblk7
  rw [View.read_apply]
  show V c main_v158 _ = V c main_v158 _
  refine congrArg (V c main_v158) (funext fun ax => Fin.ext ?_)
  match ax with
  | ⟨0, _⟩ => rfl
  | ⟨1, _⟩ => show 0 * 128 + 1 * q.val = q.val; omega

theorem blk3_read (c : Dev nD) (t : Fin cfg7.N) (k q : Fin 128) :
    (iblk7 V c 3 t : Vec F S128x128 .f32) (ix2 k q) = (V c main_v160 : Vec F S128x128 .f32) (ix2 k q) := by
  unfold iblk7
  rw [View.read_apply]
  show V c main_v160 _ = V c main_v160 _
  refine congrArg (V c main_v160) (funext fun ax => Fin.ext ?_)
  match ax with
  | ⟨0, _⟩ => show 0 * 128 + 1 * k.val = k.val; omega
  | ⟨1, _⟩ => show 0 * 128 + 1 * q.val = q.val; omega

theorem blk4_read (c : Dev nD) (t : Fin cfg7.N) (q : Fin 128) :
    (iblk7 V c 4 t : Vec F S1x128 .f32) (ix2 (0 : Fin 1) q) = (V c main_v163 : Vec F S1x128 .f32) (ix2 (0 : Fin 1) q) := by
  unfold iblk7
  rw [View.read_apply]
  show V c main_v163 _ = V c main_v163 _
  refine congrArg (V c main_v163) (funext fun ax => Fin.ext ?_)
  match ax with
  | ⟨0, _⟩ => rfl
  | ⟨1, _⟩ => show 0 * 128 + 1 * q.val = q.val; omega

/-! ## What the three buffers hold after a point, as payloads of the point's blocks -/

/-- After a point that resets (the first): the tile, and the tile's two sums added to the zero rows. -/
theorem outs_A (c : Dev nD) (n : ℕ) (hn : n < cfg7.N) (h0 : n % 10 = 0) :
    outsAt7 V c n hn = (k7_pay4 (iblk7 V c 0 ⟨n, hn⟩) (iblk7 V c 1 ⟨n, hn⟩) (iblk7 V c 2 ⟨n, hn⟩) (iblk7 V c 3 ⟨n, hn⟩) (iblk7 V c 4 ⟨n, hn⟩),
      k7_pay5 (iblk7 V c 0 ⟨n, hn⟩) (iblk7 V c 1 ⟨n, hn⟩) (iblk7 V c 2 ⟨n, hn⟩) (iblk7 V c 3 ⟨n, hn⟩) (iblk7 V c 4 ⟨n, hn⟩) k7_pay2,
      k7_pay1 (k7_pay4 (iblk7 V c 0 ⟨n, hn⟩) (iblk7 V c 1 ⟨n, hn⟩) (iblk7 V c 2 ⟨n, hn⟩) (iblk7 V c 3 ⟨n, hn⟩) (iblk7 V c 4 ⟨n, hn⟩)) (k7_pay6 k7_pay3)) :=
  (outsAt7_A V c ⟨n, hn⟩ h0).trans (by rw [out_A_5, out_A_6, out_A_7])

/-- After a later point: the tile, and the tile's two sums added to the rows the point before left. -/
theorem outs_B (c : Dev nD) (n : ℕ) (hn : n + 1 < cfg7.N) (h0 : ¬(n + 1) % 10 = 0) :
    outsAt7 V c (n + 1) hn = (k7_pay4 (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩),
      k7_pay5 (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 V c n (Nat.lt_of_succ_lt hn)).2.1,
      k7_pay1 (k7_pay4 (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩)) (k7_pay6 (outsAt7 V c n (Nat.lt_of_succ_lt hn)).2.2)) :=
  (outsAt7_B V c ⟨n + 1, hn⟩ h0).trans (by rw [out_B_5, out_B_6, out_B_7]; rfl)

end AnyFloat

/-! ## The payloads read at an index, at the extended reals -/

/-- Row a of tile n is row 5000·n + a of the array. -/
def row (n : ℕ) (hn : n < 10) (a : Fin 5000) : Fin 50000 := ⟨n * 5000 + a.val, by have := a.isLt; omega⟩

/-- The tile's left factor at (r, c): h·α + β at the tile's row, the two rows broadcast down the tile. -/
theorem lhs_apply (rw_ : Fin 5000 → Fin 50000) (H : FVec Ideal Cert.Gin.SX .f32) (A S : FVec Ideal Cert.Gin.SR .f32)
    (x0 : Vec Ideal S5000x128 .f32) (x1 x2 : Vec Ideal S1x128 .f32)
    (h0 : ∀ r c, x0 (ix2 r c) = H (ix2 (rw_ r) c)) (h1 : ∀ q, x1 (ix2 (0 : Fin 1) q) = A (ix2 (0 : Fin 1) q))
    (h2 : ∀ q, x2 (ix2 (0 : Fin 1) q) = S (ix2 (0 : Fin 1) q))
    (hs0 : S5000x128.ShapeCasts S5000x128) (hs1 : S1x128.ShapeCasts S1x128) (hb : S1x128.Broadcasts S5000x128)
    (hlt : FTy.bf16.bits < FTy.f32.bits) (r : Fin 5000) (c : Fin 128) :
    (truncf .bf16 (addf (mulf (shapeCast S5000x128 x0 hs0) (broadcastTo S5000x128 (shapeCast S1x128 x1 hs1) hb))
        (broadcastTo S5000x128 (shapeCast S1x128 x2 hs1) hb)) hlt : FVec Ideal S5000x128 .bf16) (ix2 r c)
      = Cert.Gin.affine H A S (ix2 (rw_ r) c) := by
  rw [truncf_apply, addf_apply, mulf_apply, broadcastTo_1b_ab_apply, broadcastTo_1b_ab_apply, shapeCast_self x0, shapeCast_self x1,
    shapeCast_self x2, h0, h1, h2, Cert.Gin.affine_ix2]

/-- The stored tile at (r, q) is the dense stage of the normalised features at the tile's row. -/
theorem pay4_apply (rw_ : Fin 5000 → Fin 50000) (H : FVec Ideal Cert.Gin.SX .f32) (A S : FVec Ideal Cert.Gin.SR .f32)
    (W : FVec Ideal Cert.Gin.SW .f32) (B : FVec Ideal Cert.Gin.SR .f32)
    (x0 : Vec Ideal S5000x128 .f32) (x1 x2 : Vec Ideal S1x128 .f32) (x3 : Vec Ideal S128x128 .f32) (x4 : Vec Ideal S1x128 .f32)
    (h0 : ∀ r c, x0 (ix2 r c) = H (ix2 (rw_ r) c)) (h1 : ∀ q, x1 (ix2 (0 : Fin 1) q) = A (ix2 (0 : Fin 1) q))
    (h2 : ∀ q, x2 (ix2 (0 : Fin 1) q) = S (ix2 (0 : Fin 1) q)) (h3 : ∀ c q, x3 (ix2 c q) = W (ix2 c q))
    (h4 : ∀ q, x4 (ix2 (0 : Fin 1) q) = B (ix2 (0 : Fin 1) q)) (r : Fin 5000) (q : Fin 128) :
    (k7_pay4 x0 x1 x2 x3 x4 : FVec Ideal S5000x128 .f32) (ix2 r q) = Cert.Gin.dense (Cert.Gin.affine H A S) W B (ix2 (rw_ r) q) := by
  unfold k7_pay4 Cert.Gin.dense
  rw [biasRelu_ix2, maximumf_apply, addf_apply, broadcast_apply, broadcastTo_1b_ab_apply, shapeCast_self x4, h4]
  have key := matmul_rowBlock_apply none none (Cert.Gin.affine H A S) W _ _ rw_
    (lhs_apply rw_ H A S x0 x1 x2 h0 h1 h2 shapeCasts_S5000x128_S5000x128 shapeCasts_S1x128_S1x128 broadcasts_S1x128_S5000x128 bitsLt_bf16_f32)
    (fun c b => show (truncf .bf16 (shapeCast S128x128 x3 shapeCasts_S128x128_S128x128) bitsLt_bf16_f32 : FVec Ideal S128x128 .bf16) (ix2 c b) = W (ix2 c b) by
      rw [truncf_apply, shapeCast_self, h3]) r q
  exact congrArg (fun z : EReal => max (z + B (ix2 (0 : Fin 1) q)) zero32) key

/-- A sum down the columns of a tile, stored as a row, at (u, q). -/
theorem colsum_apply (v : FVec Ideal S5000x128 .f32) (h : S5000x128.Reduces [(0 : Fin 2)] S128) (hφ : FKind.Formats FTy.f32)
    (hacc : (0x00000000#32 : BitVec FTy.f32.bits) = FKind.add.neutral FTy.f32 hφ) (hc : S128.ShapeCasts S1x128) (u : Fin 1) (q : Fin 128) :
    shapeCast S1x128 (multiReduction .add [(0 : Fin 2)] S128 v 0x00000000#32 h hφ hacc) hc (ix2 u q) = ∑ k : Fin 5000, v (ix2 k q) :=
  (shapeCast_a_1a_apply _ hc u q).trans (multiReduction_add_col v _ h hφ hacc q)

/-- The column-sum row the body stores: the carried row plus the tile's column sums. -/
theorem pay5_apply (x0 : Vec Ideal S5000x128 .f32) (x1 x2 : Vec Ideal S1x128 .f32) (x3 : Vec Ideal S128x128 .f32) (x4 xo : Vec Ideal S1x128 .f32)
    (u : Fin 1) (q : Fin 128) :
    (k7_pay5 x0 x1 x2 x3 x4 xo : FVec Ideal S1x128 .f32) (ix2 u q)
      = xo (ix2 u q) + ∑ k : Fin 5000, (k7_pay4 x0 x1 x2 x3 x4 : FVec Ideal S5000x128 .f32) (ix2 k q) := by
  unfold k7_pay5
  rw [addf_apply, shapeCast_self xo]
  exact congrArg (fun z : EReal => xo (ix2 u q) + z) (colsum_apply _ _ _ _ _ u q)

/-- The square-sum row the body stores: the carried row plus the column sums of the tile's squares. -/
theorem pay1_apply (v23 : FVec Ideal S5000x128 .f32) (v32 : FVec Ideal S1x128 .f32) (u : Fin 1) (q : Fin 128) :
    (k7_pay1 v23 v32 : FVec Ideal S1x128 .f32) (ix2 u q) = v32 (ix2 u q) + ∑ k : Fin 5000, v23 (ix2 k q) * v23 (ix2 k q) := by
  unfold k7_pay1
  rw [addf_apply]
  exact congrArg (fun z : EReal => v32 (ix2 u q) + z) (colsum_apply _ _ _ _ _ u q)

/-- The rows the reset stores read zero. -/
theorem pay2_apply (j : S1x128.Idx) : (k7_pay2 : FVec Ideal S1x128 .f32) j = 0 := Ideal.ofBits_zero_f32
theorem pay3_apply (j : S1x128.Idx) : (k7_pay3 : FVec Ideal S1x128 .f32) j = 0 := Ideal.ofBits_zero_f32

/-! ## Sums over the first tiles -/

/-- The sum of f over the rows of the first n tiles. -/
def psum (f : Fin 50000 → EReal) (n : ℕ) : EReal :=
  ∑ k ∈ Finset.range n, ∑ r : Fin 5000, (if h : k * 5000 + r.val < 50000 then f ⟨k * 5000 + r.val, h⟩ else 0)

theorem psum_zero (f : Fin 50000 → EReal) : psum f 0 = 0 := Finset.sum_range_zero _

theorem psum_succ (f : Fin 50000 → EReal) (n : ℕ) (hn : n < 10) : psum f (n + 1) = psum f n + ∑ a : Fin 5000, f (row n hn a) := by
  unfold psum
  rw [Finset.sum_range_succ]
  exact congrArg (fun z : EReal => _ + z) (Finset.sum_congr rfl fun a _ => dif_pos (row n hn a).isLt)

theorem psum_ten (f : Fin 50000 → EReal) : psum f 10 = ∑ r : Fin 50000, f r := Cert.LibBlockSums.sum_blocks 10 5000 50000 rfl f

/-! ## The invariant of the run of ten points, at the extended reals -/

section Value

variable (V : (c : Dev nD) → (b : Ref sig .tc) → Buf (Elt Ideal) ((c : Thread nD τ).loc b))

/-- The stage's whole-array value on the arrays the region finds: the rectified dense stage of the normalised features. -/
def Yv (c : Dev nD) : FVec Ideal Cert.Gin.SX .f32 :=
  Cert.Gin.dense (Cert.Gin.affine (V c main_v140_0) (V c main_v156) (V c main_v158)) (V c main_v160) (V c main_v163)

/-- The tile the body stores at point t is rows 5000·t … of the stage's value. -/
theorem tile_eq (c : Dev nD) (t : Fin cfg7.N) (ht : t.val < 10) (a : Fin 5000) (q : Fin 128) :
    (k7_pay4 (iblk7 V c 0 t) (iblk7 V c 1 t) (iblk7 V c 2 t) (iblk7 V c 3 t) (iblk7 V c 4 t) : FVec Ideal S5000x128 .f32) (ix2 a q)
      = Yv V c (ix2 (row t.val ht a) q) :=
  pay4_apply (row t.val ht) (V c main_v140_0) (V c main_v156) (V c main_v158) (V c main_v160) (V c main_v163)
    (iblk7 V c 0 t) (iblk7 V c 1 t) (iblk7 V c 2 t) (iblk7 V c 3 t) (iblk7 V c 4 t)
    (fun r k => blk0_read V c t r k (row t.val ht r) rfl) (blk1_read V c t) (blk2_read V c t) (blk3_read V c t)
    (blk4_read V c t) a q

/-- After point n: output 5's buffer holds tile n of the stage's value, output 6's the column sums over the rows of
    tiles 0 … n, output 7's the column sums of the squares over the same rows. By induction on the point: the first
    point adds its tile's sums to zero rows, a later one to the carried rows. -/
theorem outs_inv (c : Dev nD) : ∀ (n : ℕ) (hn : n < cfg7.N) (h10 : n < 10),
    (∀ a q, (outsAt7 V c n hn).1 (ix2 a q) = Yv V c (ix2 (row n h10 a) q))
    ∧ (∀ q, (outsAt7 V c n hn).2.1 (ix2 (0 : Fin 1) q) = psum (fun r => Yv V c (ix2 r q)) (n + 1))
    ∧ (∀ q, (outsAt7 V c n hn).2.2 (ix2 (0 : Fin 1) q) = psum (fun r => Yv V c (ix2 r q) * Yv V c (ix2 r q)) (n + 1))
  | 0, hn, h10 => by
    rw [outs_A V c 0 hn rfl]
    refine ⟨fun a q => tile_eq V c ⟨0, hn⟩ h10 a q, fun q => ?_, fun q => ?_⟩
    · show (k7_pay5 _ _ _ _ _ _ : FVec Ideal S1x128 .f32) (ix2 (0 : Fin 1) q) = _
      rw [pay5_apply, pay2_apply, zero_add, psum_succ _ 0 h10, psum_zero, zero_add]
      exact Finset.sum_congr rfl fun a _ => tile_eq V c ⟨0, hn⟩ h10 a q
    · show (k7_pay1 _ _ : FVec Ideal S1x128 .f32) (ix2 (0 : Fin 1) q) = _
      rw [pay1_apply, psum_succ _ 0 h10, psum_zero, zero_add]
      show (shapeCast S1x128 k7_pay3 _ : FVec Ideal S1x128 .f32) (ix2 (0 : Fin 1) q) + _ = _
      rw [shapeCast_self, pay3_apply, zero_add]
      exact Finset.sum_congr rfl fun a _ => by rw [tile_eq V c ⟨0, hn⟩ h10 a q]
  | n + 1, hn, h10 => by
    obtain ⟨-, ih6, ih7⟩ := outs_inv c n (Nat.lt_of_succ_lt hn) (by omega)
    rw [outs_B V c n hn (by omega)]
    refine ⟨fun a q => tile_eq V c ⟨n + 1, hn⟩ h10 a q, fun q => ?_, fun q => ?_⟩
    · show (k7_pay5 _ _ _ _ _ _ : FVec Ideal S1x128 .f32) (ix2 (0 : Fin 1) q) = _
      rw [pay5_apply, psum_succ _ (n + 1) h10, ih6 q]
      exact congrArg (fun z : EReal => _ + z) (Finset.sum_congr rfl fun a _ => tile_eq V c ⟨n + 1, hn⟩ h10 a q)
    · show (k7_pay1 _ _ : FVec Ideal S1x128 .f32) (ix2 (0 : Fin 1) q) = _
      rw [pay1_apply, psum_succ _ (n + 1) h10]
      show (shapeCast S1x128 (outsAt7 V c n _).2.2 _ : FVec Ideal S1x128 .f32) (ix2 (0 : Fin 1) q) + _ = _
      rw [shapeCast_self, ih7 q]
      exact congrArg (fun z : EReal => _ + z) (Finset.sum_congr rfl fun a _ => by rw [tile_eq V c ⟨n + 1, hn⟩ h10 a q])

end Value

/-! ## The three result arrays after the run -/

section Final

variable (V : (c : Dev nD) → (b : Ref sig .tc) → Buf (Elt Ideal) ((c : Thread nD τ).loc b))

theorem index6 (t : Fin cfg7.N) : win7_6.index t 0 = 0 ∧ win7_6.index t 1 = 0 := ⟨rfl, rfl⟩
theorem index7 (t : Fin cfg7.N) : win7_7.index t 0 = 0 ∧ win7_7.index t 1 = 0 := ⟨rfl, rfl⟩

/-- What output 5's write-back at point t writes is tile t of the stage's value. -/
theorem flushed5_eq (c : Dev nD) (t : Fin cfg7.N) (hf : (cfg7.win 5).flush t = true) :
    (dat7 V c).flushed 5 t = ((cfg7.win 5).blk t).view.read (Elt Ideal) (Yv V c) := by
  have h10 : t.val < 10 := lt_of_lt_of_eq t.isLt (show cfg7.N = 10 from N_7)
  have hi := index5 t
  show (cfg7.win 5).cut (cfg7.grid.coords t) ((dat7 V c).after 5 t) = _
  rw [after7_5]
  funext j
  obtain ⟨a, q, rfl⟩ : ∃ (a : Fin 5000) (q : Fin 128), j = ix2 a q := ⟨j 0, j 1, eq_ix2 j⟩
  rw [View.read_apply]
  show (outsAt7 V c t.val t.isLt).1 (ix2 a q) = Yv V c _
  rw [(outs_inv V c t.val t.isLt h10).1 a q]
  refine congrArg (Yv V c) (funext fun ax => Fin.ext ?_)
  match ax with
  | ⟨0, _⟩ => show t.val * 5000 + a.val = win7_5.index t 0 * 5000 + 1 * a.val; rw [hi.1]; omega
  | ⟨1, _⟩ => show q.val = win7_5.index t 1 * 128 + 1 * q.val; rw [hi.2]; omega

/-- Output 5's array ends holding the stage's value: row r is written back by point r / 5000. -/
theorem H_eq (c : Dev nD) : (dat7 V c).arrAt 5 cfg7.N = Yv V c :=
  (dat7 V c).arrAt_eq_of_cover 5 (Yv V c) (flushed5_eq V c) fun i => by
    have h0 : (i 0 : Nat) < 50000 := (i 0).isLt
    have h1 : (i 1 : Nat) < 128 := (i 1).isLt
    have hlt : (i 0 : Nat) / 5000 < cfg7.N := by rw [show cfg7.N = 10 from N_7]; omega
    have hi := index5 ⟨(i 0 : Nat) / 5000, hlt⟩
    refine ⟨⟨(i 0 : Nat) / 5000, hlt⟩, flush7_5 _, ?_⟩
    show i ∈ ((View.whole main_v164_0).slice (win7_5.rect ⟨(i 0 : Nat) / 5000, hlt⟩)).set
    rw [View.set_slice_whole, Rect.mem_set_unit]
    intro a
    match a with
    | ⟨0, _⟩ =>
      show win7_5.index ⟨(i 0 : Nat) / 5000, hlt⟩ 0 * 5000 ≤ (i 0 : Nat) ∧ (i 0 : Nat) < win7_5.index ⟨(i 0 : Nat) / 5000, hlt⟩ 0 * 5000 + 5000
      rw [hi.1]; dsimp only; omega
    | ⟨1, _⟩ =>
      show win7_5.index ⟨(i 0 : Nat) / 5000, hlt⟩ 1 * 128 ≤ (i 1 : Nat) ∧ (i 1 : Nat) < win7_5.index ⟨(i 0 : Nat) / 5000, hlt⟩ 1 * 128 + 128
      rw [hi.2]; omega

/-- What output 6's one write-back, at the last point, writes: the column sums of the stage's value, as a row. -/
theorem flushed6_eq (c : Dev nD) (t : Fin cfg7.N) (hf : (cfg7.win 6).flush t = true) :
    (dat7 V c).flushed 6 t = ((cfg7.win 6).blk t).view.read (Elt Ideal) (Cert.Gin.rowOf (Cert.Gin.colSum (Yv V c))) := by
  have h10 : t.val < 10 := lt_of_lt_of_eq t.isLt (show cfg7.N = 10 from N_7)
  have h9 : t.val + 1 = 10 := by have := (flush7_6 t).mp hf; omega
  have key : ∀ q : Fin 128, (outsAt7 V c t.val t.isLt).2.1 (ix2 (0 : Fin 1) q) = Cert.Gin.colSum (Yv V c) q := fun q => by
    rw [(outs_inv V c t.val t.isLt h10).2.1 q, h9, psum_ten]
    unfold Cert.Gin.colSum
    rfl
  generalize Cert.Gin.colSum (Yv V c) = g at key ⊢
  show (cfg7.win 6).cut (cfg7.grid.coords t) ((dat7 V c).after 6 t) = _
  rw [after7_6]
  funext j
  obtain ⟨u, q, rfl⟩ : ∃ (u : Fin 1) (q : Fin 128), j = ix2 u q := ⟨j 0, j 1, eq_ix2 j⟩
  obtain rfl : u = 0 := Subsingleton.elim _ _
  rw [View.read_apply]
  show (outsAt7 V c t.val t.isLt).2.1 (ix2 (0 : Fin 1) q) = Cert.Gin.rowOf g _
  rw [key q]
  refine (Cert.Gin.rowOf_ix2 g q).symm.trans (congrArg (Cert.Gin.rowOf g) (funext fun ax => Fin.ext ?_))
  match ax with
  | ⟨0, _⟩ => rfl
  | ⟨1, _⟩ => show q.val = 0 * 128 + 1 * q.val; omega

/-- Output 6's array ends holding the column sums of the stage's value. -/
theorem S1_eq (c : Dev nD) : (dat7 V c).arrAt 6 cfg7.N = Cert.Gin.rowOf (Cert.Gin.colSum (Yv V c)) :=
  (dat7 V c).arrAt_eq_of_cover 6 (Cert.Gin.rowOf (Cert.Gin.colSum (Yv V c))) (flushed6_eq V c) fun i => by
    have h0 : (i 0 : Nat) < 1 := (i 0).isLt
    have h1 : (i 1 : Nat) < 128 := (i 1).isLt
    refine ⟨t7_9, (flush7_6 t7_9).mpr rfl, ?_⟩
    show i ∈ ((View.whole main_v164_1).slice (win7_6.rect t7_9)).set
    rw [View.set_slice_whole, Rect.mem_set_unit]
    intro a
    match a with
    | ⟨0, _⟩ => show 0 * 1 ≤ (i 0 : Nat) ∧ (i 0 : Nat) < 0 * 1 + 1; omega
    | ⟨1, _⟩ => show 0 * 128 ≤ (i 1 : Nat) ∧ (i 1 : Nat) < 0 * 128 + 128; omega

/-- What output 7's one write-back, at the last point, writes: the column sums of the squares, as a row. -/
theorem flushed7_eq (c : Dev nD) (t : Fin cfg7.N) (hf : (cfg7.win 7).flush t = true) :
    (dat7 V c).flushed 7 t = ((cfg7.win 7).blk t).view.read (Elt Ideal) (Cert.Gin.rowOf (Cert.Gin.colSq (Yv V c))) := by
  have h10 : t.val < 10 := lt_of_lt_of_eq t.isLt (show cfg7.N = 10 from N_7)
  have h9 : t.val + 1 = 10 := by have := (flush7_7 t).mp hf; omega
  have key : ∀ q : Fin 128, (outsAt7 V c t.val t.isLt).2.2 (ix2 (0 : Fin 1) q) = Cert.Gin.colSq (Yv V c) q := fun q => by
    rw [(outs_inv V c t.val t.isLt h10).2.2 q, h9, psum_ten]
    unfold Cert.Gin.colSq
    rfl
  generalize Cert.Gin.colSq (Yv V c) = g at key ⊢
  show (cfg7.win 7).cut (cfg7.grid.coords t) ((dat7 V c).after 7 t) = _
  rw [after7_7]
  funext j
  obtain ⟨u, q, rfl⟩ : ∃ (u : Fin 1) (q : Fin 128), j = ix2 u q := ⟨j 0, j 1, eq_ix2 j⟩
  obtain rfl : u = 0 := Subsingleton.elim _ _
  rw [View.read_apply]
  show (outsAt7 V c t.val t.isLt).2.2 (ix2 (0 : Fin 1) q) = Cert.Gin.rowOf g _
  rw [key q]
  refine (Cert.Gin.rowOf_ix2 g q).symm.trans (congrArg (Cert.Gin.rowOf g) (funext fun ax => Fin.ext ?_))
  match ax with
  | ⟨0, _⟩ => rfl
  | ⟨1, _⟩ => show q.val = 0 * 128 + 1 * q.val; omega

/-- Output 7's array ends holding the column sums of the squares of the stage's value. -/
theorem S2_eq (c : Dev nD) : (dat7 V c).arrAt 7 cfg7.N = Cert.Gin.rowOf (Cert.Gin.colSq (Yv V c)) :=
  (dat7 V c).arrAt_eq_of_cover 7 (Cert.Gin.rowOf (Cert.Gin.colSq (Yv V c))) (flushed7_eq V c) fun i => by
    have h0 : (i 0 : Nat) < 1 := (i 0).isLt
    have h1 : (i 1 : Nat) < 128 := (i 1).isLt
    refine ⟨t7_9, (flush7_7 t7_9).mpr rfl, ?_⟩
    show i ∈ ((View.whole main_v164_2).slice (win7_7.rect t7_9)).set
    rw [View.set_slice_whole, Rect.mem_set_unit]
    intro a
    match a with
    | ⟨0, _⟩ => show 0 * 1 ≤ (i 0 : Nat) ∧ (i 0 : Nat) < 0 * 1 + 1; omega
    | ⟨1, _⟩ => show 0 * 128 ≤ (i 1 : Nat) ∧ (i 1 : Nat) < 0 * 128 + 128; omega

/-- The arrays the region reads are these buffers. -/
theorem arr0 (c : Dev nD) : V c (Pipeline.arrRef spec7 0) = V c main_v140_0 := rfl
theorem arr1 (c : Dev nD) : V c (Pipeline.arrRef spec7 1) = V c main_v156 := rfl
theorem arr2 (c : Dev nD) : V c (Pipeline.arrRef spec7 2) = V c main_v158 := rfl
theorem arr3 (c : Dev nD) : V c (Pipeline.arrRef spec7 3) = V c main_v160 := rfl
theorem arr4 (c : Dev nD) : V c (Pipeline.arrRef spec7 4) = V c main_v163 := rfl

end Final

end Cert.KernelIdeal.RegB7
end
-- ==== Proof.RegC8.lean ====
/-
  The value of the normalise-and-rectify region 8 of the graph network: its output array after the run.

  The region walks the 50000 rows of a stage's output H in 10 tiles of 5000 rows. At tile t it reads rows
  5000·t … 5000·t + 4999 of H and the two rows α and β (the same at every tile), and writes back, to the same rows of
  its output, max (h·α + β) 0 entry by entry, α and β broadcast down the tile. Entry (r, q) of that tile therefore is
  entry (5000·t + r, q) of the whole-array function  affineRelu H α β.  The ten tiles cover the 50000 rows (row r
  lies in tile r / 5000), so the output array ends holding  affineRelu H α β.
-/
import proofs.«112967_j35158602285141_1_alg».proof.Proof.Gen.KernelIdeal.Frame
import proofs.«112967_j35158602285141_1_alg».proof.Proof.Spec
import Idealize.ShloMosaic.Lib.Pipeline.Value

set_option maxRecDepth 16384

noncomputable section

namespace Cert.KernelIdeal.RegC8

open Cert.KernelIdeal Cert.KernelIdeal.Gen Idealize.ShloMosaic Idealize.ShloMosaic.TcCoe Idealize.SL.Sem
open Idealize.ShloMosaic.Pipeline (Dat)
open Idealize.ShloMosaic.ValueIdx Cert.LibBiasRows

/-! ## A tile of rows of the whole-array function -/

/-- max (x·a + b) 0 on a tile of rows `x` of `H` (any choice of rows, given by `row`), the rows `a` and `b` broadcast
    down the tile, through the identity casts a tiled program prints, is that tile of rows of `affineRelu H A S`. -/
theorem affineRelu_rows (row : Fin 5000 → Fin 50000) (H : FVec Ideal Cert.Gin.SX .f32) (A S : FVec Ideal Cert.Gin.SR .f32)
    (x : FVec Ideal ⟨2, ![5000, 128]⟩ .f32) (a b : FVec Ideal ⟨2, ![1, 128]⟩ .f32)
    (hx : ∀ r q, x (ix2 r q) = H (ix2 (row r) q))
    (ha : ∀ q, a (ix2 (0 : Fin 1) q) = A (ix2 (0 : Fin 1) q)) (hb : ∀ q, b (ix2 (0 : Fin 1) q) = S (ix2 (0 : Fin 1) q))
    (hs : (⟨2, ![5000, 128]⟩ : Shape).ShapeCasts ⟨2, ![5000, 128]⟩) (hs' : (⟨2, ![1, 128]⟩ : Shape).ShapeCasts ⟨2, ![1, 128]⟩)
    (hbc : (⟨2, ![1, 128]⟩ : Shape).Broadcasts ⟨2, ![5000, 128]⟩)
    (j : (⟨2, ![5000, 128]⟩ : Shape).Idx) (i : (⟨2, ![50000, 128]⟩ : Shape).Idx)
    (h0 : (i 0).val = (row (j 0)).val) (h1 : (i 1).val = (j 1).val) :
    maximumf (addf (mulf (shapeCast ⟨2, ![5000, 128]⟩ x hs) (broadcastTo ⟨2, ![5000, 128]⟩ (shapeCast ⟨2, ![1, 128]⟩ a hs') hbc))
          (broadcastTo ⟨2, ![5000, 128]⟩ (shapeCast ⟨2, ![1, 128]⟩ b hs') hbc))
        (broadcast ⟨2, ![5000, 128]⟩ (Scalar.ofBits (F := Ideal) .f32 0x00000000#32)) j
      = Cert.Gin.affineRelu H A S i := by
  obtain ⟨p, q, rfl⟩ : ∃ (p : Fin 5000) (q : Fin 128), j = ix2 p q := ⟨j 0, j 1, eq_ix2 j⟩
  obtain rfl : i = ix2 (row p) q := by
    rw [eq_ix2 i]; exact congrArg₂ ix2 (Fin.ext h0) (Fin.ext h1)
  rw [Cert.Gin.affineRelu_ix2, maximumf_apply, addf_apply, mulf_apply, broadcast_apply, shapeCast_self x hs,
    broadcastTo_1b_ab_apply, broadcastTo_1b_ab_apply, shapeCast_self a hs', shapeCast_self b hs', hx, ha, hb]
  rfl

/-! ## The region's tiles -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at tile `t` the block of H and the output block are the `t`-th
    blocks of rows, and the two rows are read at block (0, 0). -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- Row `p` of tile `t` is row 5000·t + p of the array. -/
def rowAt (t : Fin cfg8.N) (p : Fin 5000) : Fin 50000 :=
  ⟨5000 * t.val + p.val, by have hN : cfg8.N = 10 := N_8; have := t.isLt; have := p.isLt; omega⟩

/-- The block of H at tile `t` is rows 5000·t … of H. -/
theorem iblk_H (c : Dev nD) (t : Fin cfg8.N) (p : Fin 5000) (q : Fin 128) :
    (iblk8 V c 0 t : Vec Ideal S5000x128 .f32) (ix2 p q) = (V c main_v164_0 : S50000x128.Idx → EReal) (ix2 (rowAt t p) q) := by
  obtain ⟨e0, e1, -, -, -, -, -, -⟩ := idx_facts t
  unfold iblk8
  rw [View.read_apply]
  show V c main_v164_0 _ = V c main_v164_0 _
  refine congrArg _ ?_
  funext ax
  apply Fin.ext
  match ax with
  | ⟨0, _⟩ => show win8_0.index t (0 : Fin 2) * 5000 + 1 * p.val = 5000 * t.val + p.val; omega
  | ⟨1, _⟩ => show win8_0.index t (1 : Fin 2) * 128 + 1 * q.val = q.val; omega

/-- The block of α at every tile is α. -/
theorem iblk_A (c : Dev nD) (t : Fin cfg8.N) (q : Fin 128) :
    (iblk8 V c 1 t : Vec Ideal S1x128 .f32) (ix2 (0 : Fin 1) q) = (V c main_v180 : S1x128.Idx → EReal) (ix2 (0 : Fin 1) q) := by
  obtain ⟨-, -, e2, e3, -, -, -, -⟩ := idx_facts t
  unfold iblk8
  rw [View.read_apply]
  show V c main_v180 _ = V c main_v180 _
  refine congrArg _ ?_
  funext ax
  apply Fin.ext
  match ax with
  | ⟨0, _⟩ => show win8_1.index t (0 : Fin 2) * 1 + 1 * 0 = 0; omega
  | ⟨1, _⟩ => show win8_1.index t (1 : Fin 2) * 128 + 1 * q.val = q.val; omega

/-- The block of β at every tile is β. -/
theorem iblk_S (c : Dev nD) (t : Fin cfg8.N) (q : Fin 128) :
    (iblk8 V c 2 t : Vec Ideal S1x128 .f32) (ix2 (0 : Fin 1) q) = (V c main_v182 : S1x128.Idx → EReal) (ix2 (0 : Fin 1) q) := by
  obtain ⟨-, -, -, -, e4, e5, -, -⟩ := idx_facts t
  unfold iblk8
  rw [View.read_apply]
  show V c main_v182 _ = V c main_v182 _
  refine congrArg _ ?_
  funext ax
  apply Fin.ext
  match ax with
  | ⟨0, _⟩ => show win8_2.index t (0 : Fin 2) * 1 + 1 * 0 = 0; omega
  | ⟨1, _⟩ => show win8_2.index t (1 : Fin 2) * 128 + 1 * q.val = q.val; omega

/-- What tile `t` writes back is block `t` of `affineRelu H α β`. -/
theorem flushed_eq (c : Dev nD) (t : Fin cfg8.N) :
    (dat8 (F := Ideal) V c).flushed 3 t
      = ((cfg8.win 3).blk t).view.read (Elt Ideal) (Cert.Gin.affineRelu (V c main_v164_0) (V c main_v180) (V c main_v182)) := by
  show (cfg8.win 3).cut (grid8.coords t) ((dat8 V c).after 3 t) = _
  rw [after8_3]
  unfold out8_3
  rw [View.canon_unit_zero hz]
  simp only [View.ld_unit_zero (S := S5000x128) hz, View.ld_unit_zero (S := S1x128) hz]
  obtain ⟨-, -, -, -, -, -, e6, e7⟩ := idx_facts t
  funext j
  show k8_pay1 (iblk8 V c 0 t) (iblk8 V c 1 t) (iblk8 V c 2 t) j
    = Cert.Gin.affineRelu (V c main_v164_0) (V c main_v180) (V c main_v182) (((cfg8.win 3).blk t).view.emb j)
  refine affineRelu_rows (rowAt t) _ _ _ _ _ _ (iblk_H V c t) (iblk_A V c t) (iblk_S V c t) _ _ _ j _ ?_ ?_
  · show win8_3.index t (0 : Fin 2) * 5000 + 1 * (j 0).val = 5000 * t.val + (j 0).val; omega
  · show win8_3.index t (1 : Fin 2) * 128 + 1 * (j 1).val = (j 1).val; omega

/-! ## The tiles cover the array -/

/-- An index of the array is in tile `t`'s block iff each coordinate is in the block's range on its axis. -/
theorem mem_blk (t : Fin cfg8.N) (i : S50000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v183).slice (win8_3.rect t)).set ↔ _
  rw [View.set_slice_whole, Rect.mem_set_unit]
  exact Iff.rfl

/-- Row r lies in tile r / 5000. -/
theorem cover (i : S50000x128.Idx) :
    ∃ t : Fin cfg8.N, (cfg8.win 3).flush t = true ∧ i ∈ ((cfg8.win 3).blk t).view.set := by
  have hN : cfg8.N = 10 := N_8
  have hi0 : (i 0).val < 50000 := (i 0).isLt
  have hi1 : (i 1).val < 128 := (i 1).isLt
  have ht : (i 0).val / 5000 < cfg8.N := by omega
  obtain ⟨-, -, -, -, -, -, e6, e7⟩ := idx_facts ⟨(i 0).val / 5000, ht⟩
  have e6' : win8_3.index ⟨(i 0).val / 5000, ht⟩ (0 : Fin 2) = (i 0).val / 5000 := e6
  refine ⟨⟨(i 0).val / 5000, ht⟩, flush8_3 _, ?_⟩
  rw [mem_blk]
  intro a
  match a with
  | ⟨0, _⟩ =>
    show win8_3.index ⟨(i 0).val / 5000, ht⟩ (0 : Fin 2) * 5000 ≤ (i 0).val
      ∧ (i 0).val < win8_3.index ⟨(i 0).val / 5000, ht⟩ (0 : Fin 2) * 5000 + 5000
    omega
  | ⟨1, _⟩ =>
    show win8_3.index ⟨(i 0).val / 5000, ht⟩ (1 : Fin 2) * 128 ≤ (i 1).val
      ∧ (i 1).val < win8_3.index ⟨(i 0).val / 5000, ht⟩ (1 : Fin 2) * 128 + 128
    omega

/-! ## The output array after the run -/

/-- The region's output array ends holding max (H·α + β) 0, H, α and β its three input arrays as the region finds them. -/
theorem out_eq (c : Dev nD) :
    (dat8 (F := Ideal) V c).arrAt 3 cfg8.N = Cert.Gin.affineRelu (V c main_v164_0) (V c main_v180) (V c main_v182) :=
  (dat8 V c).arrAt_eq_of_cover 3 _ (fun t _ => flushed_eq V c t) cover

/-- The three input arrays are the windows' arrays. -/
theorem arr_eq : Pipeline.arrRef spec8 0 = main_v164_0 ∧ Pipeline.arrRef spec8 1 = main_v180 ∧ Pipeline.arrRef spec8 2 = main_v182
    ∧ Pipeline.arrRef spec8 3 = main_v183 := ⟨rfl, rfl, rfl, rfl⟩

end Cert.KernelIdeal.RegC8

end
-- ==== Proof.KChainL2.lean ====
/-
  Layer 2 of the run. From the buffer contents at the layer's first boundary, where the features' buffer holds X,
  through the three stretches of host operations and the three regions: the first stage's region leaves
  H₁ = dense (X aggregated over the edges) W₁ b₁ and its two column sums, the next stretch makes of the sums the
  slope and offset rows of H₁, the second stage's region leaves H₂ = dense (H₁·α₁ + β₁) W₂ b₂ and its sums, the
  next stretch the rows of H₂, and the last region max (H₂·α₂ + β₂) 0: the specification's layer on X, in the
  buffer the next layer reads.
-/
import proofs.«112967_j35158602285141_1_alg».proof.Proof.KChainKeep
import proofs.«112967_j35158602285141_1_alg».proof.Proof.RegL6
import proofs.«112967_j35158602285141_1_alg».proof.Proof.RegB7
import proofs.«112967_j35158602285141_1_alg».proof.Proof.RegC8

set_option maxRecDepth 16384

noncomputable section

namespace Cert.KernelIdeal.KChain

open Idealize.ShloMosaic Idealize.ShloMosaic.TcCoe Idealize.ShloMosaic.Tactic
open Idealize.SL.Sem
open Cert.KernelIdeal Cert.KernelIdeal.Gen Cert.Gin

variable (m : (ℓ : Loc nD τ sig) → Buf (Elt Ideal) ℓ) (ρ : Dev nD → PrngReg) (c : Dev nD)

set_option maxHeartbeats 2000000 in
/-- The first stage's region: its output and the two column sums, at the region's exit. -/
theorem l2_stage1 (X : FArr S50000x128) (hX : W12 m ρ c (Proc.devRef .tc main_v123) = X) :
    W14 m ρ c (Proc.devRef .tc main_v140_0) = (dense (aggK X (m ((c : Thread nD τ).loc main_arg2))) (sliceWK 2 (m ((c : Thread nD τ).loc main_arg3))) (rowK 2 (m ((c : Thread nD τ).loc main_arg4))))
    ∧ W14 m ρ c (Proc.devRef .tc main_v140_1) = rowOf (colSum (dense (aggK X (m ((c : Thread nD τ).loc main_arg2))) (sliceWK 2 (m ((c : Thread nD τ).loc main_arg3))) (rowK 2 (m ((c : Thread nD τ).loc main_arg4)))))
    ∧ W14 m ρ c (Proc.devRef .tc main_v140_2) = rowOf (colSq (dense (aggK X (m ((c : Thread nD τ).loc main_arg2))) (sliceWK 2 (m ((c : Thread nD τ).loc main_arg3))) (rowK 2 (m ((c : Thread nD τ).loc main_arg4))))) := by
  have hx : V13 m ρ c main_v134 = (aggK X (m ((c : Thread nD τ).loc main_arg2))) :=
    (host6_v134 (W12 m ρ c)).trans (by
      rw [hX, keepI_12 m ρ c main_v1 (by decide), keepI_12 m ρ c main_v3 (by decide), src_1, dst_1]; rfl)
  have hw : V13 m ρ c main_v136 = (sliceWK 2 (m ((c : Thread nD τ).loc main_arg3))) := (host6_v136 (W12 m ρ c)).trans (by rw [keep_12 m ρ c main_arg3 (by decide)])
  have hb : V13 m ρ c main_v139 = (rowK 2 (m ((c : Thread nD τ).loc main_arg4))) := (host6_v139 (W12 m ρ c)).trans (by rw [keep_12 m ρ c main_arg4 (by decide)])
  refine ⟨?_, ?_, ?_⟩
  · exact (W14_arr m ρ c 3).trans ((RegL6.H_eq (V13 m ρ) c).trans (by rw [hx, hw, hb]))
  · exact (W14_arr m ρ c 4).trans ((RegL6.S1_eq (V13 m ρ) c).trans (by rw [hx, hw, hb]))
  · exact (W14_arr m ρ c 5).trans ((RegL6.S2_eq (V13 m ρ) c).trans (by rw [hx, hw, hb]))

set_option maxHeartbeats 2000000 in
/-- The second stage's region: its output and the two column sums, at the region's exit. -/
theorem l2_stage2 (X : FArr S50000x128) (hX : W12 m ρ c (Proc.devRef .tc main_v123) = X) :
    W16 m ρ c (Proc.devRef .tc main_v164_0) = (dense (affine (dense (aggK X (m ((c : Thread nD τ).loc main_arg2))) (sliceWK 2 (m ((c : Thread nD τ).loc main_arg3))) (rowK 2 (m ((c : Thread nD τ).loc main_arg4)))) (alphaRow (rowK 2 (m ((c : Thread nD τ).loc main_arg5))) (dense (aggK X (m ((c : Thread nD τ).loc main_arg2))) (sliceWK 2 (m ((c : Thread nD τ).loc main_arg3))) (rowK 2 (m ((c : Thread nD τ).loc main_arg4))))) (shiftRow (rowK 2 (m ((c : Thread nD τ).loc main_arg5))) (rowK 2 (m ((c : Thread nD τ).loc main_arg6))) (dense (aggK X (m ((c : Thread nD τ).loc main_arg2))) (sliceWK 2 (m ((c : Thread nD τ).loc main_arg3))) (rowK 2 (m ((c : Thread nD τ).loc main_arg4)))))) (sliceWK 2 (m ((c : Thread nD τ).loc main_arg7))) (rowK 2 (m ((c : Thread nD τ).loc main_arg8))))
    ∧ W16 m ρ c (Proc.devRef .tc main_v164_1) = rowOf (colSum (dense (affine (dense (aggK X (m ((c : Thread nD τ).loc main_arg2))) (sliceWK 2 (m ((c : Thread nD τ).loc main_arg3))) (rowK 2 (m ((c : Thread nD τ).loc main_arg4)))) (alphaRow (rowK 2 (m ((c : Thread nD τ).loc main_arg5))) (dense (aggK X (m ((c : Thread nD τ).loc main_arg2))) (sliceWK 2 (m ((c : Thread nD τ).loc main_arg3))) (rowK 2 (m ((c : Thread nD τ).loc main_arg4))))) (shiftRow (rowK 2 (m ((c : Thread nD τ).loc main_arg5))) (rowK 2 (m ((c : Thread nD τ).loc main_arg6))) (dense (aggK X (m ((c : Thread nD τ).loc main_arg2))) (sliceWK 2 (m ((c : Thread nD τ).loc main_arg3))) (rowK 2 (m ((c : Thread nD τ).loc main_arg4)))))) (sliceWK 2 (m ((c : Thread nD τ).loc main_arg7))) (rowK 2 (m ((c : Thread nD τ).loc main_arg8)))))
    ∧ W16 m ρ c (Proc.devRef .tc main_v164_2) = rowOf (colSq (dense (affine (dense (aggK X (m ((c : Thread nD τ).loc main_arg2))) (sliceWK 2 (m ((c : Thread nD τ).loc main_arg3))) (rowK 2 (m ((c : Thread nD τ).loc main_arg4)))) (alphaRow (rowK 2 (m ((c : Thread nD τ).loc main_arg5))) (dense (aggK X (m ((c : Thread nD τ).loc main_arg2))) (sliceWK 2 (m ((c : Thread nD τ).loc main_arg3))) (rowK 2 (m ((c : Thread nD τ).loc main_arg4))))) (shiftRow (rowK 2 (m ((c : Thread nD τ).loc main_arg5))) (rowK 2 (m ((c : Thread nD τ).loc main_arg6))) (dense (aggK X (m ((c : Thread nD τ).loc main_arg2))) (sliceWK 2 (m ((c : Thread nD τ).loc main_arg3))) (rowK 2 (m ((c : Thread nD τ).loc main_arg4)))))) (sliceWK 2 (m ((c : Thread nD τ).loc main_arg7))) (rowK 2 (m ((c : Thread nD τ).loc main_arg8))))) := by
  obtain ⟨hH, hS1, hS2⟩ := l2_stage1 m ρ c X hX
  have hH' : V15 m ρ c main_v140_0 = (dense (aggK X (m ((c : Thread nD τ).loc main_arg2))) (sliceWK 2 (m ((c : Thread nD τ).loc main_arg3))) (rowK 2 (m ((c : Thread nD τ).loc main_arg4)))) := (host7_keep (W14 m ρ c) main_v140_0 (by decide)).trans hH
  have ha : V15 m ρ c main_v156 = (alphaRow (rowK 2 (m ((c : Thread nD τ).loc main_arg5))) (dense (aggK X (m ((c : Thread nD τ).loc main_arg2))) (sliceWK 2 (m ((c : Thread nD τ).loc main_arg3))) (rowK 2 (m ((c : Thread nD τ).loc main_arg4))))) :=
    (host7_v156 (W14 m ρ c)).trans (by rw [keep_14 m ρ c main_arg5 (by decide), hS1, hS2, alphaK_eq])
  have hs : V15 m ρ c main_v158 = (shiftRow (rowK 2 (m ((c : Thread nD τ).loc main_arg5))) (rowK 2 (m ((c : Thread nD τ).loc main_arg6))) (dense (aggK X (m ((c : Thread nD τ).loc main_arg2))) (sliceWK 2 (m ((c : Thread nD τ).loc main_arg3))) (rowK 2 (m ((c : Thread nD τ).loc main_arg4))))) :=
    (host7_v158 (W14 m ρ c)).trans (by rw [keep_14 m ρ c main_arg5 (by decide), keep_14 m ρ c main_arg6 (by decide), hS1, hS2, betaK_eq])
  have hw : V15 m ρ c main_v160 = (sliceWK 2 (m ((c : Thread nD τ).loc main_arg7))) := (host7_v160 (W14 m ρ c)).trans (by rw [keep_14 m ρ c main_arg7 (by decide)])
  have hb : V15 m ρ c main_v163 = (rowK 2 (m ((c : Thread nD τ).loc main_arg8))) := (host7_v163 (W14 m ρ c)).trans (by rw [keep_14 m ρ c main_arg8 (by decide)])
  refine ⟨?_, ?_, ?_⟩
  · exact (W16_arr m ρ c 5).trans ((RegB7.H_eq (V15 m ρ) c).trans (by rw [RegB7.Yv, hH', ha, hs, hw, hb]))
  · exact (W16_arr m ρ c 6).trans ((RegB7.S1_eq (V15 m ρ) c).trans (by rw [RegB7.Yv, hH', ha, hs, hw, hb]))
  · exact (W16_arr m ρ c 7).trans ((RegB7.S2_eq (V15 m ρ) c).trans (by rw [RegB7.Yv, hH', ha, hs, hw, hb]))

set_option maxHeartbeats 2000000 in
/-- The layer: at its last region's exit the next layer's features buffer holds the specification's layer on X. -/
theorem layer2_out (X : FArr S50000x128) (hX : W12 m ρ c (Proc.devRef .tc main_v123) = X) :
    W18 m ρ c (Proc.devRef .tc main_v183)
      = layer (aggK X (m ((c : Thread nD τ).loc main_arg2))) (sliceWK 2 (m ((c : Thread nD τ).loc main_arg3))) (rowK 2 (m ((c : Thread nD τ).loc main_arg4))) (rowK 2 (m ((c : Thread nD τ).loc main_arg5))) (rowK 2 (m ((c : Thread nD τ).loc main_arg6))) (sliceWK 2 (m ((c : Thread nD τ).loc main_arg7))) (rowK 2 (m ((c : Thread nD τ).loc main_arg8))) (rowK 2 (m ((c : Thread nD τ).loc main_arg9))) (rowK 2 (m ((c : Thread nD τ).loc main_arg10))) := by
  obtain ⟨hH, hT1, hT2⟩ := l2_stage2 m ρ c X hX
  have hH' : V17 m ρ c main_v164_0 = (dense (affine (dense (aggK X (m ((c : Thread nD τ).loc main_arg2))) (sliceWK 2 (m ((c : Thread nD τ).loc main_arg3))) (rowK 2 (m ((c : Thread nD τ).loc main_arg4)))) (alphaRow (rowK 2 (m ((c : Thread nD τ).loc main_arg5))) (dense (aggK X (m ((c : Thread nD τ).loc main_arg2))) (sliceWK 2 (m ((c : Thread nD τ).loc main_arg3))) (rowK 2 (m ((c : Thread nD τ).loc main_arg4))))) (shiftRow (rowK 2 (m ((c : Thread nD τ).loc main_arg5))) (rowK 2 (m ((c : Thread nD τ).loc main_arg6))) (dense (aggK X (m ((c : Thread nD τ).loc main_arg2))) (sliceWK 2 (m ((c : Thread nD τ).loc main_arg3))) (rowK 2 (m ((c : Thread nD τ).loc main_arg4)))))) (sliceWK 2 (m ((c : Thread nD τ).loc main_arg7))) (rowK 2 (m ((c : Thread nD τ).loc main_arg8)))) := (host8_keep (W16 m ρ c) main_v164_0 (by decide)).trans hH
  have ha : V17 m ρ c main_v180 = (alphaRow (rowK 2 (m ((c : Thread nD τ).loc main_arg9))) (dense (affine (dense (aggK X (m ((c : Thread nD τ).loc main_arg2))) (sliceWK 2 (m ((c : Thread nD τ).loc main_arg3))) (rowK 2 (m ((c : Thread nD τ).loc main_arg4)))) (alphaRow (rowK 2 (m ((c : Thread nD τ).loc main_arg5))) (dense (aggK X (m ((c : Thread nD τ).loc main_arg2))) (sliceWK 2 (m ((c : Thread nD τ).loc main_arg3))) (rowK 2 (m ((c : Thread nD τ).loc main_arg4))))) (shiftRow (rowK 2 (m ((c : Thread nD τ).loc main_arg5))) (rowK 2 (m ((c : Thread nD τ).loc main_arg6))) (dense (aggK X (m ((c : Thread nD τ).loc main_arg2))) (sliceWK 2 (m ((c : Thread nD τ).loc main_arg3))) (rowK 2 (m ((c : Thread nD τ).loc main_arg4)))))) (sliceWK 2 (m ((c : Thread nD τ).loc main_arg7))) (rowK 2 (m ((c : Thread nD τ).loc main_arg8))))) :=
    (host8_v180 (W16 m ρ c)).trans (by rw [keep_16 m ρ c main_arg9 (by decide), hT1, hT2, alphaK_eq])
  have hs : V17 m ρ c main_v182 = (shiftRow (rowK 2 (m ((c : Thread nD τ).loc main_arg9))) (rowK 2 (m ((c : Thread nD τ).loc main_arg10))) (dense (affine (dense (aggK X (m ((c : Thread nD τ).loc main_arg2))) (sliceWK 2 (m ((c : Thread nD τ).loc main_arg3))) (rowK 2 (m ((c : Thread nD τ).loc main_arg4)))) (alphaRow (rowK 2 (m ((c : Thread nD τ).loc main_arg5))) (dense (aggK X (m ((c : Thread nD τ).loc main_arg2))) (sliceWK 2 (m ((c : Thread nD τ).loc main_arg3))) (rowK 2 (m ((c : Thread nD τ).loc main_arg4))))) (shiftRow (rowK 2 (m ((c : Thread nD τ).loc main_arg5))) (rowK 2 (m ((c : Thread nD τ).loc main_arg6))) (dense (aggK X (m ((c : Thread nD τ).loc main_arg2))) (sliceWK 2 (m ((c : Thread nD τ).loc main_arg3))) (rowK 2 (m ((c : Thread nD τ).loc main_arg4)))))) (sliceWK 2 (m ((c : Thread nD τ).loc main_arg7))) (rowK 2 (m ((c : Thread nD τ).loc main_arg8))))) :=
    (host8_v182 (W16 m ρ c)).trans (by rw [keep_16 m ρ c main_arg9 (by decide), keep_16 m ρ c main_arg10 (by decide), hT1, hT2, betaK_eq])
  exact (W18_arr m ρ c 3).trans ((RegC8.out_eq (V17 m ρ) c).trans (by rw [hH', ha, hs]; rfl))

end Cert.KernelIdeal.KChain

end
-- ==== Proof.RegD9.lean ====
/-
  The value of the last region of the graph network, the projection onto 16 columns: its output array after the run.

  The region walks the 50000 rows of the features X in 10 tiles of 5000 rows. At tile t it reads rows
  5000·t … 5000·t + 4999 of X, the whole weight matrix W [128,16] and the bias row B (the same at every tile), and
  writes back, to the same rows of its output, x·W + B, the product accumulated into a zero block and B broadcast down
  the tile. Row r of a product depends on row r of the left factor alone, so entry (r, q) of that tile is entry
  (5000·t + r, q) of the whole-array function  proj X W B = X·W + B.  The ten tiles cover the 50000 rows (row r lies in
  tile r / 5000), so the output array ends holding  proj X W B.
-/
import proofs.«112967_j35158602285141_1_alg».proof.Proof.Gen.KernelIdeal.Frame
import proofs.«112967_j35158602285141_1_alg».proof.Proof.Spec
import Idealize.ShloMosaic.Lib.Pipeline.Value

set_option maxRecDepth 16384

noncomputable section

namespace Cert.KernelIdeal.RegD9

open Cert.KernelIdeal Cert.KernelIdeal.Gen Idealize.ShloMosaic Idealize.ShloMosaic.TcCoe Idealize.SL.Sem
open Idealize.ShloMosaic.Pipeline (Dat)
open Idealize.ShloMosaic.ValueIdx Cert.LibBiasRows Cert.LibRowBlockDot

/-! ## A tile of rows of the whole-array function -/

/-- The printed contraction is the plain one: rows by columns. -/
theorem dot_eq : dot_S5000x128_S128x16_S5000x16_1_0_0_1_n_n = DotDims.plain 5000 128 16 := rfl

/-- x·w + b on a tile of rows `x` of `X` (any choice of rows, given by `row`), both factors narrowed to bf16, the
    product accumulated into a zero block and the row `b` broadcast down the tile, is that tile of rows of
    `proj X W B`. -/
theorem proj_rows (row : Fin 5000 → Fin 50000) (X : FVec Ideal Cert.Gin.SX .f32) (W : FVec Ideal Cert.Gin.SWc .f32)
    (B : FVec Ideal Cert.Gin.SRc .f32)
    (x : FVec Ideal ⟨2, ![5000, 128]⟩ .f32) (w : FVec Ideal ⟨2, ![128, 16]⟩ .f32) (b : FVec Ideal ⟨2, ![1, 16]⟩ .f32)
    (hx : ∀ r k, x (ix2 r k) = X (ix2 (row r) k)) (hw : ∀ k q, w (ix2 k q) = W (ix2 k q))
    (hb : ∀ q, b (ix2 (0 : Fin 1) q) = B (ix2 (0 : Fin 1) q))
    (hsx : (⟨2, ![5000, 128]⟩ : Shape).ShapeCasts ⟨2, ![5000, 128]⟩) (hsb : (⟨2, ![1, 16]⟩ : Shape).ShapeCasts ⟨2, ![1, 16]⟩)
    (hbc : (⟨2, ![1, 16]⟩ : Shape).Broadcasts ⟨2, ![5000, 16]⟩) (hlt : FTy.bf16.bits < FTy.f32.bits)
    (j : (⟨2, ![5000, 16]⟩ : Shape).Idx) (i : (⟨2, ![50000, 16]⟩ : Shape).Idx)
    (h0 : (i 0).val = (row (j 0)).val) (h1 : (i 1).val = (j 1).val) :
    addf (matmul (DotDims.plain 5000 128 16) none (truncf .bf16 (shapeCast ⟨2, ![5000, 128]⟩ x hsx) hlt) (truncf .bf16 w hlt)
          (constant (F := Ideal) ⟨2, ![5000, 16]⟩ .f32 0x00000000#32))
        (broadcastTo ⟨2, ![5000, 16]⟩ (shapeCast ⟨2, ![1, 16]⟩ b hsb) hbc) j
      = Cert.Gin.proj X W B i := by
  obtain ⟨p, q, rfl⟩ : ∃ (p : Fin 5000) (q : Fin 16), j = ix2 p q := ⟨j 0, j 1, eq_ix2 j⟩
  obtain rfl : i = ix2 (row p) q := by
    rw [eq_ix2 i]; exact congrArg₂ ix2 (Fin.ext h0) (Fin.ext h1)
  unfold Cert.Gin.proj
  rw [biasOnly_ix2, addf_apply, broadcastTo_1b_ab_apply, shapeCast_self b hsb, hb,
    matmul_rowBlock_apply none none X W _ (truncf .bf16 w hlt) row
      (fun r k => by rw [truncf_apply, shapeCast_self, hx]) (fun k q => by rw [truncf_apply, hw]) p q]

/-! ## The region's tiles -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at tile `t` the block of X and the output block are the `t`-th
    blocks of rows, and the weights and the bias row are read at block (0, 0). -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- Row `p` of tile `t` is row 5000·t + p of the array. -/
def rowAt (t : Fin cfg9.N) (p : Fin 5000) : Fin 50000 :=
  ⟨5000 * t.val + p.val, by have hN : cfg9.N = 10 := N_9; have := t.isLt; have := p.isLt; omega⟩

/-- The block of X at tile `t` is rows 5000·t … of X. -/
theorem iblk_X (c : Dev nD) (t : Fin cfg9.N) (p : Fin 5000) (k : Fin 128) :
    (iblk9 V c 0 t : Vec Ideal S5000x128 .f32) (ix2 p k) = (V c main_v183 : S50000x128.Idx → EReal) (ix2 (rowAt t p) k) := by
  obtain ⟨e0, e1, -, -, -, -, -, -⟩ := idx_facts t
  unfold iblk9
  rw [View.read_apply]
  show V c main_v183 _ = V c main_v183 _
  refine congrArg _ ?_
  funext ax
  apply Fin.ext
  match ax with
  | ⟨0, _⟩ => show win9_0.index t (0 : Fin 2) * 5000 + 1 * p.val = 5000 * t.val + p.val; omega
  | ⟨1, _⟩ => show win9_0.index t (1 : Fin 2) * 128 + 1 * k.val = k.val; omega

/-- The block of W at every tile is W. -/
theorem iblk_W (c : Dev nD) (t : Fin cfg9.N) (k : Fin 128) (q : Fin 16) :
    (iblk9 V c 1 t : Vec Ideal S128x16 .f32) (ix2 k q) = (V c main_arg11 : S128x16.Idx → EReal) (ix2 k q) := by
  obtain ⟨-, -, e2, e3, -, -, -, -⟩ := idx_facts t
  unfold iblk9
  rw [View.read_apply]
  show V c main_arg11 _ = V c main_arg11 _
  refine congrArg _ ?_
  funext ax
  apply Fin.ext
  match ax with
  | ⟨0, _⟩ => show win9_1.index t (0 : Fin 2) * 128 + 1 * k.val = k.val; omega
  | ⟨1, _⟩ => show win9_1.index t (1 : Fin 2) * 16 + 1 * q.val = q.val; omega

/-- The block of the bias row at every tile is the bias row. -/
theorem iblk_B (c : Dev nD) (t : Fin cfg9.N) (q : Fin 16) :
    (iblk9 V c 2 t : Vec Ideal S1x16 .f32) (ix2 (0 : Fin 1) q) = (V c main_v184 : S1x16.Idx → EReal) (ix2 (0 : Fin 1) q) := by
  obtain ⟨-, -, -, -, e4, e5, -, -⟩ := idx_facts t
  unfold iblk9
  rw [View.read_apply]
  show V c main_v184 _ = V c main_v184 _
  refine congrArg _ ?_
  funext ax
  apply Fin.ext
  match ax with
  | ⟨0, _⟩ => show win9_2.index t (0 : Fin 2) * 1 + 1 * 0 = 0; omega
  | ⟨1, _⟩ => show win9_2.index t (1 : Fin 2) * 16 + 1 * q.val = q.val; omega

/-- What tile `t` writes back is block `t` of `proj X W B`. -/
theorem flushed_eq (c : Dev nD) (t : Fin cfg9.N) :
    (dat9 (F := Ideal) V c).flushed 3 t
      = ((cfg9.win 3).blk t).view.read (Elt Ideal) (Cert.Gin.proj (V c main_v183) (V c main_arg11) (V c main_v184)) := by
  show (cfg9.win 3).cut (grid9.coords t) ((dat9 V c).after 3 t) = _
  rw [after9_3]
  unfold out9_3
  rw [View.canon_unit_zero hz]
  simp only [View.ld_unit_zero (S := S5000x128) hz, View.ld_unit_zero (S := S128x16) hz, View.ld_unit_zero (S := S1x16) hz]
  obtain ⟨-, -, -, -, -, -, e6, e7⟩ := idx_facts t
  funext j
  show k9_pay1 (iblk9 V c 0 t) (iblk9 V c 1 t) (iblk9 V c 2 t) j
    = Cert.Gin.proj (V c main_v183) (V c main_arg11) (V c main_v184) (((cfg9.win 3).blk t).view.emb j)
  refine proj_rows (rowAt t) _ _ _ _ _ _ (iblk_X V c t) (iblk_W V c t) (iblk_B V c t) _ _ _ _ j _ ?_ ?_
  · show win9_3.index t (0 : Fin 2) * 5000 + 1 * (j 0).val = 5000 * t.val + (j 0).val; omega
  · show win9_3.index t (1 : Fin 2) * 16 + 1 * (j 1).val = (j 1).val; omega

/-! ## The tiles cover the array -/

/-- An index of the array is in tile `t`'s block iff each coordinate is in the block's range on its axis. -/
theorem mem_blk (t : Fin cfg9.N) (i : S50000x16.Idx) :
    i ∈ ((cfg9.win 3).blk t).view.set ↔ ∀ a : Fin 2, win9_3.index t a * S5000x16.size a ≤ (i a).val ∧ (i a).val < win9_3.index t a * S5000x16.size a + S5000x16.size a := by
  show i ∈ ((View.whole main_v185).slice (win9_3.rect t)).set ↔ _
  rw [View.set_slice_whole, Rect.mem_set_unit]
  exact Iff.rfl

/-- Row r lies in tile r / 5000. -/
theorem cover (i : S50000x16.Idx) :
    ∃ t : Fin cfg9.N, (cfg9.win 3).flush t = true ∧ i ∈ ((cfg9.win 3).blk t).view.set := by
  have hN : cfg9.N = 10 := N_9
  have hi0 : (i 0).val < 50000 := (i 0).isLt
  have hi1 : (i 1).val < 16 := (i 1).isLt
  have ht : (i 0).val / 5000 < cfg9.N := by omega
  obtain ⟨-, -, -, -, -, -, e6, e7⟩ := idx_facts ⟨(i 0).val / 5000, ht⟩
  have e6' : win9_3.index ⟨(i 0).val / 5000, ht⟩ (0 : Fin 2) = (i 0).val / 5000 := e6
  refine ⟨⟨(i 0).val / 5000, ht⟩, flush9_3 _, ?_⟩
  rw [mem_blk]
  intro a
  match a with
  | ⟨0, _⟩ =>
    show win9_3.index ⟨(i 0).val / 5000, ht⟩ (0 : Fin 2) * 5000 ≤ (i 0).val
      ∧ (i 0).val < win9_3.index ⟨(i 0).val / 5000, ht⟩ (0 : Fin 2) * 5000 + 5000
    omega
  | ⟨1, _⟩ =>
    show win9_3.index ⟨(i 0).val / 5000, ht⟩ (1 : Fin 2) * 16 ≤ (i 1).val
      ∧ (i 1).val < win9_3.index ⟨(i 0).val / 5000, ht⟩ (1 : Fin 2) * 16 + 16
    omega

/-! ## The output array after the run -/

/-- The region's output array ends holding X·W + B, X, W and B its three input arrays as the region finds them. -/
theorem out_eq (c : Dev nD) :
    (dat9 (F := Ideal) V c).arrAt 3 cfg9.N = Cert.Gin.proj (V c main_v183) (V c main_arg11) (V c main_v184) :=
  (dat9 V c).arrAt_eq_of_cover 3 _ (fun t _ => flushed_eq V c t) cover

/-- The three input arrays are the windows' arrays. -/
theorem arr_eq : Pipeline.arrRef spec9 0 = main_v183 ∧ Pipeline.arrRef spec9 1 = main_arg11 ∧ Pipeline.arrRef spec9 2 = main_v184
    ∧ Pipeline.arrRef spec9 3 = main_v185 := ⟨rfl, rfl, rfl, rfl⟩

end Cert.KernelIdeal.RegD9

end
-- ==== Proof.KChain.lean ====
/-
  The run's result array as the specification's composition on the launch arrays: three layers, each on the
  aggregation of the one before (the first on the aggregated input features), then the projection onto the 16
  output columns with its bias row.
-/
import proofs.«112967_j35158602285141_1_alg».proof.Proof.KChainL0
import proofs.«112967_j35158602285141_1_alg».proof.Proof.KChainL1
import proofs.«112967_j35158602285141_1_alg».proof.Proof.KChainL2
import proofs.«112967_j35158602285141_1_alg».proof.Proof.RegD9

set_option maxRecDepth 16384

noncomputable section

namespace Cert.KernelIdeal.KChain

open Idealize.ShloMosaic Idealize.ShloMosaic.TcCoe Idealize.ShloMosaic.Tactic
open Idealize.SL.Sem
open Cert.KernelIdeal Cert.KernelIdeal.Gen Cert.Gin

variable (m : (ℓ : Loc nD τ sig) → Buf (Elt Ideal) ℓ) (ρ : Dev nD → PrngReg) (c : Dev nD)

/-- The three layers' outputs as functions of the launch arrays. -/
def L0 : FArr S50000x128 := (layer (aggK (m ((c : Thread nD τ).loc main_arg0)) (m ((c : Thread nD τ).loc main_arg2))) (sliceWK 0 (m ((c : Thread nD τ).loc main_arg3))) (rowK 0 (m ((c : Thread nD τ).loc main_arg4))) (rowK 0 (m ((c : Thread nD τ).loc main_arg5))) (rowK 0 (m ((c : Thread nD τ).loc main_arg6))) (sliceWK 0 (m ((c : Thread nD τ).loc main_arg7))) (rowK 0 (m ((c : Thread nD τ).loc main_arg8))) (rowK 0 (m ((c : Thread nD τ).loc main_arg9))) (rowK 0 (m ((c : Thread nD τ).loc main_arg10))))
def L1 : FArr S50000x128 := (layer (aggK (L0 m c) (m ((c : Thread nD τ).loc main_arg2))) (sliceWK 1 (m ((c : Thread nD τ).loc main_arg3))) (rowK 1 (m ((c : Thread nD τ).loc main_arg4))) (rowK 1 (m ((c : Thread nD τ).loc main_arg5))) (rowK 1 (m ((c : Thread nD τ).loc main_arg6))) (sliceWK 1 (m ((c : Thread nD τ).loc main_arg7))) (rowK 1 (m ((c : Thread nD τ).loc main_arg8))) (rowK 1 (m ((c : Thread nD τ).loc main_arg9))) (rowK 1 (m ((c : Thread nD τ).loc main_arg10))))
def L2 : FArr S50000x128 := (layer (aggK (L1 m c) (m ((c : Thread nD τ).loc main_arg2))) (sliceWK 2 (m ((c : Thread nD τ).loc main_arg3))) (rowK 2 (m ((c : Thread nD τ).loc main_arg4))) (rowK 2 (m ((c : Thread nD τ).loc main_arg5))) (rowK 2 (m ((c : Thread nD τ).loc main_arg6))) (sliceWK 2 (m ((c : Thread nD τ).loc main_arg7))) (rowK 2 (m ((c : Thread nD τ).loc main_arg8))) (rowK 2 (m ((c : Thread nD τ).loc main_arg9))) (rowK 2 (m ((c : Thread nD τ).loc main_arg10))))

set_option maxHeartbeats 2000000 in
/-- The features' buffer after each layer. -/
theorem W6_x : W6 m ρ c (Proc.devRef .tc main_v63) = L0 m c := layer0_out m ρ c _ rfl
set_option maxHeartbeats 2000000 in
theorem W12_x : W12 m ρ c (Proc.devRef .tc main_v123) = L1 m c := layer1_out m ρ c _ (W6_x m ρ c)
set_option maxHeartbeats 2000000 in
theorem W18_x : W18 m ρ c (Proc.devRef .tc main_v183) = L2 m c := layer2_out m ρ c _ (W12_x m ρ c)

set_option maxHeartbeats 2000000 in
/-- The result array at the end of the run. -/
theorem W20_out : W20 m ρ c (Proc.devRef .tc main_v185) = proj (L2 m c) (m ((c : Thread nD τ).loc main_arg11)) (bcRow (m ((c : Thread nD τ).loc main_arg12))) := by
  have hx : V19 m ρ c main_v183 = L2 m c := (host9_keep (W18 m ρ c) main_v183 (by decide)).trans (W18_x m ρ c)
  have hw : V19 m ρ c main_arg11 = (m ((c : Thread nD τ).loc main_arg11)) := keep_19 m ρ c main_arg11 (by decide)
  have hb : V19 m ρ c main_v184 = bcRow (m ((c : Thread nD τ).loc main_arg12)) :=
    (host9_v184 (W18 m ρ c)).trans (by rw [keep_18 m ρ c main_arg12 (by decide)])
  exact (W20_arr m ρ c 3).trans ((RegD9.out_eq (V19 m ρ) c).trans (by rw [hx, hw, hb]))

end Cert.KernelIdeal.KChain

end
-- ==== Proof.RefRunMain.lean ====
/-
  The reference's @main is the straight line of its host operations: each printed window is the line of its
  stretches (the outlined functions' bodies unfolded at their calls, sequencing reassociated), and the five
  windows in order are the concatenation.
-/
import proofs.«112967_j35158602285141_1_alg».proof.Proof.RefRunOps

noncomputable section

namespace Cert.ReferenceIdeal.RefRun

open Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) := p0 ++ p1 ++ p2 ++ p3 ++ p4

set_option maxRecDepth 16384 in
set_option maxHeartbeats 4000000 in
/-- Window 0 is the line of its operations: the functions' definitions unfolded at their calls and the call
    records at their fields, both sides are one chain of steps once sequencing is reassociated. -/
theorem main_part0_eq (c : Dev nD) : main_part0 (F := F) c = seq p0 := by
  simp only [main_part0, fn_relu.body, fn_var.body, fn_where.body, seq, bind_assoc, pure_bind,
    List.cons_append, List.nil_append]
  rfl

set_option maxRecDepth 16384 in
set_option maxHeartbeats 4000000 in
/-- Window 1 is the line of its operations: the functions' definitions unfolded at their calls and the call
    records at their fields, both sides are one chain of steps once sequencing is reassociated. -/
theorem main_part1_eq (c : Dev nD) : main_part1 (F := F) c = seq p1 := by
  simp only [main_part1, fn_relu.body, fn_var.body, fn_where.body, seq, bind_assoc, pure_bind,
    List.cons_append, List.nil_append]
  rfl

set_option maxRecDepth 16384 in
set_option maxHeartbeats 4000000 in
/-- Window 2 is the line of its operations: the functions' definitions unfolded at their calls and the call
    records at their fields, both sides are one chain of steps once sequencing is reassociated. -/
theorem main_part2_eq (c : Dev nD) : main_part2 (F := F) c = seq p2 := by
  simp only [main_part2, fn_relu.body, fn_var.body, fn_where.body, seq, bind_assoc, pure_bind,
    List.cons_append, List.nil_append]
  rfl

set_option maxRecDepth 16384 in
set_option maxHeartbeats 4000000 in
/-- Window 3 is the line of its operations: the functions' definitions unfolded at their calls and the call
    records at their fields, both sides are one chain of steps once sequencing is reassociated. -/
theorem main_part3_eq (c : Dev nD) : main_part3 (F := F) c = seq p3 := by
  simp only [main_part3, fn_relu.body, fn_var.body, fn_where.body, seq, bind_assoc, pure_bind,
    List.cons_append, List.nil_append]
  rfl

set_option maxRecDepth 16384 in
set_option maxHeartbeats 4000000 in
/-- Window 4 is the line of its operations: the functions' definitions unfolded at their calls and the call
    records at their fields, both sides are one chain of steps once sequencing is reassociated. -/
theorem main_part4_eq (c : Dev nD) : main_part4 (F := F) c = seq p4 := by
  simp only [main_part4, fn_relu.body, fn_var.body, fn_where.body, seq, bind_assoc, pure_bind,
    List.cons_append, List.nil_append]
  rfl

/-- @main is the line of all its operations. -/
theorem main_eq (c : Dev nD) : main (F := F) c = seq ops := by
  simp only [main, main_part0_eq, main_part1_eq, main_part2_eq, main_part3_eq, main_part4_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefRunLib.lean ====
/-
  General facts about a straight line of host operations cut into stretches: the fold of a concatenation is the
  folds composed, a buffer outside the list of a stretch's written buffers keeps its contents, and the side
  conditions of a line's run are those of its stretches.
-/
import Idealize.ShloMosaic.Lib.StableHlo.Run

noncomputable section

namespace Cert.ReferenceIdeal.RefRun

open Idealize.ShloMosaic Idealize.ShloMosaic.StableHlo

variable {τ₀ : Topo} {sig₀ : RefSig} {Val : EltTy → Type}

/-- The contents after two lines run one after the other. -/
theorem after_append (l₁ l₂ : List (HloOp τ₀ sig₀ Val)) (V : Valuation τ₀ sig₀ Val) :
    after (l₁ ++ l₂) V = after l₂ (after l₁ V) := by
  induction l₁ generalizing V with
  | nil => rfl
  | cons op l ih => rw [List.cons_append, after_cons, after_cons, ih]

/-- An operation whose written buffers are the one buffer y, with y in the list W, writes inside W. -/
theorem writes_sub_of_mem {W : List (Ref sig₀ .tc)} {op : HloOp τ₀ sig₀ Val} {y : Ref sig₀ .tc}
    (h : op.writes = {Proc.devRef .tc y}) (hy : y ∈ W) :
    op.writes ⊆ (W.map (Proc.devRef (τ := τ₀) .tc)).toFinset := by
  rw [h, Finset.singleton_subset_iff, List.mem_toFinset]
  exact List.mem_map_of_mem hy

/-- A stretch whose operations write inside W leaves every buffer outside W as it was. -/
theorem frame_of_writes {W : List (Ref sig₀ .tc)} (ops : List (HloOp τ₀ sig₀ Val))
    (hW : ops.Forall fun op => op.writes ⊆ (W.map (Proc.devRef (τ := τ₀) .tc)).toFinset)
    (V : Valuation τ₀ sig₀ Val) {r : Ref sig₀ .tc} (hr : r ∉ W) :
    after ops V (Proc.devRef .tc r) = V (Proc.devRef .tc r) :=
  after_of_writes_sub ops V hW hr

/-- A property of every operation of two lines is one of every operation of their concatenation. -/
theorem forall_mem_append {P : HloOp τ₀ sig₀ Val → Prop} {l₁ l₂ : List (HloOp τ₀ sig₀ Val)}
    (h₁ : ∀ op ∈ l₁, P op) (h₂ : ∀ op ∈ l₂, P op) : ∀ op ∈ l₁ ++ l₂, P op :=
  fun op h => (List.mem_append.mp h).elim (h₁ op) (h₂ op)

/-- The written buffers of a literal line lie in a literal list: one step per operation. -/
macro "writes_table" : tactic =>
  `(tactic| repeat (first
      | refine ⟨writes_sub_of_mem rfl (by decide), ?_⟩
      | exact writes_sub_of_mem rfl (by decide)))

/-- No operation of a literal line leaves a result undetermined: one step per operation. -/
macro "fresh_table" : tactic =>
  `(tactic| repeat (first | refine ⟨rfl, ?_⟩ | exact rfl))

end Cert.ReferenceIdeal.RefRun

end
-- ==== Proof.RefRunTables.lean ====
/-
  The side conditions of the reference's stretches, one per operation: the buffers each stretch writes lie in its
  list of written buffers, every operation touches TensorCore buffers only, and none leaves a result undetermined.
  From the first, a stretch leaves every buffer outside its list as it was.
-/
import proofs.«112967_j35158602285141_1_alg».proof.Proof.RefRunOps
import proofs.«112967_j35158602285141_1_alg».proof.Proof.RefRunLib

noncomputable section

namespace Cert.ReferenceIdeal.RefRun

open Cert.ReferenceIdeal.Gen Idealize.ShloMosaic Idealize.ShloMosaic.TcCoe Idealize.SL.Sem Idealize.ShloMosaic.StableHlo

variable {F : FTy → Type} [FloatOps F]

/-- what a stretch's operations write lies in the list W -/
abbrev WritesIn (l : List (HloOp τ sig (Elt F))) (W : List (Ref sig .tc)) : Prop :=
  l.Forall fun op => op.writes ⊆ (W.map (Proc.devRef (τ := τ) .tc)).toFinset
/-- a stretch's operations touch TensorCore buffers only -/
abbrev BufsTc (l : List (HloOp τ sig (Elt F))) : Prop := l.Forall fun op => op.bufs ⊆ tcRefs τ sig
/-- a stretch's operations determine their results -/
abbrev NoFresh (l : List (HloOp τ sig (Elt F))) : Prop := l.Forall fun op => op.fresh = ∅

/-- Every operation of a literal line touches TensorCore buffers only: each builder's fact, found by the operation's
    head. -/
macro "tc_bufs_table" : tactic =>
  `(tactic| (simp only [List.forall_cons, nullary_bufs_sub, unary_bufs_sub, binary_bufs_sub, ternary_bufs_sub,
      reshape_bufs_sub, true_and] <;> exact trivial))

theorem s00_writes : WritesIn (F := F) s00 w00 := by writes_table
theorem s00_bufs : BufsTc (F := F) s00 := by tc_bufs_table
theorem s00_fresh : NoFresh (F := F) s00 := by fresh_table

theorem s01_writes : WritesIn (F := F) s01 w01 := by writes_table
theorem s01_bufs : BufsTc (F := F) s01 := by tc_bufs_table
theorem s01_fresh : NoFresh (F := F) s01 := by fresh_table

theorem s02_writes : WritesIn (F := F) s02 w02 := by writes_table
theorem s02_bufs : BufsTc (F := F) s02 := by tc_bufs_table
theorem s02_fresh : NoFresh (F := F) s02 := by fresh_table

theorem s03a_writes : WritesIn (F := F) s03a w03a := by writes_table
theorem s03a_bufs : BufsTc (F := F) s03a := by tc_bufs_table
theorem s03a_fresh : NoFresh (F := F) s03a := by fresh_table

theorem s03b_writes : WritesIn (F := F) s03b w03b := by writes_table
theorem s03b_bufs : BufsTc (F := F) s03b := by tc_bufs_table
theorem s03b_fresh : NoFresh (F := F) s03b := by fresh_table

theorem s04_writes : WritesIn (F := F) s04 w04 := by writes_table
theorem s04_bufs : BufsTc (F := F) s04 := by tc_bufs_table
theorem s04_fresh : NoFresh (F := F) s04 := by fresh_table

theorem s05_writes : WritesIn (F := F) s05 w05 := by writes_table
theorem s05_bufs : BufsTc (F := F) s05 := by tc_bufs_table
theorem s05_fresh : NoFresh (F := F) s05 := by fresh_table

theorem s06_writes : WritesIn (F := F) s06 w06 := by writes_table
theorem s06_bufs : BufsTc (F := F) s06 := by tc_bufs_table
theorem s06_fresh : NoFresh (F := F) s06 := by fresh_table

theorem s07_writes : WritesIn (F := F) s07 w07 := by writes_table
theorem s07_bufs : BufsTc (F := F) s07 := by tc_bufs_table
theorem s07_fresh : NoFresh (F := F) s07 := by fresh_table

theorem s08a_writes : WritesIn (F := F) s08a w08a := by writes_table
theorem s08a_bufs : BufsTc (F := F) s08a := by tc_bufs_table
theorem s08a_fresh : NoFresh (F := F) s08a := by fresh_table

theorem s08b_writes : WritesIn (F := F) s08b w08b := by writes_table
theorem s08b_bufs : BufsTc (F := F) s08b := by tc_bufs_table
theorem s08b_fresh : NoFresh (F := F) s08b := by fresh_table

theorem s09_writes : WritesIn (F := F) s09 w09 := by writes_table
theorem s09_bufs : BufsTc (F := F) s09 := by tc_bufs_table
theorem s09_fresh : NoFresh (F := F) s09 := by fresh_table

theorem s10_writes : WritesIn (F := F) s10 w10 := by writes_table
theorem s10_bufs : BufsTc (F := F) s10 := by tc_bufs_table
theorem s10_fresh : NoFresh (F := F) s10 := by fresh_table

theorem s11_writes : WritesIn (F := F) s11 w11 := by writes_table
theorem s11_bufs : BufsTc (F := F) s11 := by tc_bufs_table
theorem s11_fresh : NoFresh (F := F) s11 := by fresh_table

theorem s12a_writes : WritesIn (F := F) s12a w12a := by writes_table
theorem s12a_bufs : BufsTc (F := F) s12a := by tc_bufs_table
theorem s12a_fresh : NoFresh (F := F) s12a := by fresh_table

theorem s12b_writes : WritesIn (F := F) s12b w12b := by writes_table
theorem s12b_bufs : BufsTc (F := F) s12b := by tc_bufs_table
theorem s12b_fresh : NoFresh (F := F) s12b := by fresh_table

theorem s13_writes : WritesIn (F := F) s13 w13 := by writes_table
theorem s13_bufs : BufsTc (F := F) s13 := by tc_bufs_table
theorem s13_fresh : NoFresh (F := F) s13 := by fresh_table

theorem s14_writes : WritesIn (F := F) s14 w14 := by writes_table
theorem s14_bufs : BufsTc (F := F) s14 := by tc_bufs_table
theorem s14_fresh : NoFresh (F := F) s14 := by fresh_table

theorem s15_writes : WritesIn (F := F) s15 w15 := by writes_table
theorem s15_bufs : BufsTc (F := F) s15 := by tc_bufs_table
theorem s15_fresh : NoFresh (F := F) s15 := by fresh_table

theorem s16a_writes : WritesIn (F := F) s16a w16a := by writes_table
theorem s16a_bufs : BufsTc (F := F) s16a := by tc_bufs_table
theorem s16a_fresh : NoFresh (F := F) s16a := by fresh_table

theorem s16b_writes : WritesIn (F := F) s16b w16b := by writes_table
theorem s16b_bufs : BufsTc (F := F) s16b := by tc_bufs_table
theorem s16b_fresh : NoFresh (F := F) s16b := by fresh_table

theorem s17_writes : WritesIn (F := F) s17 w17 := by writes_table
theorem s17_bufs : BufsTc (F := F) s17 := by tc_bufs_table
theorem s17_fresh : NoFresh (F := F) s17 := by fresh_table

theorem s18_writes : WritesIn (F := F) s18 w18 := by writes_table
theorem s18_bufs : BufsTc (F := F) s18 := by tc_bufs_table
theorem s18_fresh : NoFresh (F := F) s18 := by fresh_table

/-- Two stretches in a row leave every buffer outside both lists as it was. -/
theorem frame_append {Wa Wb : List (Ref sig .tc)} (la lb : List (HloOp τ sig (Elt F)))
    (ha : WritesIn la Wa) (hb : WritesIn lb Wb) (V : Valuation τ sig (Elt F)) {r : Ref sig .tc} (hr : r ∉ Wa ++ Wb) :
    after (la ++ lb) V (Proc.devRef .tc r) = V (Proc.devRef .tc r) := by
  rw [after_append, frame_of_writes lb hb _ (fun h => hr (List.mem_append_right _ h)),
    frame_of_writes la ha V (fun h => hr (List.mem_append_left _ h))]

/-! ## The stages as opaque lines

Stage k of the network is the line cNN (a definition, so that a statement about the whole run mentions the stage by
name and not by its operations). -/

def c00 : List (HloOp τ sig (Elt F)) := s00
def c01 : List (HloOp τ sig (Elt F)) := s01
def c02 : List (HloOp τ sig (Elt F)) := s02
def c03 : List (HloOp τ sig (Elt F)) := s03
def c04 : List (HloOp τ sig (Elt F)) := s04
def c05 : List (HloOp τ sig (Elt F)) := s05
def c06 : List (HloOp τ sig (Elt F)) := s06
def c07 : List (HloOp τ sig (Elt F)) := s07
def c08 : List (HloOp τ sig (Elt F)) := s08
def c09 : List (HloOp τ sig (Elt F)) := s09
def c10 : List (HloOp τ sig (Elt F)) := s10
def c11 : List (HloOp τ sig (Elt F)) := s11
def c12 : List (HloOp τ sig (Elt F)) := s12
def c13 : List (HloOp τ sig (Elt F)) := s13
def c14 : List (HloOp τ sig (Elt F)) := s14
def c15 : List (HloOp τ sig (Elt F)) := s15
def c16 : List (HloOp τ sig (Elt F)) := s16
def c17 : List (HloOp τ sig (Elt F)) := s17
def c18 : List (HloOp τ sig (Elt F)) := s18

theorem c00_frame (V : Valuation τ sig (Elt F)) {r : Ref sig .tc} (hr : r ∉ w00) :
    after c00 V (no_index (Proc.devRef .tc r)) = V (Proc.devRef .tc r) :=
  frame_of_writes s00 s00_writes V hr
theorem c01_frame (V : Valuation τ sig (Elt F)) {r : Ref sig .tc} (hr : r ∉ w01) :
    after c01 V (no_index (Proc.devRef .tc r)) = V (Proc.devRef .tc r) :=
  frame_of_writes s01 s01_writes V hr
theorem c02_frame (V : Valuation τ sig (Elt F)) {r : Ref sig .tc} (hr : r ∉ w02) :
    after c02 V (no_index (Proc.devRef .tc r)) = V (Proc.devRef .tc r) :=
  frame_of_writes s02 s02_writes V hr
theorem c03_frame (V : Valuation τ sig (Elt F)) {r : Ref sig .tc} (hr : r ∉ w03) :
    after c03 V (no_index (Proc.devRef .tc r)) = V (Proc.devRef .tc r) :=
  frame_append s03a s03b s03a_writes s03b_writes V hr
theorem c04_frame (V : Valuation τ sig (Elt F)) {r : Ref sig .tc} (hr : r ∉ w04) :
    after c04 V (no_index (Proc.devRef .tc r)) = V (Proc.devRef .tc r) :=
  frame_of_writes s04 s04_writes V hr
theorem c05_frame (V : Valuation τ sig (Elt F)) {r : Ref sig .tc} (hr : r ∉ w05) :
    after c05 V (no_index (Proc.devRef .tc r)) = V (Proc.devRef .tc r) :=
  frame_of_writes s05 s05_writes V hr
theorem c06_frame (V : Valuation τ sig (Elt F)) {r : Ref sig .tc} (hr : r ∉ w06) :
    after c06 V (no_index (Proc.devRef .tc r)) = V (Proc.devRef .tc r) :=
  frame_of_writes s06 s06_writes V hr
theorem c07_frame (V : Valuation τ sig (Elt F)) {r : Ref sig .tc} (hr : r ∉ w07) :
    after c07 V (no_index (Proc.devRef .tc r)) = V (Proc.devRef .tc r) :=
  frame_of_writes s07 s07_writes V hr
theorem c08_frame (V : Valuation τ sig (Elt F)) {r : Ref sig .tc} (hr : r ∉ w08) :
    after c08 V (no_index (Proc.devRef .tc r)) = V (Proc.devRef .tc r) :=
  frame_append s08a s08b s08a_writes s08b_writes V hr
theorem c09_frame (V : Valuation τ sig (Elt F)) {r : Ref sig .tc} (hr : r ∉ w09) :
    after c09 V (no_index (Proc.devRef .tc r)) = V (Proc.devRef .tc r) :=
  frame_of_writes s09 s09_writes V hr
theorem c10_frame (V : Valuation τ sig (Elt F)) {r : Ref sig .tc} (hr : r ∉ w10) :
    after c10 V (no_index (Proc.devRef .tc r)) = V (Proc.devRef .tc r) :=
  frame_of_writes s10 s10_writes V hr
theorem c11_frame (V : Valuation τ sig (Elt F)) {r : Ref sig .tc} (hr : r ∉ w11) :
    after c11 V (no_index (Proc.devRef .tc r)) = V (Proc.devRef .tc r) :=
  frame_of_writes s11 s11_writes V hr
theorem c12_frame (V : Valuation τ sig (Elt F)) {r : Ref sig .tc} (hr : r ∉ w12) :
    after c12 V (no_index (Proc.devRef .tc r)) = V (Proc.devRef .tc r) :=
  frame_append s12a s12b s12a_writes s12b_writes V hr
theorem c13_frame (V : Valuation τ sig (Elt F)) {r : Ref sig .tc} (hr : r ∉ w13) :
    after c13 V (no_index (Proc.devRef .tc r)) = V (Proc.devRef .tc r) :=
  frame_of_writes s13 s13_writes V hr
theorem c14_frame (V : Valuation τ sig (Elt F)) {r : Ref sig .tc} (hr : r ∉ w14) :
    after c14 V (no_index (Proc.devRef .tc r)) = V (Proc.devRef .tc r) :=
  frame_of_writes s14 s14_writes V hr
theorem c15_frame (V : Valuation τ sig (Elt F)) {r : Ref sig .tc} (hr : r ∉ w15) :
    after c15 V (no_index (Proc.devRef .tc r)) = V (Proc.devRef .tc r) :=
  frame_of_writes s15 s15_writes V hr
theorem c16_frame (V : Valuation τ sig (Elt F)) {r : Ref sig .tc} (hr : r ∉ w16) :
    after c16 V (no_index (Proc.devRef .tc r)) = V (Proc.devRef .tc r) :=
  frame_append s16a s16b s16a_writes s16b_writes V hr
theorem c17_frame (V : Valuation τ sig (Elt F)) {r : Ref sig .tc} (hr : r ∉ w17) :
    after c17 V (no_index (Proc.devRef .tc r)) = V (Proc.devRef .tc r) :=
  frame_of_writes s17 s17_writes V hr
theorem c18_frame (V : Valuation τ sig (Elt F)) {r : Ref sig .tc} (hr : r ∉ w18) :
    after c18 V (no_index (Proc.devRef .tc r)) = V (Proc.devRef .tc r) :=
  frame_of_writes s18 s18_writes V hr

end Cert.ReferenceIdeal.RefRun

end
-- ==== Proof.RefRunDefs.lean ====
/-
  The reference network as composed terms of its host operations, stage by stage.

  One layer of the reference takes the node features x and the edge list, forms  agg = x + Σ_{edges into i} x_src
  (a gather of the source rows scattered with addition onto the destination rows), and applies twice
  "dense stage with rectifier, then normalisation over the 50000 nodes", then a rectifier. The last stage is a
  projection onto 16 columns. Each stage is written here exactly as the program computes it: the same host
  operations, constants and dimension records, applied to the stage's input arrays.
-/
import proofs.«112967_j35158602285141_1_alg».proof.Proof.Gen.ReferenceIdeal

noncomputable section

namespace Cert.ReferenceIdeal.RefRun

open Cert.ReferenceIdeal.Gen Idealize.ShloMosaic

variable {F : FTy → Type} [FloatOps F]

/-- the contents of an array of shape S and element type e -/
abbrev Arr (F : FTy → Type) (S : Shape) (e : EltTy) : Type := (⟨S, e⟩ : BufTy).Contents (Elt F)

/-! ## The edge list -/

/-- row 0 of the edge list (the sources), as a vector of 800000 node numbers -/
def srcT (ei : Arr F S2x800000 .i32) : Arr F S800000 .i32 :=
  shapeCast S800000 (extractStridedSlice S1x800000 ![0, 0] ei slices_S2x800000_S1x800000_0_0) shapeCasts_S1x800000_S800000

/-- row 1 of the edge list (the destinations) -/
def dstT (ei : Arr F S2x800000 .i32) : Arr F S800000 .i32 :=
  shapeCast S800000 (extractStridedSlice S1x800000 ![1, 0] ei slices_S2x800000_S1x800000_1_0) shapeCasts_S1x800000_S800000

/-- x + Σ over the edges (s_k → d_k) of row s_k of x added onto row d_k: a negative source number is first
    wrapped by 50000, the source rows are gathered, and scattered with addition onto a zero array. -/
def aggIdxT (x : Arr F S50000x128 .f32) (s d : Arr F S800000 .i32) : Arr F S50000x128 .f32 :=
  addf x
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))

/-- the aggregation of a layer, from the features and the edge list -/
def aggT (x : Arr F S50000x128 .f32) (ei : Arr F S2x800000 .i32) : Arr F S50000x128 .f32 :=
  aggIdxT x (srcT ei) (dstT ei)

/-! ## The parameters of layer l -/

theorem slicesW (l : Fin 3) : S3x128x128.Slices ![l.val, 0, 0] S1x128x128 := by revert l; decide
theorem slicesV (l : Fin 3) : S3x128.Slices ![l.val, 0] S1x128 := by revert l; decide

/-- the [128,128] weight of layer l out of the [3,128,128] stack -/
def sliceW (l : Fin 3) (W : Arr F S3x128x128 .f32) : Arr F S128x128 .f32 :=
  shapeCast S128x128 (extractStridedSlice S1x128x128 ![l.val, 0, 0] W (slicesW l)) shapeCasts_S1x128x128_S128x128

/-- the [128] vector of layer l out of the [3,128] stack -/
def sliceV (l : Fin 3) (v : Arr F S3x128 .f32) : Arr F S128 .f32 :=
  shapeCast S128 (extractStridedSlice S1x128 ![l.val, 0] v (slicesV l)) shapeCasts_S1x128_S128

/-! ## The stages -/

/-- a [128] vector as a [50000,128] array, every row the vector -/
def rowsT (v : Arr F S128 .f32) : Arr F S50000x128 .f32 :=
  broadcastInDim S50000x128 ![0, 1] bcast_S1x128_S50000x128_0_1 (broadcastInDim S1x128 ![1] bcast_S128_S1x128_1 v)

/-- the rectifier: the maximum with a zero array -/
def reluT (X : Arr F S50000x128 .f32) : Arr F S50000x128 .f32 :=
  maximumf X (broadcastInDim S50000x128 ![] bcast_S_S50000x128 (constant S_ .f32 0x00000000#32))

/-- a dense stage with its rectifier: max (A·W + b) 0 -/
def denseT (A : Arr F S50000x128 .f32) (W : Arr F S128x128 .f32) (bv : Arr F S128 .f32) : Arr F S50000x128 .f32 :=
  maximumf
    (addf (Host.dotGeneral dot_S50000x128_S128x128_S50000x128_1_0_0_1_n_n none A W)
      (broadcastInDim S50000x128 ![0, 1] bcast_S1x128_S50000x128_0_1 (broadcastInDim S1x128 ![1] bcast_S128_S1x128_1 bv)))
    (broadcastInDim S50000x128 ![] bcast_S_S50000x128 (constant S_ .f32 0x00000000#32))

/-- the column means: the column sums divided by 50000 -/
def meanT (H : Arr F S50000x128 .f32) : Arr F S128 .f32 :=
  Host.divf (Host.reduceAdd H (constant S_ .f32 0x00000000#32) reducesTo_S50000x128_S128_d0 h_S_)
    (broadcastInDim S128 ![] bcast_S_S128 (constant S_ .f32 0x47435000#32))

/-- the number of rows less the correction 0, as a scalar: 50000 − 0 -/
def cntT : Arr F S_ .f32 :=
  subf (constant S_ .f32 0x47435000#32) (sitofp .f32 (constantI S_ 32 0#32))

/-- the column variances, as the program computes them: the mean once more (kept as one row), the squared
    deviations summed and divided by 50000 − 0, the quotient selected where 50000 − 0 > 0 -/
def varT (H : Arr F S50000x128 .f32) : Arr F S128 .f32 :=
  select
    (broadcastInDim S128 ![] bcast_S_S128
      (cmpf .ogt (cntT (F := F)) (constant S_ .f32 0x00000000#32)))
    (Host.divf
      (Host.reduceAdd
        (mulf
          (subf H (broadcastInDim S50000x128 ![0, 1] bcast_S1x128_S50000x128_0_1
            (Host.divf (broadcastInDim S1x128 ![1] bcast_S128_S1x128_1
                (Host.reduceAdd H (constant S_ .f32 0x00000000#32) reducesTo_S50000x128_S128_d0 h_S_))
              (broadcastInDim S1x128 ![] bcast_S_S1x128 (constant S_ .f32 0x47435000#32)))))
          (subf H (broadcastInDim S50000x128 ![0, 1] bcast_S1x128_S50000x128_0_1
            (Host.divf (broadcastInDim S1x128 ![1] bcast_S128_S1x128_1
                (Host.reduceAdd H (constant S_ .f32 0x00000000#32) reducesTo_S50000x128_S128_d0 h_S_))
              (broadcastInDim S1x128 ![] bcast_S_S1x128 (constant S_ .f32 0x47435000#32))))))
        (constant S_ .f32 0x00000000#32) reducesTo_S50000x128_S128_d0 h_S_)
      (broadcastInDim S128 ![] bcast_S_S128 cntT))
    (broadcastInDim S128 ![] bcast_S_S128 (id (constant S_ .f32 0x7FC00000#32)))

/-- the normalisation over the nodes: γ·(H − mean)·(var + ε)^(-1/2) + δ, each factor a whole array -/
def bnT (H : Arr F S50000x128 .f32) (gv dv : Arr F S128 .f32) : Arr F S50000x128 .f32 :=
  addf
    (mulf (mulf (rowsT gv) (subf H (rowsT (meanT H))))
      (rowsT (Host.rsqrt (addf (varT H) (broadcastInDim S128 ![] bcast_S_S128 (constant S_ .f32 0x3727C5AC#32))))))
    (rowsT dv)

/-- the projection: X·Wc + bc -/
def projT (X : Arr F S50000x128 .f32) (Wc : Arr F S128x16 .f32) (bc : Arr F S16 .f32) : Arr F S50000x16 .f32 :=
  addf (Host.dotGeneral dot_S50000x128_S128x16_S50000x16_1_0_0_1_n_n none X Wc)
    (broadcastInDim S50000x16 ![0, 1] bcast_S1x16_S50000x16_0_1 (broadcastInDim S1x16 ![1] bcast_S16_S1x16_1 bc))

/-! ## The network -/

/-- layer l on the features x -/
def layerT (l : Fin 3) (x : Arr F S50000x128 .f32) (ei : Arr F S2x800000 .i32)
    (W1 : Arr F S3x128x128 .f32) (b1 g1 d1 : Arr F S3x128 .f32)
    (W2 : Arr F S3x128x128 .f32) (b2 g2 d2 : Arr F S3x128 .f32) : Arr F S50000x128 .f32 :=
  reluT (bnT (denseT (bnT (denseT (aggT x ei) (sliceW l W1) (sliceV l b1)) (sliceV l g1) (sliceV l d1))
    (sliceW l W2) (sliceV l b2)) (sliceV l g2) (sliceV l d2))

/-- the three layers and the projection -/
def netT (x : Arr F S50000x128 .f32) (ei : Arr F S2x800000 .i32)
    (W1 : Arr F S3x128x128 .f32) (b1 g1 d1 : Arr F S3x128 .f32)
    (W2 : Arr F S3x128x128 .f32) (b2 g2 d2 : Arr F S3x128 .f32)
    (Wc : Arr F S128x16 .f32) (bc : Arr F S16 .f32) : Arr F S50000x16 .f32 :=
  projT (layerT 2 (layerT 1 (layerT 0 x ei W1 b1 g1 d1 W2 b2 g2 d2) ei W1 b1 g1 d1 W2 b2 g2 d2) ei W1 b1 g1 d1 W2 b2 g2 d2) Wc bc

end Cert.ReferenceIdeal.RefRun

end
-- ==== Proof.RefRunAgg.lean ====
/-
  The aggregation stretches: each leaves its output buffer at the aggregation term of the stretch's inputs.
  The first also leaves the two rows of the edge list, which the later layers read again.
-/
import proofs.«112967_j35158602285141_1_alg».proof.Proof.RefRunOps
import proofs.«112967_j35158602285141_1_alg».proof.Proof.RefRunDefs
import proofs.«112967_j35158602285141_1_alg».proof.Proof.RefRunLib

noncomputable section

namespace Cert.ReferenceIdeal.RefRun

open Cert.ReferenceIdeal.Gen Idealize.ShloMosaic Idealize.ShloMosaic.TcCoe Idealize.SL.Sem Idealize.ShloMosaic.StableHlo

variable {F : FTy → Type} [FloatOps F]

theorem s00_out (V : Valuation τ sig (Elt F)) :
    after s00 V (Proc.devRef .tc main_v14)
      = aggT (V (Proc.devRef .tc main_arg0)) (V (Proc.devRef .tc main_arg2)) := by
  after_results_simp
  rfl

theorem s00_src (V : Valuation τ sig (Elt F)) :
    after s00 V (Proc.devRef .tc main_v1)
      = srcT (V (Proc.devRef .tc main_arg2)) := by
  after_results_simp
  rfl

theorem s00_dst (V : Valuation τ sig (Elt F)) :
    after s00 V (Proc.devRef .tc main_v3)
      = dstT (V (Proc.devRef .tc main_arg2)) := by
  after_results_simp
  rfl

theorem s06_out (V : Valuation τ sig (Elt F)) :
    after s06 V (Proc.devRef .tc main_v90)
      = aggIdxT (V (Proc.devRef .tc main_v79)) (V (Proc.devRef .tc main_v1)) (V (Proc.devRef .tc main_v3)) := by
  after_results_simp
  rfl

theorem s12_out (V : Valuation τ sig (Elt F)) :
    after s12 V (Proc.devRef .tc main_v166)
      = aggIdxT (V (Proc.devRef .tc main_v155)) (V (Proc.devRef .tc main_v1)) (V (Proc.devRef .tc main_v3)) := by
  rw [after_append]
  after_results_simp
  rfl

end Cert.ReferenceIdeal.RefRun

end
-- ==== Proof.RefRunDense.lean ====
/-
  The dense stretches (slice of the layer's weight and bias, product, bias rows, rectifier), the closing rectifier of
  each layer, and the projection: each leaves its output buffer at the stage's term of the stretch's inputs.
-/
import proofs.«112967_j35158602285141_1_alg».proof.Proof.RefRunOps
import proofs.«112967_j35158602285141_1_alg».proof.Proof.RefRunDefs
import proofs.«112967_j35158602285141_1_alg».proof.Proof.RefRunLib

noncomputable section

namespace Cert.ReferenceIdeal.RefRun

open Cert.ReferenceIdeal.Gen Idealize.ShloMosaic Idealize.ShloMosaic.TcCoe Idealize.SL.Sem Idealize.ShloMosaic.StableHlo

variable {F : FTy → Type} [FloatOps F]

theorem s01_out (V : Valuation τ sig (Elt F)) :
    after s01 V (Proc.devRef .tc main_v23)
      = denseT (V (Proc.devRef .tc main_v14)) (sliceW 0 (V (Proc.devRef .tc main_arg3))) (sliceV 0 (V (Proc.devRef .tc main_arg4))) := by
  after_results_simp
  rfl

theorem s03_out (V : Valuation τ sig (Elt F)) :
    after s03 V (Proc.devRef .tc main_v55)
      = denseT (V (Proc.devRef .tc main_v46)) (sliceW 0 (V (Proc.devRef .tc main_arg7))) (sliceV 0 (V (Proc.devRef .tc main_arg8))) := by
  rw [after_append]
  after_results_simp
  rfl

theorem s07_out (V : Valuation τ sig (Elt F)) :
    after s07 V (Proc.devRef .tc main_v99)
      = denseT (V (Proc.devRef .tc main_v90)) (sliceW 1 (V (Proc.devRef .tc main_arg3))) (sliceV 1 (V (Proc.devRef .tc main_arg4))) := by
  after_results_simp
  rfl

theorem s09_out (V : Valuation τ sig (Elt F)) :
    after s09 V (Proc.devRef .tc main_v131)
      = denseT (V (Proc.devRef .tc main_v122)) (sliceW 1 (V (Proc.devRef .tc main_arg7))) (sliceV 1 (V (Proc.devRef .tc main_arg8))) := by
  after_results_simp
  rfl

theorem s13_out (V : Valuation τ sig (Elt F)) :
    after s13 V (Proc.devRef .tc main_v175)
      = denseT (V (Proc.devRef .tc main_v166)) (sliceW 2 (V (Proc.devRef .tc main_arg3))) (sliceV 2 (V (Proc.devRef .tc main_arg4))) := by
  after_results_simp
  rfl

theorem s15_out (V : Valuation τ sig (Elt F)) :
    after s15 V (Proc.devRef .tc main_v207)
      = denseT (V (Proc.devRef .tc main_v198)) (sliceW 2 (V (Proc.devRef .tc main_arg7))) (sliceV 2 (V (Proc.devRef .tc main_arg8))) := by
  after_results_simp
  rfl

theorem s05_out (V : Valuation τ sig (Elt F)) :
    after s05 V (Proc.devRef .tc main_v79)
      = reluT (V (Proc.devRef .tc main_v78)) := by
  after_results_simp
  rfl

theorem s11_out (V : Valuation τ sig (Elt F)) :
    after s11 V (Proc.devRef .tc main_v155)
      = reluT (V (Proc.devRef .tc main_v154)) := by
  after_results_simp
  rfl

theorem s17_out (V : Valuation τ sig (Elt F)) :
    after s17 V (Proc.devRef .tc main_v231)
      = reluT (V (Proc.devRef .tc main_v230)) := by
  after_results_simp
  rfl

theorem s18_out (V : Valuation τ sig (Elt F)) :
    after s18 V (Proc.devRef .tc main_v235)
      = projT (V (Proc.devRef .tc main_v231)) (V (Proc.devRef .tc main_arg11)) (V (Proc.devRef .tc main_arg12)) := by
  after_results_simp
  rfl

end Cert.ReferenceIdeal.RefRun

end
-- ==== Proof.RefRunNorm0.lean ====
/-
  The two normalisation stretches of layer 0 (the layer's scale and offset sliced out, the column means, the
  variance function's body with its selection, the reciprocal square root, the row broadcasts, the two products and
  the sum): each leaves its output buffer at the normalisation term of the stretch's inputs.
-/
import proofs.«112967_j35158602285141_1_alg».proof.Proof.RefRunOps
import proofs.«112967_j35158602285141_1_alg».proof.Proof.RefRunDefs
import proofs.«112967_j35158602285141_1_alg».proof.Proof.RefRunLib

noncomputable section

namespace Cert.ReferenceIdeal.RefRun

open Cert.ReferenceIdeal.Gen Idealize.ShloMosaic Idealize.ShloMosaic.TcCoe Idealize.SL.Sem Idealize.ShloMosaic.StableHlo

variable {F : FTy → Type} [FloatOps F]

set_option maxHeartbeats 2000000 in
theorem s02_out (V : Valuation τ sig (Elt F)) :
    after s02 V (Proc.devRef .tc main_v46)
      = bnT (V (Proc.devRef .tc main_v23)) (sliceV 0 (V (Proc.devRef .tc main_arg5))) (sliceV 0 (V (Proc.devRef .tc main_arg6))) := by
  after_results_simp
  rfl

set_option maxHeartbeats 2000000 in
theorem s04_out (V : Valuation τ sig (Elt F)) :
    after s04 V (Proc.devRef .tc main_v78)
      = bnT (V (Proc.devRef .tc main_v55)) (sliceV 0 (V (Proc.devRef .tc main_arg9))) (sliceV 0 (V (Proc.devRef .tc main_arg10))) := by
  after_results_simp
  rfl

end Cert.ReferenceIdeal.RefRun

end
-- ==== Proof.RefRunNorm1.lean ====
/-
  The two normalisation stretches of layer 1 (the layer's scale and offset sliced out, the column means, the
  variance function's body with its selection, the reciprocal square root, the row broadcasts, the two products and
  the sum): each leaves its output buffer at the normalisation term of the stretch's inputs.
-/
import proofs.«112967_j35158602285141_1_alg».proof.Proof.RefRunOps
import proofs.«112967_j35158602285141_1_alg».proof.Proof.RefRunDefs
import proofs.«112967_j35158602285141_1_alg».proof.Proof.RefRunLib

noncomputable section

namespace Cert.ReferenceIdeal.RefRun

open Cert.ReferenceIdeal.Gen Idealize.ShloMosaic Idealize.ShloMosaic.TcCoe Idealize.SL.Sem Idealize.ShloMosaic.StableHlo

variable {F : FTy → Type} [FloatOps F]

set_option maxHeartbeats 2000000 in
theorem s08_out (V : Valuation τ sig (Elt F)) :
    after s08 V (Proc.devRef .tc main_v122)
      = bnT (V (Proc.devRef .tc main_v99)) (sliceV 1 (V (Proc.devRef .tc main_arg5))) (sliceV 1 (V (Proc.devRef .tc main_arg6))) := by
  rw [after_append]
  after_results_simp
  rfl

set_option maxHeartbeats 2000000 in
theorem s10_out (V : Valuation τ sig (Elt F)) :
    after s10 V (Proc.devRef .tc main_v154)
      = bnT (V (Proc.devRef .tc main_v131)) (sliceV 1 (V (Proc.devRef .tc main_arg9))) (sliceV 1 (V (Proc.devRef .tc main_arg10))) := by
  after_results_simp
  rfl

end Cert.ReferenceIdeal.RefRun

end
-- ==== Proof.RefRunNorm2.lean ====
/-
  The two normalisation stretches of layer 2 (the layer's scale and offset sliced out, the column means, the
  variance function's body with its selection, the reciprocal square root, the row broadcasts, the two products and
  the sum): each leaves its output buffer at the normalisation term of the stretch's inputs.
-/
import proofs.«112967_j35158602285141_1_alg».proof.Proof.RefRunOps
import proofs.«112967_j35158602285141_1_alg».proof.Proof.RefRunDefs
import proofs.«112967_j35158602285141_1_alg».proof.Proof.RefRunLib

noncomputable section

namespace Cert.ReferenceIdeal.RefRun

open Cert.ReferenceIdeal.Gen Idealize.ShloMosaic Idealize.ShloMosaic.TcCoe Idealize.SL.Sem Idealize.ShloMosaic.StableHlo

variable {F : FTy → Type} [FloatOps F]

set_option maxHeartbeats 2000000 in
theorem s14_out (V : Valuation τ sig (Elt F)) :
    after s14 V (Proc.devRef .tc main_v198)
      = bnT (V (Proc.devRef .tc main_v175)) (sliceV 2 (V (Proc.devRef .tc main_arg5))) (sliceV 2 (V (Proc.devRef .tc main_arg6))) := by
  after_results_simp
  rfl

set_option maxHeartbeats 2000000 in
theorem s16_out (V : Valuation τ sig (Elt F)) :
    after s16 V (Proc.devRef .tc main_v230)
      = bnT (V (Proc.devRef .tc main_v207)) (sliceV 2 (V (Proc.devRef .tc main_arg9))) (sliceV 2 (V (Proc.devRef .tc main_arg10))) := by
  rw [after_append]
  after_results_simp
  rfl

end Cert.ReferenceIdeal.RefRun

end
-- ==== Proof.RefRun.lean ====
/-
  The run of the reference: every weakly fair execution of its @main terminates with the result buffer at the
  network's term  netT  of the arguments' launch contents, and the arguments unchanged.

  @main is the straight line of its host operations (RefRunMain), cut into the network's stages. Each stage leaves
  its output buffer at the stage's term of its input buffers (RefRunAgg, RefRunDense, RefRunNorm0–2) and every
  buffer it does not write as it was (RefRunTables). Reading the result buffer back through the stages, last to
  first, composes the stage terms into the layers and the layers into the network.
-/
import proofs.«112967_j35158602285141_1_alg».proof.Proof.RefRunMain
import proofs.«112967_j35158602285141_1_alg».proof.Proof.RefRunTables
import proofs.«112967_j35158602285141_1_alg».proof.Proof.RefRunAgg
import proofs.«112967_j35158602285141_1_alg».proof.Proof.RefRunDense
import proofs.«112967_j35158602285141_1_alg».proof.Proof.RefRunNorm0
import proofs.«112967_j35158602285141_1_alg».proof.Proof.RefRunNorm1
import proofs.«112967_j35158602285141_1_alg».proof.Proof.RefRunNorm2

noncomputable section

namespace Cert.ReferenceIdeal.RefRun

open Cert.ReferenceIdeal.Gen Idealize.ShloMosaic Idealize.ShloMosaic.TcCoe Idealize.SL.Sem Idealize.ShloMosaic.StableHlo

variable {F : FTy → Type} [FloatOps F]

/-! ## The stages' outputs, on the opaque lines -/

theorem c00_out (V : Valuation τ sig (Elt F)) :
    after c00 V (no_index (Proc.devRef .tc main_v14))
      = aggT (V (Proc.devRef .tc main_arg0)) (V (Proc.devRef .tc main_arg2)) := s00_out V
theorem c00_src (V : Valuation τ sig (Elt F)) :
    after c00 V (no_index (Proc.devRef .tc main_v1))
      = srcT (V (Proc.devRef .tc main_arg2)) := s00_src V
theorem c00_dst (V : Valuation τ sig (Elt F)) :
    after c00 V (no_index (Proc.devRef .tc main_v3))
      = dstT (V (Proc.devRef .tc main_arg2)) := s00_dst V
theorem c01_out (V : Valuation τ sig (Elt F)) :
    after c01 V (no_index (Proc.devRef .tc main_v23))
      = denseT (V (Proc.devRef .tc main_v14)) (sliceW 0 (V (Proc.devRef .tc main_arg3))) (sliceV 0 (V (Proc.devRef .tc main_arg4))) := s01_out V
theorem c02_out (V : Valuation τ sig (Elt F)) :
    after c02 V (no_index (Proc.devRef .tc main_v46))
      = bnT (V (Proc.devRef .tc main_v23)) (sliceV 0 (V (Proc.devRef .tc main_arg5))) (sliceV 0 (V (Proc.devRef .tc main_arg6))) := s02_out V
theorem c03_out (V : Valuation τ sig (Elt F)) :
    after c03 V (no_index (Proc.devRef .tc main_v55))
      = denseT (V (Proc.devRef .tc main_v46)) (sliceW 0 (V (Proc.devRef .tc main_arg7))) (sliceV 0 (V (Proc.devRef .tc main_arg8))) := s03_out V
theorem c04_out (V : Valuation τ sig (Elt F)) :
    after c04 V (no_index (Proc.devRef .tc main_v78))
      = bnT (V (Proc.devRef .tc main_v55)) (sliceV 0 (V (Proc.devRef .tc main_arg9))) (sliceV 0 (V (Proc.devRef .tc main_arg10))) := s04_out V
theorem c05_out (V : Valuation τ sig (Elt F)) :
    after c05 V (no_index (Proc.devRef .tc main_v79))
      = reluT (V (Proc.devRef .tc main_v78)) := s05_out V
theorem c06_out (V : Valuation τ sig (Elt F)) :
    after c06 V (no_index (Proc.devRef .tc main_v90))
      = aggIdxT (V (Proc.devRef .tc main_v79)) (V (Proc.devRef .tc main_v1)) (V (Proc.devRef .tc main_v3)) := s06_out V
theorem c07_out (V : Valuation τ sig (Elt F)) :
    after c07 V (no_index (Proc.devRef .tc main_v99))
      = denseT (V (Proc.devRef .tc main_v90)) (sliceW 1 (V (Proc.devRef .tc main_arg3))) (sliceV 1 (V (Proc.devRef .tc main_arg4))) := s07_out V
theorem c08_out (V : Valuation τ sig (Elt F)) :
    after c08 V (no_index (Proc.devRef .tc main_v122))
      = bnT (V (Proc.devRef .tc main_v99)) (sliceV 1 (V (Proc.devRef .tc main_arg5))) (sliceV 1 (V (Proc.devRef .tc main_arg6))) := s08_out V
theorem c09_out (V : Valuation τ sig (Elt F)) :
    after c09 V (no_index (Proc.devRef .tc main_v131))
      = denseT (V (Proc.devRef .tc main_v122)) (sliceW 1 (V (Proc.devRef .tc main_arg7))) (sliceV 1 (V (Proc.devRef .tc main_arg8))) := s09_out V
theorem c10_out (V : Valuation τ sig (Elt F)) :
    after c10 V (no_index (Proc.devRef .tc main_v154))
      = bnT (V (Proc.devRef .tc main_v131)) (sliceV 1 (V (Proc.devRef .tc main_arg9))) (sliceV 1 (V (Proc.devRef .tc main_arg10))) := s10_out V
theorem c11_out (V : Valuation τ sig (Elt F)) :
    after c11 V (no_index (Proc.devRef .tc main_v155))
      = reluT (V (Proc.devRef .tc main_v154)) := s11_out V
theorem c12_out (V : Valuation τ sig (Elt F)) :
    after c12 V (no_index (Proc.devRef .tc main_v166))
      = aggIdxT (V (Proc.devRef .tc main_v155)) (V (Proc.devRef .tc main_v1)) (V (Proc.devRef .tc main_v3)) := s12_out V
theorem c13_out (V : Valuation τ sig (Elt F)) :
    after c13 V (no_index (Proc.devRef .tc main_v175))
      = denseT (V (Proc.devRef .tc main_v166)) (sliceW 2 (V (Proc.devRef .tc main_arg3))) (sliceV 2 (V (Proc.devRef .tc main_arg4))) := s13_out V
theorem c14_out (V : Valuation τ sig (Elt F)) :
    after c14 V (no_index (Proc.devRef .tc main_v198))
      = bnT (V (Proc.devRef .tc main_v175)) (sliceV 2 (V (Proc.devRef .tc main_arg5))) (sliceV 2 (V (Proc.devRef .tc main_arg6))) := s14_out V
theorem c15_out (V : Valuation τ sig (Elt F)) :
    after c15 V (no_index (Proc.devRef .tc main_v207))
      = denseT (V (Proc.devRef .tc main_v198)) (sliceW 2 (V (Proc.devRef .tc main_arg7))) (sliceV 2 (V (Proc.devRef .tc main_arg8))) := s15_out V
theorem c16_out (V : Valuation τ sig (Elt F)) :
    after c16 V (no_index (Proc.devRef .tc main_v230))
      = bnT (V (Proc.devRef .tc main_v207)) (sliceV 2 (V (Proc.devRef .tc main_arg9))) (sliceV 2 (V (Proc.devRef .tc main_arg10))) := s16_out V
theorem c17_out (V : Valuation τ sig (Elt F)) :
    after c17 V (no_index (Proc.devRef .tc main_v231))
      = reluT (V (Proc.devRef .tc main_v230)) := s17_out V
theorem c18_out (V : Valuation τ sig (Elt F)) :
    after c18 V (no_index (Proc.devRef .tc main_v235))
      = projT (V (Proc.devRef .tc main_v231)) (V (Proc.devRef .tc main_arg11)) (V (Proc.devRef .tc main_arg12)) := s18_out V

/-! ## The whole line as its stages in order -/

theorem ops_after (V : Valuation τ sig (Elt F)) :
    after ops V = after c18 (after c17 (after c16 (after c15 (after c14 (after c13 (after c12 (after c11 (after c10 (after c09 (after c08 (after c07 (after c06 (after c05 (after c04 (after c03 (after c02 (after c01 (after c00 (V))))))))))))))))))) := by
  delta c00 c01 c02 c03 c04 c05 c06 c07 c08 c09 c10 c11 c12 c13 c14 c15 c16 c17 c18
  simp only [after_append]

/-- reading a buffer back through the stages: each stage's output lemma at its output buffer, its frame elsewhere -/
macro "read_back" : tactic =>
  `(tactic| simp (disch := decide) only [c00_out, c00_src, c00_dst, c01_out, c02_out, c03_out, c04_out, c05_out, c06_out, c07_out, c08_out, c09_out, c10_out, c11_out, c12_out, c13_out, c14_out, c15_out, c16_out, c17_out, c18_out,
      c00_frame, c01_frame, c02_frame, c03_frame, c04_frame, c05_frame, c06_frame, c07_frame, c08_frame, c09_frame, c10_frame, c11_frame, c12_frame, c13_frame, c14_frame, c15_frame, c16_frame, c17_frame, c18_frame])

/-- The result buffer after the whole line: the network's term of the arguments. -/
theorem out_eq (V : Valuation τ sig (Elt F)) :
    after ops V (Proc.devRef .tc main_v235)
      = netT (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_after]
  read_back
  rfl

theorem arg0_eq (V : Valuation τ sig (Elt F)) :
    after ops V (Proc.devRef .tc main_arg0) = V (Proc.devRef .tc main_arg0) := by
  rw [ops_after]; read_back
theorem arg1_eq (V : Valuation τ sig (Elt F)) :
    after ops V (Proc.devRef .tc main_arg1) = V (Proc.devRef .tc main_arg1) := by
  rw [ops_after]; read_back
theorem arg2_eq (V : Valuation τ sig (Elt F)) :
    after ops V (Proc.devRef .tc main_arg2) = V (Proc.devRef .tc main_arg2) := by
  rw [ops_after]; read_back
theorem arg3_eq (V : Valuation τ sig (Elt F)) :
    after ops V (Proc.devRef .tc main_arg3) = V (Proc.devRef .tc main_arg3) := by
  rw [ops_after]; read_back
theorem arg4_eq (V : Valuation τ sig (Elt F)) :
    after ops V (Proc.devRef .tc main_arg4) = V (Proc.devRef .tc main_arg4) := by
  rw [ops_after]; read_back
theorem arg5_eq (V : Valuation τ sig (Elt F)) :
    after ops V (Proc.devRef .tc main_arg5) = V (Proc.devRef .tc main_arg5) := by
  rw [ops_after]; read_back
theorem arg6_eq (V : Valuation τ sig (Elt F)) :
    after ops V (Proc.devRef .tc main_arg6) = V (Proc.devRef .tc main_arg6) := by
  rw [ops_after]; read_back
theorem arg7_eq (V : Valuation τ sig (Elt F)) :
    after ops V (Proc.devRef .tc main_arg7) = V (Proc.devRef .tc main_arg7) := by
  rw [ops_after]; read_back
theorem arg8_eq (V : Valuation τ sig (Elt F)) :
    after ops V (Proc.devRef .tc main_arg8) = V (Proc.devRef .tc main_arg8) := by
  rw [ops_after]; read_back
theorem arg9_eq (V : Valuation τ sig (Elt F)) :
    after ops V (Proc.devRef .tc main_arg9) = V (Proc.devRef .tc main_arg9) := by
  rw [ops_after]; read_back
theorem arg10_eq (V : Valuation τ sig (Elt F)) :
    after ops V (Proc.devRef .tc main_arg10) = V (Proc.devRef .tc main_arg10) := by
  rw [ops_after]; read_back
theorem arg11_eq (V : Valuation τ sig (Elt F)) :
    after ops V (Proc.devRef .tc main_arg11) = V (Proc.devRef .tc main_arg11) := by
  rw [ops_after]; read_back
theorem arg12_eq (V : Valuation τ sig (Elt F)) :
    after ops V (Proc.devRef .tc main_arg12) = V (Proc.devRef .tc main_arg12) := by
  rw [ops_after]; read_back

/-! ## The side conditions of the line's run -/

theorem p0_bufs : ∀ op ∈ (p0 : List (HloOp τ sig (Elt F))), op.bufs ⊆ tcRefs τ sig :=
  (forall_mem_append (forall_mem_append (forall_mem_append (List.forall_iff_forall_mem.mp s00_bufs) (List.forall_iff_forall_mem.mp s01_bufs)) (List.forall_iff_forall_mem.mp s02_bufs)) (List.forall_iff_forall_mem.mp s03a_bufs))
theorem p0_fresh : ∀ op ∈ (p0 : List (HloOp τ sig (Elt F))), op.fresh = ∅ :=
  (forall_mem_append (forall_mem_append (forall_mem_append (List.forall_iff_forall_mem.mp s00_fresh) (List.forall_iff_forall_mem.mp s01_fresh)) (List.forall_iff_forall_mem.mp s02_fresh)) (List.forall_iff_forall_mem.mp s03a_fresh))
theorem p1_bufs : ∀ op ∈ (p1 : List (HloOp τ sig (Elt F))), op.bufs ⊆ tcRefs τ sig :=
  (forall_mem_append (forall_mem_append (forall_mem_append (forall_mem_append (forall_mem_append (List.forall_iff_forall_mem.mp s03b_bufs) (List.forall_iff_forall_mem.mp s04_bufs)) (List.forall_iff_forall_mem.mp s05_bufs)) (List.forall_iff_forall_mem.mp s06_bufs)) (List.forall_iff_forall_mem.mp s07_bufs)) (List.forall_iff_forall_mem.mp s08a_bufs))
theorem p1_fresh : ∀ op ∈ (p1 : List (HloOp τ sig (Elt F))), op.fresh = ∅ :=
  (forall_mem_append (forall_mem_append (forall_mem_append (forall_mem_append (forall_mem_append (List.forall_iff_forall_mem.mp s03b_fresh) (List.forall_iff_forall_mem.mp s04_fresh)) (List.forall_iff_forall_mem.mp s05_fresh)) (List.forall_iff_forall_mem.mp s06_fresh)) (List.forall_iff_forall_mem.mp s07_fresh)) (List.forall_iff_forall_mem.mp s08a_fresh))
theorem p2_bufs : ∀ op ∈ (p2 : List (HloOp τ sig (Elt F))), op.bufs ⊆ tcRefs τ sig :=
  (forall_mem_append (forall_mem_append (forall_mem_append (forall_mem_append (List.forall_iff_forall_mem.mp s08b_bufs) (List.forall_iff_forall_mem.mp s09_bufs)) (List.forall_iff_forall_mem.mp s10_bufs)) (List.forall_iff_forall_mem.mp s11_bufs)) (List.forall_iff_forall_mem.mp s12a_bufs))
theorem p2_fresh : ∀ op ∈ (p2 : List (HloOp τ sig (Elt F))), op.fresh = ∅ :=
  (forall_mem_append (forall_mem_append (forall_mem_append (forall_mem_append (List.forall_iff_forall_mem.mp s08b_fresh) (List.forall_iff_forall_mem.mp s09_fresh)) (List.forall_iff_forall_mem.mp s10_fresh)) (List.forall_iff_forall_mem.mp s11_fresh)) (List.forall_iff_forall_mem.mp s12a_fresh))
theorem p3_bufs : ∀ op ∈ (p3 : List (HloOp τ sig (Elt F))), op.bufs ⊆ tcRefs τ sig :=
  (forall_mem_append (forall_mem_append (forall_mem_append (forall_mem_append (List.forall_iff_forall_mem.mp s12b_bufs) (List.forall_iff_forall_mem.mp s13_bufs)) (List.forall_iff_forall_mem.mp s14_bufs)) (List.forall_iff_forall_mem.mp s15_bufs)) (List.forall_iff_forall_mem.mp s16a_bufs))
theorem p3_fresh : ∀ op ∈ (p3 : List (HloOp τ sig (Elt F))), op.fresh = ∅ :=
  (forall_mem_append (forall_mem_append (forall_mem_append (forall_mem_append (List.forall_iff_forall_mem.mp s12b_fresh) (List.forall_iff_forall_mem.mp s13_fresh)) (List.forall_iff_forall_mem.mp s14_fresh)) (List.forall_iff_forall_mem.mp s15_fresh)) (List.forall_iff_forall_mem.mp s16a_fresh))
theorem p4_bufs : ∀ op ∈ (p4 : List (HloOp τ sig (Elt F))), op.bufs ⊆ tcRefs τ sig :=
  (forall_mem_append (forall_mem_append (List.forall_iff_forall_mem.mp s16b_bufs) (List.forall_iff_forall_mem.mp s17_bufs)) (List.forall_iff_forall_mem.mp s18_bufs))
theorem p4_fresh : ∀ op ∈ (p4 : List (HloOp τ sig (Elt F))), op.fresh = ∅ :=
  (forall_mem_append (forall_mem_append (List.forall_iff_forall_mem.mp s16b_fresh) (List.forall_iff_forall_mem.mp s17_fresh)) (List.forall_iff_forall_mem.mp s18_fresh))

theorem ops_sub : (ops : List (HloOp τ sig (Elt F))).Forall fun op => op.bufs ⊆ tcRefs τ sig :=
  List.forall_iff_forall_mem.mpr
    (forall_mem_append (forall_mem_append (forall_mem_append (forall_mem_append p0_bufs p1_bufs) p2_bufs) p3_bufs) p4_bufs)

theorem ops_fresh : ∀ op ∈ (ops : List (HloOp τ sig (Elt F))), op.fresh = ∅ :=
  forall_mem_append (forall_mem_append (forall_mem_append (forall_mem_append p0_fresh p1_fresh) p2_fresh) p3_fresh) p4_fresh

/-! ## The run -/

/-- On every device, for any float values, from any memory with zero counters: every weakly fair execution of
    @main terminates with the result buffer at the network's term of the arguments and the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v235)
        = netT (m ((c.tc : Thread nD τ).loc main_arg0))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v235).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_seq scopedRefs_eq scopedSems_eq defs main (fun _ => ops) main_eq (fun _ => ops_sub) m ρ (fun _ => ops_fresh))

end Cert.ReferenceIdeal.RefRun

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.Norm.lean ====
/-
  The normalisation of a column from its two sums, and the same normalisation written with the centred squares.

  A column h of n = 50000 real numbers has the sums s₁ = Σ h and s₂ = Σ h². With μ = s₁/n, the centred square sum is
  Σ (h − μ)² = s₂ − 2μ·s₁ + n·μ² = s₂ − n·μ², so the mean of the centred squares is s₂/n − μ² — the variance as a program
  that only keeps the two sums writes it — and it is not negative. Adding the positive ε makes the argument of the
  reciprocal square root a positive real, so that root is a real number, and

      h·α + β  =  γ·(h − μ)·(v + ε)^(-1/2) + δ      for  α = γ·(v + ε)^(-1/2),  β = δ − α·μ

  is an identity of real numbers. On the extended reals a product distributes over a sum only off the infinities, so all
  of this is stated for columns, scales and offsets that are real numbers; the two float literals are the reals 50000
  and 10995116·2^(-40).
-/
import proofs.«112967_j35158602285141_1_alg».proof.Proof.Spec
import proofs.«112967_j35158602285141_1_alg».proof.Proof.LibRealClosed
import Mathlib

noncomputable section

open scoped BigOperators

namespace Cert.Gin

open Idealize.ShloMosaic Cert.LibRealClosed

/-! ## The two literals -/

/-- The variance's epsilon as a real number: the float nearest 1e-5. -/
def epsR : ℝ := 10995116 * (2 : ℝ) ^ (-40 : ℤ)

theorem epsR_pos : 0 < epsR := by unfold epsR; positivity

theorem nE_eq : nE = ((50000 : ℝ) : EReal) := by
  unfold nE
  simp [Ideal.ofBits, Ideal.ieee, -EReal.coe_mul]
  norm_num

theorem epsE_eq : epsE = ((epsR : ℝ) : EReal) := by
  unfold epsE epsR
  simp [Ideal.ofBits, Ideal.ieee, -EReal.coe_mul]

theorem isReal_nE : IsReal nE := ⟨_, nE_eq⟩
theorem isReal_epsE : IsReal epsE := ⟨_, epsE_eq⟩
theorem nE_ne_zero : nE ≠ 0 := by
  rw [nE_eq]; intro e; have := EReal.coe_eq_zero.mp e; norm_num at this

/-! ## Sums of reals inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The scalar operations on reals -/

theorem div_nE_coe (a : ℝ) : Ideal.div (a : EReal) nE = ((a / 50000 : ℝ) : EReal) := by
  rw [nE_eq, Ideal.div_coe (by norm_num), ← EReal.coe_mul, mul_one_div]

theorem meanE_coe (a : ℝ) : meanE (a : EReal) = ((a / 50000 : ℝ) : EReal) := div_nE_coe a

theorem varE_coe (a b : ℝ) : varE (a : EReal) (b : EReal) = ((b / 50000 - a / 50000 * (a / 50000) : ℝ) : EReal) := by
  unfold varE
  rw [div_nE_coe, meanE_coe, ← EReal.coe_mul, ← EReal.coe_sub]

theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-! ## The centred squares -/

/-- Σ (h − μ)² = s₂ − n·μ² for μ = s₁/n: so the mean of the centred squares is s₂/n − μ². -/
theorem centred_mean {ι : Type*} [Fintype ι] (hcard : (Fintype.card ι : ℝ) = 50000) (h : ι → ℝ) :
    (∑ j, (h j - (∑ i, h i) / 50000) * (h j - (∑ i, h i) / 50000)) / 50000
      = (∑ i, h i * h i) / 50000 - (∑ i, h i) / 50000 * ((∑ i, h i) / 50000) := by
  set m : ℝ := (∑ i, h i) / 50000 with hm
  have h1 : ∀ j, (h j - m) * (h j - m) = h j * h j - 2 * m * h j + m * m := fun j => by ring
  simp only [h1]
  rw [Finset.sum_add_distrib, Finset.sum_sub_distrib, ← Finset.mul_sum, Finset.sum_const, Finset.card_univ, nsmul_eq_mul,
    hcard]
  have hs : (∑ i, h i) = 50000 * m := by rw [hm]; ring
  rw [hs]
  ring

/-- The variance from the two sums is not negative. -/
theorem var_nonneg {ι : Type*} [Fintype ι] (hcard : (Fintype.card ι : ℝ) = 50000) (h : ι → ℝ) :
    0 ≤ (∑ i, h i * h i) / 50000 - (∑ i, h i) / 50000 * ((∑ i, h i) / 50000) := by
  rw [← centred_mean hcard h]
  exact div_nonneg (Finset.sum_nonneg fun j _ => mul_self_nonneg _) (by norm_num)

/-! ## The law -/

/-- The slope and the offset of a real column are real, and so is the normalised entry. -/
theorem isReal_alphaE {ι : Type*} [Fintype ι] (hcard : (Fintype.card ι : ℝ) = 50000) (h : ι → EReal)
    (hh : ∀ i, IsReal (h i)) (g : EReal) (hg : IsReal g) :
    IsReal (alphaE g (∑ i, h i) (∑ i, h i * h i)) := by
  choose h' hh' using hh
  obtain ⟨g', rfl⟩ := hg
  obtain rfl : h = fun i => (h' i : EReal) := funext hh'
  have hv := var_nonneg hcard h'
  simp only [← EReal.coe_mul, ← coe_sum]
  unfold alphaE
  rw [varE_coe, epsE_eq, ← EReal.coe_add, rsqrt_coe_pos (add_pos_of_nonneg_of_pos hv epsR_pos), ← EReal.coe_mul]
  exact ⟨_, rfl⟩

theorem isReal_shiftE {ι : Type*} [Fintype ι] (hcard : (Fintype.card ι : ℝ) = 50000) (h : ι → EReal)
    (hh : ∀ i, IsReal (h i)) (g d : EReal) (hg : IsReal g) (hd : IsReal d) :
    IsReal (shiftE g d (∑ i, h i) (∑ i, h i * h i)) := by
  unfold shiftE
  refine hd.sub ((isReal_alphaE hcard h hh g hg).mul ?_)
  exact (IsReal.sum _ _ fun i _ => hh i).div isReal_nE nE_ne_zero

theorem isReal_norm {ι : Type*} [Fintype ι] (hcard : (Fintype.card ι : ℝ) = 50000) (h : ι → EReal)
    (hh : ∀ i, IsReal (h i)) (g d : EReal) (hg : IsReal g) (hd : IsReal d) (i : ι) :
    IsReal (h i * alphaE g (∑ i, h i) (∑ i, h i * h i) + shiftE g d (∑ i, h i) (∑ i, h i * h i)) :=
  ((hh i).mul (isReal_alphaE hcard h hh g hg)).add (isReal_shiftE hcard h hh g d hg hd)

/-- The affine form h·α + β from the two sums is the centred form γ·(h − μ)·(v + ε)^(-1/2) + δ, the mean μ and the
    variance v written from sums that start at z = 0 and divided by n and by n − z' = n. -/
theorem norm_eq {ι : Type*} [Fintype ι] (hcard : (Fintype.card ι : ℝ) = 50000) (h : ι → EReal)
    (hh : ∀ i, IsReal (h i)) (g d : EReal) (hg : IsReal g) (hd : IsReal d) (z z' : EReal) (hz : z = 0) (hz' : z' = 0)
    (i : ι) :
    h i * alphaE g (∑ i, h i) (∑ i, h i * h i) + shiftE g d (∑ i, h i) (∑ i, h i * h i)
      = g * (h i - Ideal.div (z + ∑ i, h i) nE)
          * Ideal.rsqrt (Ideal.div (z + ∑ j, (h j - Ideal.div (z + ∑ i, h i) nE) * (h j - Ideal.div (z + ∑ i, h i) nE))
              (nE - z') + epsE) + d := by
  subst hz hz'
  choose h' hh' using hh
  obtain ⟨g', rfl⟩ := hg
  obtain ⟨d', rfl⟩ := hd
  obtain rfl : h = fun i => (h' i : EReal) := funext hh'
  have hv := var_nonneg hcard h'
  have hpos := add_pos_of_nonneg_of_pos hv epsR_pos
  simp only [zero_add, sub_zero]
  simp only [← EReal.coe_mul, ← coe_sum, div_nE_coe, ← EReal.coe_sub]
  unfold shiftE alphaE
  rw [varE_coe, meanE_coe, epsE_eq, ← EReal.coe_add, rsqrt_coe_pos hpos, centred_mean hcard h', ← EReal.coe_add,
    rsqrt_coe_pos hpos]
  simp only [← EReal.coe_mul, ← EReal.coe_sub, ← EReal.coe_add]
  congr 1
  ring

end Cert.Gin

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.NormHost.lean ====
/-
  The normalisation as array code spells it, read at an index.

  Array code normalises the columns of H [50000,128] with a scale vector γ [128] and an offset vector δ [128] as

      γ · (H − mean) · rsqrt (var + ε) + δ,

  every vector made a row [1,128] and then repeated down the 50000 rows. The mean is the column sum (from the float
  zero) divided by n = 50000; the variance is the column sum of the squares of H − mean (the mean taken once more, this
  time divided as a row), divided by n − 0 with the integer zero converted to a float, and selected against a
  not-a-number literal by the test n − 0 > 0, which holds. Read at (r, q) this is the centred form of the
  normalisation of column q, so on real entries it is the affine map h·α + β whose slope and offset come from the two
  column sums.
-/
import proofs.«112967_j35158602285141_1_alg».proof.Proof.Norm
import proofs.«112967_j35158602285141_1_alg».proof.Proof.LibHostReads
import proofs.«112967_j35158602285141_1_alg».proof.Proof.RefRunDefs
import Idealize.ShloMosaic.PureOps.Reduce
import Idealize.ShloMosaic.Lib.ValueLayout

noncomputable section

open scoped BigOperators

namespace Cert.Gin

open Idealize.ShloMosaic Idealize.ShloMosaic.ValueIdx Cert.LibRealClosed Cert.LibBiasRows

/-- a scalar and a vector of 128 -/
abbrev S0 : Shape := ⟨0, ![]⟩
abbrev SV : Shape := ⟨1, ![128]⟩

/-- the float literals and the integer zero of the normalisation, as scalars -/
def zeroS : FVec Ideal S0 .f32 := constant S0 .f32 0x00000000#32
def countS : FVec Ideal S0 .f32 := constant S0 .f32 0x47435000#32
def epsS : FVec Ideal S0 .f32 := constant S0 .f32 0x3727C5AC#32
def nanS : FVec Ideal S0 .f32 := constant S0 .f32 0x7FC00000#32
def zeroI : IVec S0 32 := constantI S0 32 0#32

/-- the integer zero as a float -/
def zeroF : EReal := (((0#32 : BitVec 32).toInt : ℝ) : EReal)

theorem zeroF_eq : zeroF = 0 := by simp [zeroF]
theorem zero32_eq : (zero32 : EReal) = 0 := by simp [zero32, Ideal.ofBits, Ideal.ieee]

section Terms

variable (hred : SX.ReducesTo [0] SV) (hS : 0 < S0.numel)
  (hb1 : SV.BroadcastsInDim SR (![1] : Fin 1 → Fin 2))
  (hb2 : SR.BroadcastsInDim SX (![0, 1] : Fin 2 → Fin 2))
  (hsV : S0.BroadcastsInDim SV (![] : Fin 0 → Fin 1))
  (hsR : S0.BroadcastsInDim SR (![] : Fin 0 → Fin 2))

/-- the column means as a vector: the column sums divided by n -/
def hostMean (H : FVec Ideal SX .f32) : FVec Ideal SV .f32 :=
  Host.divf (Host.reduceAdd H zeroS hred hS) (broadcastInDim SV ![] hsV countS)

/-- H minus its column means, the means divided as a row -/
def hostCentre (H : FVec Ideal SX .f32) : FVec Ideal SX .f32 :=
  subf H (broadcastInDim SX ![0, 1] hb2
    (Host.divf (broadcastInDim SR ![1] hb1 (Host.reduceAdd H zeroS hred hS)) (broadcastInDim SR ![] hsR countS)))

/-- n − 0, the zero an integer made a float -/
def hostCount : FVec Ideal S0 .f32 := subf countS (sitofp .f32 zeroI)

/-- the column variances: the column sums of the centred squares over n − 0, selected by n − 0 > 0 -/
def hostVar (H : FVec Ideal SX .f32) : FVec Ideal SV .f32 :=
  select (broadcastInDim SV ![] hsV (cmpf .ogt hostCount zeroS))
    (Host.divf (Host.reduceAdd (mulf (hostCentre hred hS hb1 hb2 hsR H) (hostCentre hred hS hb1 hb2 hsR H)) zeroS hred hS)
      (broadcastInDim SV ![] hsV hostCount))
    (broadcastInDim SV ![] hsV nanS)

/-- γ·(H − mean)·rsqrt (var + ε) + δ -/
def hostNorm (H : FVec Ideal SX .f32) (gv dv : FVec Ideal SV .f32) : FVec Ideal SX .f32 :=
  addf
    (mulf
      (mulf (broadcastInDim SX ![0, 1] hb2 (broadcastInDim SR ![1] hb1 gv))
        (subf H (broadcastInDim SX ![0, 1] hb2 (broadcastInDim SR ![1] hb1 (hostMean hred hS hsV H)))))
      (broadcastInDim SX ![0, 1] hb2 (broadcastInDim SR ![1] hb1
        (Host.rsqrt (addf (hostVar hred hS hb1 hb2 hsV hsR H) (broadcastInDim SV ![] hsV epsS))))))
    (broadcastInDim SX ![0, 1] hb2 (broadcastInDim SR ![1] hb1 dv))

/-! ## Reads -/

/-- The reduced index q with row k put back is (k, q). -/
theorem lift_col (h : SX.Reduces [0] SV) (q : Fin 128) (k : Fin 50000) : h.lift (ix1 q) k = ix2 k q := by
  funext c; apply Fin.ext
  fin_cases c <;> rfl

/-- A sum down the rows from a scalar initial value, read at column q. -/
theorem reduce_col (H : FVec Ideal SX .f32) (init : FVec Ideal S0 .f32) (q : Fin 128) :
    Host.reduceAdd H init hred hS (ix1 q) = init ix0 + ∑ k : Fin 50000, H (ix2 k q) := by
  have h : SX.Reduces [0] SV := by decide
  show Ideal.hostReduceAdd hred H (init (Shape.Idx.first hS)) (ix1 q) = _
  rw [Ideal.hostReduceAdd_single hred h, eq_ix0 (Shape.Idx.first hS)]
  exact congrArg (init ix0 + ·) (Finset.sum_congr rfl fun k _ => congrArg H (lift_col h q k))

/-- A vector made a row reads the vector. -/
theorem vecRow_apply (v : FVec Ideal SV .f32) (q : Fin 128) : broadcastInDim SR ![1] hb1 v (ix2 (0 : Fin 1) q) = v (ix1 q) :=
  broadcastInDim_apply (![1] : Fin 1 → Fin 2) hb1 v (ix2 (0 : Fin 1) q) (ix1 q) fun ax => by
    match ax with
    | ⟨0, _⟩ => rfl

/-- A vector made a row and repeated down the rows reads, at (r, q), the vector at q. -/
theorem vecRows_apply (v : FVec Ideal SV .f32) (r : Fin 50000) (q : Fin 128) :
    broadcastInDim SX ![0, 1] hb2 (broadcastInDim SR ![1] hb1 v) (ix2 r q) = v (ix1 q) := by
  rw [rowBcast_apply, vecRow_apply]

theorem hostMean_apply (H : FVec Ideal SX .f32) (q : Fin 128) :
    hostMean hred hS hsV H (ix1 q) = Ideal.div (zero32 + ∑ k : Fin 50000, H (ix2 k q)) nE := by
  show Ideal.div (Host.reduceAdd H zeroS hred hS (ix1 q)) (broadcastInDim SV ![] hsV countS (ix1 q)) = _
  rw [reduce_col, LibHostReads.splat_apply]
  rfl

theorem hostCentre_apply (H : FVec Ideal SX .f32) (r : Fin 50000) (q : Fin 128) :
    hostCentre hred hS hb1 hb2 hsR H (ix2 r q)
      = H (ix2 r q) - Ideal.div (zero32 + ∑ k : Fin 50000, H (ix2 k q)) nE := by
  unfold hostCentre
  rw [subf_apply, rowBcast_apply]
  show _ - Ideal.div (broadcastInDim SR ![1] hb1 (Host.reduceAdd H zeroS hred hS) (ix2 (0 : Fin 1) q))
      (broadcastInDim SR ![] hsR countS (ix2 (0 : Fin 1) q)) = _
  rw [vecRow_apply, reduce_col, LibHostReads.splat_apply]
  rfl

/-- n − 0 > 0. -/
theorem hostTest : cmpf .ogt hostCount zeroS ix0 = 1#1 := by
  show Ideal.cmp .ogt (nE - zeroF) zero32 = 1#1
  have hp : (0 : EReal) < ((50000 : ℝ) : EReal) := by exact_mod_cast (by norm_num : (0 : ℝ) < 50000)
  rw [zeroF_eq, zero32_eq, sub_zero, nE_eq]
  unfold Ideal.cmp
  simp [hp]

theorem hostVar_apply (H : FVec Ideal SX .f32) (q : Fin 128) :
    hostVar hred hS hb1 hb2 hsV hsR H (ix1 q)
      = Ideal.div (zero32 + ∑ j : Fin 50000,
            (H (ix2 j q) - Ideal.div (zero32 + ∑ k : Fin 50000, H (ix2 k q)) nE)
              * (H (ix2 j q) - Ideal.div (zero32 + ∑ k : Fin 50000, H (ix2 k q)) nE))
          (nE - zeroF) := by
  unfold hostVar
  rw [select_apply, LibHostReads.splat_apply, hostTest, select_one]
  show Ideal.div (Host.reduceAdd _ zeroS hred hS (ix1 q)) (broadcastInDim SV ![] hsV hostCount (ix1 q)) = _
  rw [reduce_col, LibHostReads.splat_apply]
  simp only [mulf_apply, hostCentre_apply]
  rfl

/-- The host's normalisation at (r, q): the centred form for column q. -/
theorem hostNorm_apply (H : FVec Ideal SX .f32) (gv dv : FVec Ideal SV .f32) (r : Fin 50000) (q : Fin 128) :
    hostNorm hred hS hb1 hb2 hsV hsR H gv dv (ix2 r q)
      = gv (ix1 q) * (H (ix2 r q) - Ideal.div (zero32 + ∑ k : Fin 50000, H (ix2 k q)) nE)
          * Ideal.rsqrt (Ideal.div (zero32 + ∑ j : Fin 50000,
                (H (ix2 j q) - Ideal.div (zero32 + ∑ k : Fin 50000, H (ix2 k q)) nE)
                  * (H (ix2 j q) - Ideal.div (zero32 + ∑ k : Fin 50000, H (ix2 k q)) nE))
              (nE - zeroF) + epsE)
        + dv (ix1 q) := by
  unfold hostNorm
  rw [addf_apply, mulf_apply, mulf_apply, subf_apply, vecRows_apply, vecRows_apply, vecRows_apply, vecRows_apply,
    hostMean_apply]
  show _ * _ * Ideal.rsqrt (hostVar hred hS hb1 hb2 hsV hsR H (ix1 q) + broadcastInDim SV ![] hsV epsS (ix1 q)) + _ = _
  rw [hostVar_apply, LibHostReads.splat_apply]
  rfl

/-- On real entries the host's normalisation is the affine map whose slope and offset rows come from the column sums
    of H and of its squares. -/
theorem hostNorm_eq (H : FVec Ideal SX .f32) (gv dv : FVec Ideal SV .f32) (hc : SV.ShapeCasts SR)
    (hH : AllReal H) (hg : AllReal gv) (hd : AllReal dv) :
    hostNorm hred hS hb1 hb2 hsV hsR H gv dv
      = affine H (alphaRow (shapeCast SR gv hc) H) (shiftRow (shapeCast SR gv hc) (shapeCast SR dv hc) H) := by
  funext i
  obtain ⟨r, q, rfl⟩ : ∃ (r : Fin 50000) (q : Fin 128), i = ix2 r q := ⟨i 0, i 1, eq_ix2 i⟩
  rw [hostNorm_apply, affine_ix2]
  unfold alphaRow shiftRow
  rw [rowOf_ix2, rowOf_ix2, shapeCast_a_1a_apply, shapeCast_a_1a_apply]
  unfold colSum colSq
  exact (norm_eq (ι := Fin 50000) (by simp) (fun k => H (ix2 k q)) (fun k => hH _) (gv (ix1 q)) (dv (ix1 q)) (hg _) (hd _)
    zero32 zeroF zero32_eq zeroF_eq r).symm

end Terms

/-! ## The reference's normalisation term

The reference's composed term for the normalisation is the spelling above at the program's own shape facts, so its
read at an index and its affine form on real entries are the ones just proved. -/

open Cert.ReferenceIdeal Cert.ReferenceIdeal.Gen in
/-- The reference's normalisation term is the host spelling, at the program's shape facts. -/
theorem bnT_eq_hostNorm (H : FVec Ideal SX .f32) (gv dv : FVec Ideal SV .f32) :
    Cert.ReferenceIdeal.RefRun.bnT (F := Ideal) H gv dv
      = hostNorm reducesTo_S50000x128_S128_d0 h_S_ bcast_S128_S1x128_1 bcast_S1x128_S50000x128_0_1 bcast_S_S128
          bcast_S_S1x128 H gv dv := rfl

/-- The reference's normalisation term at (r, q): the centred form for column q. -/
theorem bnT_apply (H : FVec Ideal SX .f32) (gv dv : FVec Ideal SV .f32) (r : Fin 50000) (q : Fin 128) :
    Cert.ReferenceIdeal.RefRun.bnT (F := Ideal) H gv dv (ix2 r q)
      = gv (ix1 q) * (H (ix2 r q) - Ideal.div (zero32 + ∑ k : Fin 50000, H (ix2 k q)) nE)
          * Ideal.rsqrt (Ideal.div (zero32 + ∑ j : Fin 50000,
                (H (ix2 j q) - Ideal.div (zero32 + ∑ k : Fin 50000, H (ix2 k q)) nE)
                  * (H (ix2 j q) - Ideal.div (zero32 + ∑ k : Fin 50000, H (ix2 k q)) nE))
              (nE - zeroF) + epsE)
        + dv (ix1 q) := by
  rw [bnT_eq_hostNorm]; exact hostNorm_apply _ _ _ _ _ _ H gv dv r q

/-- On real entries the reference's normalisation term is the affine map whose slope and offset rows come from the
    column sums of H and of its squares. -/
theorem bnT_eq (H : FVec Ideal SX .f32) (gv dv : FVec Ideal ⟨1, ![128]⟩ .f32)
    (hc : (⟨1, ![128]⟩ : Shape).ShapeCasts SR) (hH : AllReal H) (hg : AllReal gv) (hd : AllReal dv) :
    Cert.ReferenceIdeal.RefRun.bnT (F := Ideal) H gv dv
      = affine H (alphaRow (shapeCast SR gv hc) H) (shiftRow (shapeCast SR gv hc) (shapeCast SR dv hc) H) := by
  rw [bnT_eq_hostNorm]; exact hostNorm_eq _ _ _ _ _ _ H gv dv hc hH hg hd

end Cert.Gin

end
-- ==== Proof.LibRealHost.lean ====
/-
  More host operations on arrays of extended reals: the ones that keep every entry a real number, and the ones that make
  every entry a POSITIVE real number.

  A softmax row and a Gaussian overlap are built from exponentials, logarithms of positive numbers, sums along an axis, a
  maximum along an axis, and quotients by a sum of exponentials.  Each keeps the entries real: the exponential of a real
  is a positive real; the logarithm of a positive real is real; a sum along an axis of reals (from a real initial value) is
  real, and of positive reals from zero over a non-empty axis is positive; the maximum along a non-empty axis of reals, taken
  from minus infinity, is one of them; a finite float literal is a dyadic rational; a gather copies entries of its operand;
  a change of float format is the identity.  None of these facts reads an array at a particular index.
-/
import proofs.«112967_j35158602285141_1_alg».proof.Proof.LibRealClosed
import Idealize.ShloMosaic.PureOps.Reduce
import Idealize.ShloMosaic.PureOps.Ideal.Laws

noncomputable section

open scoped BigOperators

namespace Cert.LibRealHost

open Idealize.ShloMosaic Cert.LibRealClosed

/-- An extended real that is a positive real number. -/
def IsPos (x : EReal) : Prop := ∃ r : ℝ, 0 < r ∧ x = (r : EReal)

theorem IsPos.isReal {x : EReal} (h : IsPos x) : IsReal x := by
  obtain ⟨r, _, e⟩ := h; exact ⟨r, e⟩

theorem IsPos.ne_zero {x : EReal} (h : IsPos x) : x ≠ 0 := by
  obtain ⟨r, hr, rfl⟩ := h
  intro e
  exact (ne_of_gt hr) (EReal.coe_eq_zero.mp e)

/-- A real number above zero, as extended reals compare, is a positive real. -/
theorem isPos_of_isReal_of_pos {x : EReal} (h : IsReal x) (hp : 0 < x) : IsPos x := by
  obtain ⟨r, rfl⟩ := h
  exact ⟨r, EReal.coe_pos.mp hp, rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

/-- A sum of positive reals over a non-empty finite set is a positive real. -/
theorem IsPos.sum {ι : Type*} (s : Finset ι) (hs : s.Nonempty) (f : ι → EReal) (h : ∀ i ∈ s, IsPos (f i)) :
    IsPos (∑ i ∈ s, f i) := by
  classical
  induction hs using Finset.Nonempty.cons_induction with
  | singleton a => rw [Finset.sum_singleton]; exact h a (Finset.mem_singleton_self a)
  | cons a s ha _ ih =>
    rw [Finset.sum_cons]
    exact (h a (Finset.mem_cons_self a s)).add (ih fun i hi => h i (Finset.mem_cons.mpr (Or.inr hi)))

/-- The larger of two reals is real. -/
theorem isReal_max {x y : EReal} (hx : IsReal x) (hy : IsReal y) : IsReal (max x y) := by
  rcases le_total x y with h | h
  · rw [max_eq_right h]; exact hy
  · rw [max_eq_left h]; exact hx

/-- The exponential of a real is a positive real. -/
theorem IsPos.exp {x : EReal} (hx : IsReal x) : IsPos (Ideal.exp x) := by
  obtain ⟨r, rfl⟩ := hx
  exact ⟨Real.exp r, Real.exp_pos r, rfl⟩

/-- The logarithm of a positive real is real. -/
theorem isReal_log {x : EReal} (hx : IsPos x) : IsReal (Ideal.log x) := by
  obtain ⟨r, hr, rfl⟩ := hx
  rw [Ideal.log_coe, if_neg (not_le.mpr hr)]
  exact ⟨_, rfl⟩

/-- A maximum from minus infinity over a finite set of reals is minus infinity on the empty set and real otherwise. -/
theorem fold_max_bot {ι : Type*} (s : Finset ι) (f : ι → EReal) (h : ∀ i ∈ s, IsReal (f i)) :
    (s = ∅ ∧ s.fold max ⊥ f = ⊥) ∨ IsReal (s.fold max ⊥ f) := by
  classical
  induction s using Finset.induction_on with
  | empty => exact Or.inl ⟨rfl, Finset.fold_empty⟩
  | insert a s ha ih =>
    right
    rw [Finset.fold_insert ha]
    rcases ih (fun i hi => h i (Finset.mem_insert_of_mem hi)) with ⟨_, e⟩ | hr
    · rw [e, max_eq_left bot_le]; exact h a (Finset.mem_insert_self a s)
    · exact isReal_max (h a (Finset.mem_insert_self a s)) hr

/-- A float32 pattern whose exponent field is not all ones denotes a real number (a dyadic rational). -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  simp only []
  rw [if_neg h]
  split_ifs <;> exact ⟨_, rfl⟩

/-- Every entry of the array is a positive real number. -/
def AllPos {S : Shape} {φ : FTy} (v : FVec Ideal S φ) : Prop := ∀ i, IsPos (v i)

variable {s t : Shape} {φ : FTy}

theorem AllPos.allReal {x : FVec Ideal s φ} (h : AllPos x) : AllReal x := fun i => (h i).isReal

/-- An array of reals each above zero is an array of positive reals. -/
theorem AllPos.of_pos {x : FVec Ideal s φ} (h : AllReal x) (hp : ∀ i, (0 : EReal) < x i) : AllPos x :=
  fun i => isPos_of_isReal_of_pos (h i) (hp i)

theorem AllPos.hostExp {x : FVec Ideal s φ} (hx : AllReal x) : AllPos (Host.exp x) := fun i => IsPos.exp (hx i)

theorem AllReal.hostLog {x : FVec Ideal s φ} (hx : AllPos x) : AllReal (Host.log x) := fun i => isReal_log (hx i)

theorem AllReal.maximumf {x y : FVec Ideal s φ} (hx : AllReal x) (hy : AllReal y) : AllReal (maximumf x y) :=
  fun i => isReal_max (hx i) (hy i)

/-- A change to a narrower float format is the identity on the extended reals. -/
theorem AllReal.truncf {ψ : FTy} {x : FVec Ideal s φ} (h : ψ.bits < φ.bits) (hx : AllReal x) :
    AllReal (φ := ψ) (truncf ψ x h) := fun i => hx i

/-- A gathered entry is an entry of the operand, whatever the indices. -/
theorem AllReal.gather {si : Shape} {w : Nat} (d : GatherDims s si t) {x : FVec Ideal s φ} (idx : IVec si w)
    (hx : AllReal x) : AllReal (φ := φ) (Host.gather d x idx) := fun _ => hx _

/-- A finite float32 literal splatted over a shape. -/
theorem AllReal.constant_f32 (b : BitVec 32) (h : (b.extractLsb' 23 8).toNat ≠ 2 ^ 8 - 1) :
    AllReal (constant (F := Ideal) s .f32 b) := fun _ => isReal_ofBits_f32 b h

/-- The host's sum along any axes of an array of reals, from a real initial value, is an array of reals. -/
theorem AllReal.hostReduceAdd {axes : List (Fin s.rank)} {u : Shape} {x : FVec Ideal s φ} {init : u.Idx → Ideal φ}
    (h : s.ReducesTo axes t) (hu : 0 < u.numel) (hx : AllReal x) (hi : ∀ i, IsReal (init i)) :
    AllReal (Host.reduceAdd x init h hu) := by
  intro j
  show IsReal (Ideal.hostReduceAdd h x (init (Shape.Idx.first hu)) j)
  unfold Ideal.hostReduceAdd
  exact (hi _).add (IsReal.sum _ _ fun i _ => hx i)

/-- The host's sum along ONE non-empty axis of an array of positive reals, from zero, is an array of positive reals. -/
theorem AllPos.hostReduceAdd_single {a : Fin s.rank} {u : Shape} {x : FVec Ideal s φ} {init : u.Idx → Ideal φ}
    (h' : s.ReducesTo [a] t) (h : s.Reduces [a] t) (hu : 0 < u.numel) (hn : 0 < s.size a) (hx : AllPos x)
    (hi : ∀ i, init i = 0) : AllPos (Host.reduceAdd x init h' hu) := by
  intro j
  show IsPos (Ideal.hostReduceAdd h' x (init (Shape.Idx.first hu)) j)
  rw [Ideal.hostReduceAdd_single h' h, hi, zero_add]
  haveI : Nonempty (Fin (s.size a)) := ⟨⟨0, hn⟩⟩
  exact IsPos.sum _ Finset.univ_nonempty _ fun k _ => hx _

/-- The host's maximum along ONE non-empty axis of an array of reals, taken from minus infinity, is an array of reals. -/
theorem AllReal.hostReduceMax_single {a : Fin s.rank} {u : Shape} {x : FVec Ideal s φ} {init : u.Idx → Ideal φ}
    (h' : s.ReducesTo [a] t) (h : s.Reduces [a] t) (hu : 0 < u.numel) (hn : 0 < s.size a) (hx : AllReal x)
    (hi : ∀ i, init i = ⊥) : AllReal (Host.reduce FloatOps.maximumf x init h' hu) := by
  intro j
  rw [Host.reduce_eq_fold_single FloatOps.maximumf x init h' h hu j, hi]
  haveI : Nonempty (Fin (s.size a)) := ⟨⟨0, hn⟩⟩
  rcases fold_max_bot (Finset.univ : Finset (Fin (s.size a))) (x ∘ h.lift j) (fun k _ => hx _) with ⟨e, _⟩ | hr
  · exact absurd e Finset.univ_nonempty.ne_empty
  · exact hr

end Cert.LibRealHost

end
-- ==== Proof.RealStages.lean ====
/-
  Realness carried through the stages of a layer.

  A dense stage with its rectifier, max (X·W + B) 0, of arrays of real numbers is an array of real numbers: an entry of
  the product is a finite sum of products, and the larger of two reals is real. The normalisation h·α + β of an array
  of reals by real scale and offset rows is an array of reals, because its slope and offset are real: the variance
  from the two column sums is not negative, so the argument of the reciprocal square root is a positive real. Hence a
  whole layer maps real inputs and real parameters to an array of reals.
-/
import proofs.«112967_j35158602285141_1_alg».proof.Proof.Norm
import proofs.«112967_j35158602285141_1_alg».proof.Proof.LibRealHost

noncomputable section

open scoped BigOperators

namespace Cert.Gin

open Idealize.ShloMosaic Idealize.ShloMosaic.ValueIdx Cert.LibRealClosed Cert.LibRealHost Cert.LibBiasRows

/-- The float zero is the real zero. -/
theorem isReal_zero32 : IsReal (zero32 : EReal) := by
  have h : (zero32 : EReal) = 0 := by simp [zero32, Ideal.ofBits, Ideal.ieee]
  rw [h]; exact IsReal.zero

/-- A bias row added to every row of reals and rectified is an array of reals. -/
theorem allReal_biasRelu {M N : Nat} {X : FVec Ideal ⟨2, ![M, N]⟩ .f32} {B : FVec Ideal ⟨2, ![1, N]⟩ .f32}
    (hX : AllReal X) (hB : AllReal B) : AllReal (φ := .f32) (biasRelu X B) :=
  fun i => isReal_max ((hX i).add (hB _)) isReal_zero32

/-- A bias row added to every row of reals is an array of reals. -/
theorem allReal_biasOnly {M N : Nat} {X : FVec Ideal ⟨2, ![M, N]⟩ .f32} {B : FVec Ideal ⟨2, ![1, N]⟩ .f32}
    (hX : AllReal X) (hB : AllReal B) : AllReal (φ := .f32) (biasOnly X B) :=
  fun i => (hX i).add (hB _)

/-- A dense stage with its rectifier keeps the entries real. -/
theorem allReal_dense {A : FVec Ideal SX .f32} {W : FVec Ideal SW .f32} {B : FVec Ideal SR .f32}
    (hA : AllReal A) (hW : AllReal W) (hB : AllReal B) : AllReal (φ := .f32) (dense A W B) :=
  allReal_biasRelu (AllReal.dotGeneral _ none hA hW) hB

/-- The projection keeps the entries real. -/
theorem allReal_proj {A : FVec Ideal SX .f32} {W : FVec Ideal SWc .f32} {B : FVec Ideal SRc .f32}
    (hA : AllReal A) (hW : AllReal W) (hB : AllReal B) : AllReal (φ := .f32) (proj A W B) :=
  allReal_biasOnly (AllReal.dotGeneral _ none hA hW) hB

/-- The slope row and the offset row of a real array, from real scale and offset rows, are real. -/
theorem allReal_alphaRow {H : FVec Ideal SX .f32} {G : FVec Ideal SR .f32} (hH : AllReal H) (hG : AllReal G) :
    AllReal (φ := .f32) (alphaRow G H) := by
  intro j
  show IsReal (alphaE (G (ix2 (0 : Fin 1) _)) (colSum H _) (colSq H _))
  unfold colSum colSq
  exact isReal_alphaE (ι := Fin 50000) (by simp) (fun k => H (ix2 k _)) (fun k => hH _) _ (hG _)

theorem allReal_shiftRow {H : FVec Ideal SX .f32} {G D : FVec Ideal SR .f32} (hH : AllReal H) (hG : AllReal G)
    (hD : AllReal D) : AllReal (φ := .f32) (shiftRow G D H) := by
  intro j
  show IsReal (shiftE (G (ix2 (0 : Fin 1) _)) (D (ix2 (0 : Fin 1) _)) (colSum H _) (colSq H _))
  unfold colSum colSq
  exact isReal_shiftE (ι := Fin 50000) (by simp) (fun k => H (ix2 k _)) (fun k => hH _) _ _ (hG _) (hD _)

/-- h·α + β of reals by real rows is real. -/
theorem allReal_affine {H : FVec Ideal SX .f32} {A S : FVec Ideal SR .f32} (hH : AllReal H) (hA : AllReal A)
    (hS : AllReal S) : AllReal (φ := .f32) (affine H A S) :=
  fun i => ((hH i).mul (hA _)).add (hS _)

theorem allReal_affineRelu {H : FVec Ideal SX .f32} {A S : FVec Ideal SR .f32} (hH : AllReal H) (hA : AllReal A)
    (hS : AllReal S) : AllReal (φ := .f32) (affineRelu H A S) :=
  fun i => isReal_max (allReal_affine hH hA hS i) isReal_zero32

/-- The normalisation of a real array by real scale and offset rows is a real array. -/
theorem allReal_affine_norm {H : FVec Ideal SX .f32} {G D : FVec Ideal SR .f32} (hH : AllReal H) (hG : AllReal G)
    (hD : AllReal D) : AllReal (φ := .f32) (affine H (alphaRow G H) (shiftRow G D H)) :=
  allReal_affine hH (allReal_alphaRow hH hG) (allReal_shiftRow hH hG hD)

/-- … and so is its rectified form. -/
theorem allReal_affineRelu_norm {H : FVec Ideal SX .f32} {G D : FVec Ideal SR .f32} (hH : AllReal H) (hG : AllReal G)
    (hD : AllReal D) : AllReal (φ := .f32) (affineRelu H (alphaRow G H) (shiftRow G D H)) :=
  allReal_affineRelu hH (allReal_alphaRow hH hG) (allReal_shiftRow hH hG hD)

/-- A layer maps real aggregated features and real parameters to a real array. -/
theorem allReal_layer {A : FVec Ideal SX .f32} {W1 : FVec Ideal SW .f32} {B1 G1 D1 : FVec Ideal SR .f32}
    {W2 : FVec Ideal SW .f32} {B2 G2 D2 : FVec Ideal SR .f32}
    (hA : AllReal A) (hW1 : AllReal W1) (hB1 : AllReal B1) (hG1 : AllReal G1) (hD1 : AllReal D1)
    (hW2 : AllReal W2) (hB2 : AllReal B2) (hG2 : AllReal G2) (hD2 : AllReal D2) :
    AllReal (φ := .f32) (layer A W1 B1 G1 D1 W2 B2 G2 D2) :=
  allReal_affineRelu_norm
    (allReal_dense (allReal_affine_norm (allReal_dense hA hW1 hB1) hG1 hD1) hW2 hB2) hG2 hD2

end Cert.Gin

end
-- ==== Proof.LibRealScatter.lean ====
/-
  The host's accumulating scatter keeps an array real.

  On the extended reals the accumulating scatter is exact: an entry of its result is the operand's entry there plus the
  sum of the update entries whose scattered position is that entry, an update that lands outside the operand adding
  nothing. So whatever the indices are, an entry of the result is a real number plus a finite sum of real numbers, hence
  real, as soon as every entry of the operand and of the updates is real. Generic in the shapes, the dimension numbers,
  the index width and the float format; no array is read at a particular index.
-/
import proofs.«112967_j35158602285141_1_alg».proof.Proof.LibRealClosed

noncomputable section

open scoped BigOperators

namespace Cert.LibRealScatter

open Idealize.ShloMosaic Cert.LibRealClosed

/-- An accumulating scatter of real updates into a real operand is real at every entry, whatever the indices. -/
theorem allReal_scatterAdd {s si su : Shape} {φ : FTy} {w : Nat} (d : ScatterDims s si su) {x : FVec Ideal s φ}
    (idx : IVec si w) {upd : FVec Ideal su φ} (hx : AllReal x) (hu : AllReal upd) :
    AllReal (Host.scatterAdd d x idx upd) := by
  intro i
  show IsReal (Ideal.hostScatterAdd d x idx upd i)
  unfold Ideal.hostScatterAdd
  exact (hx i).add (IsReal.sum _ _ fun j _ => hu j)

end Cert.LibRealScatter

end
-- ==== Proof.BridgeRef.lean ====
/-
  The reference's stages are the specification's stages.

  The reference spells a dense stage as  max (A·W + broadcast b) (splat 0)  with the bias a vector broadcast to a row
  and then down the rows, and the projection as  X·Wc + broadcast bc;  the specification spells them with the bias
  held as one row, made from the vector by a reshape. The two rows are the same row and the printed contraction
  records are the plain rows-by-columns contraction, so the stages are the same functions. The reference's last
  rectifier of a layer, applied to the affine map h·α + β, is the specification's max (h·α + β) 0. And the
  aggregation x + Σ x[source] of an array of reals, and a layer's slice of a stack of reals, are arrays of reals:
  a gathered or sliced entry is an entry of the operand, and a scatter with addition adds finitely many of them.
-/
import proofs.«112967_j35158602285141_1_alg».proof.Proof.RefRunDefs
import proofs.«112967_j35158602285141_1_alg».proof.Proof.Spec
import proofs.«112967_j35158602285141_1_alg».proof.Proof.LibRealHost
import proofs.«112967_j35158602285141_1_alg».proof.Proof.LibRealScatter

noncomputable section

namespace Cert.Gin.Bridge

open Idealize.ShloMosaic Idealize.ShloMosaic.ValueIdx Cert.LibBiasRows Cert.LibRealClosed Cert.LibRealHost Cert.LibRealScatter
open Cert.ReferenceIdeal.RefRun

/-! ## The dense stages -/

/-- The reference's printed contractions are the plain one: rows by columns. -/
theorem refDot128_eq :
    Cert.ReferenceIdeal.dot_S50000x128_S128x128_S50000x128_1_0_0_1_n_n = DotDims.plain 50000 128 128 := rfl

theorem refDot16_eq :
    Cert.ReferenceIdeal.dot_S50000x128_S128x16_S50000x16_1_0_0_1_n_n = DotDims.plain 50000 128 16 := rfl

/-- The reference's dense stage with rectifier is the specification's, the bias vector reshaped to a row. -/
theorem denseT_eq (A : FVec Ideal Cert.Gin.SX .f32) (W : FVec Ideal Cert.Gin.SW .f32) (bv : FVec Ideal ⟨1, ![128]⟩ .f32)
    (hc : (⟨1, ![128]⟩ : Shape).ShapeCasts Cert.Gin.SR) :
    Cert.ReferenceIdeal.RefRun.denseT (F := Ideal) A W bv = Cert.Gin.dense A W (shapeCast Cert.Gin.SR bv hc) := by
  unfold Cert.ReferenceIdeal.RefRun.denseT Cert.Gin.dense
  rw [refDot128_eq]
  exact Cert.LibMlpRows.hostDenseRelu _ bv _ _ _ hc

/-- The reference's projection is the specification's, the bias vector reshaped to a row. -/
theorem projT_eq (X : FVec Ideal Cert.Gin.SX .f32) (Wc : FVec Ideal Cert.Gin.SWc .f32) (bc : FVec Ideal ⟨1, ![16]⟩ .f32)
    (hc : (⟨1, ![16]⟩ : Shape).ShapeCasts Cert.Gin.SRc) :
    Cert.ReferenceIdeal.RefRun.projT (F := Ideal) X Wc bc = Cert.Gin.proj X Wc (shapeCast Cert.Gin.SRc bc hc) := by
  unfold Cert.ReferenceIdeal.RefRun.projT Cert.Gin.proj
  rw [refDot16_eq]
  exact Cert.LibMlpRows.hostDenseBias _ bc _ _ hc

/-- The reference's rectifier of the affine map h·α + β is max (h·α + β) 0. -/
theorem reluT_affine (H : FVec Ideal Cert.Gin.SX .f32) (a s : FVec Ideal Cert.Gin.SR .f32) :
    Cert.ReferenceIdeal.RefRun.reluT (F := Ideal) (Cert.Gin.affine H a s) = Cert.Gin.affineRelu H a s := by
  funext i
  unfold Cert.ReferenceIdeal.RefRun.reluT
  rw [maximumf_apply, zeroSplat_apply]
  rfl

/-! ## Arrays of reals -/

/-- The aggregation of an array of reals is an array of reals, whatever the edge list. -/
theorem allReal_aggT (x : FVec Ideal Cert.Gin.SX .f32) (ei : IVec ⟨2, ![2, 800000]⟩ 32) (hx : AllReal x) :
    AllReal (S := Cert.Gin.SX) (φ := .f32) (Cert.ReferenceIdeal.RefRun.aggT (F := Ideal) x ei) := by
  unfold Cert.ReferenceIdeal.RefRun.aggT Cert.ReferenceIdeal.RefRun.aggIdxT
  exact AllReal.addf hx
    (allReal_scatterAdd _ _
      (AllReal.broadcastInDim _ _ (AllReal.constant_f32 _ (by decide)))
      (AllReal.gather _ _ hx))

/-- Layer l's weight matrix out of a stack of reals is a matrix of reals. -/
theorem allReal_sliceW (l : Fin 3) (W : FVec Ideal ⟨3, ![3, 128, 128]⟩ .f32) (hW : AllReal W) :
    AllReal (S := Cert.Gin.SW) (φ := .f32) (Cert.ReferenceIdeal.RefRun.sliceW (F := Ideal) l W) := by
  unfold Cert.ReferenceIdeal.RefRun.sliceW
  exact AllReal.shapeCast _ (AllReal.slice _ _ hW)

/-- Layer l's vector out of a stack of reals is a vector of reals. -/
theorem allReal_sliceV (l : Fin 3) (v : FVec Ideal ⟨2, ![3, 128]⟩ .f32) (hv : AllReal v) :
    AllReal (S := ⟨1, ![128]⟩) (φ := .f32) (Cert.ReferenceIdeal.RefRun.sliceV (F := Ideal) l v) := by
  unfold Cert.ReferenceIdeal.RefRun.sliceV
  exact AllReal.shapeCast _ (AllReal.slice _ _ hv)

end Cert.Gin.Bridge

end
-- ==== Proof.BridgeCross.lean ====
/-
  The two programs print the same host terms.

  The kernel's program and the reference form the aggregation x + Σ x[source], cut a layer's weight matrix and
  vectors out of the stacked parameter arrays, and reshape a bias vector to a row with the same host operations on
  the same constants; only the names of the shapes and of the dimension records differ, one set per program. The
  records have the same fields, so the terms are the same terms.
-/
import proofs.«112967_j35158602285141_1_alg».proof.Proof.RefRunDefs
import proofs.«112967_j35158602285141_1_alg».proof.Proof.KChainDefs

noncomputable section

namespace Cert.Gin.Bridge

open Idealize.ShloMosaic

/-! ## The dimension records -/

/-- The two programs' gather records have the same fields. -/
theorem gather_eq :
    Cert.ReferenceIdeal.gather_S50000x128_S800000x1_S800000x128_1_0_n_n_0_1_1128
      = Cert.KernelIdeal.gather_S50000x128_S800000x1_S800000x128_1_0_n_n_0_1_1128 := rfl

/-- The two programs' scatter records have the same fields. -/
theorem scatter_eq :
    Cert.ReferenceIdeal.scatter_S50000x128_S800000x1_S800000x128_1_0_0_1
      = Cert.KernelIdeal.scatter_S50000x128_S800000x1_S800000x128_1_0_0_1 := rfl

/-! ## The aggregation -/

/-- The sources and the destinations of the edge list are cut out the same way. -/
theorem srcT_eq (ei : IVec ⟨2, ![2, 800000]⟩ 32) :
    Cert.ReferenceIdeal.RefRun.srcT (F := Ideal) ei = Cert.KernelIdeal.KChain.srcIdx ei := rfl

theorem dstT_eq (ei : IVec ⟨2, ![2, 800000]⟩ 32) :
    Cert.ReferenceIdeal.RefRun.dstT (F := Ideal) ei = Cert.KernelIdeal.KChain.dstIdx ei := rfl

/-- The aggregation from the features and the two index vectors: the same gather, scatter and sum. -/
theorem aggIdxT_eq (x : FVec Ideal ⟨2, ![50000, 128]⟩ .f32) (s d : IVec ⟨1, ![800000]⟩ 32) :
    Cert.ReferenceIdeal.RefRun.aggIdxT (F := Ideal) x s d = Cert.KernelIdeal.KChain.aggOf x s d := by
  unfold Cert.ReferenceIdeal.RefRun.aggIdxT Cert.KernelIdeal.KChain.aggOf
  rw [gather_eq, scatter_eq]

/-- The aggregation from the features and the edge list. -/
theorem aggT_eq_aggK (x : FVec Ideal ⟨2, ![50000, 128]⟩ .f32) (ei : IVec ⟨2, ![2, 800000]⟩ 32) :
    Cert.ReferenceIdeal.RefRun.aggT (F := Ideal) x ei = Cert.KernelIdeal.KChain.aggK x ei := by
  unfold Cert.ReferenceIdeal.RefRun.aggT Cert.KernelIdeal.KChain.aggK
  rw [srcT_eq, dstT_eq, aggIdxT_eq]

/-! ## The parameters of a layer -/

/-- Layer l's weight matrix is cut out of the stack the same way. -/
theorem sliceW_eq (l : Fin 3) (W : FVec Ideal ⟨3, ![3, 128, 128]⟩ .f32) :
    Cert.ReferenceIdeal.RefRun.sliceW (F := Ideal) l W = Cert.KernelIdeal.KChain.sliceWK l W := by
  match l with
  | 0 => rfl
  | 1 => rfl
  | 2 => rfl

/-- Layer l's vector, reshaped to a row, is the kernel program's row. -/
theorem rowK_eq (l : Fin 3) (v : FVec Ideal ⟨2, ![3, 128]⟩ .f32) (hc : (⟨1, ![128]⟩ : Shape).ShapeCasts Cert.Gin.SR) :
    shapeCast Cert.Gin.SR (Cert.ReferenceIdeal.RefRun.sliceV (F := Ideal) l v) hc = Cert.KernelIdeal.KChain.rowK l v := by
  match l with
  | 0 => rfl
  | 1 => rfl
  | 2 => rfl

/-- The projection's bias vector, reshaped to a row, is the kernel program's bias row. -/
theorem bcRow_eq (bc : FVec Ideal ⟨1, ![16]⟩ .f32) (hc : (⟨1, ![16]⟩ : Shape).ShapeCasts Cert.Gin.SRc) :
    shapeCast Cert.Gin.SRc bc hc = Cert.KernelIdeal.KChain.bcRow bc := rfl

end Cert.Gin.Bridge

end
-- ==== Proof.Net.lean ====
/-
  The reference's network is the specification's network of the same arguments.

  Stage by stage, on real entries: a dense stage with its rectifier is the specification's dense stage, its bias
  vector read as a row; the normalisation over the nodes is the affine map h ↦ h·α + β whose slope and offset rows
  come from the column's two sums; the closing rectifier of a layer is the rectified affine map. The aggregation,
  the slices of the stacked parameters and the bias rows are the same host terms in both programs. Every stage keeps
  the entries real, so the three layers compose.
-/
import proofs.«112967_j35158602285141_1_alg».proof.Proof.NormHost
import proofs.«112967_j35158602285141_1_alg».proof.Proof.RealStages
import proofs.«112967_j35158602285141_1_alg».proof.Proof.BridgeRef
import proofs.«112967_j35158602285141_1_alg».proof.Proof.BridgeCross

noncomputable section

namespace Cert.Gin.Net

open Idealize.ShloMosaic Cert.LibRealClosed Cert.ReferenceIdeal.RefRun Cert.KernelIdeal.KChain Cert.Gin Cert.Gin.Bridge

theorem hcR : (⟨1, ![128]⟩ : Shape).ShapeCasts SR := by decide
theorem hcRc : (⟨1, ![16]⟩ : Shape).ShapeCasts SRc := by decide

/-- One layer of the reference is one layer of the specification on the aggregated features, and its entries are
    real, when the features and the layer's parameters are real. -/
theorem layerT_eq (l : Fin 3) (x : FVec Ideal SX .f32) (ei : IVec ⟨2, ![2, 800000]⟩ 32)
    (W1 : FVec Ideal ⟨3, ![3, 128, 128]⟩ .f32) (b1 g1 d1 : FVec Ideal ⟨2, ![3, 128]⟩ .f32)
    (W2 : FVec Ideal ⟨3, ![3, 128, 128]⟩ .f32) (b2 g2 d2 : FVec Ideal ⟨2, ![3, 128]⟩ .f32)
    (hx : AllReal x) (hW1 : AllReal W1) (hb1 : AllReal b1) (hg1 : AllReal g1) (hd1 : AllReal d1)
    (hW2 : AllReal W2) (hb2 : AllReal b2) (hg2 : AllReal g2) (hd2 : AllReal d2) :
    layerT (F := Ideal) l x ei W1 b1 g1 d1 W2 b2 g2 d2
        = layer (aggK x ei) (sliceWK l W1) (rowK l b1) (rowK l g1) (rowK l d1) (sliceWK l W2) (rowK l b2) (rowK l g2) (rowK l d2)
      ∧ AllReal (S := SX) (φ := .f32) (layerT (F := Ideal) l x ei W1 b1 g1 d1 W2 b2 g2 d2) := by
  have hA := allReal_aggT x ei hx
  have hw1 := allReal_sliceW l W1 hW1
  have hw2 := allReal_sliceW l W2 hW2
  have hvb1 := allReal_sliceV l b1 hb1
  have hvg1 := allReal_sliceV l g1 hg1
  have hvd1 := allReal_sliceV l d1 hd1
  have hvb2 := allReal_sliceV l b2 hb2
  have hvg2 := allReal_sliceV l g2 hg2
  have hvd2 := allReal_sliceV l d2 hd2
  have hH1 : AllReal (S := SX) (φ := .f32)
      (dense (aggT (F := Ideal) x ei) (sliceW (F := Ideal) l W1) (shapeCast SR (sliceV (F := Ideal) l b1) hcR)) :=
    allReal_dense hA hw1 (AllReal.shapeCast hcR hvb1)
  have hN1 := allReal_affine_norm hH1 (AllReal.shapeCast hcR hvg1) (AllReal.shapeCast hcR hvd1)
  have hH2 := allReal_dense hN1 hw2 (AllReal.shapeCast hcR hvb2)
  have e : layerT (F := Ideal) l x ei W1 b1 g1 d1 W2 b2 g2 d2
      = layer (aggT (F := Ideal) x ei) (sliceW (F := Ideal) l W1) (shapeCast SR (sliceV (F := Ideal) l b1) hcR)
          (shapeCast SR (sliceV (F := Ideal) l g1) hcR) (shapeCast SR (sliceV (F := Ideal) l d1) hcR)
          (sliceW (F := Ideal) l W2) (shapeCast SR (sliceV (F := Ideal) l b2) hcR)
          (shapeCast SR (sliceV (F := Ideal) l g2) hcR) (shapeCast SR (sliceV (F := Ideal) l d2) hcR) := by
    unfold layerT layer
    rw [denseT_eq _ _ _ hcR, denseT_eq _ _ _ hcR, bnT_eq _ _ _ hcR hH1 hvg1 hvd1, bnT_eq _ _ _ hcR hH2 hvg2 hvd2,
      reluT_affine]
  refine ⟨?_, ?_⟩
  · rw [e, aggT_eq_aggK, sliceW_eq, sliceW_eq, rowK_eq, rowK_eq, rowK_eq, rowK_eq, rowK_eq, rowK_eq]
  · rw [e]
    exact allReal_layer hA hw1 (AllReal.shapeCast hcR hvb1) (AllReal.shapeCast hcR hvg1) (AllReal.shapeCast hcR hvd1)
      hw2 (AllReal.shapeCast hcR hvb2) (AllReal.shapeCast hcR hvg2) (AllReal.shapeCast hcR hvd2)

/-- The reference's network is the projection of three specification layers, on real arguments. -/
theorem netT_eq (x : FVec Ideal SX .f32) (ei : IVec ⟨2, ![2, 800000]⟩ 32)
    (W1 : FVec Ideal ⟨3, ![3, 128, 128]⟩ .f32) (b1 g1 d1 : FVec Ideal ⟨2, ![3, 128]⟩ .f32)
    (W2 : FVec Ideal ⟨3, ![3, 128, 128]⟩ .f32) (b2 g2 d2 : FVec Ideal ⟨2, ![3, 128]⟩ .f32)
    (Wc : FVec Ideal SWc .f32) (bc : FVec Ideal ⟨1, ![16]⟩ .f32)
    (hx : AllReal x) (hW1 : AllReal W1) (hb1 : AllReal b1) (hg1 : AllReal g1) (hd1 : AllReal d1)
    (hW2 : AllReal W2) (hb2 : AllReal b2) (hg2 : AllReal g2) (hd2 : AllReal d2) :
    netT (F := Ideal) x ei W1 b1 g1 d1 W2 b2 g2 d2 Wc bc
      = proj
          (layer (aggK
              (layer (aggK
                  (layer (aggK x ei) (sliceWK 0 W1) (rowK 0 b1) (rowK 0 g1) (rowK 0 d1) (sliceWK 0 W2) (rowK 0 b2) (rowK 0 g2) (rowK 0 d2))
                  ei) (sliceWK 1 W1) (rowK 1 b1) (rowK 1 g1) (rowK 1 d1) (sliceWK 1 W2) (rowK 1 b2) (rowK 1 g2) (rowK 1 d2))
              ei) (sliceWK 2 W1) (rowK 2 b1) (rowK 2 g1) (rowK 2 d1) (sliceWK 2 W2) (rowK 2 b2) (rowK 2 g2) (rowK 2 d2))
          Wc (bcRow bc) := by
  obtain ⟨e0, r0⟩ := layerT_eq 0 x ei W1 b1 g1 d1 W2 b2 g2 d2 hx hW1 hb1 hg1 hd1 hW2 hb2 hg2 hd2
  obtain ⟨e1, r1⟩ := layerT_eq 1 _ ei W1 b1 g1 d1 W2 b2 g2 d2 r0 hW1 hb1 hg1 hd1 hW2 hb2 hg2 hd2
  obtain ⟨e2, -⟩ := layerT_eq 2 _ ei W1 b1 g1 d1 W2 b2 g2 d2 r1 hW1 hb1 hg1 hd1 hW2 hb2 hg2 hd2
  unfold netT
  rw [projT_eq _ _ _ hcRc, bcRow_eq, e2, e1, e0]

end Cert.Gin.Net

end
-- ==== Proof.LibFiniteInputs.lean ====
/-
  Finite inputs are real numbers.

  A certificate's usual precondition says of each float argument x that all(|x| < +∞). It prints as a reduction by
  "and", over every axis and from the constant 1, of the comparison of |x| with a broadcast of the word 0x7F800000. On
  the extended reals |x| is max x (-x), that word is ⊤, and the comparison is the linear order's: so when the reduction
  is 1 at its one index, every entry x has max x (-x) < ⊤, which excludes x = ⊤ directly and x = ⊥ through -⊥ = ⊤, and
  what is left is a real number. Generic in the argument's shape and in the axes of the reduction.
-/
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

open Idealize.ShloMosaic Idealize.ShloMosaic.ValueIdx

namespace Cert.LibFiniteInputs

/-- The rank-0 shape has one index. -/
instance : Subsingleton (⟨0, ![]⟩ : Shape).Idx := ⟨fun a b => funext fun d => d.elim0⟩

/-- The word 0x7F800000 read as an f32 is +∞. -/
theorem ofBits_inf_f32 : Ideal.ofBits .f32 0x7F800000#32 = ⊤ := by simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One argument's part of the precondition: if all(|x| < +∞), printed as the reduce by and over all axes of the
    comparison of |x| with the broadcast +∞ word, is 1 at the one index, every entry of x is a real number. -/
theorem real_of_all_finite {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (h : Host.reduce IntOp.andi
          (cmpf .olt (Host.absf x) (broadcastInDim S ![] hb (constant (⟨0, ![]⟩ : Shape) .f32 0x7F800000#32)))
          (constantI (⟨0, ![]⟩ : Shape) 1 1#1) hr hu ix0 = 1#1) :
    ∀ i, ∃ r : ℝ, x i = (r : EReal) := by
  intro i
  have e := Host.reduce_andi_all _ _ hr hu ix0 h i
  have e' : Ideal.cmp .olt (max (x i) (-(x i))) ⊤ = 1#1 := by
    rw [← ofBits_inf_f32]; exact e
  refine real_of_abs_lt_top (x i) ?_
  simp only [Ideal.cmp] at e'
  by_contra hc
  simp [hc] at e'

end Cert.LibFiniteInputs

end
-- ==== Proof.PreReal.lean ====
/-
  The precondition read back: when every float argument passes all(|x| < +∞), every entry of every float argument is a
  real number. The printed predicate is the conjunction, by a chain of one-bit "and"s, of one such test per argument;
  each conjunct is split off the chain and read at an index.
-/
import proofs.«112967_j35158602285141_1_alg».proof.Pre_finite_inputs
import proofs.«112967_j35158602285141_1_alg».proof.Proof.LibFiniteInputs
import proofs.«112967_j35158602285141_1_alg».proof.Proof.LibRealClosed
import Idealize.ShloMosaic.Lib.ReduceAll
import Idealize.ShloMosaic.Lib.Affine

noncomputable section

namespace Cert.Gin.PreReal

open Idealize.ShloMosaic Idealize.ShloMosaic.ValueIdx Cert.LibRealClosed Cert.LibFiniteInputs Cert.Pre_finite_inputs

/-- A one-bit "and" of two rank-0 tests that is 1 makes both 1. -/
theorem split {x y : IVec S_ 1} (h : andi x y ix0 = 1#1) : x ix0 = 1#1 ∧ y ix0 = 1#1 := IntOp.andi_eq_one.1 h

/-- Under the precondition every entry of every float argument the programs read is a real number. -/
theorem reals_of_pre [Cert.Pre_finite_inputs.Facts] (a0 : FVec Ideal S50000x128 .f32) (a1 : FVec Ideal S800000x1 .f32) (a2 : IVec S2x800000 32)
    (a3 : FVec Ideal S3x128x128 .f32) (a4 a5 a6 : FVec Ideal S3x128 .f32) (a7 : FVec Ideal S3x128x128 .f32)
    (a8 a9 a10 : FVec Ideal S3x128 .f32) (a11 : FVec Ideal S128x16 .f32) (a12 : FVec Ideal S16 .f32)
    (h : fn (F := Ideal) a0 a1 a2 a3 a4 a5 a6 a7 a8 a9 a10 a11 a12 = fun _ => 1#1) :
    AllReal a0 ∧ AllReal a3 ∧ AllReal a4 ∧ AllReal a5 ∧ AllReal a6 ∧ AllReal a7 ∧ AllReal a8 ∧ AllReal a9
      ∧ AllReal a10 ∧ AllReal a11 ∧ AllReal a12 := by
  have h0 := congrFun h ix0
  dsimp only [fn, fn_part1, fn_part2, fn_part3] at h0
  obtain ⟨h0, r12⟩ := split h0
  obtain ⟨h0, r11⟩ := split h0
  obtain ⟨h0, r10⟩ := split h0
  obtain ⟨h0, r9⟩ := split h0
  obtain ⟨h0, r8⟩ := split h0
  obtain ⟨h0, r7⟩ := split h0
  obtain ⟨h0, r6⟩ := split h0
  obtain ⟨h0, r5⟩ := split h0
  obtain ⟨h0, r4⟩ := split h0
  obtain ⟨h0, r3⟩ := split h0
  obtain ⟨r0, -⟩ := split h0
  exact ⟨real_of_all_finite a0 _ _ _ r0, real_of_all_finite a3 _ _ _ r3, real_of_all_finite a4 _ _ _ r4,
    real_of_all_finite a5 _ _ _ r5, real_of_all_finite a6 _ _ _ r6, real_of_all_finite a7 _ _ _ r7,
    real_of_all_finite a8 _ _ _ r8, real_of_all_finite a9 _ _ _ r9, real_of_all_finite a10 _ _ _ r10,
    real_of_all_finite a11 _ _ _ r11, real_of_all_finite a12 _ _ _ r12⟩

end Cert.Gin.PreReal

end
-- ==== Proof.lean ====
/-
  The certificate of a three-layer graph network: a tiled program against plain array code.

  Per layer the features x become agg = x + (for every node, the sum of x's rows at the sources of the edges that end
  there), then twice "dense stage, rectifier, normalisation over the 50000 nodes", then a rectifier; a projection onto
  16 columns closes the network. The tiled program runs each dense stage on row tiles of 5000 nodes, keeps only the
  column sums Σh and Σh² of a stage's output, and applies the normalisation as the affine map h·α + β with
  α = γ·(Σh²/n − (Σh/n)² + ε)^(-1/2) and β = δ − α·Σh/n; the array code subtracts the mean, divides the summed squared
  deviations by n and multiplies by γ·(var + ε)^(-1/2) before adding δ. On the extended reals the two agree entry by
  entry when every argument entry is a real number, which is what the precondition says: Σ(h − μ)² = Σh² − nμ², the
  argument of the inverse square root is a positive real, and the rest is ring arithmetic on reals; a change of float
  format is the identity, a product accumulated tile by tile is the product, and a sum accumulated over the ten tiles
  is the sum over all rows.

  The three frames: the two tiled programs' by their frame certificates, the array code's by its run with the result
  dropped. The idealisation rewrote nothing. The value claim: the tiled program's result array read through its ten
  regions and the host stretches between them, the array code's result from its run, and the equality of the two
  functions of the arguments.
-/
import proofs.«112967_j35158602285141_1_alg».proof.Defs
import proofs.«112967_j35158602285141_1_alg».proof.Proof.Gen.Kernel
import proofs.«112967_j35158602285141_1_alg».proof.Proof.Gen.Kernel.Frame
import proofs.«112967_j35158602285141_1_alg».proof.Proof.Gen.KernelIdeal
import proofs.«112967_j35158602285141_1_alg».proof.Proof.Gen.KernelIdeal.Frame
import proofs.«112967_j35158602285141_1_alg».proof.Proof.Gen.ReferenceIdeal
import proofs.«112967_j35158602285141_1_alg».proof.Proof.Gen.Pre_finite_inputs
import proofs.«112967_j35158602285141_1_alg».proof.Proof.KRun
import proofs.«112967_j35158602285141_1_alg».proof.Proof.KChain
import proofs.«112967_j35158602285141_1_alg».proof.Proof.RefRun
import proofs.«112967_j35158602285141_1_alg».proof.Proof.Net
import proofs.«112967_j35158602285141_1_alg».proof.Proof.PreReal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The array code's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the projection of three layers of the same arguments: the tiled program by its regions'
    values, the array code by its run and the stage-by-stage equalities on real entries. -/
theorem algebraic : Cert.algebraic_KernelIdeal_ReferenceIdeal := by
  intro m ρ m' ρ' hpre hagree
  refine ⟨fun c => Cert.KernelIdeal.Gen.W20 (F := Ideal) m ρ c (Proc.devRef .tc Cert.KernelIdeal.main_v185),
    Cert.KernelIdeal.KRun.run_W20 (F := Ideal) m ρ, ?_⟩
  refine (θ_run Cert.ReferenceIdeal.defs _ _).mono (fun r h c => ⟨(h c).1.trans ?_, (h c).2⟩)
    (Cert.ReferenceIdeal.RefRun.run (F := Ideal) m' ρ')
  obtain ⟨a0, -, a2, a3, a4, a5, a6, a7, a8, a9, a10, a11, a12⟩ := hagree c
  obtain ⟨r0, r3, r4, r5, r6, r7, r8, r9, r10, -, -⟩ :=
    Cert.Gin.PreReal.reals_of_pre _ _ _ _ _ _ _ _ _ _ _ _ _ (hpre c)
  rw [a0, a2, a3, a4, a5, a6, a7, a8, a9, a10, a11, a12]
  show _ = Cert.KernelIdeal.Gen.W20 (F := Ideal) m ρ c (Proc.devRef .tc Cert.KernelIdeal.main_v185)
  rw [Cert.KernelIdeal.KChain.W20_out]
  unfold Cert.KernelIdeal.KChain.L2 Cert.KernelIdeal.KChain.L1 Cert.KernelIdeal.KChain.L0
  exact Cert.Gin.Net.netT_eq _ _ _ _ _ _ _ _ _ _ _ _ r0 r3 r4 r5 r6 r7 r8 r9 r10

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
